-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v150)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v150) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v176) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x64 : Shape := ⟨2, ![128, 64]⟩
abbrev S64 : Shape := ⟨1, ![64]⟩
abbrev S64x64 : Shape := ⟨2, ![64, 64]⟩
abbrev S64x16 : Shape := ⟨2, ![64, 16]⟩
abbrev S16 : Shape := ⟨1, ![16]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_

variable [Facts]

def fn_part5 {F : FTy → Type} [FloatOps F] (main_arg20 : FVec F S16 .f32) (main_v83 : IVec S_ 1) (main_v84 : FVec F S64x16 .f32) (main_cst_32 : FVec F S_ .f32) : IVec S_ 1 :=
  let main_v85 : FVec F S64x16 .f32 := broadcastInDim S64x16 ![] bcast_S_S64x16 main_cst_32
  let main_v86 : IVec S64x16 1 := cmpf .olt main_v84 main_v85
  let main_c_33 : IVec S_ 1 := constantI S_ 1 1#1
  let main_v87 : IVec S_ 1 := (fun x v => Host.reduce IntOp.andi x v reducesTo_S64x16_S_d0_1 h_S_) main_v86 main_c_33
  let main_v88 : IVec S_ 1 := andi main_v83 main_v87
  let main_v89 : FVec F S16 .f32 := Host.absf main_arg20
  let main_cst_34 : FVec F S_ .f32 := constant S_ .f32 0x7F800000#32
  let main_v90 : FVec F S16 .f32 := broadcastInDim S16 ![] bcast_S_S16 main_cst_34
  let main_v91 : IVec S16 1 := cmpf .olt main_v89 main_v90
  let main_c_35 : IVec S_ 1 := constantI S_ 1 1#1
  let main_v92 : IVec S_ 1 := (fun x v => Host.reduce IntOp.andi x v reducesTo_S16_S_d0 h_S_) main_v91 main_c_35
  let main_v93 : IVec S_ 1 := andi main_v88 main_v92
  main_v93

def fn_part4 {F : FTy → Type} [FloatOps F] (main_arg16 : FVec F S64 .f32) (main_arg17 : FVec F S64 .f32) (main_arg18 : FVec F S64x16 .f32) (main_arg19 : FVec F S64x16 .f32) (main_arg20 : FVec F S16 .f32) (main_v63 : IVec S_ 1) (main_v67 : IVec S_ 1) : IVec S_ 1 :=
  let main_v68 : IVec S_ 1 := andi main_v63 main_v67
  let main_v69 : FVec F S64 .f32 := Host.absf main_arg16
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S64 .f32 := Host.absf main_arg17
  let main_cst_28 : FVec F S_ .f32 := constant S_ .f32 0x7F800000#32
  let main_v75 : FVec F S64 .f32 := broadcastInDim S64 ![] bcast_S_S64 main_cst_28
  let main_v76 : IVec S64 1 := cmpf .olt main_v74 main_v75
  let main_c_29 : IVec S_ 1 := constantI S_ 1 1#1
  let main_v77 : IVec S_ 1 := (fun x v => Host.reduce IntOp.andi x v reducesTo_S64_S_d0 h_S_) main_v76 main_c_29
  let main_v78 : IVec S_ 1 := andi main_v73 main_v77
  let main_v79 : FVec F S64x16 .f32 := Host.absf main_arg18
  let main_cst_30 : FVec F S_ .f32 := constant S_ .f32 0x7F800000#32
  let main_v80 : FVec F S64x16 .f32 := broadcastInDim S64x16 ![] bcast_S_S64x16 main_cst_30
  let main_v81 : IVec S64x16 1 := cmpf .olt main_v79 main_v80
  let main_c_31 : IVec S_ 1 := constantI S_ 1 1#1
  let main_v82 : IVec S_ 1 := (fun x v => Host.reduce IntOp.andi x v reducesTo_S64x16_S_d0_1 h_S_) main_v81 main_c_31
  let main_v83 : IVec S_ 1 := andi main_v78 main_v82
  let main_v84 : FVec F S64x16 .f32 := Host.absf main_arg19
  let main_cst_32 : FVec F S_ .f32 := constant S_ .f32 0x7F800000#32
  fn_part5 (F := F) main_arg20 main_v83 main_v84 main_cst_32

def fn_part3 {F : FTy → Type} [FloatOps F] (main_arg13 : FVec F S64x64 .f32) (main_arg14 : FVec F S64x64 .f32) (main_arg15 : FVec F S64 .f32) (main_arg16 : FVec F S64 .f32) (main_arg17 : FVec F S64 .f32) (main_arg18 : FVec F S64x16 .f32) (main_arg19 : FVec F S64x16 .f32) (main_arg20 : FVec F S16 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x64 .f32 := Host.absf main_arg13
  let main_cst_20 : FVec F S_ .f32 := constant S_ .f32 0x7F800000#32
  let main_v55 : FVec F S64x64 .f32 := broadcastInDim S64x64 ![] bcast_S_S64x64 main_cst_20
  let main_v56 : IVec S64x64 1 := cmpf .olt main_v54 main_v55
  let main_c_21 : IVec S_ 1 := constantI S_ 1 1#1
  let main_v57 : IVec S_ 1 := (fun x v => Host.reduce IntOp.andi x v reducesTo_S64x64_S_d0_1 h_S_) main_v56 main_c_21
  let main_v58 : IVec S_ 1 := andi main_v53 main_v57
  let main_v59 : FVec F S64x64 .f32 := Host.absf main_arg14
  let main_cst_22 : FVec F S_ .f32 := constant S_ .f32 0x7F800000#32
  let main_v60 : FVec F S64x64 .f32 := broadcastInDim S64x64 ![] bcast_S_S64x64 main_cst_22
  let main_v61 : IVec S64x64 1 := cmpf .olt main_v59 main_v60
  let main_c_23 : IVec S_ 1 := constantI S_ 1 1#1
  let main_v62 : IVec S_ 1 := (fun x v => Host.reduce IntOp.andi x v reducesTo_S64x64_S_d0_1 h_S_) main_v61 main_c_23
  let main_v63 : IVec S_ 1 := andi main_v58 main_v62
  let main_v64 : FVec F S64 .f32 := Host.absf main_arg15
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg16 main_arg17 main_arg18 main_arg19 main_arg20 main_v63 main_v67

def fn_part2 {F : FTy → Type} [FloatOps F] (main_arg9 : FVec F S64x64 .f32) (main_arg10 : FVec F S64 .f32) (main_arg11 : FVec F S64 .f32) (main_arg12 : FVec F S64 .f32) (main_arg13 : FVec F S64x64 .f32) (main_arg14 : FVec F S64x64 .f32) (main_arg15 : FVec F S64 .f32) (main_arg16 : FVec F S64 .f32) (main_arg17 : FVec F S64 .f32) (main_arg18 : FVec F S64x16 .f32) (main_arg19 : FVec F S64x16 .f32) (main_arg20 : FVec F S16 .f32) (main_v33 : IVec S_ 1) : IVec S_ 1 :=
  let main_v34 : FVec F S64x64 .f32 := Host.absf main_arg9
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_arg13 main_arg14 main_arg15 main_arg16 main_arg17 main_arg18 main_arg19 main_arg20 main_v48 main_v49 main_v50

def fn_part1 {F : FTy → Type} [FloatOps F] (main_arg6 : FVec F S64 .f32) (main_arg7 : FVec F S64 .f32) (main_arg8 : FVec F S64x64 .f32) (main_arg9 : FVec F S64x64 .f32) (main_arg10 : FVec F S64 .f32) (main_arg11 : FVec F S64 .f32) (main_arg12 : FVec F S64 .f32) (main_arg13 : FVec F S64x64 .f32) (main_arg14 : FVec F S64x64 .f32) (main_arg15 : FVec F S64 .f32) (main_arg16 : FVec F S64 .f32) (main_arg17 : FVec F S64 .f32) (main_arg18 : FVec F S64x16 .f32) (main_arg19 : FVec F S64x16 .f32) (main_arg20 : FVec F S16 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg8
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_v33

def fn {F : FTy → Type} [FloatOps F] (main_arg0 : FVec F S100000x128 .f32) (main_arg1 : IVec S1600000 32) (main_arg2 : IVec S1600000 32) (main_arg3 : FVec F S128x64 .f32) (main_arg4 : FVec F S128x64 .f32) (main_arg5 : FVec F S64 .f32) (main_arg6 : FVec F S64 .f32) (main_arg7 : FVec F S64 .f32) (main_arg8 : FVec F S64x64 .f32) (main_arg9 : FVec F S64x64 .f32) (main_arg10 : FVec F S64 .f32) (main_arg11 : FVec F S64 .f32) (main_arg12 : FVec F S64 .f32) (main_arg13 : FVec F S64x64 .f32) (main_arg14 : FVec F S64x64 .f32) (main_arg15 : FVec F S64 .f32) (main_arg16 : FVec F S64 .f32) (main_arg17 : FVec F S64 .f32) (main_arg18 : FVec F S64x16 .f32) (main_arg19 : FVec F S64x16 .f32) (main_arg20 : FVec F S16 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg3
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S128x64 .f32 := Host.absf main_arg4
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_v13 main_v16
-- ==== Kernel.lean ====
abbrev S100000x128 : Shape := ⟨2, ![100000, 128]⟩
abbrev S1600000 : Shape := ⟨1, ![1600000]⟩
abbrev S128x64 : Shape := ⟨2, ![128, 64]⟩
abbrev S64 : Shape := ⟨1, ![64]⟩
abbrev S64x64 : Shape := ⟨2, ![64, 64]⟩
abbrev S64x16 : Shape := ⟨2, ![64, 16]⟩
abbrev S16 : Shape := ⟨1, ![16]⟩
abbrev S_ : Shape := ⟨0, ![]⟩
abbrev S100000 : Shape := ⟨1, ![100000]⟩
abbrev S1600000x1 : Shape := ⟨2, ![1600000, 1]⟩
abbrev S100000x64 : Shape := ⟨2, ![100000, 64]⟩
abbrev S5000x128 : Shape := ⟨2, ![5000, 128]⟩
abbrev S5000x64 : Shape := ⟨2, ![5000, 64]⟩
abbrev S1600000x64 : Shape := ⟨2, ![1600000, 64]⟩
abbrev S100000x1 : Shape := ⟨2, ![100000, 1]⟩
abbrev S1x64 : Shape := ⟨2, ![1, 64]⟩
abbrev S20x8x64 : Shape := ⟨3, ![20, 8, 64]⟩
abbrev S1x8x64 : Shape := ⟨3, ![1, 8, 64]⟩
abbrev S8x64 : Shape := ⟨2, ![8, 64]⟩
abbrev S20x1x64 : Shape := ⟨3, ![20, 1, 64]⟩
abbrev S20x64 : Shape := ⟨2, ![20, 64]⟩
abbrev S50000x128 : Shape := ⟨2, ![50000, 128]⟩
abbrev S128 : Shape := ⟨1, ![128]⟩
abbrev S1x128 : Shape := ⟨2, ![1, 128]⟩
abbrev S100000x16 : Shape := ⟨2, ![100000, 16]⟩
abbrev S5000x16 : Shape := ⟨2, ![5000, 16]⟩
abbrev S1600000x16 : Shape := ⟨2, ![1600000, 16]⟩
abbrev S1x16 : Shape := ⟨2, ![1, 16]⟩

abbrev nBuf : Space → Nat
  | .hbm => 206
  | .vmem => 80
  | .smem => 0
  | _ => 0

abbrev hbmTy0_0 (i : Nat) : BufTy := match i % 128 with
  | 0 => ⟨S100000x128, .f32⟩
  | 1 => ⟨S1600000, .i32⟩
  | 2 => ⟨S1600000, .i32⟩
  | 3 => ⟨S128x64, .f32⟩
  | 4 => ⟨S128x64, .f32⟩
  | 5 => ⟨S64, .f32⟩
  | 6 => ⟨S64, .f32⟩
  | 7 => ⟨S64, .f32⟩
  | 8 => ⟨S64x64, .f32⟩
  | 9 => ⟨S64x64, .f32⟩
  | 10 => ⟨S64, .f32⟩
  | 11 => ⟨S64, .f32⟩
  | 12 => ⟨S64, .f32⟩
  | 13 => ⟨S64x64, .f32⟩
  | 14 => ⟨S64x64, .f32⟩
  | 15 => ⟨S64, .f32⟩
  | 16 => ⟨S64, .f32⟩
  | 17 => ⟨S64, .f32⟩
  | 18 => ⟨S64x16, .f32⟩
  | 19 => ⟨S64x16, .f32⟩
  | 20 => ⟨S16, .f32⟩
  | 21 => ⟨S_, .f32⟩
  | 22 => ⟨S1600000, .f32⟩
  | 23 => ⟨S_, .f32⟩
  | 24 => ⟨S100000, .f32⟩
  | 25 => ⟨S1600000x1, .i32⟩
  | 26 => ⟨S100000, .f32⟩
  | 27 => ⟨S_, .f32⟩
  | 28 => ⟨S100000, .f32⟩
  | 29 => ⟨S100000, .f32⟩
  | 30 => ⟨S_, .f32⟩
  | 31 => ⟨S100000, .f32⟩
  | 32 => ⟨S100000, .f32⟩
  | 33 => ⟨S100000x64, .f32⟩
  | 34 => ⟨S_, .i32⟩
  | 35 => ⟨S1600000, .i32⟩
  | 36 => ⟨S1600000, .i1⟩
  | 37 => ⟨S_, .i32⟩
  | 38 => ⟨S1600000, .i32⟩
  | 39 => ⟨S1600000, .i32⟩
  | 40 => ⟨S1600000, .i32⟩
  | 41 => ⟨S1600000x1, .i32⟩
  | 42 => ⟨S1600000x64, .f32⟩
  | 43 => ⟨S_, .f32⟩
  | 44 => ⟨S100000x64, .f32⟩
  | 45 => ⟨S1600000x1, .i32⟩
  | 46 => ⟨S100000x64, .f32⟩
  | 47 => ⟨S100000x1, .f32⟩
  | 48 => ⟨S100000x64, .f32⟩
  | 49 => ⟨S100000x64, .f32⟩
  | 50 => ⟨S1x64, .f32⟩
  | 51 => ⟨S100000x64, .f32⟩
  | 52 => ⟨S20x8x64, .f32⟩
  | 53 => ⟨S20x8x64, .f32⟩
  | 54 => ⟨S20x1x64, .f32⟩
  | 55 => ⟨S20x64, .f32⟩
  | 56 => ⟨S_, .f32⟩
  | 57 => ⟨S64, .f32⟩
  | 58 => ⟨S20x1x64, .f32⟩
  | 59 => ⟨S20x64, .f32⟩
  | 60 => ⟨S_, .f32⟩
  | 61 => ⟨S64, .f32⟩
  | 62 => ⟨S_, .f32⟩
  | 63 => ⟨S64, .f32⟩
  | 64 => ⟨S64, .f32⟩
  | 65 => ⟨S1x64, .f32⟩
  | 66 => ⟨S_, .f32⟩
  | 67 => ⟨S64, .f32⟩
  | 68 => ⟨S64, .f32⟩
  | 69 => ⟨S1x64, .f32⟩
  | 70 => ⟨S1x64, .f32⟩
  | 71 => ⟨S1x64, .f32⟩
  | 72 => ⟨S50000x128, .f32⟩
  | 73 => ⟨S64, .f32⟩
  | 74 => ⟨S128, .f32⟩
  | 75 => ⟨S1x128, .f32⟩
  | 76 => ⟨S64, .f32⟩
  | 77 => ⟨S128, .f32⟩
  | 78 => ⟨S1x128, .f32⟩
  | 79 => ⟨S128, .f32⟩
  | 80 => ⟨S1x128, .f32⟩
  | 81 => ⟨S128, .f32⟩
  | 82 => ⟨S1x128, .f32⟩
  | 83 => ⟨S50000x128, .f32⟩
  | 84 => ⟨S100000x64, .f32⟩
  | 85 => ⟨S_, .i32⟩
  | 86 => ⟨S1600000, .i32⟩
  | 87 => ⟨S1600000, .i1⟩
  | 88 => ⟨S_, .i32⟩
  | 89 => ⟨S1600000, .i32⟩
  | 90 => ⟨S1600000, .i32⟩
  | 91 => ⟨S1600000, .i32⟩
  | 92 => ⟨S1600000x1, .i32⟩
  | 93 => ⟨S1600000x64, .f32⟩
  | 94 => ⟨S_, .f32⟩
  | 95 => ⟨S100000x64, .f32⟩
  | 96 => ⟨S1600000x1, .i32⟩
  | 97 => ⟨S100000x64, .f32⟩
  | 98 => ⟨S100000x1, .f32⟩
  | 99 => ⟨S100000x64, .f32⟩
  | 100 => ⟨S100000x64, .f32⟩
  | 101 => ⟨S1x64, .f32⟩
  | 102 => ⟨S100000x64, .f32⟩
  | 103 => ⟨S20x8x64, .f32⟩
  | 104 => ⟨S20x8x64, .f32⟩
  | 105 => ⟨S20x1x64, .f32⟩
  | 106 => ⟨S20x64, .f32⟩
  | 107 => ⟨S_, .f32⟩
  | 108 => ⟨S64, .f32⟩
  | 109 => ⟨S20x1x64, .f32⟩
  | 110 => ⟨S20x64, .f32⟩
  | 111 => ⟨S_, .f32⟩
  | 112 => ⟨S64, .f32⟩
  | 113 => ⟨S_, .f32⟩
  | 114 => ⟨S64, .f32⟩
  | 115 => ⟨S64, .f32⟩
  | 116 => ⟨S1x64, .f32⟩
  | 117 => ⟨S_, .f32⟩
  | 118 => ⟨S64, .f32⟩
  | 119 => ⟨S64, .f32⟩
  | 120 => ⟨S1x64, .f32⟩
  | 121 => ⟨S1x64, .f32⟩
  | 122 => ⟨S1x64, .f32⟩
  | 123 => ⟨S50000x128, .f32⟩
  | 124 => ⟨S64, .f32⟩
  | 125 => ⟨S128, .f32⟩
  | 126 => ⟨S1x128, .f32⟩
  | 127 => ⟨S64, .f32⟩
  | _ => ⟨S100000x128, .f32⟩

abbrev hbmTy0_1 (i : Nat) : BufTy := match i % 128 with
  | 0 => ⟨S128, .f32⟩
  | 1 => ⟨S1x128, .f32⟩
  | 2 => ⟨S128, .f32⟩
  | 3 => ⟨S1x128, .f32⟩
  | 4 => ⟨S128, .f32⟩
  | 5 => ⟨S1x128, .f32⟩
  | 6 => ⟨S50000x128, .f32⟩
  | 7 => ⟨S100000x64, .f32⟩
  | 8 => ⟨S_, .i32⟩
  | 9 => ⟨S1600000, .i32⟩
  | 10 => ⟨S1600000, .i1⟩
  | 11 => ⟨S_, .i32⟩
  | 12 => ⟨S1600000, .i32⟩
  | 13 => ⟨S1600000, .i32⟩
  | 14 => ⟨S1600000, .i32⟩
  | 15 => ⟨S1600000x1, .i32⟩
  | 16 => ⟨S1600000x64, .f32⟩
  | 17 => ⟨S_, .f32⟩
  | 18 => ⟨S100000x64, .f32⟩
  | 19 => ⟨S1600000x1, .i32⟩
  | 20 => ⟨S100000x64, .f32⟩
  | 21 => ⟨S100000x1, .f32⟩
  | 22 => ⟨S100000x64, .f32⟩
  | 23 => ⟨S100000x64, .f32⟩
  | 24 => ⟨S1x64, .f32⟩
  | 25 => ⟨S100000x64, .f32⟩
  | 26 => ⟨S20x8x64, .f32⟩
  | 27 => ⟨S20x8x64, .f32⟩
  | 28 => ⟨S20x1x64, .f32⟩
  | 29 => ⟨S20x64, .f32⟩
  | 30 => ⟨S_, .f32⟩
  | 31 => ⟨S64, .f32⟩
  | 32 => ⟨S20x1x64, .f32⟩
  | 33 => ⟨S20x64, .f32⟩
  | 34 => ⟨S_, .f32⟩
  | 35 => ⟨S64, .f32⟩
  | 36 => ⟨S_, .f32⟩
  | 37 => ⟨S64, .f32⟩
  | 38 => ⟨S64, .f32⟩
  | 39 => ⟨S1x64, .f32⟩
  | 40 => ⟨S_, .f32⟩
  | 41 => ⟨S64, .f32⟩
  | 42 => ⟨S64, .f32⟩
  | 43 => ⟨S1x64, .f32⟩
  | 44 => ⟨S1x64, .f32⟩
  | 45 => ⟨S1x64, .f32⟩
  | 46 => ⟨S50000x128, .f32⟩
  | 47 => ⟨S64, .f32⟩
  | 48 => ⟨S128, .f32⟩
  | 49 => ⟨S1x128, .f32⟩
  | 50 => ⟨S64, .f32⟩
  | 51 => ⟨S128, .f32⟩
  | 52 => ⟨S1x128, .f32⟩
  | 53 => ⟨S128, .f32⟩
  | 54 => ⟨S1x128, .f32⟩
  | 55 => ⟨S128, .f32⟩
  | 56 => ⟨S1x128, .f32⟩
  | 57 => ⟨S50000x128, .f32⟩
  | 58 => ⟨S100000x64, .f32⟩
  | 59 => ⟨S100000x16, .f32⟩
  | 60 => ⟨S_, .i32⟩
  | 61 => ⟨S1600000, .i32⟩
  | 62 => ⟨S1600000, .i1⟩
  | 63 => ⟨S_, .i32⟩
  | 64 => ⟨S1600000, .i32⟩
  | 65 => ⟨S1600000, .i32⟩
  | 66 => ⟨S1600000, .i32⟩
  | 67 => ⟨S1600000x1, .i32⟩
  | 68 => ⟨S1600000x16, .f32⟩
  | 69 => ⟨S_, .f32⟩
  | 70 => ⟨S100000x16, .f32⟩
  | 71 => ⟨S1600000x1, .i32⟩
  | 72 => ⟨S100000x16, .f32⟩
  | 73 => ⟨S100000x1, .f32⟩
  | 74 => ⟨S100000x16, .f32⟩
  | 75 => ⟨S100000x16, .f32⟩
  | 76 => ⟨S1x16, .f32⟩
  | 77 => ⟨S100000x16, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x64, .f32⟩
  | .local _ .vmem, ⟨4, _⟩ => ⟨S5000x64, .f32⟩
  | .local _ .vmem, ⟨5, _⟩ => ⟨S5000x128, .f32⟩
  | .local _ .vmem, ⟨6, _⟩ => ⟨S5000x128, .f32⟩
  | .local _ .vmem, ⟨7, _⟩ => ⟨S5000x64, .f32⟩
  | .local _ .vmem, ⟨8, _⟩ => ⟨S5000x64, .f32⟩
  | .local _ .vmem, ⟨9, _⟩ => ⟨S128x64, .f32⟩
  | .local _ .vmem, ⟨10, _⟩ => ⟨S1x64, .f32⟩
  | .local _ .vmem, ⟨11, _⟩ => ⟨S5000x64, .f32⟩
  | .local _ .vmem, ⟨12, _⟩ => ⟨S5000x64, .f32⟩
  | .local _ .vmem, ⟨13, _⟩ => ⟨S1x8x64, .f32⟩
  | .local _ .vmem, ⟨14, _⟩ => ⟨S1x8x64, .f32⟩
  | .local _ .vmem, ⟨15, _⟩ => ⟨S1x8x64, .f32⟩
  | .local _ .vmem, ⟨16, _⟩ => ⟨S1x8x64, .f32⟩
  | .local _ .vmem, ⟨17, _⟩ => ⟨S5000x128, .f32⟩
  | .local _ .vmem, ⟨18, _⟩ => ⟨S5000x128, .f32⟩
  | .local _ .vmem, ⟨19, _⟩ => ⟨S1x128, .f32⟩
  | .local _ .vmem, ⟨20, _⟩ => ⟨S1x128, .f32⟩
  | .local _ .vmem, ⟨21, _⟩ => ⟨S1x128, .f32⟩
  | .local _ .vmem, ⟨22, _⟩ => ⟨S1x128, .f32⟩
  | .local _ .vmem, ⟨23, _⟩ => ⟨S5000x128, .f32⟩
  | .local _ .vmem, ⟨24, _⟩ => ⟨S5000x128, .f32⟩
  | .local _ .vmem, ⟨25, _⟩ => ⟨S5000x64, .f32⟩
  | .local _ .vmem, ⟨26, _⟩ => ⟨S5000x64, .f32⟩
  | .local _ .vmem, ⟨27, _⟩ => ⟨S5000x64, .f32⟩
  | .local _ .vmem, ⟨28, _⟩ => ⟨S5000x64, .f32⟩
  | .local _ .vmem, ⟨29, _⟩ => ⟨S64x64, .f32⟩
  | .local _ .vmem, ⟨30, _⟩ => ⟨S64x64, .f32⟩
  | .local _ .vmem, ⟨31, _⟩ => ⟨S1x64, .f32⟩
  | .local _ .vmem, ⟨32, _⟩ => ⟨S5000x64, .f32⟩
  | .local _ .vmem, ⟨33, _⟩ => ⟨S5000x64, .f32⟩
  | .local _ .vmem, ⟨34, _⟩ => ⟨S1x8x64, .f32⟩
  | .local _ .vmem, ⟨35, _⟩ => ⟨S1x8x64, .f32⟩
  | .local _ .vmem, ⟨36, _⟩ => ⟨S1x8x64, .f32⟩
  | .local _ .vmem, ⟨37, _⟩ => ⟨S1x8x64, .f32⟩
  | .local _ .vmem, ⟨38, _⟩ => ⟨S5000x128, .f32⟩
  | .local _ .vmem, ⟨39, _⟩ => ⟨S5000x128, .f32⟩
  | .local _ .vmem, ⟨40, _⟩ => ⟨S1x128, .f32⟩
  | .local _ .vmem, ⟨41, _⟩ => ⟨S1x128, .f32⟩
  | .local _ .vmem, ⟨42, _⟩ => ⟨S1x128, .f32⟩
  | .local _ .vmem, ⟨43, _⟩ => ⟨S1x128, .f32⟩
  | .local _ .vmem, ⟨44, _⟩ => ⟨S5000x128, .f32⟩
  | .local _ .vmem, ⟨45, _⟩ => ⟨S5000x128, .f32⟩
  | .local _ .vmem, ⟨46, _⟩ => ⟨S5000x64, .f32⟩
  | .local _ .vmem, ⟨47, _⟩ => ⟨S5000x64, .f32⟩
  | .local _ .vmem, ⟨48, _⟩ => ⟨S5000x64, .f32⟩
  | .local _ .vmem, ⟨49, _⟩ => ⟨S5000x64, .f32⟩
  | .local _ .vmem, ⟨50, _⟩ => ⟨S64x64, .f32⟩
  | .local _ .vmem, ⟨51, _⟩ => ⟨S64x64, .f32⟩
  | .local _ .vmem, ⟨52, _⟩ => ⟨S1x64, .f32⟩
  | .local _ .vmem, ⟨53, _⟩ => ⟨S5000x64, .f32⟩
  | .local _ .vmem, ⟨54, _⟩ => ⟨S5000x64, .f32⟩
  | .local _ .vmem, ⟨55, _⟩ => ⟨S1x8x64, .f32⟩
  | .local _ .vmem, ⟨56, _⟩ => ⟨S1x8x64, .f32⟩
  | .local _ .vmem, ⟨57, _⟩ => ⟨S1x8x64, .f32⟩
  | .local _ .vmem, ⟨58, _⟩ => ⟨S1x8x64, .f32⟩
  | .local _ .vmem, ⟨59, _⟩ => ⟨S5000x128, .f32⟩
  | .local _ .vmem, ⟨60, _⟩ => ⟨S5000x128, .f32⟩
  | .local _ .vmem, ⟨61, _⟩ => ⟨S1x128, .f32⟩
  | .local _ .vmem, ⟨62, _⟩ => ⟨S1x128, .f32⟩
  | .local _ .vmem, ⟨63, _⟩ => ⟨S1x128, .f32⟩
  | .local _ .vmem, ⟨64, _⟩ => ⟨S1x128, .f32⟩
  | .local _ .vmem, ⟨65, _⟩ => ⟨S5000x128, .f32⟩
  | .local _ .vmem, ⟨66, _⟩ => ⟨S5000x128, .f32⟩
  | .local _ .vmem, ⟨67, _⟩ => ⟨S5000x64, .f32⟩
  | .local _ .vmem, ⟨68, _⟩ => ⟨S5000x64, .f32⟩
  | .local _ .vmem, ⟨69, _⟩ => ⟨S64x16, .f32⟩
  | .local _ .vmem, ⟨70, _⟩ => ⟨S5000x16, .f32⟩
  | .local _ .vmem, ⟨71, _⟩ => ⟨S5000x16, .f32⟩
  | .local _ .vmem, ⟨72, _⟩ => ⟨S5000x64, .f32⟩
  | .local _ .vmem, ⟨73, _⟩ => ⟨S5000x64, .f32⟩
  | .local _ .vmem, ⟨74, _⟩ => ⟨S5000x16, .f32⟩
  | .local _ .vmem, ⟨75, _⟩ => ⟨S5000x16, .f32⟩
  | .local _ .vmem, ⟨76, _⟩ => ⟨S64x16, .f32⟩
  | .local _ .vmem, ⟨77, _⟩ => ⟨S1x16, .f32⟩
  | .local _ .vmem, ⟨78, _⟩ => ⟨S5000x16, .f32⟩
  | .local _ .vmem, ⟨79, _⟩ => ⟨S5000x16, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | _, _ => false

abbrev semScoped : Fin 0 → Bool
  | ⟨_, h⟩ => absurd h (Nat.not_lt_zero _)

abbrev dmaSemScoped : Fin 80 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | _ => false

abbrev sig : RefSig :=
  ofTc nBuf bufTy 0 80 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_cst : Ref sig .tc := ⟨.hbm, 21, rfl⟩
abbrev main_v0 : Ref sig .tc := ⟨.hbm, 22, rfl⟩
abbrev main_cst_0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_cst_1 : Ref sig .tc := ⟨.hbm, 27, rfl⟩
abbrev main_v4 : Ref sig .tc := ⟨.hbm, 28, rfl⟩
abbrev main_v5 : Ref sig .tc := ⟨.hbm, 29, rfl⟩
abbrev main_cst_2 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_c : Ref sig .tc := ⟨.hbm, 34, rfl⟩
abbrev main_v9 : Ref sig .tc := ⟨.hbm, 35, rfl⟩
abbrev main_v10 : Ref sig .tc := ⟨.hbm, 36, rfl⟩
abbrev main_c_3 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_cst_4 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23_0 : Ref sig .tc := ⟨.hbm, 51, rfl⟩
abbrev main_v23_1 : Ref sig .tc := ⟨.hbm, 52, rfl⟩
abbrev main_v23_2 : Ref sig .tc := ⟨.hbm, 53, rfl⟩
abbrev main_v24 : Ref sig .tc := ⟨.hbm, 54, rfl⟩
abbrev main_v25 : Ref sig .tc := ⟨.hbm, 55, rfl⟩
abbrev main_cst_5 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_cst_6 : Ref sig .tc := ⟨.hbm, 60, rfl⟩
abbrev main_v29 : Ref sig .tc := ⟨.hbm, 61, rfl⟩
abbrev main_cst_7 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_cst_8 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_c_9 : Ref sig .tc := ⟨.hbm, 85, rfl⟩
abbrev main_v51 : Ref sig .tc := ⟨.hbm, 86, rfl⟩
abbrev main_v52 : Ref sig .tc := ⟨.hbm, 87, rfl⟩
abbrev main_c_10 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_cst_11 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65_0 : Ref sig .tc := ⟨.hbm, 102, rfl⟩
abbrev main_v65_1 : Ref sig .tc := ⟨.hbm, 103, rfl⟩
abbrev main_v65_2 : Ref sig .tc := ⟨.hbm, 104, rfl⟩
abbrev main_v66 : Ref sig .tc := ⟨.hbm, 105, rfl⟩
abbrev main_v67 : Ref sig .tc := ⟨.hbm, 106, rfl⟩
abbrev main_cst_12 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_cst_13 : Ref sig .tc := ⟨.hbm, 111, rfl⟩
abbrev main_v71 : Ref sig .tc := ⟨.hbm, 112, rfl⟩
abbrev main_cst_14 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_cst_15 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_c_16 : Ref sig .tc := ⟨.hbm, 136, rfl⟩
abbrev main_v93 : Ref sig .tc := ⟨.hbm, 137, rfl⟩
abbrev main_v94 : Ref sig .tc := ⟨.hbm, 138, rfl⟩
abbrev main_c_17 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_cst_18 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107_0 : Ref sig .tc := ⟨.hbm, 153, rfl⟩
abbrev main_v107_1 : Ref sig .tc := ⟨.hbm, 154, rfl⟩
abbrev main_v107_2 : Ref sig .tc := ⟨.hbm, 155, rfl⟩
abbrev main_v108 : Ref sig .tc := ⟨.hbm, 156, rfl⟩
abbrev main_v109 : Ref sig .tc := ⟨.hbm, 157, rfl⟩
abbrev main_cst_19 : Ref sig .tc := ⟨.hbm, 158, rfl⟩
abbrev main_v110 : Ref sig .tc := ⟨.hbm, 159, rfl⟩
abbrev main_v111 : Ref sig .tc := ⟨.hbm, 160, rfl⟩
abbrev main_v112 : Ref sig .tc := ⟨.hbm, 161, rfl⟩
abbrev main_cst_20 : Ref sig .tc := ⟨.hbm, 162, rfl⟩
abbrev main_v113 : Ref sig .tc := ⟨.hbm, 163, rfl⟩
abbrev main_cst_21 : Ref sig .tc := ⟨.hbm, 164, rfl⟩
abbrev main_v114 : Ref sig .tc := ⟨.hbm, 165, rfl⟩
abbrev main_v115 : Ref sig .tc := ⟨.hbm, 166, rfl⟩
abbrev main_v116 : Ref sig .tc := ⟨.hbm, 167, rfl⟩
abbrev main_cst_22 : Ref sig .tc := ⟨.hbm, 168, rfl⟩
abbrev main_v117 : Ref sig .tc := ⟨.hbm, 169, rfl⟩
abbrev main_v118 : Ref sig .tc := ⟨.hbm, 170, rfl⟩
abbrev main_v119 : Ref sig .tc := ⟨.hbm, 171, rfl⟩
abbrev main_v120 : Ref sig .tc := ⟨.hbm, 172, rfl⟩
abbrev main_v121 : Ref sig .tc := ⟨.hbm, 173, rfl⟩
abbrev main_v122 : Ref sig .tc := ⟨.hbm, 174, rfl⟩
abbrev main_v123 : Ref sig .tc := ⟨.hbm, 175, rfl⟩
abbrev main_v124 : Ref sig .tc := ⟨.hbm, 176, rfl⟩
abbrev main_v125 : Ref sig .tc := ⟨.hbm, 177, rfl⟩
abbrev main_v126 : Ref sig .tc := ⟨.hbm, 178, rfl⟩
abbrev main_v127 : Ref sig .tc := ⟨.hbm, 179, rfl⟩
abbrev main_v128 : Ref sig .tc := ⟨.hbm, 180, rfl⟩
abbrev main_v129 : Ref sig .tc := ⟨.hbm, 181, rfl⟩
abbrev main_v130 : Ref sig .tc := ⟨.hbm, 182, rfl⟩
abbrev main_v131 : Ref sig .tc := ⟨.hbm, 183, rfl⟩
abbrev main_v132 : Ref sig .tc := ⟨.hbm, 184, rfl⟩
abbrev main_v133 : Ref sig .tc := ⟨.hbm, 185, rfl⟩
abbrev main_v134 : Ref sig .tc := ⟨.hbm, 186, rfl⟩
abbrev main_v135 : Ref sig .tc := ⟨.hbm, 187, rfl⟩
abbrev main_c_23 : Ref sig .tc := ⟨.hbm, 188, rfl⟩
abbrev main_v136 : Ref sig .tc := ⟨.hbm, 189, rfl⟩
abbrev main_v137 : Ref sig .tc := ⟨.hbm, 190, rfl⟩
abbrev main_c_24 : Ref sig .tc := ⟨.hbm, 191, rfl⟩
abbrev main_v138 : Ref sig .tc := ⟨.hbm, 192, rfl⟩
abbrev main_v139 : Ref sig .tc := ⟨.hbm, 193, rfl⟩
abbrev main_v140 : Ref sig .tc := ⟨.hbm, 194, rfl⟩
abbrev main_v141 : Ref sig .tc := ⟨.hbm, 195, rfl⟩
abbrev main_v142 : Ref sig .tc := ⟨.hbm, 196, rfl⟩
abbrev main_cst_25 : Ref sig .tc := ⟨.hbm, 197, rfl⟩
abbrev main_v143 : Ref sig .tc := ⟨.hbm, 198, rfl⟩
abbrev main_v144 : Ref sig .tc := ⟨.hbm, 199, rfl⟩
abbrev main_v145 : Ref sig .tc := ⟨.hbm, 200, rfl⟩
abbrev main_v146 : Ref sig .tc := ⟨.hbm, 201, rfl⟩
abbrev main_v147 : Ref sig .tc := ⟨.hbm, 202, rfl⟩
abbrev main_v148 : Ref sig .tc := ⟨.hbm, 203, rfl⟩
abbrev main_v149 : Ref sig .tc := ⟨.hbm, 204, rfl⟩
abbrev main_v150 : Ref sig .tc := ⟨.hbm, 205, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg4_1 : Ref sig .tc := ⟨.vmem, 12, rfl⟩
abbrev cc1_stg5_0 : Ref sig .tc := ⟨.vmem, 13, rfl⟩
abbrev cc1_stg5_1 : Ref sig .tc := ⟨.vmem, 14, rfl⟩
abbrev cc1_stg6_0 : Ref sig .tc := ⟨.vmem, 15, rfl⟩
abbrev cc1_stg6_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg5_1 : Ref sig .tc := ⟨.vmem, 24, rfl⟩
abbrev cc3_stg0_0 : Ref sig .tc := ⟨.vmem, 25, rfl⟩
abbrev cc3_stg0_1 : Ref sig .tc := ⟨.vmem, 26, rfl⟩
abbrev cc3_stg1_0 : Ref sig .tc := ⟨.vmem, 27, rfl⟩
abbrev cc3_stg1_1 : Ref sig .tc := ⟨.vmem, 28, rfl⟩
abbrev cc3_stg2_0 : Ref sig .tc := ⟨.vmem, 29, rfl⟩
abbrev cc3_stg3_0 : Ref sig .tc := ⟨.vmem, 30, rfl⟩
abbrev cc3_stg4_0 : Ref sig .tc := ⟨.vmem, 31, rfl⟩
abbrev cc3_stg5_0 : Ref sig .tc := ⟨.vmem, 32, rfl⟩
abbrev cc3_stg5_1 : Ref sig .tc := ⟨.vmem, 33, rfl⟩
abbrev cc3_stg6_0 : Ref sig .tc := ⟨.vmem, 34, rfl⟩
abbrev cc3_stg6_1 : Ref sig .tc := ⟨.vmem, 35, rfl⟩
abbrev cc3_stg7_0 : Ref sig .tc := ⟨.vmem, 36, rfl⟩
abbrev cc3_stg7_1 : Ref sig .tc := ⟨.vmem, 37, rfl⟩
abbrev cc4_stg0_0 : Ref sig .tc := ⟨.vmem, 38, rfl⟩
abbrev cc4_stg0_1 : Ref sig .tc := ⟨.vmem, 39, rfl⟩
abbrev cc4_stg1_0 : Ref sig .tc := ⟨.vmem, 40, rfl⟩
abbrev cc4_stg2_0 : Ref sig .tc := ⟨.vmem, 41, rfl⟩
abbrev cc4_stg3_0 : Ref sig .tc := ⟨.vmem, 42, rfl⟩
abbrev cc4_stg4_0 : Ref sig .tc := ⟨.vmem, 43, rfl⟩
abbrev cc4_stg5_0 : Ref sig .tc := ⟨.vmem, 44, rfl⟩
abbrev cc4_stg5_1 : Ref sig .tc := ⟨.vmem, 45, rfl⟩
abbrev cc5_stg0_0 : Ref sig .tc := ⟨.vmem, 46, rfl⟩
abbrev cc5_stg0_1 : Ref sig .tc := ⟨.vmem, 47, rfl⟩
abbrev cc5_stg1_0 : Ref sig .tc := ⟨.vmem, 48, rfl⟩
abbrev cc5_stg1_1 : Ref sig .tc := ⟨.vmem, 49, rfl⟩
abbrev cc5_stg2_0 : Ref sig .tc := ⟨.vmem, 50, rfl⟩
abbrev cc5_stg3_0 : Ref sig .tc := ⟨.vmem, 51, rfl⟩
abbrev cc5_stg4_0 : Ref sig .tc := ⟨.vmem, 52, rfl⟩
abbrev cc5_stg5_0 : Ref sig .tc := ⟨.vmem, 53, rfl⟩
abbrev cc5_stg5_1 : Ref sig .tc := ⟨.vmem, 54, rfl⟩
abbrev cc5_stg6_0 : Ref sig .tc := ⟨.vmem, 55, rfl⟩
abbrev cc5_stg6_1 : Ref sig .tc := ⟨.vmem, 56, rfl⟩
abbrev cc5_stg7_0 : Ref sig .tc := ⟨.vmem, 57, rfl⟩
abbrev cc5_stg7_1 : Ref sig .tc := ⟨.vmem, 58, rfl⟩
abbrev cc6_stg0_0 : Ref sig .tc := ⟨.vmem, 59, rfl⟩
abbrev cc6_stg0_1 : Ref sig .tc := ⟨.vmem, 60, rfl⟩
abbrev cc6_stg1_0 : Ref sig .tc := ⟨.vmem, 61, rfl⟩
abbrev cc6_stg2_0 : Ref sig .tc := ⟨.vmem, 62, rfl⟩
abbrev cc6_stg3_0 : Ref sig .tc := ⟨.vmem, 63, rfl⟩
abbrev cc6_stg4_0 : Ref sig .tc := ⟨.vmem, 64, rfl⟩
abbrev cc6_stg5_0 : Ref sig .tc := ⟨.vmem, 65, rfl⟩
abbrev cc6_stg5_1 : Ref sig .tc := ⟨.vmem, 66, rfl⟩
abbrev cc7_stg0_0 : Ref sig .tc := ⟨.vmem, 67, rfl⟩
abbrev cc7_stg0_1 : Ref sig .tc := ⟨.vmem, 68, rfl⟩
abbrev cc7_stg1_0 : Ref sig .tc := ⟨.vmem, 69, rfl⟩
abbrev cc7_stg2_0 : Ref sig .tc := ⟨.vmem, 70, rfl⟩
abbrev cc7_stg2_1 : Ref sig .tc := ⟨.vmem, 71, rfl⟩
abbrev cc8_stg0_0 : Ref sig .tc := ⟨.vmem, 72, rfl⟩
abbrev cc8_stg0_1 : Ref sig .tc := ⟨.vmem, 73, rfl⟩
abbrev cc8_stg1_0 : Ref sig .tc := ⟨.vmem, 74, rfl⟩
abbrev cc8_stg1_1 : Ref sig .tc := ⟨.vmem, 75, rfl⟩
abbrev cc8_stg2_0 : Ref sig .tc := ⟨.vmem, 76, rfl⟩
abbrev cc8_stg3_0 : Ref sig .tc := ⟨.vmem, 77, rfl⟩
abbrev cc8_stg4_0 : Ref sig .tc := ⟨.vmem, 78, rfl⟩
abbrev cc8_stg4_1 : Ref sig .tc := ⟨.vmem, 79, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem4_1 : DmaSem sig := 12
abbrev cc1_sem5_0 : DmaSem sig := 13
abbrev cc1_sem5_1 : DmaSem sig := 14
abbrev cc1_sem6_0 : DmaSem sig := 15
abbrev cc1_sem6_1 : DmaSem sig := 16
abbrev cc2_sem0_0 : DmaSem sig := 17
abbrev cc2_sem0_1 : DmaSem sig := 18
abbrev cc2_sem1_0 : DmaSem sig := 19
abbrev cc2_sem2_0 : DmaSem sig := 20
abbrev cc2_sem3_0 : DmaSem sig := 21
abbrev cc2_sem4_0 : DmaSem sig := 22
abbrev cc2_sem5_0 : DmaSem sig := 23
abbrev cc2_sem5_1 : DmaSem sig := 24
abbrev cc3_sem0_0 : DmaSem sig := 25
abbrev cc3_sem0_1 : DmaSem sig := 26
abbrev cc3_sem1_0 : DmaSem sig := 27
abbrev cc3_sem1_1 : DmaSem sig := 28
abbrev cc3_sem2_0 : DmaSem sig := 29
abbrev cc3_sem3_0 : DmaSem sig := 30
abbrev cc3_sem4_0 : DmaSem sig := 31
abbrev cc3_sem5_0 : DmaSem sig := 32
abbrev cc3_sem5_1 : DmaSem sig := 33
abbrev cc3_sem6_0 : DmaSem sig := 34
abbrev cc3_sem6_1 : DmaSem sig := 35
abbrev cc3_sem7_0 : DmaSem sig := 36
abbrev cc3_sem7_1 : DmaSem sig := 37
abbrev cc4_sem0_0 : DmaSem sig := 38
abbrev cc4_sem0_1 : DmaSem sig := 39
abbrev cc4_sem1_0 : DmaSem sig := 40
abbrev cc4_sem2_0 : DmaSem sig := 41
abbrev cc4_sem3_0 : DmaSem sig := 42
abbrev cc4_sem4_0 : DmaSem sig := 43
abbrev cc4_sem5_0 : DmaSem sig := 44
abbrev cc4_sem5_1 : DmaSem sig := 45
abbrev cc5_sem0_0 : DmaSem sig := 46
abbrev cc5_sem0_1 : DmaSem sig := 47
abbrev cc5_sem1_0 : DmaSem sig := 48
abbrev cc5_sem1_1 : DmaSem sig := 49
abbrev cc5_sem2_0 : DmaSem sig := 50
abbrev cc5_sem3_0 : DmaSem sig := 51
abbrev cc5_sem4_0 : DmaSem sig := 52
abbrev cc5_sem5_0 : DmaSem sig := 53
abbrev cc5_sem5_1 : DmaSem sig := 54
abbrev cc5_sem6_0 : DmaSem sig := 55
abbrev cc5_sem6_1 : DmaSem sig := 56
abbrev cc5_sem7_0 : DmaSem sig := 57
abbrev cc5_sem7_1 : DmaSem sig := 58
abbrev cc6_sem0_0 : DmaSem sig := 59
abbrev cc6_sem0_1 : DmaSem sig := 60
abbrev cc6_sem1_0 : DmaSem sig := 61
abbrev cc6_sem2_0 : DmaSem sig := 62
abbrev cc6_sem3_0 : DmaSem sig := 63
abbrev cc6_sem4_0 : DmaSem sig := 64
abbrev cc6_sem5_0 : DmaSem sig := 65
abbrev cc6_sem5_1 : DmaSem sig := 66
abbrev cc7_sem0_0 : DmaSem sig := 67
abbrev cc7_sem0_1 : DmaSem sig := 68
abbrev cc7_sem1_0 : DmaSem sig := 69
abbrev cc7_sem2_0 : DmaSem sig := 70
abbrev cc7_sem2_1 : DmaSem sig := 71
abbrev cc8_sem0_0 : DmaSem sig := 72
abbrev cc8_sem0_1 : DmaSem sig := 73
abbrev cc8_sem1_0 : DmaSem sig := 74
abbrev cc8_sem1_1 : DmaSem sig := 75
abbrev cc8_sem2_0 : DmaSem sig := 76
abbrev cc8_sem3_0 : DmaSem sig := 77
abbrev cc8_sem4_0 : DmaSem sig := 78
abbrev cc8_sem4_1 : DmaSem sig := 79

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x8x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x8x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_7 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S1x8x64 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 2 → Memref sig .tc .vmem S1x8x64 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S5000x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_6 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc5_transform_7 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S64x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S64x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x64 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev stage5_6 : Fin 2 → Memref sig .tc .vmem S1x8x64 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev stage5_7 : Fin 2 → Memref sig .tc .vmem S1x8x64 .f32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S5000x128 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S64x16 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S5000x16 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev grid8 : Pipeline.Grid := ⟨1, ![20], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S5000x16 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 1 → Memref sig .tc .vmem S64x16 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x16 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 2 → Memref sig .tc .vmem S5000x16 .f32 := fun | 0 => Memref.whole cc8_stg4_0 | 1 => Memref.whole cc8_stg4_1 | ⟨_ + 2, h⟩ => absurd h (Nat.not_lt.2 (Nat.le_add_left _ _))
abbrev sem8_4 : Fin 2 → DmaSem sig := fun | 0 => cc8_sem4_0 | 1 => cc8_sem4_1 | ⟨_ + 2, h⟩ => absurd h (Nat.not_lt.2 (Nat.le_add_left _ _))
abbrev reads8_4 : Fin grid8.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  reduces_S5000x64_S64 : S5000x64.Reduces [0] S64
  broadcasts_S1x64_S8x64 : S1x64.Broadcasts S8x64
  inb_S1x8x64_S1x8x64_0_0_0 : ∀ a, (![0, 0, 0] : Fin 3 → Nat) a + S1x8x64.size a ≤ S1x8x64.size a
  h_S1x8x64 : 0 < S1x8x64.numel
  shapeCasts_S1x8x64_S8x64 : S1x8x64.ShapeCasts S8x64
  shapeCasts_S8x64_S1x8x64 : S8x64.ShapeCasts S1x8x64
  slices_S20x8x64_S20x1x64_0_0_0 : S20x8x64.Slices ![0, 0, 0] S20x1x64
  shapeCasts_S20x1x64_S20x64 : S20x1x64.ShapeCasts S20x64
  reducesTo_S20x64_S64_d0 : S20x64.ReducesTo [0] S64
  h_S_ : 0 < S_.numel
  bcast_S_S64 : S_.BroadcastsInDim S64 (![] : Fin 0 → Fin S64.rank)
  shapeCasts_S100000x64_S50000x128 : S100000x64.ShapeCasts S50000x128
  shapeCasts_S1x64_S64 : S1x64.ShapeCasts S64
  concatenates_S64_S64_S128_d0 : Shape.Concatenates [S64, S64] S128 0
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S50000x128_S100000x64 : S50000x128.ShapeCasts S100000x64
  inb_S64x64_S64x64_0_0 : ∀ a, (![0, 0] : Fin 2 → Nat) a + S64x64.size a ≤ S64x64.size a
  h_S64x64 : 0 < S64x64.numel
  inb_S64x16_S64x16_0_0 : ∀ a, (![0, 0] : Fin 2 → Nat) a + S64x16.size a ≤ S64x16.size a
  h_S64x16 : 0 < S64x16.numel
  inb_S5000x16_S5000x16_0_0 : ∀ a, (![0, 0] : Fin 2 → Nat) a + S5000x16.size a ≤ S5000x16.size a
  h_S5000x16 : 0 < S5000x16.numel
  bcast_S_S100000x16 : S_.BroadcastsInDim S100000x16 (![] : Fin 0 → Fin S100000x16.rank)
  bcast_S100000x1_S100000x16_0_1 : S100000x1.BroadcastsInDim S100000x16 (![0, 1] : Fin 2 → Fin S100000x16.rank)
  shapeCasts_S16_S1x16 : S16.ShapeCasts S1x16
  shapeCasts_S5000x16_S5000x16 : S5000x16.ShapeCasts S5000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  scatter_S100000_S1600000x1_S1600000_n_0_0_1_wf : ScatterDims.WF S100000 S1600000x1 S1600000 [] [0] [0] 1
  dot_S5000x128_S128x64_S5000x64_1_0_0_1_n_n_wf : DotDims.WF S5000x128 S128x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x64_S5000x64_1_0_0_1_n_n_wf : DotDims.WF S5000x64 S64x64 S5000x64 [1] [0] [0] [1] [] []
  dot_S5000x64_S64x16_S5000x16_1_0_0_1_n_n_wf : DotDims.WF S5000x64 S64x16 S5000x16 [1] [0] [0] [1] [] []
  gather_S100000x16_S1600000x1_S1600000x16_1_0_n_n_0_1_116_wf : GatherDims.WF S100000x16 S1600000x1 S1600000x16 [1] [0] [] [0] [] 1 ![1, 16]
  scatter_S100000x16_S1600000x1_S1600000x16_1_0_0_1_wf : ScatterDims.WF S100000x16 S1600000x1 S1600000x16 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S100000x64.size a
  hwx1_4 : ∀ i : grid1.Coords, EltTy.bits .f32 = 32 ∨ (Rect.block (s := S100000x64) S5000x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x8x64.size a ≤ S20x8x64.size a
  hwx1_5 : ∀ i : grid1.Coords, EltTy.bits .f32 = 32 ∨ (Rect.block (s := S20x8x64) S1x8x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x8x64.size a ≤ S20x8x64.size a
  hwx1_6 : ∀ i : grid1.Coords, EltTy.bits .f32 = 32 ∨ (Rect.block (s := S20x8x64) S1x8x64.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S50000x128.size a
  hwx2_5 : ∀ i : grid2.Coords, EltTy.bits .f32 = 32 ∨ (Rect.block (s := S50000x128) S5000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S100000x64.size a
  hwx3_1 : ∀ i : grid3.Coords, EltTy.bits .f32 = 32 ∨ (Rect.block (s := S100000x64) S5000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .f32 = 32 ∨ (Rect.block (s := S64x64) S64x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x64.size a ≤ S64x64.size a
  hwx3_3 : ∀ i : grid3.Coords, EltTy.bits .f32 = 32 ∨ (Rect.block (s := S64x64) S64x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x64.size a ≤ S100000x64.size a
  hwx3_5 : ∀ i : grid3.Coords, EltTy.bits .f32 = 32 ∨ (Rect.block (s := S100000x64) S5000x64.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S1x8x64.size a ≤ S20x8x64.size a
  hwx3_6 : ∀ i : grid3.Coords, EltTy.bits .f32 = 32 ∨ (Rect.block (s := S20x8x64) S1x8x64.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S1x8x64.size a ≤ S20x8x64.size a
  hwx3_7 : ∀ i : grid3.Coords, EltTy.bits .f32 = 32 ∨ (Rect.block (s := S20x8x64) S1x8x64.size (cc3_transform_7 i) (hinb3_7 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x128.size a ≤ S50000x128.size a
  hwx4_5 : ∀ i : grid4.Coords, EltTy.bits .f32 = 32 ∨ (Rect.block (s := S50000x128) S5000x128.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S100000x64.size a
  hwx5_0 : ∀ i : grid5.Coords, EltTy.bits .f32 = 32 ∨ (Rect.block (s := S100000x64) S5000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x64.size a ≤ S100000x64.size a
  hwx5_1 : ∀ i : grid5.Coords, EltTy.bits .f32 = 32 ∨ (Rect.block (s := S100000x64) S5000x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S64x64.size a ≤ S64x64.size a
  hwx5_2 : ∀ i : grid5.Coords, EltTy.bits .f32 = 32 ∨ (Rect.block (s := S64x64) S64x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S64x64.size a ≤ S64x64.size a
  hwx5_3 : ∀ i : grid5.Coords, EltTy.bits .f32 = 32 ∨ (Rect.block (s := S64x64) S64x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x64.size a ≤ S1x64.size a
  hwx5_4 : ∀ i : grid5.Coords, EltTy.bits .f32 = 32 ∨ (Rect.block (s := S1x64) S1x64.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x64.size a ≤ S100000x64.size a
  hwx5_5 : ∀ i : grid5.Coords, EltTy.bits .f32 = 32 ∨ (Rect.block (s := S100000x64) S5000x64.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S1x8x64.size a ≤ S20x8x64.size a
  hwx5_6 : ∀ i : grid5.Coords, EltTy.bits .f32 = 32 ∨ (Rect.block (s := S20x8x64) S1x8x64.size (cc5_transform_6 i) (hinb5_6 i)).WholeWords (EltTy.packing .f32)
  hstage5_7 : ∀ j, (stage5_7 j).IsWhole
  nbuf5_7 : grid5.bufCount reads5_7 false = 2
  hreads5_7 : ∀ i i' : grid5.Coords, (∀ a, reads5_7 a = true → i a = i' a) → cc5_transform_7 i = cc5_transform_7 i'
  hinb5_7 : ∀ (i : grid5.Coords) a, (cc5_transform_7 i a + 1) * S1x8x64.size a ≤ S20x8x64.size a
  hwx5_7 : ∀ i : grid5.Coords, EltTy.bits .f32 = 32 ∨ (Rect.block (s := S20x8x64) S1x8x64.size (cc5_transform_7 i) (hinb5_7 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S50000x128.size a
  hwx6_0 : ∀ i : grid6.Coords, EltTy.bits .f32 = 32 ∨ (Rect.block (s := S50000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1x128.size a ≤ S1x128.size a
  hwx6_1 : ∀ i : grid6.Coords, EltTy.bits .f32 = 32 ∨ (Rect.block (s := S1x128) S1x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x128.size a ≤ S1x128.size a
  hwx6_3 : ∀ i : grid6.Coords, EltTy.bits .f32 = 32 ∨ (Rect.block (s := S1x128) S1x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x128.size a ≤ S1x128.size a
  hwx6_4 : ∀ i : grid6.Coords, EltTy.bits .f32 = 32 ∨ (Rect.block (s := S1x128) S1x128.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S5000x128.size a ≤ S50000x128.size a
  hwx6_5 : ∀ i : grid6.Coords, EltTy.bits .f32 = 32 ∨ (Rect.block (s := S50000x128) S5000x128.size (cc6_transform_5 i) (hinb6_5 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x64.size a ≤ S100000x64.size a
  hwx7_0 : ∀ i : grid7.Coords, EltTy.bits .f32 = 32 ∨ (Rect.block (s := S100000x64) S5000x64.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S64x16.size a ≤ S64x16.size a
  hwx7_1 : ∀ i : grid7.Coords, EltTy.bits .f32 = 32 ∨ (Rect.block (s := S64x16) S64x16.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S5000x16.size a ≤ S100000x16.size a
  hwx7_2 : ∀ i : grid7.Coords, EltTy.bits .f32 = 32 ∨ (Rect.block (s := S100000x16) S5000x16.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x64.size a ≤ S100000x64.size a
  hwx8_0 : ∀ i : grid8.Coords, EltTy.bits .f32 = 32 ∨ (Rect.block (s := S100000x64) S5000x64.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S5000x16.size a ≤ S100000x16.size a
  hwx8_1 : ∀ i : grid8.Coords, EltTy.bits .f32 = 32 ∨ (Rect.block (s := S100000x16) S5000x16.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S64x16.size a ≤ S64x16.size a
  hwx8_2 : ∀ i : grid8.Coords, EltTy.bits .f32 = 32 ∨ (Rect.block (s := S64x16) S64x16.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x16.size a ≤ S1x16.size a
  hwx8_3 : ∀ i : grid8.Coords, EltTy.bits .f32 = 32 ∨ (Rect.block (s := S1x16) S1x16.size (cc8_transform_3 i) (hinb8_3 i)).WholeWords (EltTy.packing .f32)
  hstage8_4 : ∀ j, (stage8_4 j).IsWhole
  nbuf8_4 : grid8.bufCount reads8_4 false = 2
  hreads8_4 : ∀ i i' : grid8.Coords, (∀ a, reads8_4 a = true → i a = i' a) → cc8_transform_4 i = cc8_transform_4 i'
  hinb8_4 : ∀ (i : grid8.Coords) a, (cc8_transform_4 i a + 1) * S5000x16.size a ≤ S100000x16.size a
  hwx8_4 : ∀ i : grid8.Coords, EltTy.bits .f32 = 32 ∨ (Rect.block (s := S100000x16) S5000x16.size (cc8_transform_4 i) (hinb8_4 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x16_S5000x16_1_0_0_1_n_n : DotDims S5000x64 S64x16 S5000x16 where
  lhsContracting := [1]
  rhsContracting := [0]
  lhsNonContracting := [0]
  rhsNonContracting := [1]
  lhsBatch := []
  rhsBatch := []
  wf := dot_S5000x64_S64x16_S5000x16_1_0_0_1_n_n_wf
def gather_S100000x16_S1600000x1_S1600000x16_1_0_n_n_0_1_116 : GatherDims S100000x16 S1600000x1 S1600000x16 where
  offsetDims := [1]
  collapsedSliceDims := [0]
  operandBatchingDims := []
  startIndicesBatchingDims := []
  startIndexMap := [0]
  indexVectorDim := 1
  sliceSizes := ![1, 16]
  wf := gather_S100000x16_S1600000x1_S1600000x16_1_0_n_n_0_1_116_wf
def scatter_S100000x16_S1600000x1_S1600000x16_1_0_0_1 : ScatterDims S100000x16 S1600000x1 S1600000x16 where
  updateWindowDims := [1]
  insertedWindowDims := [0]
  scatterDimsToOperandDims := [0]
  indexVectorDim := 1
  wf := scatter_S100000x16_S1600000x1_S1600000x16_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v21) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v22) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v23_0) S5000x64.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v23_1) S1x8x64.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v23_2) S1x8x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v38) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v41) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v44) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v46) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v48) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v49) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v50) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v63) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg8) S64x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg9) S64x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v64) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v65_0) S5000x64.size cc3_transform_5 reads3_5 true false 2 stage3_5 sem3_5
    hrank3 hreads3_5 hinb3_5 nbuf3_5 (Memref.isWhole_whole _) hwx3_5 hstage3_5

abbrev win3_6 : Pipeline.Window sig grid3 :=
  Pipeline.Window.ofSpec (Memref.whole main_v65_1) S1x8x64.size cc3_transform_6 reads3_6 true false 2 stage3_6 sem3_6
    hrank3 hreads3_6 hinb3_6 nbuf3_6 (Memref.isWhole_whole _) hwx3_6 hstage3_6

abbrev win3_7 : Pipeline.Window sig grid3 :=
  Pipeline.Window.ofSpec (Memref.whole main_v65_2) S1x8x64.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

abbrev win4_0 : Pipeline.Window sig grid4 :=
  Pipeline.Window.ofSpec (Memref.whole main_v80) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v83) S1x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v86) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v88) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v90) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v91) S5000x128.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v92) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v105) S5000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_arg13) S64x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_arg14) S64x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v106) S1x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v107_0) S5000x64.size cc5_transform_5 reads5_5 true false 2 stage5_5 sem5_5
    hrank5 hreads5_5 hinb5_5 nbuf5_5 (Memref.isWhole_whole _) hwx5_5 hstage5_5

abbrev win5_6 : Pipeline.Window sig grid5 :=
  Pipeline.Window.ofSpec (Memref.whole main_v107_1) S1x8x64.size cc5_transform_6 reads5_6 true false 2 stage5_6 sem5_6
    hrank5 hreads5_6 hinb5_6 nbuf5_6 (Memref.isWhole_whole _) hwx5_6 hstage5_6

abbrev win5_7 : Pipeline.Window sig grid5 :=
  Pipeline.Window.ofSpec (Memref.whole main_v107_2) S1x8x64.size cc5_transform_7 reads5_7 true false 2 stage5_7 sem5_7
    hrank5 hreads5_7 hinb5_7 nbuf5_7 (Memref.isWhole_whole _) hwx5_7 hstage5_7

abbrev win5 : Fin 8 → Pipeline.Window sig grid5 := fun | 0 => win5_0 | 1 => win5_1 | 2 => win5_2 | 3 => win5_3 | 4 => win5_4 | 5 => win5_5 | 6 => win5_6 | 7 => win5_7 | ⟨_ + 8, h⟩ => absurd h (Nat.not_lt.2 (Nat.le_add_left _ _))
abbrev spec5 : Fin 8 → Pipeline.WinSpec sig grid5.rank := fun w => (win5 w).toWinSpec

abbrev win6_0 : Pipeline.Window sig grid6 :=
  Pipeline.Window.ofSpec (Memref.whole main_v122) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v125) S1x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v128) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v130) S1x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v132) S1x128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v133) S5000x128.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

abbrev win7_0 : Pipeline.Window sig grid7 :=
  Pipeline.Window.ofSpec (Memref.whole main_v134) S5000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_arg19) S64x16.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v135) S5000x16.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_v134) S5000x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v148) S5000x16.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_arg18) S64x16.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v149) S1x16.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v150) S5000x16.size cc8_transform_4 reads8_4 true false 2 stage8_4 sem8_4
    hrank8 hreads8_4 hinb8_4 nbuf8_4 (Memref.isWhole_whole _) hwx8_4 hstage8_4

abbrev win8 : Fin 5 → Pipeline.Window sig grid8 := fun | 0 => win8_0 | 1 => win8_1 | 2 => win8_2 | 3 => win8_3 | 4 => win8_4 | ⟨_ + 5, h⟩ => absurd h (Nat.not_lt.2 (Nat.le_add_left _ _))
abbrev spec8 : Fin 5 → Pipeline.WinSpec sig grid8.rank := fun w => (win8 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x64 : Shape := ⟨2, ![128, 64]⟩
abbrev S64 : Shape := ⟨1, ![64]⟩
abbrev S64x64 : Shape := ⟨2, ![64, 64]⟩
abbrev S64x16 : Shape := ⟨2, ![64, 16]⟩
abbrev S16 : Shape := ⟨1, ![16]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S100000x64 : Shape := ⟨2, ![100000, 64]⟩
abbrev S1x64 : Shape := ⟨2, ![1, 64]⟩
abbrev S1600000x64 : Shape := ⟨2, ![1600000, 64]⟩
abbrev S100000x16 : Shape := ⟨2, ![100000, 16]⟩
abbrev S1x16 : Shape := ⟨2, ![1, 16]⟩

abbrev nBuf : Space → Nat
  | .hbm => 241
  | .vmem => 0
  | .smem => 0
  | _ => 0

abbrev hbmTy0_0 (i : Nat) : BufTy := match i % 128 with
  | 0 => ⟨S100000x128, .f32⟩
  | 1 => ⟨S1600000, .i32⟩
  | 2 => ⟨S1600000, .i32⟩
  | 3 => ⟨S128x64, .f32⟩
  | 4 => ⟨S128x64, .f32⟩
  | 5 => ⟨S64, .f32⟩
  | 6 => ⟨S64, .f32⟩
  | 7 => ⟨S64, .f32⟩
  | 8 => ⟨S64x64, .f32⟩
  | 9 => ⟨S64x64, .f32⟩
  | 10 => ⟨S64, .f32⟩
  | 11 => ⟨S64, .f32⟩
  | 12 => ⟨S64, .f32⟩
  | 13 => ⟨S64x64, .f32⟩
  | 14 => ⟨S64x64, .f32⟩
  | 15 => ⟨S64, .f32⟩
  | 16 => ⟨S64, .f32⟩
  | 17 => ⟨S64, .f32⟩
  | 18 => ⟨S64x16, .f32⟩
  | 19 => ⟨S64x16, .f32⟩
  | 20 => ⟨S16, .f32⟩
  | 21 => ⟨S_, .i32⟩
  | 22 => ⟨S1600000, .i32⟩
  | 23 => ⟨S1600000, .i1⟩
  | 24 => ⟨S_, .i32⟩
  | 25 => ⟨S1600000, .i32⟩
  | 26 => ⟨S1600000, .i32⟩
  | 27 => ⟨S1600000, .i32⟩
  | 28 => ⟨S1600000x1, .i32⟩
  | 29 => ⟨S1600000x128, .f32⟩
  | 30 => ⟨S_, .f32⟩
  | 31 => ⟨S100000x128, .f32⟩
  | 32 => ⟨S1600000x1, .i32⟩
  | 33 => ⟨S100000x128, .f32⟩
  | 34 => ⟨S_, .f32⟩
  | 35 => ⟨S1600000, .f32⟩
  | 36 => ⟨S_, .f32⟩
  | 37 => ⟨S100000, .f32⟩
  | 38 => ⟨S1600000x1, .i32⟩
  | 39 => ⟨S100000, .f32⟩
  | 40 => ⟨S_, .f32⟩
  | 41 => ⟨S100000, .f32⟩
  | 42 => ⟨S100000, .f32⟩
  | 43 => ⟨S100000x1, .f32⟩
  | 44 => ⟨S100000x128, .f32⟩
  | 45 => ⟨S100000x128, .f32⟩
  | 46 => ⟨S100000x64, .f32⟩
  | 47 => ⟨S100000x64, .f32⟩
  | 48 => ⟨S100000x64, .f32⟩
  | 49 => ⟨S1x64, .f32⟩
  | 50 => ⟨S100000x64, .f32⟩
  | 51 => ⟨S100000x64, .f32⟩
  | 52 => ⟨S_, .f32⟩
  | 53 => ⟨S64, .f32⟩
  | 54 => ⟨S_, .f32⟩
  | 55 => ⟨S64, .f32⟩
  | 56 => ⟨S64, .f32⟩
  | 57 => ⟨S1x64, .f32⟩
  | 58 => ⟨S100000x64, .f32⟩
  | 59 => ⟨S100000x64, .f32⟩
  | 60 => ⟨S100000x64, .f32⟩
  | 61 => ⟨S_, .f32⟩
  | 62 => ⟨S64, .f32⟩
  | 63 => ⟨S_, .f32⟩
  | 64 => ⟨S64, .f32⟩
  | 65 => ⟨S64, .f32⟩
  | 66 => ⟨S1x64, .f32⟩
  | 67 => ⟨S100000x64, .f32⟩
  | 68 => ⟨S100000x64, .f32⟩
  | 69 => ⟨S_, .f32⟩
  | 70 => ⟨S64, .f32⟩
  | 71 => ⟨S64, .f32⟩
  | 72 => ⟨S64, .f32⟩
  | 73 => ⟨S1x64, .f32⟩
  | 74 => ⟨S100000x64, .f32⟩
  | 75 => ⟨S100000x64, .f32⟩
  | 76 => ⟨S1x64, .f32⟩
  | 77 => ⟨S100000x64, .f32⟩
  | 78 => ⟨S100000x64, .f32⟩
  | 79 => ⟨S1x64, .f32⟩
  | 80 => ⟨S100000x64, .f32⟩
  | 81 => ⟨S100000x64, .f32⟩
  | 82 => ⟨S_, .i32⟩
  | 83 => ⟨S1600000, .i32⟩
  | 84 => ⟨S1600000, .i1⟩
  | 85 => ⟨S_, .i32⟩
  | 86 => ⟨S1600000, .i32⟩
  | 87 => ⟨S1600000, .i32⟩
  | 88 => ⟨S1600000, .i32⟩
  | 89 => ⟨S1600000x1, .i32⟩
  | 90 => ⟨S1600000x64, .f32⟩
  | 91 => ⟨S_, .f32⟩
  | 92 => ⟨S100000x64, .f32⟩
  | 93 => ⟨S1600000x1, .i32⟩
  | 94 => ⟨S100000x64, .f32⟩
  | 95 => ⟨S_, .f32⟩
  | 96 => ⟨S1600000, .f32⟩
  | 97 => ⟨S_, .f32⟩
  | 98 => ⟨S100000, .f32⟩
  | 99 => ⟨S1600000x1, .i32⟩
  | 100 => ⟨S100000, .f32⟩
  | 101 => ⟨S_, .f32⟩
  | 102 => ⟨S100000, .f32⟩
  | 103 => ⟨S100000, .f32⟩
  | 104 => ⟨S100000x1, .f32⟩
  | 105 => ⟨S100000x64, .f32⟩
  | 106 => ⟨S100000x64, .f32⟩
  | 107 => ⟨S100000x64, .f32⟩
  | 108 => ⟨S100000x64, .f32⟩
  | 109 => ⟨S100000x64, .f32⟩
  | 110 => ⟨S1x64, .f32⟩
  | 111 => ⟨S100000x64, .f32⟩
  | 112 => ⟨S100000x64, .f32⟩
  | 113 => ⟨S_, .f32⟩
  | 114 => ⟨S64, .f32⟩
  | 115 => ⟨S_, .f32⟩
  | 116 => ⟨S64, .f32⟩
  | 117 => ⟨S64, .f32⟩
  | 118 => ⟨S1x64, .f32⟩
  | 119 => ⟨S100000x64, .f32⟩
  | 120 => ⟨S100000x64, .f32⟩
  | 121 => ⟨S100000x64, .f32⟩
  | 122 => ⟨S_, .f32⟩
  | 123 => ⟨S64, .f32⟩
  | 124 => ⟨S_, .f32⟩
  | 125 => ⟨S64, .f32⟩
  | 126 => ⟨S64, .f32⟩
  | 127 => ⟨S1x64, .f32⟩
  | _ => ⟨S100000x128, .f32⟩

abbrev hbmTy0_1 (i : Nat) : BufTy := match i % 128 with
  | 0 => ⟨S100000x64, .f32⟩
  | 1 => ⟨S100000x64, .f32⟩
  | 2 => ⟨S_, .f32⟩
  | 3 => ⟨S64, .f32⟩
  | 4 => ⟨S64, .f32⟩
  | 5 => ⟨S64, .f32⟩
  | 6 => ⟨S1x64, .f32⟩
  | 7 => ⟨S100000x64, .f32⟩
  | 8 => ⟨S100000x64, .f32⟩
  | 9 => ⟨S1x64, .f32⟩
  | 10 => ⟨S100000x64, .f32⟩
  | 11 => ⟨S100000x64, .f32⟩
  | 12 => ⟨S1x64, .f32⟩
  | 13 => ⟨S100000x64, .f32⟩
  | 14 => ⟨S100000x64, .f32⟩
  | 15 => ⟨S_, .f32⟩
  | 16 => ⟨S100000x64, .f32⟩
  | 17 => ⟨S100000x64, .f32⟩
  | 18 => ⟨S_, .i32⟩
  | 19 => ⟨S1600000, .i32⟩
  | 20 => ⟨S1600000, .i1⟩
  | 21 => ⟨S_, .i32⟩
  | 22 => ⟨S1600000, .i32⟩
  | 23 => ⟨S1600000, .i32⟩
  | 24 => ⟨S1600000, .i32⟩
  | 25 => ⟨S1600000x1, .i32⟩
  | 26 => ⟨S1600000x64, .f32⟩
  | 27 => ⟨S_, .f32⟩
  | 28 => ⟨S100000x64, .f32⟩
  | 29 => ⟨S1600000x1, .i32⟩
  | 30 => ⟨S100000x64, .f32⟩
  | 31 => ⟨S_, .f32⟩
  | 32 => ⟨S1600000, .f32⟩
  | 33 => ⟨S_, .f32⟩
  | 34 => ⟨S100000, .f32⟩
  | 35 => ⟨S1600000x1, .i32⟩
  | 36 => ⟨S100000, .f32⟩
  | 37 => ⟨S_, .f32⟩
  | 38 => ⟨S100000, .f32⟩
  | 39 => ⟨S100000, .f32⟩
  | 40 => ⟨S100000x1, .f32⟩
  | 41 => ⟨S100000x64, .f32⟩
  | 42 => ⟨S100000x64, .f32⟩
  | 43 => ⟨S100000x64, .f32⟩
  | 44 => ⟨S100000x64, .f32⟩
  | 45 => ⟨S100000x64, .f32⟩
  | 46 => ⟨S1x64, .f32⟩
  | 47 => ⟨S100000x64, .f32⟩
  | 48 => ⟨S100000x64, .f32⟩
  | 49 => ⟨S_, .f32⟩
  | 50 => ⟨S64, .f32⟩
  | 51 => ⟨S_, .f32⟩
  | 52 => ⟨S64, .f32⟩
  | 53 => ⟨S64, .f32⟩
  | 54 => ⟨S1x64, .f32⟩
  | 55 => ⟨S100000x64, .f32⟩
  | 56 => ⟨S100000x64, .f32⟩
  | 57 => ⟨S100000x64, .f32⟩
  | 58 => ⟨S_, .f32⟩
  | 59 => ⟨S64, .f32⟩
  | 60 => ⟨S_, .f32⟩
  | 61 => ⟨S64, .f32⟩
  | 62 => ⟨S64, .f32⟩
  | 63 => ⟨S1x64, .f32⟩
  | 64 => ⟨S100000x64, .f32⟩
  | 65 => ⟨S100000x64, .f32⟩
  | 66 => ⟨S_, .f32⟩
  | 67 => ⟨S64, .f32⟩
  | 68 => ⟨S64, .f32⟩
  | 69 => ⟨S64, .f32⟩
  | 70 => ⟨S1x64, .f32⟩
  | 71 => ⟨S100000x64, .f32⟩
  | 72 => ⟨S100000x64, .f32⟩
  | 73 => ⟨S1x64, .f32⟩
  | 74 => ⟨S100000x64, .f32⟩
  | 75 => ⟨S100000x64, .f32⟩
  | 76 => ⟨S1x64, .f32⟩
  | 77 => ⟨S100000x64, .f32⟩
  | 78 => ⟨S100000x64, .f32⟩
  | 79 => ⟨S_, .f32⟩
  | 80 => ⟨S100000x64, .f32⟩
  | 81 => ⟨S100000x64, .f32⟩
  | 82 => ⟨S_, .i32⟩
  | 83 => ⟨S1600000, .i32⟩
  | 84 => ⟨S1600000, .i1⟩
  | 85 => ⟨S_, .i32⟩
  | 86 => ⟨S1600000, .i32⟩
  | 87 => ⟨S1600000, .i32⟩
  | 88 => ⟨S1600000, .i32⟩
  | 89 => ⟨S1600000x1, .i32⟩
  | 90 => ⟨S1600000x64, .f32⟩
  | 91 => ⟨S_, .f32⟩
  | 92 => ⟨S100000x64, .f32⟩
  | 93 => ⟨S1600000x1, .i32⟩
  | 94 => ⟨S100000x64, .f32⟩
  | 95 => ⟨S_, .f32⟩
  | 96 => ⟨S1600000, .f32⟩
  | 97 => ⟨S_, .f32⟩
  | 98 => ⟨S100000, .f32⟩
  | 99 => ⟨S1600000x1, .i32⟩
  | 100 => ⟨S100000, .f32⟩
  | 101 => ⟨S_, .f32⟩
  | 102 => ⟨S100000, .f32⟩
  | 103 => ⟨S100000, .f32⟩
  | 104 => ⟨S100000x1, .f32⟩
  | 105 => ⟨S100000x64, .f32⟩
  | 106 => ⟨S100000x64, .f32⟩
  | 107 => ⟨S100000x16, .f32⟩
  | 108 => ⟨S100000x16, .f32⟩
  | 109 => ⟨S100000x16, .f32⟩
  | 110 => ⟨S1x16, .f32⟩
  | 111 => ⟨S100000x16, .f32⟩
  | 112 => ⟨S100000x16, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_c : Ref sig .tc := ⟨.hbm, 21, rfl⟩
abbrev main_v0 : Ref sig .tc := ⟨.hbm, 22, rfl⟩
abbrev main_v1 : Ref sig .tc := ⟨.hbm, 23, rfl⟩
abbrev main_c_0 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_cst : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_cst_1 : Ref sig .tc := ⟨.hbm, 34, rfl⟩
abbrev main_v10 : Ref sig .tc := ⟨.hbm, 35, rfl⟩
abbrev main_cst_2 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_cst_3 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_cst_4 : Ref sig .tc := ⟨.hbm, 52, rfl⟩
abbrev main_v25 : Ref sig .tc := ⟨.hbm, 53, rfl⟩
abbrev main_cst_5 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_cst_6 : Ref sig .tc := ⟨.hbm, 61, rfl⟩
abbrev main_v32 : Ref sig .tc := ⟨.hbm, 62, rfl⟩
abbrev main_cst_7 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_cst_8 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_c_9 : Ref sig .tc := ⟨.hbm, 82, rfl⟩
abbrev main_v50 : Ref sig .tc := ⟨.hbm, 83, rfl⟩
abbrev main_v51 : Ref sig .tc := ⟨.hbm, 84, rfl⟩
abbrev main_c_10 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_cst_11 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_cst_12 : Ref sig .tc := ⟨.hbm, 95, rfl⟩
abbrev main_v60 : Ref sig .tc := ⟨.hbm, 96, rfl⟩
abbrev main_cst_13 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_cst_14 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_cst_15 : Ref sig .tc := ⟨.hbm, 113, rfl⟩
abbrev main_v75 : Ref sig .tc := ⟨.hbm, 114, rfl⟩
abbrev main_cst_16 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_cst_17 : Ref sig .tc := ⟨.hbm, 122, rfl⟩
abbrev main_v82 : Ref sig .tc := ⟨.hbm, 123, rfl⟩
abbrev main_cst_18 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_cst_19 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_call0_cst : Ref sig .tc := ⟨.hbm, 143, rfl⟩
abbrev main_call0_v0 : Ref sig .tc := ⟨.hbm, 144, rfl⟩
abbrev main_v100 : Ref sig .tc := ⟨.hbm, 145, rfl⟩
abbrev main_c_20 : Ref sig .tc := ⟨.hbm, 146, rfl⟩
abbrev main_v101 : Ref sig .tc := ⟨.hbm, 147, rfl⟩
abbrev main_v102 : Ref sig .tc := ⟨.hbm, 148, rfl⟩
abbrev main_c_21 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_cst_22 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩
abbrev main_cst_23 : Ref sig .tc := ⟨.hbm, 159, rfl⟩
abbrev main_v111 : Ref sig .tc := ⟨.hbm, 160, rfl⟩
abbrev main_cst_24 : Ref sig .tc := ⟨.hbm, 161, rfl⟩
abbrev main_v112 : Ref sig .tc := ⟨.hbm, 162, rfl⟩
abbrev main_v113 : Ref sig .tc := ⟨.hbm, 163, rfl⟩
abbrev main_v114 : Ref sig .tc := ⟨.hbm, 164, rfl⟩
abbrev main_cst_25 : Ref sig .tc := ⟨.hbm, 165, rfl⟩
abbrev main_v115 : Ref sig .tc := ⟨.hbm, 166, rfl⟩
abbrev main_v116 : Ref sig .tc := ⟨.hbm, 167, rfl⟩
abbrev main_v117 : Ref sig .tc := ⟨.hbm, 168, rfl⟩
abbrev main_v118 : Ref sig .tc := ⟨.hbm, 169, rfl⟩
abbrev main_v119 : Ref sig .tc := ⟨.hbm, 170, rfl⟩
abbrev main_v120 : Ref sig .tc := ⟨.hbm, 171, rfl⟩
abbrev main_v121 : Ref sig .tc := ⟨.hbm, 172, rfl⟩
abbrev main_v122 : Ref sig .tc := ⟨.hbm, 173, rfl⟩
abbrev main_v123 : Ref sig .tc := ⟨.hbm, 174, rfl⟩
abbrev main_v124 : Ref sig .tc := ⟨.hbm, 175, rfl⟩
abbrev main_v125 : Ref sig .tc := ⟨.hbm, 176, rfl⟩
abbrev main_cst_26 : Ref sig .tc := ⟨.hbm, 177, rfl⟩
abbrev main_v126 : Ref sig .tc := ⟨.hbm, 178, rfl⟩
abbrev main_cst_27 : Ref sig .tc := ⟨.hbm, 179, rfl⟩
abbrev main_v127 : Ref sig .tc := ⟨.hbm, 180, rfl⟩
abbrev main_v128 : Ref sig .tc := ⟨.hbm, 181, rfl⟩
abbrev main_v129 : Ref sig .tc := ⟨.hbm, 182, rfl⟩
abbrev main_v130 : Ref sig .tc := ⟨.hbm, 183, rfl⟩
abbrev main_v131 : Ref sig .tc := ⟨.hbm, 184, rfl⟩
abbrev main_v132 : Ref sig .tc := ⟨.hbm, 185, rfl⟩
abbrev main_cst_28 : Ref sig .tc := ⟨.hbm, 186, rfl⟩
abbrev main_v133 : Ref sig .tc := ⟨.hbm, 187, rfl⟩
abbrev main_cst_29 : Ref sig .tc := ⟨.hbm, 188, rfl⟩
abbrev main_v134 : Ref sig .tc := ⟨.hbm, 189, rfl⟩
abbrev main_v135 : Ref sig .tc := ⟨.hbm, 190, rfl⟩
abbrev main_v136 : Ref sig .tc := ⟨.hbm, 191, rfl⟩
abbrev main_v137 : Ref sig .tc := ⟨.hbm, 192, rfl⟩
abbrev main_v138 : Ref sig .tc := ⟨.hbm, 193, rfl⟩
abbrev main_cst_30 : Ref sig .tc := ⟨.hbm, 194, rfl⟩
abbrev main_v139 : Ref sig .tc := ⟨.hbm, 195, rfl⟩
abbrev main_v140 : Ref sig .tc := ⟨.hbm, 196, rfl⟩
abbrev main_v141 : Ref sig .tc := ⟨.hbm, 197, rfl⟩
abbrev main_v142 : Ref sig .tc := ⟨.hbm, 198, rfl⟩
abbrev main_v143 : Ref sig .tc := ⟨.hbm, 199, rfl⟩
abbrev main_v144 : Ref sig .tc := ⟨.hbm, 200, rfl⟩
abbrev main_v145 : Ref sig .tc := ⟨.hbm, 201, rfl⟩
abbrev main_v146 : Ref sig .tc := ⟨.hbm, 202, rfl⟩
abbrev main_v147 : Ref sig .tc := ⟨.hbm, 203, rfl⟩
abbrev main_v148 : Ref sig .tc := ⟨.hbm, 204, rfl⟩
abbrev main_v149 : Ref sig .tc := ⟨.hbm, 205, rfl⟩
abbrev main_v150 : Ref sig .tc := ⟨.hbm, 206, rfl⟩
abbrev main_call1_cst : Ref sig .tc := ⟨.hbm, 207, rfl⟩
abbrev main_call1_v0 : Ref sig .tc := ⟨.hbm, 208, rfl⟩
abbrev main_v151 : Ref sig .tc := ⟨.hbm, 209, rfl⟩
abbrev main_c_31 : Ref sig .tc := ⟨.hbm, 210, rfl⟩
abbrev main_v152 : Ref sig .tc := ⟨.hbm, 211, rfl⟩
abbrev main_v153 : Ref sig .tc := ⟨.hbm, 212, rfl⟩
abbrev main_c_32 : Ref sig .tc := ⟨.hbm, 213, rfl⟩
abbrev main_v154 : Ref sig .tc := ⟨.hbm, 214, rfl⟩
abbrev main_v155 : Ref sig .tc := ⟨.hbm, 215, rfl⟩
abbrev main_v156 : Ref sig .tc := ⟨.hbm, 216, rfl⟩
abbrev main_v157 : Ref sig .tc := ⟨.hbm, 217, rfl⟩
abbrev main_v158 : Ref sig .tc := ⟨.hbm, 218, rfl⟩
abbrev main_cst_33 : Ref sig .tc := ⟨.hbm, 219, rfl⟩
abbrev main_v159 : Ref sig .tc := ⟨.hbm, 220, rfl⟩
abbrev main_v160 : Ref sig .tc := ⟨.hbm, 221, rfl⟩
abbrev main_v161 : Ref sig .tc := ⟨.hbm, 222, rfl⟩
abbrev main_cst_34 : Ref sig .tc := ⟨.hbm, 223, rfl⟩
abbrev main_v162 : Ref sig .tc := ⟨.hbm, 224, rfl⟩
abbrev main_cst_35 : Ref sig .tc := ⟨.hbm, 225, rfl⟩
abbrev main_v163 : Ref sig .tc := ⟨.hbm, 226, rfl⟩
abbrev main_v164 : Ref sig .tc := ⟨.hbm, 227, rfl⟩
abbrev main_v165 : Ref sig .tc := ⟨.hbm, 228, rfl⟩
abbrev main_cst_36 : Ref sig .tc := ⟨.hbm, 229, rfl⟩
abbrev main_v166 : Ref sig .tc := ⟨.hbm, 230, rfl⟩
abbrev main_v167 : Ref sig .tc := ⟨.hbm, 231, rfl⟩
abbrev main_v168 : Ref sig .tc := ⟨.hbm, 232, rfl⟩
abbrev main_v169 : Ref sig .tc := ⟨.hbm, 233, rfl⟩
abbrev main_v170 : Ref sig .tc := ⟨.hbm, 234, rfl⟩
abbrev main_v171 : Ref sig .tc := ⟨.hbm, 235, rfl⟩
abbrev main_v172 : Ref sig .tc := ⟨.hbm, 236, rfl⟩
abbrev main_v173 : Ref sig .tc := ⟨.hbm, 237, rfl⟩
abbrev main_v174 : Ref sig .tc := ⟨.hbm, 238, rfl⟩
abbrev main_v175 : Ref sig .tc := ⟨.hbm, 239, rfl⟩
abbrev main_v176 : Ref sig .tc := ⟨.hbm, 240, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S64_d0 : S100000x64.ReducesTo [0] S64
  h_S_ : 0 < S_.numel
  bcast_S_S64 : S_.BroadcastsInDim S64 (![] : Fin 0 → Fin S64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  dot_S100000x64_S64x16_S100000x16_1_0_0_1_n_n_wf : DotDims.WF S100000x64 S64x16 S100000x16 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x16_S100000x16_1_0_0_1_n_n : DotDims S100000x64 S64x16 S100000x16 where
  lhsContracting := [1]
  rhsContracting := [0]
  lhsNonContracting := [0]
  rhsNonContracting := [1]
  lhsBatch := []
  rhsBatch := []
  wf := dot_S100000x64_S64x16_S100000x16_1_0_0_1_n_n_wf

class Facts : Prop extends Facts₀ where

variable [Facts]
-- ==== Proof.LibGatherRows.lean ====
/-
  A gather of whole rows, read at an index written by coordinates.

  Taking rows of an [N, C] table at an [R, 1] array of row numbers gives an [R, C] array. Its element (p, q) is the table's
  element (ρ p, q): the row ρ p is the row number stored for p, read as a signed integer and clamped into [0, N − 1]; the lane q
  is kept. The row ρ p depends on the row numbers alone — not on the table, nor on the lane — so taking rows commutes with
  anything done to each row of the table separately.
-/
import Idealize.ShloMosaic.Lib.ValueIdx
import Idealize.ShloMosaic.Lib.Pipeline.Value

namespace Cert.LibGatherRows

open Idealize.ShloMosaic Idealize.ShloMosaic.ValueIdx

variable {α : Type}

/-- The dimension numbers of taking rows: the table's row axis is collapsed and indexed by the one component of each start index,
    its lane axis is the result's second axis, taken whole. Their conditions `wf` are decided on a program's literal shapes. -/
abbrev rowDims (N R C : ℕ)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- Of a table's two axes, the one that is not the collapsed row axis is the lane axis. -/
private theorem kept_lanes :
    (List.finRange 2).filter (fun a : Fin 2 => a ∉ ([0] ++ [] : List (Fin 2))) = [1] := by decide

/-- The row of an `N`-row table that result row `p` reads: the stored row number, signed, clamped into `[0, N − 1]`. -/
def rowOf {N R w : ℕ} (hN : 0 < N) (idx : IVec ⟨2, ![R, 1]⟩ w) (p : Fin R) : Fin N :=
  ⟨min (idx (ix2 p (0 : Fin 1))).toInt.toNat (N - 1), by omega⟩

/-- Rows of an `[N, C]` table taken at an `[R, 1]` array of row numbers: element `(p, q)` is the table's `(rowOf p, q)`. -/
theorem gather_rows_apply {N R C w : ℕ} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (p : Fin R) (q : Fin C) :
    Host.gather (rowDims N R C wf) x idx (ix2 p q) = x (ix2 (rowOf hN idx p) q) := by
  unfold Host.gather
  congr 1
  funext a
  refine Fin.ext ?_
  show (rowDims N R C wf).start (ix2 p q) idx a + (rowDims N R C wf).batchCoord (ix2 p q) a
    + (rowDims N R C wf).offCoord (ix2 p q) a = _
  rw [GatherDims.batchCoord_eq_zero _ _ _ List.not_mem_nil]
  match a with
  | ⟨0, _⟩ =>
    show (rowDims N R C wf).start (ix2 p q) idx (0 : Fin 2) + 0 + (rowDims N R C wf).offCoord (ix2 p q) (0 : Fin 2)
      = (rowOf hN idx p).val
    rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N R C wf).startIndexMap from List.mem_singleton.mpr rfl)]
    have hsi : (rowDims N R C wf).siIdx (ix2 p q) ⟨List.idxOf (0 : Fin 2) (rowDims N R C wf).startIndexMap,
        List.idxOf_lt_length_iff.2 (List.mem_singleton.mpr rfl)⟩ = ix2 p (0 : Fin 1) := by
      funext b; refine Fin.ext ?_
      match b with
      | ⟨0, _⟩ => rfl
      | ⟨1, _⟩ => rfl
    rw [hsi]
    rfl
  | ⟨1, _⟩ =>
    show (rowDims N R C wf).start (ix2 p q) idx (1 : Fin 2) + 0 + (rowDims N R C wf).offCoord (ix2 p q) (1 : Fin 2) = q.val
    have hs : (rowDims N R C wf).start (ix2 p q) idx (1 : Fin 2) = 0 := by
      unfold GatherDims.start
      rw [dif_neg (show (1 : Fin 2) ∉ ([0] : List (Fin 2)) by decide)]
    have hkept : (rowDims N R C wf).sKept = [(1 : Fin 2)] := kept_lanes
    have hk : (1 : Fin 2) ∈ (rowDims N R C wf).sKept := by rw [hkept]; exact List.mem_singleton.mpr rfl
    rw [hs]
    unfold GatherDims.offCoord
    rw [dif_pos hk]
    simp only [List.getElem_singleton, Nat.add_zero, Nat.zero_add]
    rfl

end Cert.LibGatherRows
-- ==== Proof.LibRowIndex.lean ====
/-
  Rows named by an array of row numbers: a flat gather, and where an accumulating scatter of rows lands.

  Taking entries of a length-N vector at an [R, 1] array of row numbers gives a length-R vector whose entry p is the vector's
  entry ρ p, the SAME row ρ p (the stored number read signed and clamped into [0, N − 1]) that taking whole rows of an [N, C]
  table at those numbers reads. A scatter of the rows of an [R, C] array of updates into an [N, C] array at an [R, 1] array
  of row numbers lands update (e, f) — when it lands at all — on row "the stored number of e, read signed, not clamped", so an
  update that lands on row n has stored number exactly n. jnp's indexing first wraps a negative number by adding the extent:
  on a number that is already a valid row the wrap does nothing, so a scatter target n is also the row a gather at the wrapped
  numbers reads.
-/
import Idealize.ShloMosaic.Lib.ValueIdx
import Idealize.ShloMosaic.Lib.Pipeline.Value
import proofs.«174735_j64811056496761_2_alg».proof.Proof.LibGatherRows

namespace Cert.LibRowIndex

open Idealize.ShloMosaic Idealize.ShloMosaic.ValueIdx Cert.LibGatherRows

variable {α : Type}

/-- The dimension numbers of taking entries of a vector: its one axis is collapsed and indexed by the one component of each
    start index; the result has no offset axis. -/
abbrev vecDims (N R : ℕ) (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- Entries of a length-`N` vector taken at an `[R, 1]` array of row numbers: entry `p` is the vector's entry `rowOf p`. -/
theorem gather_vec_apply {N R w : ℕ} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (p : Fin R) :
    Host.gather (vecDims N R wf) x idx (ix1 p) = x (ix1 (rowOf hN idx p)) := by
  unfold Host.gather
  congr 1
  funext a
  refine Fin.ext ?_
  show (vecDims N R wf).start (ix1 p) idx a + (vecDims N R wf).batchCoord (ix1 p) a
    + (vecDims N R wf).offCoord (ix1 p) a = _
  rw [GatherDims.batchCoord_eq_zero _ _ _ List.not_mem_nil]
  match a with
  | ⟨0, _⟩ =>
    show (vecDims N R wf).start (ix1 p) idx (0 : Fin 1) + 0 + (vecDims N R wf).offCoord (ix1 p) (0 : Fin 1)
      = (rowOf hN idx p).val
    rw [GatherDims.offCoord_eq_zero _ _ _ (fun h => ((GatherDims.mem_sKept _ _).mp h).1 (List.mem_singleton.mpr rfl))]
    simp only [Nat.add_zero]
    unfold GatherDims.start
    rw [dif_pos (show (0 : Fin 1) ∈ (vecDims N R wf).startIndexMap from List.mem_singleton.mpr rfl)]
    have hsi : (vecDims N R wf).siIdx (ix1 p) ⟨List.idxOf (0 : Fin 1) (vecDims N R wf).startIndexMap,
        List.idxOf_lt_length_iff.2 (List.mem_singleton.mpr rfl)⟩ = ix2 p (0 : Fin 1) := by
      funext b; refine Fin.ext ?_
      match b with
      | ⟨0, _⟩ => rfl
      | ⟨1, _⟩ => rfl
    rw [hsi]
    rfl

/-- The dimension numbers of scattering rows: the update's lane axis is its window axis, the operand's row axis is inserted
    and indexed by the one component of each scatter index. -/
abbrev rowScatterDims (N R C : ℕ) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- Of an operand's two axes, the inserted row axis is not a kept one. -/
private theorem row_not_kept : (0 : Fin 2) ∉ (List.finRange 2).filter (fun a : Fin 2 => a ∉ ([0] : List (Fin 2))) := by decide

/-- An update `(e, f)` of a scatter of rows that lands on element `i` has stored row number exactly `i`'s row. -/
theorem scatter_rows_target {N R C w : ℕ} (wf : ScatterDims.WF ⟨2, ![N, C]⟩ ⟨2, ![R, 1]⟩ ⟨2, ![R, C]⟩ [1] [0] [0] 1)
    (idx : IVec ⟨2, ![R, 1]⟩ w) (e : Fin R) (f : Fin C) (i : (⟨2, ![N, C]⟩ : Shape).Idx)
    (h : (rowScatterDims N R C wf).resultIdx? (ix2 e f) idx = some i) :
    (idx (ix2 e (0 : Fin 1))).toInt = ((i 0).val : ℤ) := by
  have hst : (rowScatterDims N R C wf).start (ix2 e f) idx (0 : Fin 2) = (idx (ix2 e (0 : Fin 1))).toInt := by
    unfold ScatterDims.start
    rw [dif_pos (show (0 : Fin 2) ∈ (rowScatterDims N R C wf).scatterDimsToOperandDims from List.mem_singleton.mpr rfl)]
    have hsi : (rowScatterDims N R C wf).siIdx (ix2 e f) ⟨List.idxOf (0 : Fin 2) (rowScatterDims N R C wf).scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hw : (rowScatterDims N R C wf).window (ix2 e f) (0 : Fin 2) = 0 := by
    unfold ScatterDims.window
    rw [dif_neg (show (0 : Fin 2) ∉ (rowScatterDims N R C wf).sKept from row_not_kept)]
  unfold ScatterDims.resultIdx? at h
  split at h
  · rename_i hin
    have h0 := congrArg Fin.val (congrFun (Option.some.inj h) (0 : Fin 2))
    have hpos := (hin (0 : Fin 2)).1
    rw [hst, hw] at hpos
    simp only [hst, hw] at h0
    omega
  · exact absurd h (by simp)

/-- jnp's wrap of a negative row number, `select(v < 0, v + k, v)`, leaves a non-negative number alone. -/
theorem wrap_of_nonneg (v k : BitVec 32) (hv : 0 ≤ v.toInt) :
    Scalar.select (IntOp.cmpi .slt v 0#32) (IntOp.addi v k) v = v := by
  have : IntOp.cmpi .slt v 0#32 ≠ 1 := by
    simp only [IntOp.cmpi, BitVec.slt]
    have h0 : (0#32 : BitVec 32).toInt = 0 := by decide
    rw [h0, decide_eq_false (by omega)]
    decide
  rw [Scalar.select, if_neg this]

/-- The row a gather reads at a row number that is stored as a valid row `n`: that row. -/
theorem rowOf_of_toInt {N R : ℕ} (hN : 0 < N) (idx : IVec ⟨2, ![R, 1]⟩ 32) (p : Fin R) (n : Fin N)
    (h : (idx (ix2 p (0 : Fin 1))).toInt = (n.val : ℤ)) : rowOf hN idx p = n := by
  refine Fin.ext ?_
  show min (idx (ix2 p (0 : Fin 1))).toInt.toNat (N - 1) = n.val
  rw [h]
  have := n.isLt
  simp only [Int.toNat_natCast]
  omega

end Cert.LibRowIndex
-- ==== Proof.LibRowAggLinear.lean ====
/-
  Summing rows into rows, and a matrix product applied after the sum.

  A graph layer adds, into row p of an [N, C] table, every row of an [R, C] array of updates whose stored row number is p
  (an accumulating scatter of rows, started from the zero table); the updates are themselves rows of the table taken at
  another array of row numbers (a gather of rows). A matrix product with a [C, D] matrix acts on each row separately, so it
  commutes with taking rows and — being additive in the row — with the accumulation: multiplying the aggregated table is the
  same as aggregating the multiplied one. Over the extended reals the distributive law a·w + b·w = (a + b)·w fails at
  infinities, so the statements ask every entry to be a real number.
-/
import Idealize.ShloMosaic.PureOps.Ideal
import Idealize.ShloMosaic.Lib.ValueIdx
import Idealize.ShloMosaic.Lib.Pipeline.Value
import proofs.«174735_j64811056496761_2_alg».proof.Proof.LibGatherRows
import proofs.«174735_j64811056496761_2_alg».proof.Proof.LibRowIndex

namespace Cert.LibRowAggLinear

open Idealize.ShloMosaic Idealize.ShloMosaic.ValueIdx Cert.LibGatherRows Cert.LibRowIndex
open scoped BigOperators

/-! ## Real numbers inside the extended reals -/

/-- The inclusion of the reals in the extended reals carries a finite sum to the finite sum. -/
@[norm_cast]
theorem coe_sum {κ : Type} (S : Finset κ) (f : κ → ℝ) : ((∑ e ∈ S, f e : ℝ) : EReal) = ∑ e ∈ S, (f e : EReal) := by
  classical
  induction S using Finset.induction_on with
  | empty => simp
  | insert a s ha ih => rw [Finset.sum_insert ha, Finset.sum_insert ha, EReal.coe_add, ih]

/-- A sum of two real numbers is a real number. -/
theorem real_add {a b : EReal} (ha : ∃ r : ℝ, a = r) (hb : ∃ r : ℝ, b = r) : ∃ r : ℝ, a + b = r := by
  obtain ⟨x, rfl⟩ := ha
  obtain ⟨y, rfl⟩ := hb
  exact ⟨x + y, (EReal.coe_add x y).symm⟩

/-- A product of two real numbers is a real number. -/
theorem real_mul {a b : EReal} (ha : ∃ r : ℝ, a = r) (hb : ∃ r : ℝ, b = r) : ∃ r : ℝ, a * b = r := by
  obtain ⟨x, rfl⟩ := ha
  obtain ⟨y, rfl⟩ := hb
  exact ⟨x * y, (EReal.coe_mul x y).symm⟩

/-- The larger of two real numbers is a real number. -/
theorem real_max {a b : EReal} (ha : ∃ r : ℝ, a = r) (hb : ∃ r : ℝ, b = r) : ∃ r : ℝ, max a b = r := by
  obtain ⟨x, rfl⟩ := ha
  obtain ⟨y, rfl⟩ := hb
  exact ⟨max x y, (EReal.coe_strictMono.monotone.map_max (a := x) (b := y)).symm⟩

/-- A finite sum of real numbers is a real number. -/
theorem real_sum {κ : Type} (S : Finset κ) (f : κ → EReal) (hf : ∀ e ∈ S, ∃ r : ℝ, f e = r) :
    ∃ r : ℝ, ∑ e ∈ S, f e = r := by
  classical
  induction S using Finset.induction_on with
  | empty => exact ⟨0, by simp⟩
  | insert a s ha ih =>
    obtain ⟨x, hx⟩ := hf a (Finset.mem_insert_self a s)
    obtain ⟨y, hy⟩ := ih (fun e he => hf e (Finset.mem_insert_of_mem he))
    exact ⟨x + y, by rw [Finset.sum_insert ha, hx, hy, EReal.coe_add]⟩

/-- A finite sum of products of real numbers — one entry of a matrix product — is a real number. -/
theorem real_sum_mul {ι : Type} [Fintype ι] (a b : ι → EReal) (ha : ∀ c, ∃ r : ℝ, a c = r) (hb : ∀ c, ∃ r : ℝ, b c = r) :
    ∃ r : ℝ, ∑ c, a c * b c = r :=
  real_sum Finset.univ _ (fun c _ => real_mul (ha c) (hb c))

/-- Multiplying after aggregating is aggregating after multiplying, for real entries: with a row `a`, a finite family of
    rows `g e` and a column `wt`, the product of the row `a + ∑ e, g e` with the column is the product of `a` with the column
    plus the sum over `e` of the products of the rows `g e` with the column. -/
theorem sum_add_sum_mul {ι κ : Type} [Fintype ι] (S : Finset κ) (a : ι → EReal) (g : κ → ι → EReal) (wt : ι → EReal)
    (ha : ∀ c, ∃ r : ℝ, a c = r) (hg : ∀ e c, ∃ r : ℝ, g e c = r) (hw : ∀ c, ∃ r : ℝ, wt c = r) :
    ∑ c, (a c + ∑ e ∈ S, g e c) * wt c = (∑ c, a c * wt c) + ∑ e ∈ S, ∑ c, g e c * wt c := by
  choose a' ha' using ha
  choose g' hg' using hg
  choose w' hw' using hw
  obtain rfl : a = fun c => (a' c : EReal) := funext ha'
  obtain rfl : g = fun e c => (g' e c : EReal) := funext fun e => funext (hg' e)
  obtain rfl : wt = fun c => (w' c : EReal) := funext hw'
  have key : ∑ c, (a' c + ∑ e ∈ S, g' e c) * w' c = (∑ c, a' c * w' c) + ∑ e ∈ S, ∑ c, g' e c * w' c := by
    simp only [add_mul, Finset.sum_add_distrib, Finset.sum_mul]
    rw [Finset.sum_comm]
  simp only [← coe_sum, ← EReal.coe_add, ← EReal.coe_mul]
  exact congrArg Real.toEReal key

/-! ## The accumulating scatter of rows, read at an index -/

section Scatter

variable {N R C w : ℕ}

/-- Of an operand's two axes, the one that is not the inserted row axis is the lane axis. -/
private theorem kept_lanes :
    (List.finRange 2).filter (fun a : Fin 2 => a ∉ ([0] : List (Fin 2))) = [1] := by decide

/-- Of an operand's two axes, the inserted row axis is not a kept one. -/
private theorem row_not_kept : (0 : Fin 2) ∉ (List.finRange 2).filter (fun a : Fin 2 => a ∉ ([0] : List (Fin 2))) := by decide

/-- On the row axis the window of update `(e, f)` starts at the stored row number of `e`, read signed. -/
private theorem start_row (wf : ScatterDims.WF ⟨2, ![N, C]⟩ ⟨2, ![R, 1]⟩ ⟨2, ![R, C]⟩ [1] [0] [0] 1)
    (idx : IVec ⟨2, ![R, 1]⟩ w) (e : Fin R) (f : Fin C) :
    (rowScatterDims N R C wf).start (ix2 e f) idx (0 : Fin 2) = (idx (ix2 e (0 : Fin 1))).toInt := by
  unfold ScatterDims.start
  rw [dif_pos (show (0 : Fin 2) ∈ (rowScatterDims N R C wf).scatterDimsToOperandDims from List.mem_singleton.mpr rfl)]
  have hsi : (rowScatterDims N R C wf).siIdx (ix2 e f) ⟨List.idxOf (0 : Fin 2) (rowScatterDims N R C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the row axis an update has no window coordinate. -/
private theorem window_row (wf : ScatterDims.WF ⟨2, ![N, C]⟩ ⟨2, ![R, 1]⟩ ⟨2, ![R, C]⟩ [1] [0] [0] 1)
    (e : Fin R) (f : Fin C) : (rowScatterDims N R C wf).window (ix2 e f) (0 : Fin 2) = 0 := by
  unfold ScatterDims.window
  rw [dif_neg (show (0 : Fin 2) ∉ (rowScatterDims N R C wf).sKept from row_not_kept)]

/-- On the lane axis the window starts at zero. -/
private theorem start_lane (wf : ScatterDims.WF ⟨2, ![N, C]⟩ ⟨2, ![R, 1]⟩ ⟨2, ![R, C]⟩ [1] [0] [0] 1)
    (idx : IVec ⟨2, ![R, 1]⟩ w) (e : Fin R) (f : Fin C) :
    (rowScatterDims N R C wf).start (ix2 e f) idx (1 : Fin 2) = 0 := by
  unfold ScatterDims.start
  rw [dif_neg (show (1 : Fin 2) ∉ ([0] : List (Fin 2)) by decide)]

/-- On the lane axis the window coordinate of update `(e, f)` is its lane `f`. -/
private theorem window_lane (wf : ScatterDims.WF ⟨2, ![N, C]⟩ ⟨2, ![R, 1]⟩ ⟨2, ![R, C]⟩ [1] [0] [0] 1)
    (e : Fin R) (f : Fin C) : (rowScatterDims N R C wf).window (ix2 e f) (1 : Fin 2) = f.val := by
  have hkept : (rowScatterDims N R C wf).sKept = [(1 : Fin 2)] := kept_lanes
  have hk : (1 : Fin 2) ∈ (rowScatterDims N R C wf).sKept := by rw [hkept]; exact List.mem_singleton.mpr rfl
  unfold ScatterDims.window
  rw [dif_pos hk]
  simp only [List.getElem_singleton]
  rfl

/-- Where an update of a scatter of rows lands: update `(e, f)` lands on element `(p, q)` exactly when the stored row number
    of `e`, read signed, is `p`, and the lane `f` is `q`. -/
theorem scatter_rows_lands_iff (wf : ScatterDims.WF ⟨2, ![N, C]⟩ ⟨2, ![R, 1]⟩ ⟨2, ![R, C]⟩ [1] [0] [0] 1)
    (idx : IVec ⟨2, ![R, 1]⟩ w) (e : Fin R) (f : Fin C) (p : Fin N) (q : Fin C) :
    (rowScatterDims N R C wf).resultIdx? (ix2 e f) idx = some (ix2 p q)
      ↔ (idx (ix2 e (0 : Fin 1))).toInt = (p.val : ℤ) ∧ f = q := by
  constructor
  · intro h
    refine ⟨scatter_rows_target wf idx e f (ix2 p q) h, ?_⟩
    unfold ScatterDims.resultIdx? at h
    split at h
    · have h1 := congrArg Fin.val (congrFun (Option.some.inj h) (1 : Fin 2))
      simp only [start_lane, window_lane] at h1
      have h2 : ((ix2 p q) (1 : Fin 2)).val = q.val := rfl
      refine Fin.ext ?_
      omega
    · exact absurd h (by simp)
  · rintro ⟨hp, rfl⟩
    have hin : ∀ a, 0 ≤ (rowScatterDims N R C wf).start (ix2 e f) idx a + (rowScatterDims N R C wf).window (ix2 e f) a
        ∧ (rowScatterDims N R C wf).start (ix2 e f) idx a + (rowScatterDims N R C wf).window (ix2 e f) a
          < (⟨2, ![N, C]⟩ : Shape).size a := by
      intro a
      match a with
      | ⟨0, _⟩ =>
        show 0 ≤ (rowScatterDims N R C wf).start (ix2 e f) idx (0 : Fin 2) + (rowScatterDims N R C wf).window (ix2 e f) (0 : Fin 2)
          ∧ (rowScatterDims N R C wf).start (ix2 e f) idx (0 : Fin 2) + (rowScatterDims N R C wf).window (ix2 e f) (0 : Fin 2) < (N : ℤ)
        rw [start_row, window_row, hp]
        have := p.isLt
        omega
      | ⟨1, _⟩ =>
        show 0 ≤ (rowScatterDims N R C wf).start (ix2 e f) idx (1 : Fin 2) + (rowScatterDims N R C wf).window (ix2 e f) (1 : Fin 2)
          ∧ (rowScatterDims N R C wf).start (ix2 e f) idx (1 : Fin 2) + (rowScatterDims N R C wf).window (ix2 e f) (1 : Fin 2) < (C : ℤ)
        rw [start_lane, window_lane]
        have := f.isLt
        omega
    unfold ScatterDims.resultIdx?
    rw [dif_pos hin]
    refine congrArg some ?_
    funext a
    refine Fin.ext ?_
    match a with
    | ⟨0, _⟩ =>
      show ((rowScatterDims N R C wf).start (ix2 e f) idx (0 : Fin 2)
        + (rowScatterDims N R C wf).window (ix2 e f) (0 : Fin 2)).toNat = p.val
      rw [start_row, window_row, hp]
      omega
    | ⟨1, _⟩ =>
      show ((rowScatterDims N R C wf).start (ix2 e f) idx (1 : Fin 2)
        + (rowScatterDims N R C wf).window (ix2 e f) (1 : Fin 2)).toNat = f.val
      rw [start_lane, window_lane]
      omega

/-- The updates that land on row `p` of an `N`-row table: those whose stored row number, read signed, is `p`. -/
def landsOn (idx : IVec ⟨2, ![R, 1]⟩ w) (p : Fin N) : Finset (Fin R) :=
  Finset.univ.filter (fun e => (idx (ix2 e (0 : Fin 1))).toInt = (p.val : ℤ))

/-- An accumulating scatter of rows into the zero table, read at `(p, q)`: the sum, over the updates `e` whose stored row
    number is `p`, of lane `q` of update `e`. -/
theorem scatter_rows_zero_apply (wf : ScatterDims.WF ⟨2, ![N, C]⟩ ⟨2, ![R, 1]⟩ ⟨2, ![R, C]⟩ [1] [0] [0] 1)
    (idx : IVec ⟨2, ![R, 1]⟩ w) (upd : (⟨2, ![R, C]⟩ : Shape).Idx → EReal) (p : Fin N) (q : Fin C) :
    Ideal.hostScatterAdd (rowScatterDims N R C wf) (fun _ => 0) idx upd (ix2 p q) = ∑ e ∈ landsOn idx p, upd (ix2 e q) := by
  show (0 : EReal) + ∑ j ∈ Finset.univ.filter (fun j => (rowScatterDims N R C wf).resultIdx? j idx = some (ix2 p q)), upd j = _
  rw [zero_add, Finset.sum_filter, sum_idx2]
  unfold landsOn
  rw [Finset.sum_filter]
  refine Finset.sum_congr rfl (fun e _ => ?_)
  simp only [scatter_rows_lands_iff]
  by_cases h : (idx (ix2 e (0 : Fin 1))).toInt = (p.val : ℤ)
  · simp only [h, true_and, if_true]
    exact Finset.sum_ite_eq' Finset.univ q (fun f => upd (ix2 e f)) |>.trans (if_pos (Finset.mem_univ q))
  · simp only [h, false_and, if_false, Finset.sum_const_zero]

/-- The same for the host operation: an accumulating float scatter of rows into a table of zeros, at the ideal reading, read at
    `(p, q)`, is the sum of lane `q` of the updates whose stored row number is `p`. -/
theorem host_scatterAdd_rows_zero_apply {φ : FTy} (wf : ScatterDims.WF ⟨2, ![N, C]⟩ ⟨2, ![R, 1]⟩ ⟨2, ![R, C]⟩ [1] [0] [0] 1)
    (z : FVec Ideal ⟨2, ![N, C]⟩ φ) (hz : z = fun _ => 0) (idx : IVec ⟨2, ![R, 1]⟩ w) (upd : FVec Ideal ⟨2, ![R, C]⟩ φ)
    (p : Fin N) (q : Fin C) :
    Host.scatterAdd (F := Ideal) (φ := φ) (rowScatterDims N R C wf) z idx upd (ix2 p q)
      = ∑ e ∈ landsOn idx p, upd (ix2 e q) := by
  subst hz
  exact scatter_rows_zero_apply wf idx upd p q

end Scatter

/-- Membership in the set of updates that land on row `p`: the stored row number, read signed, is `p`. -/
theorem mem_landsOn {N R w : ℕ} (idx : IVec ⟨2, ![R, 1]⟩ w) (p : Fin N) (e : Fin R) :
    e ∈ landsOn idx p ↔ (idx (ix2 e (0 : Fin 1))).toInt = (p.val : ℤ) := by
  unfold landsOn
  rw [Finset.mem_filter]
  exact ⟨fun h => h.2, fun h => ⟨Finset.mem_univ e, h⟩⟩

/-! ## A matrix product after summing gathered rows into rows -/

/-- Aggregate, then multiply = multiply, then aggregate. `A` is an `[N, C]` table and `Wt` a `[C, D]` matrix, all entries real;
    `Y` is their product. Adding to row `p` of `A` the rows of `A` taken at the row numbers `idxG` and summed into the rows named
    by `idxS`, and then multiplying by `Wt`, gives at `(p, q)` what the same aggregation of the rows of `Y` gives: the matrix
    product acts on each row separately, so it commutes with taking rows, and it is additive in the row, so — all entries
    being real — it commutes with the sum. -/
theorem agg_matmul {N R C D w : ℕ} (hN : 0 < N)
    (wfG : GatherDims.WF ⟨2, ![N, C]⟩ ⟨2, ![R, 1]⟩ ⟨2, ![R, C]⟩ [1] [0] [] [0] [] 1 ![1, C])
    (wfS : ScatterDims.WF ⟨2, ![N, C]⟩ ⟨2, ![R, 1]⟩ ⟨2, ![R, C]⟩ [1] [0] [0] 1)
    (wfG' : GatherDims.WF ⟨2, ![N, D]⟩ ⟨2, ![R, 1]⟩ ⟨2, ![R, D]⟩ [1] [0] [] [0] [] 1 ![1, D])
    (wfS' : ScatterDims.WF ⟨2, ![N, D]⟩ ⟨2, ![R, 1]⟩ ⟨2, ![R, D]⟩ [1] [0] [0] 1)
    (A : (⟨2, ![N, C]⟩ : Shape).Idx → EReal) (Wt : (⟨2, ![C, D]⟩ : Shape).Idx → EReal)
    (Y : (⟨2, ![N, D]⟩ : Shape).Idx → EReal)
    (hA : ∀ i, ∃ r : ℝ, A i = r) (hW : ∀ i, ∃ r : ℝ, Wt i = r)
    (hY : ∀ (p : Fin N) (q : Fin D), Y (ix2 p q) = ∑ c : Fin C, A (ix2 p c) * Wt (ix2 c q))
    (idxG idxS : IVec ⟨2, ![R, 1]⟩ w) (p : Fin N) (q : Fin D) :
    ∑ c : Fin C, (A (ix2 p c) + Ideal.hostScatterAdd (rowScatterDims N R C wfS) (fun _ => 0) idxS
        (Host.gather (rowDims N R C wfG) A idxG) (ix2 p c)) * Wt (ix2 c q)
      = Y (ix2 p q) + Ideal.hostScatterAdd (rowScatterDims N R D wfS') (fun _ => 0) idxS
        (Host.gather (rowDims N R D wfG') Y idxG) (ix2 p q) := by
  simp only [scatter_rows_zero_apply, gather_rows_apply hN, hY]
  exact sum_add_sum_mul (landsOn idxS p) (fun c => A (ix2 p c)) (fun e c => A (ix2 (rowOf hN idxG e) c))
    (fun c => Wt (ix2 c q)) (fun _ => hA _) (fun _ _ => hA _) (fun _ => hW _)

/-- The same with the product table written out: `Y` is the function taking an index `i` to the product of row `i 0` of `A`
    with column `i 1` of `Wt`. -/
theorem agg_matmul_fun {N R C D w : ℕ} (hN : 0 < N)
    (wfG : GatherDims.WF ⟨2, ![N, C]⟩ ⟨2, ![R, 1]⟩ ⟨2, ![R, C]⟩ [1] [0] [] [0] [] 1 ![1, C])
    (wfS : ScatterDims.WF ⟨2, ![N, C]⟩ ⟨2, ![R, 1]⟩ ⟨2, ![R, C]⟩ [1] [0] [0] 1)
    (wfG' : GatherDims.WF ⟨2, ![N, D]⟩ ⟨2, ![R, 1]⟩ ⟨2, ![R, D]⟩ [1] [0] [] [0] [] 1 ![1, D])
    (wfS' : ScatterDims.WF ⟨2, ![N, D]⟩ ⟨2, ![R, 1]⟩ ⟨2, ![R, D]⟩ [1] [0] [0] 1)
    (A : (⟨2, ![N, C]⟩ : Shape).Idx → EReal) (Wt : (⟨2, ![C, D]⟩ : Shape).Idx → EReal)
    (hA : ∀ i, ∃ r : ℝ, A i = r) (hW : ∀ i, ∃ r : ℝ, Wt i = r)
    (idxG idxS : IVec ⟨2, ![R, 1]⟩ w) (p : Fin N) (q : Fin D) :
    ∑ c : Fin C, (A (ix2 p c) + Ideal.hostScatterAdd (rowScatterDims N R C wfS) (fun _ => 0) idxS
        (Host.gather (rowDims N R C wfG) A idxG) (ix2 p c)) * Wt (ix2 c q)
      = (∑ c : Fin C, A (ix2 p c) * Wt (ix2 c q)) + Ideal.hostScatterAdd (rowScatterDims N R D wfS') (fun _ => 0) idxS
        (Host.gather (rowDims N R D wfG')
          (fun i : (⟨2, ![N, D]⟩ : Shape).Idx => ∑ c : Fin C, A (ix2 (n0 := N) (i 0) c) * Wt (ix2 (n1 := D) c (i 1))) idxG) (ix2 p q) :=
  agg_matmul hN wfG wfS wfG' wfS' A Wt
    (fun i : (⟨2, ![N, D]⟩ : Shape).Idx => ∑ c : Fin C, A (ix2 (n0 := N) (i 0) c) * Wt (ix2 (n1 := D) c (i 1)))
    hA hW (fun _ _ => rfl) idxG idxS p q

end Cert.LibRowAggLinear
-- ==== Proof.Spec.lean ====
/-
  A four-layer mean-aggregating graph network with batch normalisation, as ONE function of its arguments, entry by entry
  on the extended reals.

  There are 100000 nodes and 1600000 edges; edge `e` carries the row its source number names (after the wrap of a negative
  number and the clamp of a row gather) to the node its end number names (an edge whose end number names no node carries
  nothing). A layer adds, to the node's own row times `Ws`, the mean of the rows the node receives (their sum over the
  guarded count of received edges) times `Wn`, and a bias. A normalisation subtracts the column mean, scales by the inverse
  root of the column variance plus a constant, and applies a gain and an offset; a ramp is the larger of the entry and zero.
-/
import Idealize.ShloMosaic.PureOps.Ideal
import Idealize.ShloMosaic.Lib.ValueIdx
import proofs.«174735_j64811056496761_2_alg».proof.Proof.LibGatherRows
import proofs.«174735_j64811056496761_2_alg».proof.Proof.LibRowIndex
import proofs.«174735_j64811056496761_2_alg».proof.Proof.LibRowAggLinear

noncomputable section

namespace Cert.GNet

open Idealize.ShloMosaic Idealize.ShloMosaic.ValueIdx Cert.LibGatherRows Cert.LibRowIndex Cert.LibRowAggLinear
open scoped BigOperators

/-- The number of nodes. -/
abbrev NN : ℕ := 100000
/-- The number of edges. -/
abbrev EE : ℕ := 1600000

/-- An `a × b` table of extended reals. -/
abbrev Tab (a b : ℕ) : Type := (⟨2, ![a, b]⟩ : Shape).Idx → EReal
/-- A vector of `a` extended reals. -/
abbrev Row (a : ℕ) : Type := (⟨1, ![a]⟩ : Shape).Idx → EReal
/-- One stored 32-bit number per edge. -/
abbrev Edges : Type := IVec ⟨1, ![EE]⟩ 32

/-- The constant one, as the programs spell it. -/
def cOne : EReal := Ideal.ofBits .f32 0x3F800000#32
/-- The number of rows a column mean divides by (100000), as the programs spell it. -/
def cN : EReal := Ideal.ofBits .f32 0x47C35000#32
/-- The constant added to a variance before the inverse root, as the programs spell it. -/
def cEps : EReal := Ideal.ofBits .f32 0x3727C5AC#32

/-- A vector of edge numbers as a one-column table. -/
def asCol (v : Edges) : IVec ⟨2, ![EE, 1]⟩ 32 :=
  broadcastInDim ⟨2, ![EE, 1]⟩ ![0] (by decide) v

/-- The source numbers with a negative one wrapped by the number of nodes, as a one-column table: what the row gather reads. -/
def srcCol (src : Edges) : IVec ⟨2, ![EE, 1]⟩ 32 :=
  asCol (select (cmpi .slt src (broadcastInDim ⟨1, ![EE]⟩ ![] (by decide) (constantI ⟨0, ![]⟩ 32 0#32)))
    (addi src (broadcastInDim ⟨1, ![EE]⟩ ![] (by decide) (constantI ⟨0, ![]⟩ 32 100000#32))) src)

/-- The row of the node table that edge `e` carries. -/
def srcRow (src : Edges) (e : Fin EE) : Fin NN := rowOf (N := NN) (by decide) (srcCol src) e

/-- The edges that end at node `p`. -/
def inEdges (dst : Edges) (p : Fin NN) : Finset (Fin EE) := landsOn (asCol dst) p

/-- The guarded count of edges that end at node `p`: the larger of their number and one. -/
def deg (dst : Edges) (p : Fin NN) : EReal := max (∑ _e ∈ inEdges dst p, cOne) cOne

/-- The sum of the rows node `p` receives, at column `c`. -/
def agg {C : ℕ} (h : Tab NN C) (src dst : Edges) : Tab NN C :=
  fun i => ∑ e ∈ inEdges dst (i 0), h (ix2 (n0 := NN) (n1 := C) (srcRow src e) (i 1))

/-- One layer: own row times `Ws`, plus the mean of the received rows times `Wn`, plus the bias. -/
def sage {C D : ℕ} (h : Tab NN C) (Ws Wn : Tab C D) (b : Row D) (src dst : Edges) : Tab NN D :=
  fun i => ((∑ c : Fin C, h (ix2 (n0 := NN) (i 0) c) * Ws (ix2 (n1 := D) c (i 1)))
      + ∑ c : Fin C, Ideal.div (agg h src dst (ix2 (n0 := NN) (i 0) c)) (deg dst (i 0)) * Wn (ix2 (n1 := D) c (i 1)))
    + b (ix1 (i 1))

/-- The mean of column `q`. -/
def colMean {D : ℕ} (h : Tab NN D) (q : Fin D) : EReal := Ideal.div (∑ p : Fin NN, h (ix2 p q)) cN

/-- The mean squared deviation of column `q` from its mean. -/
def colVar {D : ℕ} (h : Tab NN D) (q : Fin D) : EReal :=
  Ideal.div (∑ p : Fin NN, (h (ix2 p q) - colMean h q) * (h (ix2 p q) - colMean h q)) cN

/-- The normalisation of every column, with gain `g` and offset `be`. -/
def bnorm {D : ℕ} (h : Tab NN D) (g be : Row D) : Tab NN D :=
  fun i => ((h i - colMean h (i 1)) * Ideal.rsqrt (colVar h (i 1) + cEps)) * g (ix1 (i 1)) + be (ix1 (i 1))

/-- The ramp. -/
def relu {D : ℕ} (h : Tab NN D) : Tab NN D := fun i => max (h i) 0

/-- The whole network. -/
def net (x : Tab NN 128) (src dst : Edges)
    (Ws1 Wn1 : Tab 128 64) (b1 g1 be1 : Row 64) (Ws2 Wn2 : Tab 64 64) (b2 g2 be2 : Row 64)
    (Ws3 Wn3 : Tab 64 64) (b3 g3 be3 : Row 64) (Ws4 Wn4 : Tab 64 16) (b4 : Row 16) : Tab NN 16 :=
  sage (relu (bnorm (sage (relu (bnorm (sage (bnorm (sage x Ws1 Wn1 b1 src dst) g1 be1) Ws2 Wn2 b2 src dst) g2 be2))
    Ws3 Wn3 b3 src dst) g3 be3)) Ws4 Wn4 b4 src dst

end Cert.GNet

end
-- ==== Proof.LibVecScatter.lean ====
/-
  Summing numbers into the entries of a vector, and rows into the rows of a table, on top of any starting array.

  An accumulating scatter adds, into entry p of a length-N vector, every entry of a length-R vector of updates whose stored
  entry number (an [R, 1] array of numbers, each read signed, not clamped) is p; an update whose number is not a valid entry
  is dropped. Read at entry p the result is therefore the starting vector's entry p plus the sum of the updates that land on
  p. The set of updates landing on p depends only on the array of numbers and on p, so it is the same finite set that
  describes an accumulating scatter of whole rows into an [N, C] table at the same numbers; the second half of this file
  states that row form over an arbitrary starting table (the starting array need not be written as the constant zero).
-/
import Idealize.ShloMosaic.PureOps.Ideal
import Idealize.ShloMosaic.Lib.ValueIdx
import Idealize.ShloMosaic.Lib.Pipeline.Value
import proofs.«174735_j64811056496761_2_alg».proof.Proof.LibRowIndex
import proofs.«174735_j64811056496761_2_alg».proof.Proof.LibRowAggLinear

namespace Cert.LibVecScatter

open Idealize.ShloMosaic Idealize.ShloMosaic.ValueIdx Cert.LibRowIndex Cert.LibRowAggLinear
open scoped BigOperators

/-! ## Sums over a rank-1 index set -/

/-- A rank-1 index set is its one coordinate range … -/
def idxEquiv1 {n : ℕ} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : ℕ} (f : (⟨1, ![n]⟩ : Shape).Idx → M) :
    ∑ i, f i = ∑ a : Fin n, f (ix1 a) := by
  rw [← Equiv.sum_comp (idxEquiv1 (n := n)).symm f]
  rfl

/-! ## The accumulating scatter into a vector, read at an entry -/

section Vec

variable {N R w : ℕ}

/-- The dimension numbers of scattering numbers into a vector: an update has no window axis, the vector's one axis is
    inserted and indexed by the one component of each scatter index. -/
abbrev vecScatterDims (N R : ℕ) (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

/-- The vector's one axis is inserted, so it is not a kept one. -/
private theorem entry_not_kept :
    (0 : Fin 1) ∉ (List.finRange 1).filter (fun a : Fin 1 => a ∉ ([0] : List (Fin 1))) := by decide

/-- The window of update `e` starts at the stored entry number of `e`, read signed. -/
private theorem start_entry (wf : ScatterDims.WF ⟨1, ![N]⟩ ⟨2, ![R, 1]⟩ ⟨1, ![R]⟩ [] [0] [0] 1)
    (idx : IVec ⟨2, ![R, 1]⟩ w) (e : Fin R) :
    (vecScatterDims N R wf).start (ix1 e) idx (0 : Fin 1) = (idx (ix2 e (0 : Fin 1))).toInt := by
  unfold ScatterDims.start
  rw [dif_pos (show (0 : Fin 1) ∈ (vecScatterDims N R wf).scatterDimsToOperandDims from List.mem_singleton.mpr rfl)]
  have hsi : (vecScatterDims N R wf).siIdx (ix1 e) ⟨List.idxOf (0 : Fin 1) (vecScatterDims N R wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- An update has no window coordinate on the vector's axis. -/
private theorem window_entry (wf : ScatterDims.WF ⟨1, ![N]⟩ ⟨2, ![R, 1]⟩ ⟨1, ![R]⟩ [] [0] [0] 1) (e : Fin R) :
    (vecScatterDims N R wf).window (ix1 e) (0 : Fin 1) = 0 := by
  unfold ScatterDims.window
  rw [dif_neg (show (0 : Fin 1) ∉ (vecScatterDims N R wf).sKept from entry_not_kept)]

/-- Where an update of a scatter into a vector lands: update `e` lands on entry `p` exactly when the stored entry number of
    `e`, read signed, is `p`. -/
theorem scatter_vec_lands_iff (wf : ScatterDims.WF ⟨1, ![N]⟩ ⟨2, ![R, 1]⟩ ⟨1, ![R]⟩ [] [0] [0] 1)
    (idx : IVec ⟨2, ![R, 1]⟩ w) (e : Fin R) (p : Fin N) :
    (vecScatterDims N R wf).resultIdx? (ix1 e) idx = some (ix1 p)
      ↔ (idx (ix2 e (0 : Fin 1))).toInt = (p.val : ℤ) := by
  constructor
  · intro h
    unfold ScatterDims.resultIdx? at h
    split at h
    · rename_i hin
      have h0 : ((vecScatterDims N R wf).start (ix1 e) idx (0 : Fin 1)
          + (vecScatterDims N R wf).window (ix1 e) (0 : Fin 1)).toNat = p.val :=
        congrArg Fin.val (congrFun (Option.some.inj h) (0 : Fin 1))
      have hpos := (hin (0 : Fin 1)).1
      rw [start_entry, window_entry] at hpos h0
      omega
    · exact absurd h (by simp)
  · intro hp
    have hin : ∀ a, 0 ≤ (vecScatterDims N R wf).start (ix1 e) idx a + (vecScatterDims N R wf).window (ix1 e) a
        ∧ (vecScatterDims N R wf).start (ix1 e) idx a + (vecScatterDims N R wf).window (ix1 e) a
          < (⟨1, ![N]⟩ : Shape).size a := by
      intro a
      match a with
      | ⟨0, _⟩ =>
        show 0 ≤ (vecScatterDims N R wf).start (ix1 e) idx (0 : Fin 1) + (vecScatterDims N R wf).window (ix1 e) (0 : Fin 1)
          ∧ (vecScatterDims N R wf).start (ix1 e) idx (0 : Fin 1) + (vecScatterDims N R wf).window (ix1 e) (0 : Fin 1) < (N : ℤ)
        rw [start_entry, window_entry, hp]
        have := p.isLt
        omega
    unfold ScatterDims.resultIdx?
    rw [dif_pos hin]
    refine congrArg some ?_
    funext a
    refine Fin.ext ?_
    match a with
    | ⟨0, _⟩ =>
      show ((vecScatterDims N R wf).start (ix1 e) idx (0 : Fin 1)
        + (vecScatterDims N R wf).window (ix1 e) (0 : Fin 1)).toNat = p.val
      rw [start_entry, window_entry, hp]
      omega

/-- An accumulating scatter into a vector `z`, at the ideal reading, read at entry `p`: entry `p` of `z` plus the sum of the
    updates whose stored entry number is `p`. -/
theorem scatter_vec_apply (wf : ScatterDims.WF ⟨1, ![N]⟩ ⟨2, ![R, 1]⟩ ⟨1, ![R]⟩ [] [0] [0] 1)
    (z : (⟨1, ![N]⟩ : Shape).Idx → EReal) (idx : IVec ⟨2, ![R, 1]⟩ w) (upd : (⟨1, ![R]⟩ : Shape).Idx → EReal) (p : Fin N) :
    Ideal.hostScatterAdd (vecScatterDims N R wf) z idx upd (ix1 p) = z (ix1 p) + ∑ e ∈ landsOn idx p, upd (ix1 e) := by
  show z (ix1 p) + ∑ j ∈ Finset.univ.filter (fun j => (vecScatterDims N R wf).resultIdx? j idx = some (ix1 p)), upd j = _
  refine congrArg (fun t => z (ix1 p) + t) ?_
  rw [Finset.sum_filter, sum_idx1]
  unfold landsOn
  rw [Finset.sum_filter]
  refine Finset.sum_congr rfl (fun e _ => ?_)
  by_cases h : (idx (ix2 e (0 : Fin 1))).toInt = (p.val : ℤ)
  · rw [if_pos ((scatter_vec_lands_iff wf idx e p).mpr h), if_pos h]
  · rw [if_neg (fun h' => h ((scatter_vec_lands_iff wf idx e p).mp h')), if_neg h]

/-- The same for the host operation: an accumulating float scatter into a vector `z`, at the ideal reading, read at entry
    `p`, is entry `p` of `z` plus the sum of the updates whose stored entry number is `p`. -/
theorem host_scatterAdd_vec_apply {φ : FTy} (wf : ScatterDims.WF ⟨1, ![N]⟩ ⟨2, ![R, 1]⟩ ⟨1, ![R]⟩ [] [0] [0] 1)
    (z : FVec Ideal ⟨1, ![N]⟩ φ) (idx : IVec ⟨2, ![R, 1]⟩ w) (upd : FVec Ideal ⟨1, ![R]⟩ φ) (p : Fin N) :
    Host.scatterAdd (F := Ideal) (φ := φ) (vecScatterDims N R wf) z idx upd (ix1 p)
      = z (ix1 p) + ∑ e ∈ landsOn idx p, upd (ix1 e) :=
  scatter_vec_apply wf z idx upd p

end Vec

/-! ## The accumulating scatter of rows on top of any table -/

section Rows

variable {N R C w : ℕ}

/-- An accumulating scatter of rows into a table `z`, at the ideal reading, read at `(p, q)`: entry `(p, q)` of `z` plus the
    sum, over the updates `e` whose stored row number is `p`, of lane `q` of update `e`. -/
theorem scatter_rows_apply (wf : ScatterDims.WF ⟨2, ![N, C]⟩ ⟨2, ![R, 1]⟩ ⟨2, ![R, C]⟩ [1] [0] [0] 1)
    (z : (⟨2, ![N, C]⟩ : Shape).Idx → EReal) (idx : IVec ⟨2, ![R, 1]⟩ w) (upd : (⟨2, ![R, C]⟩ : Shape).Idx → EReal)
    (p : Fin N) (q : Fin C) :
    Ideal.hostScatterAdd (rowScatterDims N R C wf) z idx upd (ix2 p q)
      = z (ix2 p q) + ∑ e ∈ landsOn idx p, upd (ix2 e q) := by
  have h : (0 : EReal) + ∑ j ∈ Finset.univ.filter (fun j => (rowScatterDims N R C wf).resultIdx? j idx = some (ix2 p q)), upd j
      = ∑ e ∈ landsOn idx p, upd (ix2 e q) := scatter_rows_zero_apply wf idx upd p q
  rw [zero_add] at h
  show z (ix2 p q) + ∑ j ∈ Finset.univ.filter (fun j => (rowScatterDims N R C wf).resultIdx? j idx = some (ix2 p q)), upd j = _
  rw [h]

/-- The same for the host operation: an accumulating float scatter of rows into a table `z`, at the ideal reading, read at
    `(p, q)`, is entry `(p, q)` of `z` plus the sum of lane `q` of the updates whose stored row number is `p`. -/
theorem host_scatterAdd_rows_apply {φ : FTy} (wf : ScatterDims.WF ⟨2, ![N, C]⟩ ⟨2, ![R, 1]⟩ ⟨2, ![R, C]⟩ [1] [0] [0] 1)
    (z : FVec Ideal ⟨2, ![N, C]⟩ φ) (idx : IVec ⟨2, ![R, 1]⟩ w) (upd : FVec Ideal ⟨2, ![R, C]⟩ φ) (p : Fin N) (q : Fin C) :
    Host.scatterAdd (F := Ideal) (φ := φ) (rowScatterDims N R C wf) z idx upd (ix2 p q)
      = z (ix2 p q) + ∑ e ∈ landsOn idx p, upd (ix2 e q) :=
  scatter_rows_apply wf z idx upd p q

end Rows

end Cert.LibVecScatter
-- ==== Proof.HostRead.lean ====
/-
  The host's aggregation of rows along edges and its guarded count of received edges, read entry by entry.

  Taking, for every edge, the row of a node table its (wrapped) source number names, and adding the rows taken into the
  rows their end numbers name, starting from the zero table, leaves at (p, q) the sum over the edges that end at p of
  column q of the row each carries. Adding a one per edge into the entry its end number names, starting from zeros, and
  taking the larger of the result and one, leaves at p the guarded count of the edges that end at p. Both are stated over
  any record of dimension numbers equal to the canonical one, so that they serve every program that spells the operation.
-/
import proofs.«174735_j64811056496761_2_alg».proof.Proof.Spec
import proofs.«174735_j64811056496761_2_alg».proof.Proof.LibVecScatter
import Idealize.ShloMosaic.PureOps.Ideal.Laws

noncomputable section

namespace Cert.GNet.HostRead

open Idealize.ShloMosaic Idealize.ShloMosaic.ValueIdx Cert.LibGatherRows Cert.LibRowIndex Cert.LibRowAggLinear
open scoped BigOperators

/-- A scalar constant repeated over any shape reads, at every index, the value its pattern denotes. -/
theorem bcast_const_apply {S : Shape} {φ : FTy} (hb : (⟨0, ![]⟩ : Shape).BroadcastsInDim S (![] : Fin 0 → Fin S.rank))
    (b : BitVec φ.bits) (i : S.Idx) :
    broadcastInDim S ![] hb (constant (F := Ideal) ⟨0, ![]⟩ φ b) i = Ideal.ofBits φ b := rfl

/-- The zero constant repeated over any shape reads the extended real zero. -/
theorem bcast_zero_apply {S : Shape} (hb : (⟨0, ![]⟩ : Shape).BroadcastsInDim S (![] : Fin 0 → Fin S.rank)) (i : S.Idx) :
    broadcastInDim S ![] hb (constant (F := Ideal) ⟨0, ![]⟩ .f32 0x00000000#32) i = 0 :=
  Ideal.ofBits_zero_f32

/-- The rows gathered at the wrapped source numbers and added into the rows the end numbers name, from the zero table:
    entry (p, q) is the sum, over the edges that end at p, of column q of the row each edge carries. -/
theorem gather_scatter_apply {C : ℕ}
    (G : GatherDims ⟨2, ![NN, C]⟩ ⟨2, ![EE, 1]⟩ ⟨2, ![EE, C]⟩)
    (wfG : GatherDims.WF ⟨2, ![NN, C]⟩ ⟨2, ![EE, 1]⟩ ⟨2, ![EE, C]⟩ [1] [0] [] [0] [] 1 ![1, C])
    (hG : G = rowDims NN EE C wfG)
    (S : ScatterDims ⟨2, ![NN, C]⟩ ⟨2, ![EE, 1]⟩ ⟨2, ![EE, C]⟩)
    (wfS : ScatterDims.WF ⟨2, ![NN, C]⟩ ⟨2, ![EE, 1]⟩ ⟨2, ![EE, C]⟩ [1] [0] [0] 1)
    (hS : S = rowScatterDims NN EE C wfS)
    (z : FVec Ideal ⟨2, ![NN, C]⟩ .f32) (hz : ∀ i, z i = 0)
    (h : Tab NN C) (src dst : Edges) (p : Fin NN) (q : Fin C) :
    Host.scatterAdd (F := Ideal) (φ := .f32) S z (asCol dst) (Host.gather G h (srcCol src)) (ix2 p q)
      = agg h src dst (ix2 p q) := by
  subst hG hS
  rw [host_scatterAdd_rows_zero_apply wfS z (funext hz)]
  show _ = ∑ e ∈ landsOn (asCol dst) p, h (ix2 (srcRow src e) q)
  refine Finset.sum_congr rfl fun e _ => ?_
  exact gather_rows_apply (by decide) wfG h (srcCol src) e q

/-- The same as whole tables. -/
theorem gather_scatter_eq {C : ℕ}
    (G : GatherDims ⟨2, ![NN, C]⟩ ⟨2, ![EE, 1]⟩ ⟨2, ![EE, C]⟩)
    (wfG : GatherDims.WF ⟨2, ![NN, C]⟩ ⟨2, ![EE, 1]⟩ ⟨2, ![EE, C]⟩ [1] [0] [] [0] [] 1 ![1, C])
    (hG : G = rowDims NN EE C wfG)
    (S : ScatterDims ⟨2, ![NN, C]⟩ ⟨2, ![EE, 1]⟩ ⟨2, ![EE, C]⟩)
    (wfS : ScatterDims.WF ⟨2, ![NN, C]⟩ ⟨2, ![EE, 1]⟩ ⟨2, ![EE, C]⟩ [1] [0] [0] 1)
    (hS : S = rowScatterDims NN EE C wfS)
    (z : FVec Ideal ⟨2, ![NN, C]⟩ .f32) (hz : ∀ i, z i = 0)
    (h : Tab NN C) (src dst : Edges) :
    Host.scatterAdd (F := Ideal) (φ := .f32) S z (asCol dst) (Host.gather G h (srcCol src)) = agg h src dst := by
  funext i
  rw [eq_ix2 i]
  exact gather_scatter_apply G wfG hG S wfS hS z hz h src dst _ _

/-- Ones added into the entries the end numbers name, from zeros, and the larger of the result and one: entry p is the
    guarded count of the edges that end at p. -/
theorem deg_apply
    (Sv : ScatterDims ⟨1, ![NN]⟩ ⟨2, ![EE, 1]⟩ ⟨1, ![EE]⟩)
    (wfV : ScatterDims.WF ⟨1, ![NN]⟩ ⟨2, ![EE, 1]⟩ ⟨1, ![EE]⟩ [] [0] [0] 1)
    (hV : Sv = Cert.LibVecScatter.vecScatterDims NN EE wfV)
    (z : FVec Ideal ⟨1, ![NN]⟩ .f32) (hz : ∀ i, z i = 0)
    (u : FVec Ideal ⟨1, ![EE]⟩ .f32) (hu : ∀ j, u j = cOne)
    (o : FVec Ideal ⟨1, ![NN]⟩ .f32) (ho : ∀ i, o i = cOne)
    (dst : Edges) (p : Fin NN) :
    maximumf (Host.scatterAdd (F := Ideal) (φ := .f32) Sv z (asCol dst) u) o (ix1 p) = deg dst p := by
  subst hV
  show max (Host.scatterAdd (F := Ideal) (φ := .f32) _ z (asCol dst) u (ix1 p)) (o (ix1 p)) = _
  rw [Cert.LibVecScatter.host_scatterAdd_vec_apply wfV z (asCol dst) u p, hz, ho, zero_add]
  unfold deg inEdges
  exact congrArg (fun t => max t cOne) (Finset.sum_congr rfl fun e _ => hu _)

end Cert.GNet.HostRead

end
-- ==== Proof.LibMatmulPlain.lean ====
/-
  A plain matrix product into a zero accumulator, read at an index, at the ideal values.

  For an m×k matrix A and a k×n matrix B the product into the zero accumulator has, at row a and column b, the entry
  ∑ c, A(a, c) · B(c, b): the accumulator contributes the extended real 0, and the contraction index of the plain
  dimension numbers is the one coordinate c. The host's product of the same two matrices is the same sum, so the
  statement follows from the library's reading of the host product.
-/
import Idealize.ShloMosaic.PureOps.Ideal.Laws
import Idealize.ShloMosaic.Lib.ValueIdx
import Idealize.ShloMosaic.Lib.StackMember

namespace Cert.LibMatmulPlain

open Idealize.ShloMosaic Idealize.ShloMosaic.ValueIdx

/-- A plain m×k by k×n product into the zero accumulator reads, at (a, b), the sum over the contracted coordinate c of
    A(a, c) · B(c, b). At the ideal values, whatever the formats of the two operands. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (F := Ideal) ⟨2, ![m, n]⟩ .f32 0x00000000#32) (ix2 a b)
      = ∑ c : Fin k, A (ix2 a c) * B (ix2 c b) := by
  rw [← StackMember.dotGeneral_plain_apply prec A B a b]
  show FloatOps.matmul _ prec A B _ (ix2 a b) = FloatOps.dotGeneral _ prec _ A B (ix2 a b)
  rw [Ideal.matmul_constant_zero_apply, Ideal.dotGeneral_apply]

end Cert.LibMatmulPlain
-- ==== Proof.LibDenseProduct.lean ====
/-
  The dense product as one function of its two matrices, and the two spellings of it the programs use.

  For an m×k matrix A and a k×n matrix B, mm A B has at row a and column b the entry ∑ c, A(a, c) · B(c, b), over the
  extended reals. The host's plain dot_general of A and B is this array, and so is the kernel's matrix unit applied
  to A and B with the zero accumulator; the number format of either operand plays no part at the ideal values. A block of
  rows of mm A B is mm of the same rows of A with B: row a of the product reads row a of A only.
-/
import proofs.«174735_j64811056496761_2_alg».proof.Proof.LibMatmulPlain

noncomputable section

namespace Cert.LibDenseProduct

open Idealize.ShloMosaic Idealize.ShloMosaic.ValueIdx

variable {m k n : Nat} {φ₁ φ₂ : FTy}

/-- The product of an m×k and a k×n matrix, entry by entry. -/
def mm (A : FVec Ideal ⟨2, ![m, k]⟩ φ₁) (B : FVec Ideal ⟨2, ![k, n]⟩ φ₂) : FVec Ideal ⟨2, ![m, n]⟩ .f32 :=
  fun i => ∑ c : Fin k, A (ix2 (i 0) c) * B (ix2 c (i 1))

theorem mm_apply (A : FVec Ideal ⟨2, ![m, k]⟩ φ₁) (B : FVec Ideal ⟨2, ![k, n]⟩ φ₂) (a : Fin m) (b : Fin n) :
    mm A B (ix2 a b) = ∑ c : Fin k, A (ix2 a c) * B (ix2 c b) := rfl

/-- The host's plain product is `mm`. -/
theorem dotGeneral_plain_eq (prec : Option ContractPrecision) (A : FVec Ideal ⟨2, ![m, k]⟩ φ₁) (B : FVec Ideal ⟨2, ![k, n]⟩ φ₂) :
    Host.dotGeneral (DotDims.plain m k n) prec A B = mm A B := by
  funext i
  rw [eq_ix2 i]
  exact StackMember.dotGeneral_plain_apply prec A B _ _

/-- The matrix unit's plain product into the zero accumulator is `mm`. -/
theorem matmul_plain_zero_eq (prec : Option ContractPrecision) (A : FVec Ideal ⟨2, ![m, k]⟩ φ₁) (B : FVec Ideal ⟨2, ![k, n]⟩ φ₂) :
    matmul (DotDims.plain m k n) prec A B (constant (F := Ideal) ⟨2, ![m, n]⟩ .f32 0x00000000#32) = mm A B := by
  funext i
  rw [eq_ix2 i]
  exact Cert.LibMatmulPlain.matmul_plain_zero_apply prec A B _ _

/-- Rows of a product: if a small left factor `x0` holds, in its row `j 0`, row `i 0` of the large one `X`, then the small
    product at `j` is the large product at `i` whenever the two indices name the same column. -/
theorem mm_rows {M : Nat} (X : FVec Ideal ⟨2, ![M, k]⟩ φ₁) (W : FVec Ideal ⟨2, ![k, n]⟩ φ₂)
    (x0 : FVec Ideal ⟨2, ![m, k]⟩ φ₁) (j : (⟨2, ![m, n]⟩ : Shape).Idx) (i : (⟨2, ![M, n]⟩ : Shape).Idx)
    (hx : ∀ c : Fin k, x0 (ix2 (j 0) c) = X (ix2 (i 0) c)) (h1 : (j 1 : Fin n) = i 1) : mm x0 W j = mm X W i := by
  unfold mm
  refine Finset.sum_congr rfl fun c _ => ?_
  rw [hx c]
  exact congrArg (fun b : Fin n => X (ix2 (i 0) c) * W (ix2 c b)) h1

end Cert.LibDenseProduct

end
-- ==== Proof.LibColRow.lean ====
/-
  Columns and rows of a rank-2 array on the host: the layouts a per-row scale and a per-column bias pass through.

  A vector of a entries becomes an [a, 1] column, either by a reshape or by a broadcast along a new unit axis, and the column
  is then repeated across b lanes; a vector of b entries becomes a [1, b] row and is repeated down a rows. Read at an index
  written by its coordinates, each of these is the operand at the row coordinate alone (for a column) or at the lane
  coordinate alone (for a row).
-/
import Idealize.ShloMosaic.Lib.ValueIdx
import Idealize.ShloMosaic.Lib.Pipeline.Value

namespace Cert.LibColRow

open Idealize.ShloMosaic Idealize.ShloMosaic.ValueIdx

variable {α : Type}

/-- A vector broadcast to an `[a, 1]` column reads, at `(p, u)`, the vector at `p`. -/
theorem bcast_a_a1_apply {a : ℕ} (v : (⟨1, ![a]⟩ : Shape).Idx → α)
    (h : (⟨1, ![a]⟩ : Shape).BroadcastsInDim ⟨2, ![a, 1]⟩ (![0] : Fin 1 → Fin 2)) (p : Fin a) (u : Fin 1) :
    broadcastInDim ⟨2, ![a, 1]⟩ (![0] : Fin 1 → Fin 2) h v (ix2 p u) = v (ix1 p) := by
  refine broadcastInDim_apply _ h v (ix2 p u) (ix1 p) fun ax => ?_
  match ax with
  | ⟨0, _⟩ =>
    show p.val = if a = 1 then 0 else p.val
    split
    · have := p.isLt; omega
    · rfl

/-- A vector reshaped to an `[a, 1]` column reads, at `(p, u)`, the vector at `p`. -/
theorem shapeCast_a_a1_apply {a : ℕ} (v : (⟨1, ![a]⟩ : Shape).Idx → α)
    (h : (⟨1, ![a]⟩ : Shape).ShapeCasts ⟨2, ![a, 1]⟩) (p : Fin a) (u : Fin 1) :
    shapeCast ⟨2, ![a, 1]⟩ v h (ix2 p u) = v (ix1 p) :=
  shapeCast_apply v h _ _ (by
    have hu : u.val = 0 := by omega
    rw [Shape.rowMajor_val_two, Shape.rowMajor_val_one]
    show p.val = p.val * 1 + u.val
    omega)

/-- An `[a, 1]` column broadcast (along both axes in place) to `[a, b]` reads, at `(p, q)`, the column at row `p`. -/
theorem bcast_a1_ab_apply {a b : ℕ} (col : (⟨2, ![a, 1]⟩ : Shape).Idx → α)
    (h : (⟨2, ![a, 1]⟩ : Shape).BroadcastsInDim ⟨2, ![a, b]⟩ (![0, 1] : Fin 2 → Fin 2)) (p : Fin a) (q : Fin b) :
    broadcastInDim ⟨2, ![a, b]⟩ (![0, 1] : Fin 2 → Fin 2) h col (ix2 p q) = col (ix2 p (0 : Fin 1)) := by
  refine broadcastInDim_apply _ h col (ix2 p q) (ix2 p (0 : Fin 1)) fun ax => ?_
  match ax with
  | ⟨0, _⟩ =>
    show p.val = if a = 1 then 0 else p.val
    split
    · have := p.isLt; omega
    · rfl
  | ⟨1, _⟩ => exact (if_pos rfl).symm

/-- A vector broadcast to a `[1, b]` row reads, at `(u, q)`, the vector at `q`. -/
theorem bcast_b_1b_apply {b : ℕ} (v : (⟨1, ![b]⟩ : Shape).Idx → α)
    (h : (⟨1, ![b]⟩ : Shape).BroadcastsInDim ⟨2, ![1, b]⟩ (![1] : Fin 1 → Fin 2)) (u : Fin 1) (q : Fin b) :
    broadcastInDim ⟨2, ![1, b]⟩ (![1] : Fin 1 → Fin 2) h v (ix2 u q) = v (ix1 q) := by
  refine broadcastInDim_apply _ h v (ix2 u q) (ix1 q) fun ax => ?_
  match ax with
  | ⟨0, _⟩ =>
    show q.val = if b = 1 then 0 else q.val
    split
    · have := q.isLt; omega
    · rfl

/-- A `[1, b]` row broadcast (along both axes in place) to `[a, b]` reads, at `(p, q)`, the row at lane `q`. -/
theorem bcast_1b_ab_apply {a b : ℕ} (row : (⟨2, ![1, b]⟩ : Shape).Idx → α)
    (h : (⟨2, ![1, b]⟩ : Shape).BroadcastsInDim ⟨2, ![a, b]⟩ (![0, 1] : Fin 2 → Fin 2)) (p : Fin a) (q : Fin b) :
    broadcastInDim ⟨2, ![a, b]⟩ (![0, 1] : Fin 2 → Fin 2) h row (ix2 p q) = row (ix2 (0 : Fin 1) q) := by
  refine broadcastInDim_apply _ h row (ix2 p q) (ix2 (0 : Fin 1) q) fun ax => ?_
  match ax with
  | ⟨0, _⟩ => exact (if_pos rfl).symm
  | ⟨1, _⟩ =>
    show q.val = if b = 1 then 0 else q.val
    split
    · have := q.isLt; omega
    · rfl

end Cert.LibColRow
-- ==== Proof.HostReadLayer.lean ====
/-
  One layer of the network as the host spells it, equal to the layer of the specification as whole tables.

  The host multiplies the node table by the first matrix, divides the aggregated table by the guarded edge count (a vector
  laid out as a column and repeated across the lanes), multiplies the quotient by the second matrix, adds the two products,
  and adds the bias (a vector laid out as a row and repeated down the rows). Read at (p, q) each of these is the
  corresponding term of the specification's layer.
-/
import proofs.«174735_j64811056496761_2_alg».proof.Proof.HostRead
import proofs.«174735_j64811056496761_2_alg».proof.Proof.LibDenseProduct
import proofs.«174735_j64811056496761_2_alg».proof.Proof.LibColRow

noncomputable section

namespace Cert.GNet.HostRead

open Idealize.ShloMosaic Idealize.ShloMosaic.ValueIdx Cert.LibGatherRows Cert.LibRowIndex Cert.LibRowAggLinear
  Cert.LibDenseProduct Cert.LibColRow
open scoped BigOperators

/-- The layer as the host spells it is the layer of the specification. -/
theorem host_sage_eq {C D : ℕ}
    (Dd : DotDims ⟨2, ![NN, C]⟩ ⟨2, ![C, D]⟩ ⟨2, ![NN, D]⟩) (hD : Dd = DotDims.plain NN C D)
    (G : GatherDims ⟨2, ![NN, C]⟩ ⟨2, ![EE, 1]⟩ ⟨2, ![EE, C]⟩)
    (wfG : GatherDims.WF ⟨2, ![NN, C]⟩ ⟨2, ![EE, 1]⟩ ⟨2, ![EE, C]⟩ [1] [0] [] [0] [] 1 ![1, C])
    (hG : G = rowDims NN EE C wfG)
    (S : ScatterDims ⟨2, ![NN, C]⟩ ⟨2, ![EE, 1]⟩ ⟨2, ![EE, C]⟩)
    (wfS : ScatterDims.WF ⟨2, ![NN, C]⟩ ⟨2, ![EE, 1]⟩ ⟨2, ![EE, C]⟩ [1] [0] [0] 1)
    (hS : S = rowScatterDims NN EE C wfS)
    (Sv : ScatterDims ⟨1, ![NN]⟩ ⟨2, ![EE, 1]⟩ ⟨1, ![EE]⟩)
    (wfV : ScatterDims.WF ⟨1, ![NN]⟩ ⟨2, ![EE, 1]⟩ ⟨1, ![EE]⟩ [] [0] [0] 1)
    (hV : Sv = Cert.LibVecScatter.vecScatterDims NN EE wfV)
    (hb1 : (⟨1, ![NN]⟩ : Shape).BroadcastsInDim ⟨2, ![NN, 1]⟩ (![0] : Fin 1 → Fin 2))
    (hb2 : (⟨2, ![NN, 1]⟩ : Shape).BroadcastsInDim ⟨2, ![NN, C]⟩ (![0, 1] : Fin 2 → Fin 2))
    (hb3 : (⟨1, ![D]⟩ : Shape).BroadcastsInDim ⟨2, ![1, D]⟩ (![1] : Fin 1 → Fin 2))
    (hb4 : (⟨2, ![1, D]⟩ : Shape).BroadcastsInDim ⟨2, ![NN, D]⟩ (![0, 1] : Fin 2 → Fin 2))
    (z : FVec Ideal ⟨2, ![NN, C]⟩ .f32) (hz : ∀ i, z i = 0)
    (zv : FVec Ideal ⟨1, ![NN]⟩ .f32) (hzv : ∀ i, zv i = 0)
    (u : FVec Ideal ⟨1, ![EE]⟩ .f32) (hu : ∀ j, u j = cOne)
    (o : FVec Ideal ⟨1, ![NN]⟩ .f32) (ho : ∀ i, o i = cOne)
    (h : FVec Ideal ⟨2, ![NN, C]⟩ .f32) (Ws Wn : FVec Ideal ⟨2, ![C, D]⟩ .f32) (b : FVec Ideal ⟨1, ![D]⟩ .f32)
    (src dst : Edges) :
    addf (addf (Host.dotGeneral Dd none h Ws)
        (Host.dotGeneral Dd none
          (Host.divf (Host.scatterAdd S z (asCol dst) (Host.gather G h (srcCol src)))
            (broadcastInDim ⟨2, ![NN, C]⟩ ![0, 1] hb2
              (broadcastInDim ⟨2, ![NN, 1]⟩ ![0] hb1 (maximumf (Host.scatterAdd Sv zv (asCol dst) u) o))))
          Wn))
      (broadcastInDim ⟨2, ![NN, D]⟩ ![0, 1] hb4 (broadcastInDim ⟨2, ![1, D]⟩ ![1] hb3 b))
      = sage h Ws Wn b src dst := by
  subst hD
  rw [dotGeneral_plain_eq, dotGeneral_plain_eq, gather_scatter_eq G wfG hG S wfS hS z hz h src dst]
  funext i
  obtain ⟨p, q, rfl⟩ : ∃ (p : Fin NN) (q : Fin D), i = ix2 p q := ⟨i 0, i 1, eq_ix2 i⟩
  show (mm h Ws (ix2 p q) + mm _ Wn (ix2 p q)) + _ = _
  rw [mm_apply, mm_apply, bcast_1b_ab_apply, bcast_b_1b_apply]
  show _ = ((∑ c : Fin C, h (ix2 p c) * Ws (ix2 c q))
      + ∑ c : Fin C, Ideal.div (agg h src dst (ix2 p c)) (deg dst p) * Wn (ix2 c q)) + b (ix1 q)
  refine congrArg (fun t => ((∑ c : Fin C, h (ix2 p c) * Ws (ix2 c q)) + t) + b (ix1 q)) ?_
  refine Finset.sum_congr rfl fun c _ => ?_
  refine congrArg (fun t => t * Wn (ix2 c q)) ?_
  show Ideal.div (agg h src dst (ix2 p c)) _ = _
  rw [bcast_a1_ab_apply, bcast_a_a1_apply, deg_apply Sv wfV hV zv hzv u hu o ho dst p]

end Cert.GNet.HostRead

end
-- ==== Proof.HostReadNorm.lean ====
/-
  The normalisation of the columns and the ramp as the host spells them, equal to those of the specification as whole tables.

  The host sums each column from zero and divides by the number of rows (the column mean, laid out as a row and repeated
  down the rows), subtracts it, squares the difference, sums and divides again (the column variance), adds the constant,
  takes the inverse root, and multiplies the difference by it, by the gain and adds the offset, each a vector laid out as a
  row and repeated down the rows. The ramp is the larger of the entry and the zero constant.
-/
import proofs.«174735_j64811056496761_2_alg».proof.Proof.HostRead
import proofs.«174735_j64811056496761_2_alg».proof.Proof.LibColRow

noncomputable section

namespace Cert.GNet.HostRead

open Idealize.ShloMosaic Idealize.ShloMosaic.ValueIdx Cert.LibColRow
open scoped BigOperators

/-- A vector laid out as a row and repeated down the rows reads, at (p, q), the vector at q. -/
theorem row_bcast_apply {a b : ℕ} {α : Type} (v : (⟨1, ![b]⟩ : Shape).Idx → α)
    (h1 : (⟨1, ![b]⟩ : Shape).BroadcastsInDim ⟨2, ![1, b]⟩ (![1] : Fin 1 → Fin 2))
    (h2 : (⟨2, ![1, b]⟩ : Shape).BroadcastsInDim ⟨2, ![a, b]⟩ (![0, 1] : Fin 2 → Fin 2)) (p : Fin a) (q : Fin b) :
    broadcastInDim ⟨2, ![a, b]⟩ ![0, 1] h2 (broadcastInDim ⟨2, ![1, b]⟩ ![1] h1 v) (ix2 p q) = v (ix1 q) := by
  rw [bcast_1b_ab_apply, bcast_b_1b_apply]

/-- The host's sum of a table over its rows, from an initial value: at column q, the initial value plus the sum over the
    rows of the entries of column q. -/
theorem col_sum_apply {D : ℕ} (hr : (⟨2, ![NN, D]⟩ : Shape).ReducesTo [0] ⟨1, ![D]⟩) (hr' : (⟨2, ![NN, D]⟩ : Shape).Reduces [0] ⟨1, ![D]⟩)
    (hu : 0 < (⟨0, ![]⟩ : Shape).numel)
    (x : FVec Ideal ⟨2, ![NN, D]⟩ .f32) (init : FVec Ideal ⟨0, ![]⟩ .f32) (q : Fin D) :
    Host.reduceAdd x init hr hu (ix1 q) = init (Shape.Idx.first hu) + ∑ p : Fin NN, x (ix2 p q) := by
  simp only [Host.reduceAdd, Ideal.hostReduceAdd_def]
  rw [Ideal.hostReduceAdd_single hr hr']
  refine congrArg (_ + ·) (Finset.sum_congr rfl fun k _ => ?_)
  exact congrArg x (funext fun a => Fin.ext (by match a with | ⟨0, _⟩ => rfl | ⟨1, _⟩ => rfl))

/-- The normalisation as the host spells it is the normalisation of the specification. -/
theorem host_bnorm_eq {D : ℕ}
    (hr : (⟨2, ![NN, D]⟩ : Shape).ReducesTo [0] ⟨1, ![D]⟩) (hr' : (⟨2, ![NN, D]⟩ : Shape).Reduces [0] ⟨1, ![D]⟩)
    (hu : 0 < (⟨0, ![]⟩ : Shape).numel)
    (hs : (⟨0, ![]⟩ : Shape).BroadcastsInDim ⟨1, ![D]⟩ (![] : Fin 0 → Fin 1))
    (h1 : (⟨1, ![D]⟩ : Shape).BroadcastsInDim ⟨2, ![1, D]⟩ (![1] : Fin 1 → Fin 2))
    (h2 : (⟨2, ![1, D]⟩ : Shape).BroadcastsInDim ⟨2, ![NN, D]⟩ (![0, 1] : Fin 2 → Fin 2))
    (h : FVec Ideal ⟨2, ![NN, D]⟩ .f32) (g be : FVec Ideal ⟨1, ![D]⟩ .f32) :
    addf
      (mulf
        (mulf
          (subf h (broadcastInDim ⟨2, ![NN, D]⟩ ![0, 1] h2 (broadcastInDim ⟨2, ![1, D]⟩ ![1] h1
            (Host.divf (Host.reduceAdd h (constant ⟨0, ![]⟩ .f32 0x00000000#32) hr hu)
              (broadcastInDim ⟨1, ![D]⟩ ![] hs (constant ⟨0, ![]⟩ .f32 0x47C35000#32))))))
          (broadcastInDim ⟨2, ![NN, D]⟩ ![0, 1] h2 (broadcastInDim ⟨2, ![1, D]⟩ ![1] h1
            (Host.rsqrt (addf
              (Host.divf
                (Host.reduceAdd
                  (mulf
                    (subf h (broadcastInDim ⟨2, ![NN, D]⟩ ![0, 1] h2 (broadcastInDim ⟨2, ![1, D]⟩ ![1] h1
                      (Host.divf (Host.reduceAdd h (constant ⟨0, ![]⟩ .f32 0x00000000#32) hr hu)
                        (broadcastInDim ⟨1, ![D]⟩ ![] hs (constant ⟨0, ![]⟩ .f32 0x47C35000#32))))))
                    (subf h (broadcastInDim ⟨2, ![NN, D]⟩ ![0, 1] h2 (broadcastInDim ⟨2, ![1, D]⟩ ![1] h1
                      (Host.divf (Host.reduceAdd h (constant ⟨0, ![]⟩ .f32 0x00000000#32) hr hu)
                        (broadcastInDim ⟨1, ![D]⟩ ![] hs (constant ⟨0, ![]⟩ .f32 0x47C35000#32)))))))
                  (constant ⟨0, ![]⟩ .f32 0x00000000#32) hr hu)
                (broadcastInDim ⟨1, ![D]⟩ ![] hs (constant ⟨0, ![]⟩ .f32 0x47C35000#32)))
              (broadcastInDim ⟨1, ![D]⟩ ![] hs (constant ⟨0, ![]⟩ .f32 0x3727C5AC#32)))))))
        (broadcastInDim ⟨2, ![NN, D]⟩ ![0, 1] h2 (broadcastInDim ⟨2, ![1, D]⟩ ![1] h1 g)))
      (broadcastInDim ⟨2, ![NN, D]⟩ ![0, 1] h2 (broadcastInDim ⟨2, ![1, D]⟩ ![1] h1 be))
      = bnorm h g be := by
  -- the column mean, as the host computes it
  have hmean : ∀ q : Fin D,
      Host.divf (Host.reduceAdd h (constant ⟨0, ![]⟩ .f32 0x00000000#32) hr hu)
        (broadcastInDim ⟨1, ![D]⟩ ![] hs (constant ⟨0, ![]⟩ .f32 0x47C35000#32)) (ix1 q) = colMean h q := by
    intro q
    show Ideal.div (Host.reduceAdd h (constant ⟨0, ![]⟩ .f32 0x00000000#32) hr hu (ix1 q)) (Ideal.ofBits .f32 0x47C35000#32) = _
    rw [col_sum_apply hr hr' hu]
    show Ideal.div (Ideal.ofBits .f32 0x00000000#32 + _) _ = _
    rw [Ideal.ofBits_zero_f32, zero_add]
    rfl
  generalize Host.divf (Host.reduceAdd h (constant ⟨0, ![]⟩ .f32 0x00000000#32) hr hu)
    (broadcastInDim ⟨1, ![D]⟩ ![] hs (constant ⟨0, ![]⟩ .f32 0x47C35000#32)) = μ at hmean ⊢
  -- the column variance
  have hvar : ∀ q : Fin D,
      Host.divf
        (Host.reduceAdd
          (mulf (subf h (broadcastInDim ⟨2, ![NN, D]⟩ ![0, 1] h2 (broadcastInDim ⟨2, ![1, D]⟩ ![1] h1 μ)))
            (subf h (broadcastInDim ⟨2, ![NN, D]⟩ ![0, 1] h2 (broadcastInDim ⟨2, ![1, D]⟩ ![1] h1 μ))))
          (constant ⟨0, ![]⟩ .f32 0x00000000#32) hr hu)
        (broadcastInDim ⟨1, ![D]⟩ ![] hs (constant ⟨0, ![]⟩ .f32 0x47C35000#32)) (ix1 q) = colVar h q := by
    intro q
    refine (congrArg (fun t => Ideal.div t cN) (col_sum_apply hr hr' hu _ _ q)).trans ?_
    show Ideal.div (Ideal.ofBits .f32 0x00000000#32 + _) cN = _
    rw [Ideal.ofBits_zero_f32, zero_add]
    unfold colVar
    refine congrArg (fun t => Ideal.div t cN) (Finset.sum_congr rfl fun p _ => ?_)
    show (h (ix2 p q) - broadcastInDim ⟨2, ![NN, D]⟩ ![0, 1] h2 (broadcastInDim ⟨2, ![1, D]⟩ ![1] h1 μ) (ix2 p q))
        * (h (ix2 p q) - broadcastInDim ⟨2, ![NN, D]⟩ ![0, 1] h2 (broadcastInDim ⟨2, ![1, D]⟩ ![1] h1 μ) (ix2 p q)) = _
    rw [row_bcast_apply, hmean]
  generalize Host.divf
      (Host.reduceAdd
        (mulf (subf h (broadcastInDim ⟨2, ![NN, D]⟩ ![0, 1] h2 (broadcastInDim ⟨2, ![1, D]⟩ ![1] h1 μ)))
          (subf h (broadcastInDim ⟨2, ![NN, D]⟩ ![0, 1] h2 (broadcastInDim ⟨2, ![1, D]⟩ ![1] h1 μ))))
        (constant ⟨0, ![]⟩ .f32 0x00000000#32) hr hu)
      (broadcastInDim ⟨1, ![D]⟩ ![] hs (constant ⟨0, ![]⟩ .f32 0x47C35000#32)) = v at hvar ⊢
  funext i
  obtain ⟨p, q, rfl⟩ : ∃ (p : Fin NN) (q : Fin D), i = ix2 p q := ⟨i 0, i 1, eq_ix2 i⟩
  show ((h (ix2 p q) - broadcastInDim ⟨2, ![NN, D]⟩ ![0, 1] h2 (broadcastInDim ⟨2, ![1, D]⟩ ![1] h1 μ) (ix2 p q))
        * broadcastInDim ⟨2, ![NN, D]⟩ ![0, 1] h2 (broadcastInDim ⟨2, ![1, D]⟩ ![1] h1
            (Host.rsqrt (addf v (broadcastInDim ⟨1, ![D]⟩ ![] hs (constant ⟨0, ![]⟩ .f32 0x3727C5AC#32))))) (ix2 p q))
      * broadcastInDim ⟨2, ![NN, D]⟩ ![0, 1] h2 (broadcastInDim ⟨2, ![1, D]⟩ ![1] h1 g) (ix2 p q)
      + broadcastInDim ⟨2, ![NN, D]⟩ ![0, 1] h2 (broadcastInDim ⟨2, ![1, D]⟩ ![1] h1 be) (ix2 p q)
    = ((h (ix2 p q) - colMean h q) * Ideal.rsqrt (colVar h q + cEps)) * g (ix1 q) + be (ix1 q)
  rw [row_bcast_apply, row_bcast_apply, row_bcast_apply, row_bcast_apply, hmean]
  show ((h (ix2 p q) - colMean h q) * Ideal.rsqrt (v (ix1 q) + Ideal.ofBits .f32 0x3727C5AC#32)) * g (ix1 q) + be (ix1 q) = _
  rw [hvar]
  rfl

/-- The ramp as the host spells it is the ramp of the specification. -/
theorem host_relu_eq {D : ℕ} (hs : (⟨0, ![]⟩ : Shape).BroadcastsInDim ⟨2, ![NN, D]⟩ (![] : Fin 0 → Fin 2))
    (h : FVec Ideal ⟨2, ![NN, D]⟩ .f32) :
    maximumf h (broadcastInDim ⟨2, ![NN, D]⟩ ![] hs (constant ⟨0, ![]⟩ .f32 0x00000000#32)) = relu h := by
  funext i
  show max (h i) (Ideal.ofBits .f32 0x00000000#32) = max (h i) 0
  rw [Ideal.ofBits_zero_f32]

end Cert.GNet.HostRead

end
-- ==== Proof.RefWinA.lean ====
/-
  A stretch of the reference program's straight line of host operations, read as one function of the buffers it starts from.

  The first layer (from the node features to the first hidden table) and the first normalisation. Each stretch is taken from ARBITRARY starting contents: its last buffer
  holds the corresponding function of the specification applied to what the buffers it reads held at the start, and every
  buffer it does not write holds what it held at the start. The stretches, in order, are the whole line.
-/
import proofs.«174735_j64811056496761_2_alg».proof.Proof.Gen.ReferenceIdeal
import Idealize.ShloMosaic.Lib.StableHlo.Run
import proofs.«174735_j64811056496761_2_alg».proof.Proof.HostReadLayer
import proofs.«174735_j64811056496761_2_alg».proof.Proof.HostReadNorm

noncomputable section

namespace Cert.ReferenceIdeal.RefValue

open Cert.ReferenceIdeal Cert.ReferenceIdeal.Gen Idealize.ShloMosaic Idealize.ShloMosaic.TcCoe Idealize.SL.Sem Idealize.ShloMosaic.StableHlo
open Cert.GNet Cert.GNet.HostRead Cert.LibGatherRows Cert.LibRowIndex

variable {F : FTy → Type} [FloatOps F]
/-- The first layer: from the node features, the edge numbers and the first layer's parameters to the first hidden table. -/
def win1 : List (HloOp τ sig (Elt F)) :=
  [
    nullary main_c (constantI S_ 32 0#32),
    unary main_c main_v0 (broadcastInDim S1600000 ![] bcast_S_S1600000 : (⟨S_, .i32⟩ : BufTy).Contents (Elt F) → (⟨S1600000, .i32⟩ : BufTy).Contents (Elt F)),
    binary main_arg1 main_v0 main_v1 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 100000#32),
    unary main_c_0 main_v2 (broadcastInDim S1600000 ![] bcast_S_S1600000 : (⟨S_, .i32⟩ : BufTy).Contents (Elt F) → (⟨S1600000, .i32⟩ : BufTy).Contents (Elt F)),
    binary main_arg1 main_v2 main_v3 (addi : (⟨S1600000, .i32⟩ : BufTy).Contents (Elt F) → (⟨S1600000, .i32⟩ : BufTy).Contents (Elt F) → (⟨S1600000, .i32⟩ : BufTy).Contents (Elt F)),
    ternary main_v1 main_v3 main_arg1 main_v4 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v4 main_v5 (broadcastInDim S1600000x1 ![0] bcast_S1600000_S1600000x1_0 : (⟨S1600000, .i32⟩ : BufTy).Contents (Elt F) → (⟨S1600000x1, .i32⟩ : BufTy).Contents (Elt F)),
    binary main_arg0 main_v5 main_v6 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst (constant S_ .f32 0x00000000#32),
    unary main_cst main_v7 (broadcastInDim S100000x128 ![] bcast_S_S100000x128 : (⟨S_, .f32⟩ : BufTy).Contents (Elt F) → (⟨S100000x128, .f32⟩ : BufTy).Contents (Elt F)),
    unary main_arg2 main_v8 (broadcastInDim S1600000x1 ![0] bcast_S1600000_S1600000x1_0 : (⟨S1600000, .i32⟩ : BufTy).Contents (Elt F) → (⟨S1600000x1, .i32⟩ : BufTy).Contents (Elt F)),
    ternary main_v7 main_v8 main_v6 main_v9 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    nullary main_cst_1 (constant S_ .f32 0x3F800000#32),
    unary main_cst_1 main_v10 (broadcastInDim S1600000 ![] bcast_S_S1600000 : (⟨S_, .f32⟩ : BufTy).Contents (Elt F) → (⟨S1600000, .f32⟩ : BufTy).Contents (Elt F)),
    nullary main_cst_2 (constant S_ .f32 0x00000000#32),
    unary main_cst_2 main_v11 (broadcastInDim S100000 ![] bcast_S_S100000 : (⟨S_, .f32⟩ : BufTy).Contents (Elt F) → (⟨S100000, .f32⟩ : BufTy).Contents (Elt F)),
    unary main_arg2 main_v12 (broadcastInDim S1600000x1 ![0] bcast_S1600000_S1600000x1_0 : (⟨S1600000, .i32⟩ : BufTy).Contents (Elt F) → (⟨S1600000x1, .i32⟩ : BufTy).Contents (Elt F)),
    ternary main_v11 main_v12 main_v10 main_v13 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_3 (constant S_ .f32 0x3F800000#32),
    unary main_cst_3 main_v14 (broadcastInDim S100000 ![] bcast_S_S100000 : (⟨S_, .f32⟩ : BufTy).Contents (Elt F) → (⟨S100000, .f32⟩ : BufTy).Contents (Elt F)),
    binary main_v13 main_v14 main_v15 (maximumf : (⟨S100000, .f32⟩ : BufTy).Contents (Elt F) → (⟨S100000, .f32⟩ : BufTy).Contents (Elt F) → (⟨S100000, .f32⟩ : BufTy).Contents (Elt F)),
    unary main_v15 main_v16 (broadcastInDim S100000x1 ![0] bcast_S100000_S100000x1_0 : (⟨S100000, .f32⟩ : BufTy).Contents (Elt F) → (⟨S100000x1, .f32⟩ : BufTy).Contents (Elt F)),
    unary main_v16 main_v17 (broadcastInDim S100000x128 ![0, 1] bcast_S100000x1_S100000x128_0_1 : (⟨S100000x1, .f32⟩ : BufTy).Contents (Elt F) → (⟨S100000x128, .f32⟩ : BufTy).Contents (Elt F)),
    binary main_v9 main_v17 main_v18 (Host.divf : (⟨S100000x128, .f32⟩ : BufTy).Contents (Elt F) → (⟨S100000x128, .f32⟩ : BufTy).Contents (Elt F) → (⟨S100000x128, .f32⟩ : BufTy).Contents (Elt F)),
    binary main_arg0 main_arg3 main_v19 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    binary main_v18 main_arg4 main_v20 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    binary main_v19 main_v20 main_v21 (addf : (⟨S100000x64, .f32⟩ : BufTy).Contents (Elt F) → (⟨S100000x64, .f32⟩ : BufTy).Contents (Elt F) → (⟨S100000x64, .f32⟩ : BufTy).Contents (Elt F)),
    unary main_arg5 main_v22 (broadcastInDim S1x64 ![1] bcast_S64_S1x64_1 : (⟨S64, .f32⟩ : BufTy).Contents (Elt F) → (⟨S1x64, .f32⟩ : BufTy).Contents (Elt F)),
    unary main_v22 main_v23 (broadcastInDim S100000x64 ![0, 1] bcast_S1x64_S100000x64_0_1 : (⟨S1x64, .f32⟩ : BufTy).Contents (Elt F) → (⟨S100000x64, .f32⟩ : BufTy).Contents (Elt F)),
    binary main_v21 main_v23 main_v24 (addf : (⟨S100000x64, .f32⟩ : BufTy).Contents (Elt F) → (⟨S100000x64, .f32⟩ : BufTy).Contents (Elt F) → (⟨S100000x64, .f32⟩ : BufTy).Contents (Elt F)) ]
/-- A buffer that none of these operations writes holds afterwards what it held before. -/
theorem win1_keep (V : Valuation τ sig (Elt F)) (r : Ref sig .tc)
    (hr : r ∉ ([main_c, main_v0, main_v1, main_c_0, main_v2, main_v3, main_v4, main_v5, main_v6, main_cst, main_v7, main_v8, main_v9, main_cst_1, main_v10, main_cst_2, main_v11, main_v12, main_v13, main_cst_3, main_v14, main_v15, main_v16, main_v17, main_v18, main_v19, main_v20, main_v21, main_v22, main_v23, main_v24] : List (Ref sig .tc))) :
    after (win1 (F := F)) V (Proc.devRef .tc r) = V (Proc.devRef .tc r) :=
  after_of_forall_not_mem _ _ (List.forall_iff_forall_mem.mp (by
    simp only [win1, List.Forall, nullary_writes, unary_writes, binary_writes, ternary_writes, Finset.mem_singleton]
    repeat' apply And.intro
    all_goals exact devRef_ne_of_ne (fun e => hr (by subst e; decide))))

set_option maxRecDepth 8192 in
/-- These operations leave, in their last buffer, the layer of the specification applied to the table and the parameters they
    start from. -/
theorem win1_out (V : Valuation τ sig (Elt Ideal)) :
    after (win1 (F := Ideal)) V (Proc.devRef .tc main_v24)
      = sage (C := 128) (D := 64) (V (Proc.devRef .tc main_arg0)) (V (Proc.devRef .tc main_arg3)) (V (Proc.devRef .tc main_arg4)) (V (Proc.devRef .tc main_arg5)) (V (Proc.devRef .tc main_arg1)) (V (Proc.devRef .tc main_arg2)) := by
  unfold win1
  after_results_simp
  exact host_sage_eq (C := 128) (D := 64) dot_S100000x128_S128x64_S100000x64_1_0_0_1_n_n rfl
    gather_S100000x128_S1600000x1_S1600000x128_1_0_n_n_0_1_1128 gather_S100000x128_S1600000x1_S1600000x128_1_0_n_n_0_1_1128_wf rfl
    scatter_S100000x128_S1600000x1_S1600000x128_1_0_0_1 scatter_S100000x128_S1600000x1_S1600000x128_1_0_0_1_wf rfl
    scatter_S100000_S1600000x1_S1600000_n_0_0_1 scatter_S100000_S1600000x1_S1600000_n_0_0_1_wf rfl
    bcast_S100000_S100000x1_0 bcast_S100000x1_S100000x128_0_1 bcast_S64_S1x64_1 bcast_S1x64_S100000x64_0_1
    _ (fun _ => bcast_zero_apply _ _) _ (fun _ => bcast_zero_apply _ _) _ (fun _ => rfl) _ (fun _ => rfl)
    (V (Proc.devRef .tc main_arg0)) (V (Proc.devRef .tc main_arg3)) (V (Proc.devRef .tc main_arg4)) (V (Proc.devRef .tc main_arg5)) (V (Proc.devRef .tc main_arg1)) (V (Proc.devRef .tc main_arg2))

/-- The first normalisation, of the first hidden table. -/
def win2 : List (HloOp τ sig (Elt F)) :=
  [
    nullary main_cst_4 (constant S_ .f32 0x00000000#32),
    binary main_v24 main_cst_4 main_v25 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_5 (constant S_ .f32 0x47C35000#32),
    unary main_cst_5 main_v26 (broadcastInDim S64 ![] bcast_S_S64 : (⟨S_, .f32⟩ : BufTy).Contents (Elt F) → (⟨S64, .f32⟩ : BufTy).Contents (Elt F)),
    binary main_v25 main_v26 main_v27 (Host.divf : (⟨S64, .f32⟩ : BufTy).Contents (Elt F) → (⟨S64, .f32⟩ : BufTy).Contents (Elt F) → (⟨S64, .f32⟩ : BufTy).Contents (Elt F)),
    unary main_v27 main_v28 (broadcastInDim S1x64 ![1] bcast_S64_S1x64_1 : (⟨S64, .f32⟩ : BufTy).Contents (Elt F) → (⟨S1x64, .f32⟩ : BufTy).Contents (Elt F)),
    unary main_v28 main_v29 (broadcastInDim S100000x64 ![0, 1] bcast_S1x64_S100000x64_0_1 : (⟨S1x64, .f32⟩ : BufTy).Contents (Elt F) → (⟨S100000x64, .f32⟩ : BufTy).Contents (Elt F)),
    binary main_v24 main_v29 main_v30 (subf : (⟨S100000x64, .f32⟩ : BufTy).Contents (Elt F) → (⟨S100000x64, .f32⟩ : BufTy).Contents (Elt F) → (⟨S100000x64, .f32⟩ : BufTy).Contents (Elt F)),
    binary main_v30 main_v30 main_v31 (mulf : (⟨S100000x64, .f32⟩ : BufTy).Contents (Elt F) → (⟨S100000x64, .f32⟩ : BufTy).Contents (Elt F) → (⟨S100000x64, .f32⟩ : BufTy).Contents (Elt F)),
    nullary main_cst_6 (constant S_ .f32 0x00000000#32),
    binary main_v31 main_cst_6 main_v32 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_7 (constant S_ .f32 0x47C35000#32),
    unary main_cst_7 main_v33 (broadcastInDim S64 ![] bcast_S_S64 : (⟨S_, .f32⟩ : BufTy).Contents (Elt F) → (⟨S64, .f32⟩ : BufTy).Contents (Elt F)),
    binary main_v32 main_v33 main_v34 (Host.divf : (⟨S64, .f32⟩ : BufTy).Contents (Elt F) → (⟨S64, .f32⟩ : BufTy).Contents (Elt F) → (⟨S64, .f32⟩ : BufTy).Contents (Elt F)),
    unary main_v27 main_v35 (broadcastInDim S1x64 ![1] bcast_S64_S1x64_1 : (⟨S64, .f32⟩ : BufTy).Contents (Elt F) → (⟨S1x64, .f32⟩ : BufTy).Contents (Elt F)),
    unary main_v35 main_v36 (broadcastInDim S100000x64 ![0, 1] bcast_S1x64_S100000x64_0_1 : (⟨S1x64, .f32⟩ : BufTy).Contents (Elt F) → (⟨S100000x64, .f32⟩ : BufTy).Contents (Elt F)),
    binary main_v24 main_v36 main_v37 (subf : (⟨S100000x64, .f32⟩ : BufTy).Contents (Elt F) → (⟨S100000x64, .f32⟩ : BufTy).Contents (Elt F) → (⟨S100000x64, .f32⟩ : BufTy).Contents (Elt F)),
    nullary main_cst_8 (constant S_ .f32 0x3727C5AC#32),
    unary main_cst_8 main_v38 (broadcastInDim S64 ![] bcast_S_S64 : (⟨S_, .f32⟩ : BufTy).Contents (Elt F) → (⟨S64, .f32⟩ : BufTy).Contents (Elt F)),
    binary main_v34 main_v38 main_v39 (addf : (⟨S64, .f32⟩ : BufTy).Contents (Elt F) → (⟨S64, .f32⟩ : BufTy).Contents (Elt F) → (⟨S64, .f32⟩ : BufTy).Contents (Elt F)),
    unary main_v39 main_v40 (Host.rsqrt : (⟨S64, .f32⟩ : BufTy).Contents (Elt F) → (⟨S64, .f32⟩ : BufTy).Contents (Elt F)),
    unary main_v40 main_v41 (broadcastInDim S1x64 ![1] bcast_S64_S1x64_1 : (⟨S64, .f32⟩ : BufTy).Contents (Elt F) → (⟨S1x64, .f32⟩ : BufTy).Contents (Elt F)),
    unary main_v41 main_v42 (broadcastInDim S100000x64 ![0, 1] bcast_S1x64_S100000x64_0_1 : (⟨S1x64, .f32⟩ : BufTy).Contents (Elt F) → (⟨S100000x64, .f32⟩ : BufTy).Contents (Elt F)),
    binary main_v37 main_v42 main_v43 (mulf : (⟨S100000x64, .f32⟩ : BufTy).Contents (Elt F) → (⟨S100000x64, .f32⟩ : BufTy).Contents (Elt F) → (⟨S100000x64, .f32⟩ : BufTy).Contents (Elt F)),
    unary main_arg6 main_v44 (broadcastInDim S1x64 ![1] bcast_S64_S1x64_1 : (⟨S64, .f32⟩ : BufTy).Contents (Elt F) → (⟨S1x64, .f32⟩ : BufTy).Contents (Elt F)),
    unary main_v44 main_v45 (broadcastInDim S100000x64 ![0, 1] bcast_S1x64_S100000x64_0_1 : (⟨S1x64, .f32⟩ : BufTy).Contents (Elt F) → (⟨S100000x64, .f32⟩ : BufTy).Contents (Elt F)),
    binary main_v43 main_v45 main_v46 (mulf : (⟨S100000x64, .f32⟩ : BufTy).Contents (Elt F) → (⟨S100000x64, .f32⟩ : BufTy).Contents (Elt F) → (⟨S100000x64, .f32⟩ : BufTy).Contents (Elt F)),
    unary main_arg7 main_v47 (broadcastInDim S1x64 ![1] bcast_S64_S1x64_1 : (⟨S64, .f32⟩ : BufTy).Contents (Elt F) → (⟨S1x64, .f32⟩ : BufTy).Contents (Elt F)),
    unary main_v47 main_v48 (broadcastInDim S100000x64 ![0, 1] bcast_S1x64_S100000x64_0_1 : (⟨S1x64, .f32⟩ : BufTy).Contents (Elt F) → (⟨S100000x64, .f32⟩ : BufTy).Contents (Elt F)),
    binary main_v46 main_v48 main_v49 (addf : (⟨S100000x64, .f32⟩ : BufTy).Contents (Elt F) → (⟨S100000x64, .f32⟩ : BufTy).Contents (Elt F) → (⟨S100000x64, .f32⟩ : BufTy).Contents (Elt F)) ]
/-- A buffer that none of these operations writes holds afterwards what it held before. -/
theorem win2_keep (V : Valuation τ sig (Elt F)) (r : Ref sig .tc)
    (hr : r ∉ ([main_cst_4, main_v25, main_cst_5, main_v26, main_v27, main_v28, main_v29, main_v30, main_v31, main_cst_6, main_v32, main_cst_7, main_v33, main_v34, main_v35, main_v36, main_v37, main_cst_8, main_v38, main_v39, main_v40, main_v41, main_v42, main_v43, main_v44, main_v45, main_v46, main_v47, main_v48, main_v49] : List (Ref sig .tc))) :
    after (win2 (F := F)) V (Proc.devRef .tc r) = V (Proc.devRef .tc r) :=
  after_of_forall_not_mem _ _ (List.forall_iff_forall_mem.mp (by
    simp only [win2, List.Forall, nullary_writes, unary_writes, binary_writes, ternary_writes, Finset.mem_singleton]
    repeat' apply And.intro
    all_goals exact devRef_ne_of_ne (fun e => hr (by subst e; decide))))

set_option maxRecDepth 8192 in
/-- These operations leave, in their last buffer, the normalisation of the specification applied to the table and the
    parameters they start from. -/
theorem win2_out (V : Valuation τ sig (Elt Ideal)) :
    after (win2 (F := Ideal)) V (Proc.devRef .tc main_v49) = bnorm (D := 64) (V (Proc.devRef .tc main_v24)) (V (Proc.devRef .tc main_arg6)) (V (Proc.devRef .tc main_arg7)) := by
  unfold win2
  after_results_simp
  exact (host_bnorm_eq (D := 64) reducesTo_S100000x64_S64_d0 (by decide) h_S_ bcast_S_S64 bcast_S64_S1x64_1 bcast_S1x64_S100000x64_0_1
      (V (Proc.devRef .tc main_v24)) (V (Proc.devRef .tc main_arg6)) (V (Proc.devRef .tc main_arg7)))

end Cert.ReferenceIdeal.RefValue

end
-- ==== Proof.RefWinB.lean ====
/-
  A stretch of the reference program's straight line of host operations, read as one function of the buffers it starts from.

  The second layer and the second normalisation with its ramp. Each stretch is taken from ARBITRARY starting contents: its last buffer
  holds the corresponding function of the specification applied to what the buffers it reads held at the start, and every
  buffer it does not write holds what it held at the start. The stretches, in order, are the whole line.
-/
import proofs.«174735_j64811056496761_2_alg».proof.Proof.Gen.ReferenceIdeal
import Idealize.ShloMosaic.Lib.StableHlo.Run
import proofs.«174735_j64811056496761_2_alg».proof.Proof.HostReadLayer
import proofs.«174735_j64811056496761_2_alg».proof.Proof.HostReadNorm

noncomputable section

namespace Cert.ReferenceIdeal.RefValue

open Cert.ReferenceIdeal Cert.ReferenceIdeal.Gen Idealize.ShloMosaic Idealize.ShloMosaic.TcCoe Idealize.SL.Sem Idealize.ShloMosaic.StableHlo
open Cert.GNet Cert.GNet.HostRead Cert.LibGatherRows Cert.LibRowIndex

variable {F : FTy → Type} [FloatOps F]
/-- The second layer. -/
def win3 : List (HloOp τ sig (Elt F)) :=
  [
    nullary main_c_9 (constantI S_ 32 0#32),
    unary main_c_9 main_v50 (broadcastInDim S1600000 ![] bcast_S_S1600000 : (⟨S_, .i32⟩ : BufTy).Contents (Elt F) → (⟨S1600000, .i32⟩ : BufTy).Contents (Elt F)),
    binary main_arg1 main_v50 main_v51 (cmpi .slt : (⟨S1600000, .i32⟩ : BufTy).Contents (Elt F) → (⟨S1600000, .i32⟩ : BufTy).Contents (Elt F) → (⟨S1600000, .i1⟩ : BufTy).Contents (Elt F)),
    nullary main_c_10 (constantI S_ 32 100000#32),
    unary main_c_10 main_v52 (broadcastInDim S1600000 ![] bcast_S_S1600000 : (⟨S_, .i32⟩ : BufTy).Contents (Elt F) → (⟨S1600000, .i32⟩ : BufTy).Contents (Elt F)),
    binary main_arg1 main_v52 main_v53 (addi : (⟨S1600000, .i32⟩ : BufTy).Contents (Elt F) → (⟨S1600000, .i32⟩ : BufTy).Contents (Elt F) → (⟨S1600000, .i32⟩ : BufTy).Contents (Elt F)),
    ternary main_v51 main_v53 main_arg1 main_v54 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v54 main_v55 (broadcastInDim S1600000x1 ![0] bcast_S1600000_S1600000x1_0 : (⟨S1600000, .i32⟩ : BufTy).Contents (Elt F) → (⟨S1600000x1, .i32⟩ : BufTy).Contents (Elt F)),
    binary main_v49 main_v55 main_v56 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    nullary main_cst_11 (constant S_ .f32 0x00000000#32),
    unary main_cst_11 main_v57 (broadcastInDim S100000x64 ![] bcast_S_S100000x64 : (⟨S_, .f32⟩ : BufTy).Contents (Elt F) → (⟨S100000x64, .f32⟩ : BufTy).Contents (Elt F)),
    unary main_arg2 main_v58 (broadcastInDim S1600000x1 ![0] bcast_S1600000_S1600000x1_0 : (⟨S1600000, .i32⟩ : BufTy).Contents (Elt F) → (⟨S1600000x1, .i32⟩ : BufTy).Contents (Elt F)),
    ternary main_v57 main_v58 main_v56 main_v59 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    nullary main_cst_12 (constant S_ .f32 0x3F800000#32),
    unary main_cst_12 main_v60 (broadcastInDim S1600000 ![] bcast_S_S1600000 : (⟨S_, .f32⟩ : BufTy).Contents (Elt F) → (⟨S1600000, .f32⟩ : BufTy).Contents (Elt F)),
    nullary main_cst_13 (constant S_ .f32 0x00000000#32),
    unary main_cst_13 main_v61 (broadcastInDim S100000 ![] bcast_S_S100000 : (⟨S_, .f32⟩ : BufTy).Contents (Elt F) → (⟨S100000, .f32⟩ : BufTy).Contents (Elt F)),
    unary main_arg2 main_v62 (broadcastInDim S1600000x1 ![0] bcast_S1600000_S1600000x1_0 : (⟨S1600000, .i32⟩ : BufTy).Contents (Elt F) → (⟨S1600000x1, .i32⟩ : BufTy).Contents (Elt F)),
    ternary main_v61 main_v62 main_v60 main_v63 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_14 (constant S_ .f32 0x3F800000#32),
    unary main_cst_14 main_v64 (broadcastInDim S100000 ![] bcast_S_S100000 : (⟨S_, .f32⟩ : BufTy).Contents (Elt F) → (⟨S100000, .f32⟩ : BufTy).Contents (Elt F)),
    binary main_v63 main_v64 main_v65 (maximumf : (⟨S100000, .f32⟩ : BufTy).Contents (Elt F) → (⟨S100000, .f32⟩ : BufTy).Contents (Elt F) → (⟨S100000, .f32⟩ : BufTy).Contents (Elt F)),
    unary main_v65 main_v66 (broadcastInDim S100000x1 ![0] bcast_S100000_S100000x1_0 : (⟨S100000, .f32⟩ : BufTy).Contents (Elt F) → (⟨S100000x1, .f32⟩ : BufTy).Contents (Elt F)),
    unary main_v66 main_v67 (broadcastInDim S100000x64 ![0, 1] bcast_S100000x1_S100000x64_0_1 : (⟨S100000x1, .f32⟩ : BufTy).Contents (Elt F) → (⟨S100000x64, .f32⟩ : BufTy).Contents (Elt F)),
    binary main_v59 main_v67 main_v68 (Host.divf : (⟨S100000x64, .f32⟩ : BufTy).Contents (Elt F) → (⟨S100000x64, .f32⟩ : BufTy).Contents (Elt F) → (⟨S100000x64, .f32⟩ : BufTy).Contents (Elt F)),
    binary main_v49 main_arg8 main_v69 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    binary main_v68 main_arg9 main_v70 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    binary main_v69 main_v70 main_v71 (addf : (⟨S100000x64, .f32⟩ : BufTy).Contents (Elt F) → (⟨S100000x64, .f32⟩ : BufTy).Contents (Elt F) → (⟨S100000x64, .f32⟩ : BufTy).Contents (Elt F)),
    unary main_arg10 main_v72 (broadcastInDim S1x64 ![1] bcast_S64_S1x64_1 : (⟨S64, .f32⟩ : BufTy).Contents (Elt F) → (⟨S1x64, .f32⟩ : BufTy).Contents (Elt F)),
    unary main_v72 main_v73 (broadcastInDim S100000x64 ![0, 1] bcast_S1x64_S100000x64_0_1 : (⟨S1x64, .f32⟩ : BufTy).Contents (Elt F) → (⟨S100000x64, .f32⟩ : BufTy).Contents (Elt F)),
    binary main_v71 main_v73 main_v74 (addf : (⟨S100000x64, .f32⟩ : BufTy).Contents (Elt F) → (⟨S100000x64, .f32⟩ : BufTy).Contents (Elt F) → (⟨S100000x64, .f32⟩ : BufTy).Contents (Elt F)) ]
/-- A buffer that none of these operations writes holds afterwards what it held before. -/
theorem win3_keep (V : Valuation τ sig (Elt F)) (r : Ref sig .tc)
    (hr : r ∉ ([main_c_9, main_v50, main_v51, main_c_10, main_v52, main_v53, main_v54, main_v55, main_v56, main_cst_11, main_v57, main_v58, main_v59, main_cst_12, main_v60, main_cst_13, main_v61, main_v62, main_v63, main_cst_14, main_v64, main_v65, main_v66, main_v67, main_v68, main_v69, main_v70, main_v71, main_v72, main_v73, main_v74] : List (Ref sig .tc))) :
    after (win3 (F := F)) V (Proc.devRef .tc r) = V (Proc.devRef .tc r) :=
  after_of_forall_not_mem _ _ (List.forall_iff_forall_mem.mp (by
    simp only [win3, List.Forall, nullary_writes, unary_writes, binary_writes, ternary_writes, Finset.mem_singleton]
    repeat' apply And.intro
    all_goals exact devRef_ne_of_ne (fun e => hr (by subst e; decide))))

set_option maxRecDepth 8192 in
/-- These operations leave, in their last buffer, the layer of the specification applied to the table and the parameters they
    start from. -/
theorem win3_out (V : Valuation τ sig (Elt Ideal)) :
    after (win3 (F := Ideal)) V (Proc.devRef .tc main_v74)
      = sage (C := 64) (D := 64) (V (Proc.devRef .tc main_v49)) (V (Proc.devRef .tc main_arg8)) (V (Proc.devRef .tc main_arg9)) (V (Proc.devRef .tc main_arg10)) (V (Proc.devRef .tc main_arg1)) (V (Proc.devRef .tc main_arg2)) := by
  unfold win3
  after_results_simp
  exact host_sage_eq (C := 64) (D := 64) dot_S100000x64_S64x64_S100000x64_1_0_0_1_n_n rfl
    gather_S100000x64_S1600000x1_S1600000x64_1_0_n_n_0_1_164 gather_S100000x64_S1600000x1_S1600000x64_1_0_n_n_0_1_164_wf rfl
    scatter_S100000x64_S1600000x1_S1600000x64_1_0_0_1 scatter_S100000x64_S1600000x1_S1600000x64_1_0_0_1_wf rfl
    scatter_S100000_S1600000x1_S1600000_n_0_0_1 scatter_S100000_S1600000x1_S1600000_n_0_0_1_wf rfl
    bcast_S100000_S100000x1_0 bcast_S100000x1_S100000x64_0_1 bcast_S64_S1x64_1 bcast_S1x64_S100000x64_0_1
    _ (fun _ => bcast_zero_apply _ _) _ (fun _ => bcast_zero_apply _ _) _ (fun _ => rfl) _ (fun _ => rfl)
    (V (Proc.devRef .tc main_v49)) (V (Proc.devRef .tc main_arg8)) (V (Proc.devRef .tc main_arg9)) (V (Proc.devRef .tc main_arg10)) (V (Proc.devRef .tc main_arg1)) (V (Proc.devRef .tc main_arg2))

/-- The second normalisation and its ramp. -/
def win4 : List (HloOp τ sig (Elt F)) :=
  [
    nullary main_cst_15 (constant S_ .f32 0x00000000#32),
    binary main_v74 main_cst_15 main_v75 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_16 (constant S_ .f32 0x47C35000#32),
    unary main_cst_16 main_v76 (broadcastInDim S64 ![] bcast_S_S64 : (⟨S_, .f32⟩ : BufTy).Contents (Elt F) → (⟨S64, .f32⟩ : BufTy).Contents (Elt F)),
    binary main_v75 main_v76 main_v77 (Host.divf : (⟨S64, .f32⟩ : BufTy).Contents (Elt F) → (⟨S64, .f32⟩ : BufTy).Contents (Elt F) → (⟨S64, .f32⟩ : BufTy).Contents (Elt F)),
    unary main_v77 main_v78 (broadcastInDim S1x64 ![1] bcast_S64_S1x64_1 : (⟨S64, .f32⟩ : BufTy).Contents (Elt F) → (⟨S1x64, .f32⟩ : BufTy).Contents (Elt F)),
    unary main_v78 main_v79 (broadcastInDim S100000x64 ![0, 1] bcast_S1x64_S100000x64_0_1 : (⟨S1x64, .f32⟩ : BufTy).Contents (Elt F) → (⟨S100000x64, .f32⟩ : BufTy).Contents (Elt F)),
    binary main_v74 main_v79 main_v80 (subf : (⟨S100000x64, .f32⟩ : BufTy).Contents (Elt F) → (⟨S100000x64, .f32⟩ : BufTy).Contents (Elt F) → (⟨S100000x64, .f32⟩ : BufTy).Contents (Elt F)),
    binary main_v80 main_v80 main_v81 (mulf : (⟨S100000x64, .f32⟩ : BufTy).Contents (Elt F) → (⟨S100000x64, .f32⟩ : BufTy).Contents (Elt F) → (⟨S100000x64, .f32⟩ : BufTy).Contents (Elt F)),
    nullary main_cst_17 (constant S_ .f32 0x00000000#32),
    binary main_v81 main_cst_17 main_v82 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_18 (constant S_ .f32 0x47C35000#32),
    unary main_cst_18 main_v83 (broadcastInDim S64 ![] bcast_S_S64 : (⟨S_, .f32⟩ : BufTy).Contents (Elt F) → (⟨S64, .f32⟩ : BufTy).Contents (Elt F)),
    binary main_v82 main_v83 main_v84 (Host.divf : (⟨S64, .f32⟩ : BufTy).Contents (Elt F) → (⟨S64, .f32⟩ : BufTy).Contents (Elt F) → (⟨S64, .f32⟩ : BufTy).Contents (Elt F)),
    unary main_v77 main_v85 (broadcastInDim S1x64 ![1] bcast_S64_S1x64_1 : (⟨S64, .f32⟩ : BufTy).Contents (Elt F) → (⟨S1x64, .f32⟩ : BufTy).Contents (Elt F)),
    unary main_v85 main_v86 (broadcastInDim S100000x64 ![0, 1] bcast_S1x64_S100000x64_0_1 : (⟨S1x64, .f32⟩ : BufTy).Contents (Elt F) → (⟨S100000x64, .f32⟩ : BufTy).Contents (Elt F)),
    binary main_v74 main_v86 main_v87 (subf : (⟨S100000x64, .f32⟩ : BufTy).Contents (Elt F) → (⟨S100000x64, .f32⟩ : BufTy).Contents (Elt F) → (⟨S100000x64, .f32⟩ : BufTy).Contents (Elt F)),
    nullary main_cst_19 (constant S_ .f32 0x3727C5AC#32),
    unary main_cst_19 main_v88 (broadcastInDim S64 ![] bcast_S_S64 : (⟨S_, .f32⟩ : BufTy).Contents (Elt F) → (⟨S64, .f32⟩ : BufTy).Contents (Elt F)),
    binary main_v84 main_v88 main_v89 (addf : (⟨S64, .f32⟩ : BufTy).Contents (Elt F) → (⟨S64, .f32⟩ : BufTy).Contents (Elt F) → (⟨S64, .f32⟩ : BufTy).Contents (Elt F)),
    unary main_v89 main_v90 (Host.rsqrt : (⟨S64, .f32⟩ : BufTy).Contents (Elt F) → (⟨S64, .f32⟩ : BufTy).Contents (Elt F)),
    unary main_v90 main_v91 (broadcastInDim S1x64 ![1] bcast_S64_S1x64_1 : (⟨S64, .f32⟩ : BufTy).Contents (Elt F) → (⟨S1x64, .f32⟩ : BufTy).Contents (Elt F)),
    unary main_v91 main_v92 (broadcastInDim S100000x64 ![0, 1] bcast_S1x64_S100000x64_0_1 : (⟨S1x64, .f32⟩ : BufTy).Contents (Elt F) → (⟨S100000x64, .f32⟩ : BufTy).Contents (Elt F)),
    binary main_v87 main_v92 main_v93 (mulf : (⟨S100000x64, .f32⟩ : BufTy).Contents (Elt F) → (⟨S100000x64, .f32⟩ : BufTy).Contents (Elt F) → (⟨S100000x64, .f32⟩ : BufTy).Contents (Elt F)),
    unary main_arg11 main_v94 (broadcastInDim S1x64 ![1] bcast_S64_S1x64_1 : (⟨S64, .f32⟩ : BufTy).Contents (Elt F) → (⟨S1x64, .f32⟩ : BufTy).Contents (Elt F)),
    unary main_v94 main_v95 (broadcastInDim S100000x64 ![0, 1] bcast_S1x64_S100000x64_0_1 : (⟨S1x64, .f32⟩ : BufTy).Contents (Elt F) → (⟨S100000x64, .f32⟩ : BufTy).Contents (Elt F)),
    binary main_v93 main_v95 main_v96 (mulf : (⟨S100000x64, .f32⟩ : BufTy).Contents (Elt F) → (⟨S100000x64, .f32⟩ : BufTy).Contents (Elt F) → (⟨S100000x64, .f32⟩ : BufTy).Contents (Elt F)),
    unary main_arg12 main_v97 (broadcastInDim S1x64 ![1] bcast_S64_S1x64_1 : (⟨S64, .f32⟩ : BufTy).Contents (Elt F) → (⟨S1x64, .f32⟩ : BufTy).Contents (Elt F)),
    unary main_v97 main_v98 (broadcastInDim S100000x64 ![0, 1] bcast_S1x64_S100000x64_0_1 : (⟨S1x64, .f32⟩ : BufTy).Contents (Elt F) → (⟨S100000x64, .f32⟩ : BufTy).Contents (Elt F)),
    binary main_v96 main_v98 main_v99 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x64, .f32⟩) main_call0_v0) (broadcastInDim S100000x64 ![] bcast_S_S100000x64),
    TRef.binary (TRef.of (T := ⟨S100000x64, .f32⟩) main_v99) (TRef.of (T := ⟨S100000x64, .f32⟩) main_call0_v0) (TRef.of (T := ⟨S100000x64, .f32⟩) main_v100) maximumf ]
/-- A buffer that none of these operations writes holds afterwards what it held before. -/
theorem win4_keep (V : Valuation τ sig (Elt F)) (r : Ref sig .tc)
    (hr : r ∉ ([main_cst_15, main_v75, main_cst_16, main_v76, main_v77, main_v78, main_v79, main_v80, main_v81, main_cst_17, main_v82, main_cst_18, main_v83, main_v84, main_v85, main_v86, main_v87, main_cst_19, main_v88, main_v89, main_v90, main_v91, main_v92, main_v93, main_v94, main_v95, main_v96, main_v97, main_v98, main_v99, main_call0_cst, main_call0_v0, main_v100] : List (Ref sig .tc))) :
    after (win4 (F := F)) V (Proc.devRef .tc r) = V (Proc.devRef .tc r) :=
  after_of_forall_not_mem _ _ (List.forall_iff_forall_mem.mp (by
    simp only [win4, List.Forall, nullary_writes, unary_writes, binary_writes, ternary_writes, Finset.mem_singleton]
    repeat' apply And.intro
    all_goals exact devRef_ne_of_ne (fun e => hr (by subst e; decide))))

set_option maxRecDepth 8192 in
/-- These operations leave, in their last buffer, the ramp of the normalisation of the specification applied to the table and
    the parameters they start from. -/
theorem win4_out (V : Valuation τ sig (Elt Ideal)) :
    after (win4 (F := Ideal)) V (Proc.devRef .tc main_v100) = relu (bnorm (D := 64) (V (Proc.devRef .tc main_v74)) (V (Proc.devRef .tc main_arg11)) (V (Proc.devRef .tc main_arg12))) := by
  unfold win4
  after_results_simp
  exact (host_relu_eq (D := 64) bcast_S_S100000x64 _).trans (congrArg relu
    (host_bnorm_eq (D := 64) reducesTo_S100000x64_S64_d0 (by decide) h_S_ bcast_S_S64 bcast_S64_S1x64_1 bcast_S1x64_S100000x64_0_1
      (V (Proc.devRef .tc main_v74)) (V (Proc.devRef .tc main_arg11)) (V (Proc.devRef .tc main_arg12))))

end Cert.ReferenceIdeal.RefValue

end
-- ==== Proof.RefWinC.lean ====
/-
  A stretch of the reference program's straight line of host operations, read as one function of the buffers it starts from.

  The third layer and the third normalisation with its ramp. Each stretch is taken from ARBITRARY starting contents: its last buffer
  holds the corresponding function of the specification applied to what the buffers it reads held at the start, and every
  buffer it does not write holds what it held at the start. The stretches, in order, are the whole line.
-/
import proofs.«174735_j64811056496761_2_alg».proof.Proof.Gen.ReferenceIdeal
import Idealize.ShloMosaic.Lib.StableHlo.Run
import proofs.«174735_j64811056496761_2_alg».proof.Proof.HostReadLayer
import proofs.«174735_j64811056496761_2_alg».proof.Proof.HostReadNorm

noncomputable section

namespace Cert.ReferenceIdeal.RefValue

open Cert.ReferenceIdeal Cert.ReferenceIdeal.Gen Idealize.ShloMosaic Idealize.ShloMosaic.TcCoe Idealize.SL.Sem Idealize.ShloMosaic.StableHlo
open Cert.GNet Cert.GNet.HostRead Cert.LibGatherRows Cert.LibRowIndex

variable {F : FTy → Type} [FloatOps F]
/-- The third layer. -/
def win5 : List (HloOp τ sig (Elt F)) :=
  [
    nullary main_c_20 (constantI S_ 32 0#32),
    unary main_c_20 main_v101 (broadcastInDim S1600000 ![] bcast_S_S1600000 : (⟨S_, .i32⟩ : BufTy).Contents (Elt F) → (⟨S1600000, .i32⟩ : BufTy).Contents (Elt F)),
    binary main_arg1 main_v101 main_v102 (cmpi .slt : (⟨S1600000, .i32⟩ : BufTy).Contents (Elt F) → (⟨S1600000, .i32⟩ : BufTy).Contents (Elt F) → (⟨S1600000, .i1⟩ : BufTy).Contents (Elt F)),
    nullary main_c_21 (constantI S_ 32 100000#32),
    unary main_c_21 main_v103 (broadcastInDim S1600000 ![] bcast_S_S1600000 : (⟨S_, .i32⟩ : BufTy).Contents (Elt F) → (⟨S1600000, .i32⟩ : BufTy).Contents (Elt F)),
    binary main_arg1 main_v103 main_v104 (addi : (⟨S1600000, .i32⟩ : BufTy).Contents (Elt F) → (⟨S1600000, .i32⟩ : BufTy).Contents (Elt F) → (⟨S1600000, .i32⟩ : BufTy).Contents (Elt F)),
    ternary main_v102 main_v104 main_arg1 main_v105 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v105 main_v106 (broadcastInDim S1600000x1 ![0] bcast_S1600000_S1600000x1_0 : (⟨S1600000, .i32⟩ : BufTy).Contents (Elt F) → (⟨S1600000x1, .i32⟩ : BufTy).Contents (Elt F)),
    binary main_v100 main_v106 main_v107 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    nullary main_cst_22 (constant S_ .f32 0x00000000#32),
    unary main_cst_22 main_v108 (broadcastInDim S100000x64 ![] bcast_S_S100000x64 : (⟨S_, .f32⟩ : BufTy).Contents (Elt F) → (⟨S100000x64, .f32⟩ : BufTy).Contents (Elt F)),
    unary main_arg2 main_v109 (broadcastInDim S1600000x1 ![0] bcast_S1600000_S1600000x1_0 : (⟨S1600000, .i32⟩ : BufTy).Contents (Elt F) → (⟨S1600000x1, .i32⟩ : BufTy).Contents (Elt F)),
    ternary main_v108 main_v109 main_v107 main_v110 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    nullary main_cst_23 (constant S_ .f32 0x3F800000#32),
    unary main_cst_23 main_v111 (broadcastInDim S1600000 ![] bcast_S_S1600000 : (⟨S_, .f32⟩ : BufTy).Contents (Elt F) → (⟨S1600000, .f32⟩ : BufTy).Contents (Elt F)),
    nullary main_cst_24 (constant S_ .f32 0x00000000#32),
    unary main_cst_24 main_v112 (broadcastInDim S100000 ![] bcast_S_S100000 : (⟨S_, .f32⟩ : BufTy).Contents (Elt F) → (⟨S100000, .f32⟩ : BufTy).Contents (Elt F)),
    unary main_arg2 main_v113 (broadcastInDim S1600000x1 ![0] bcast_S1600000_S1600000x1_0 : (⟨S1600000, .i32⟩ : BufTy).Contents (Elt F) → (⟨S1600000x1, .i32⟩ : BufTy).Contents (Elt F)),
    ternary main_v112 main_v113 main_v111 main_v114 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_25 (constant S_ .f32 0x3F800000#32),
    unary main_cst_25 main_v115 (broadcastInDim S100000 ![] bcast_S_S100000 : (⟨S_, .f32⟩ : BufTy).Contents (Elt F) → (⟨S100000, .f32⟩ : BufTy).Contents (Elt F)),
    binary main_v114 main_v115 main_v116 (maximumf : (⟨S100000, .f32⟩ : BufTy).Contents (Elt F) → (⟨S100000, .f32⟩ : BufTy).Contents (Elt F) → (⟨S100000, .f32⟩ : BufTy).Contents (Elt F)),
    unary main_v116 main_v117 (broadcastInDim S100000x1 ![0] bcast_S100000_S100000x1_0 : (⟨S100000, .f32⟩ : BufTy).Contents (Elt F) → (⟨S100000x1, .f32⟩ : BufTy).Contents (Elt F)),
    unary main_v117 main_v118 (broadcastInDim S100000x64 ![0, 1] bcast_S100000x1_S100000x64_0_1 : (⟨S100000x1, .f32⟩ : BufTy).Contents (Elt F) → (⟨S100000x64, .f32⟩ : BufTy).Contents (Elt F)),
    binary main_v110 main_v118 main_v119 (Host.divf : (⟨S100000x64, .f32⟩ : BufTy).Contents (Elt F) → (⟨S100000x64, .f32⟩ : BufTy).Contents (Elt F) → (⟨S100000x64, .f32⟩ : BufTy).Contents (Elt F)),
    binary main_v100 main_arg13 main_v120 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    binary main_v119 main_arg14 main_v121 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    binary main_v120 main_v121 main_v122 (addf : (⟨S100000x64, .f32⟩ : BufTy).Contents (Elt F) → (⟨S100000x64, .f32⟩ : BufTy).Contents (Elt F) → (⟨S100000x64, .f32⟩ : BufTy).Contents (Elt F)),
    unary main_arg15 main_v123 (broadcastInDim S1x64 ![1] bcast_S64_S1x64_1 : (⟨S64, .f32⟩ : BufTy).Contents (Elt F) → (⟨S1x64, .f32⟩ : BufTy).Contents (Elt F)),
    unary main_v123 main_v124 (broadcastInDim S100000x64 ![0, 1] bcast_S1x64_S100000x64_0_1 : (⟨S1x64, .f32⟩ : BufTy).Contents (Elt F) → (⟨S100000x64, .f32⟩ : BufTy).Contents (Elt F)),
    binary main_v122 main_v124 main_v125 (addf : (⟨S100000x64, .f32⟩ : BufTy).Contents (Elt F) → (⟨S100000x64, .f32⟩ : BufTy).Contents (Elt F) → (⟨S100000x64, .f32⟩ : BufTy).Contents (Elt F)) ]
/-- A buffer that none of these operations writes holds afterwards what it held before. -/
theorem win5_keep (V : Valuation τ sig (Elt F)) (r : Ref sig .tc)
    (hr : r ∉ ([main_c_20, main_v101, main_v102, main_c_21, main_v103, main_v104, main_v105, main_v106, main_v107, main_cst_22, main_v108, main_v109, main_v110, main_cst_23, main_v111, main_cst_24, main_v112, main_v113, main_v114, main_cst_25, main_v115, main_v116, main_v117, main_v118, main_v119, main_v120, main_v121, main_v122, main_v123, main_v124, main_v125] : List (Ref sig .tc))) :
    after (win5 (F := F)) V (Proc.devRef .tc r) = V (Proc.devRef .tc r) :=
  after_of_forall_not_mem _ _ (List.forall_iff_forall_mem.mp (by
    simp only [win5, List.Forall, nullary_writes, unary_writes, binary_writes, ternary_writes, Finset.mem_singleton]
    repeat' apply And.intro
    all_goals exact devRef_ne_of_ne (fun e => hr (by subst e; decide))))

set_option maxRecDepth 8192 in
/-- These operations leave, in their last buffer, the layer of the specification applied to the table and the parameters they
    start from. -/
theorem win5_out (V : Valuation τ sig (Elt Ideal)) :
    after (win5 (F := Ideal)) V (Proc.devRef .tc main_v125)
      = sage (C := 64) (D := 64) (V (Proc.devRef .tc main_v100)) (V (Proc.devRef .tc main_arg13)) (V (Proc.devRef .tc main_arg14)) (V (Proc.devRef .tc main_arg15)) (V (Proc.devRef .tc main_arg1)) (V (Proc.devRef .tc main_arg2)) := by
  unfold win5
  after_results_simp
  exact host_sage_eq (C := 64) (D := 64) dot_S100000x64_S64x64_S100000x64_1_0_0_1_n_n rfl
    gather_S100000x64_S1600000x1_S1600000x64_1_0_n_n_0_1_164 gather_S100000x64_S1600000x1_S1600000x64_1_0_n_n_0_1_164_wf rfl
    scatter_S100000x64_S1600000x1_S1600000x64_1_0_0_1 scatter_S100000x64_S1600000x1_S1600000x64_1_0_0_1_wf rfl
    scatter_S100000_S1600000x1_S1600000_n_0_0_1 scatter_S100000_S1600000x1_S1600000_n_0_0_1_wf rfl
    bcast_S100000_S100000x1_0 bcast_S100000x1_S100000x64_0_1 bcast_S64_S1x64_1 bcast_S1x64_S100000x64_0_1
    _ (fun _ => bcast_zero_apply _ _) _ (fun _ => bcast_zero_apply _ _) _ (fun _ => rfl) _ (fun _ => rfl)
    (V (Proc.devRef .tc main_v100)) (V (Proc.devRef .tc main_arg13)) (V (Proc.devRef .tc main_arg14)) (V (Proc.devRef .tc main_arg15)) (V (Proc.devRef .tc main_arg1)) (V (Proc.devRef .tc main_arg2))

/-- The third normalisation and its ramp. -/
def win6 : List (HloOp τ sig (Elt F)) :=
  [
    nullary main_cst_26 (constant S_ .f32 0x00000000#32),
    binary main_v125 main_cst_26 main_v126 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_27 (constant S_ .f32 0x47C35000#32),
    unary main_cst_27 main_v127 (broadcastInDim S64 ![] bcast_S_S64 : (⟨S_, .f32⟩ : BufTy).Contents (Elt F) → (⟨S64, .f32⟩ : BufTy).Contents (Elt F)),
    binary main_v126 main_v127 main_v128 (Host.divf : (⟨S64, .f32⟩ : BufTy).Contents (Elt F) → (⟨S64, .f32⟩ : BufTy).Contents (Elt F) → (⟨S64, .f32⟩ : BufTy).Contents (Elt F)),
    unary main_v128 main_v129 (broadcastInDim S1x64 ![1] bcast_S64_S1x64_1 : (⟨S64, .f32⟩ : BufTy).Contents (Elt F) → (⟨S1x64, .f32⟩ : BufTy).Contents (Elt F)),
    unary main_v129 main_v130 (broadcastInDim S100000x64 ![0, 1] bcast_S1x64_S100000x64_0_1 : (⟨S1x64, .f32⟩ : BufTy).Contents (Elt F) → (⟨S100000x64, .f32⟩ : BufTy).Contents (Elt F)),
    binary main_v125 main_v130 main_v131 (subf : (⟨S100000x64, .f32⟩ : BufTy).Contents (Elt F) → (⟨S100000x64, .f32⟩ : BufTy).Contents (Elt F) → (⟨S100000x64, .f32⟩ : BufTy).Contents (Elt F)),
    binary main_v131 main_v131 main_v132 (mulf : (⟨S100000x64, .f32⟩ : BufTy).Contents (Elt F) → (⟨S100000x64, .f32⟩ : BufTy).Contents (Elt F) → (⟨S100000x64, .f32⟩ : BufTy).Contents (Elt F)),
    nullary main_cst_28 (constant S_ .f32 0x00000000#32),
    binary main_v132 main_cst_28 main_v133 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_29 (constant S_ .f32 0x47C35000#32),
    unary main_cst_29 main_v134 (broadcastInDim S64 ![] bcast_S_S64 : (⟨S_, .f32⟩ : BufTy).Contents (Elt F) → (⟨S64, .f32⟩ : BufTy).Contents (Elt F)),
    binary main_v133 main_v134 main_v135 (Host.divf : (⟨S64, .f32⟩ : BufTy).Contents (Elt F) → (⟨S64, .f32⟩ : BufTy).Contents (Elt F) → (⟨S64, .f32⟩ : BufTy).Contents (Elt F)),
    unary main_v128 main_v136 (broadcastInDim S1x64 ![1] bcast_S64_S1x64_1 : (⟨S64, .f32⟩ : BufTy).Contents (Elt F) → (⟨S1x64, .f32⟩ : BufTy).Contents (Elt F)),
    unary main_v136 main_v137 (broadcastInDim S100000x64 ![0, 1] bcast_S1x64_S100000x64_0_1 : (⟨S1x64, .f32⟩ : BufTy).Contents (Elt F) → (⟨S100000x64, .f32⟩ : BufTy).Contents (Elt F)),
    binary main_v125 main_v137 main_v138 (subf : (⟨S100000x64, .f32⟩ : BufTy).Contents (Elt F) → (⟨S100000x64, .f32⟩ : BufTy).Contents (Elt F) → (⟨S100000x64, .f32⟩ : BufTy).Contents (Elt F)),
    nullary main_cst_30 (constant S_ .f32 0x3727C5AC#32),
    unary main_cst_30 main_v139 (broadcastInDim S64 ![] bcast_S_S64 : (⟨S_, .f32⟩ : BufTy).Contents (Elt F) → (⟨S64, .f32⟩ : BufTy).Contents (Elt F)),
    binary main_v135 main_v139 main_v140 (addf : (⟨S64, .f32⟩ : BufTy).Contents (Elt F) → (⟨S64, .f32⟩ : BufTy).Contents (Elt F) → (⟨S64, .f32⟩ : BufTy).Contents (Elt F)),
    unary main_v140 main_v141 (Host.rsqrt : (⟨S64, .f32⟩ : BufTy).Contents (Elt F) → (⟨S64, .f32⟩ : BufTy).Contents (Elt F)),
    unary main_v141 main_v142 (broadcastInDim S1x64 ![1] bcast_S64_S1x64_1 : (⟨S64, .f32⟩ : BufTy).Contents (Elt F) → (⟨S1x64, .f32⟩ : BufTy).Contents (Elt F)),
    unary main_v142 main_v143 (broadcastInDim S100000x64 ![0, 1] bcast_S1x64_S100000x64_0_1 : (⟨S1x64, .f32⟩ : BufTy).Contents (Elt F) → (⟨S100000x64, .f32⟩ : BufTy).Contents (Elt F)),
    binary main_v138 main_v143 main_v144 (mulf : (⟨S100000x64, .f32⟩ : BufTy).Contents (Elt F) → (⟨S100000x64, .f32⟩ : BufTy).Contents (Elt F) → (⟨S100000x64, .f32⟩ : BufTy).Contents (Elt F)),
    unary main_arg16 main_v145 (broadcastInDim S1x64 ![1] bcast_S64_S1x64_1 : (⟨S64, .f32⟩ : BufTy).Contents (Elt F) → (⟨S1x64, .f32⟩ : BufTy).Contents (Elt F)),
    unary main_v145 main_v146 (broadcastInDim S100000x64 ![0, 1] bcast_S1x64_S100000x64_0_1 : (⟨S1x64, .f32⟩ : BufTy).Contents (Elt F) → (⟨S100000x64, .f32⟩ : BufTy).Contents (Elt F)),
    binary main_v144 main_v146 main_v147 (mulf : (⟨S100000x64, .f32⟩ : BufTy).Contents (Elt F) → (⟨S100000x64, .f32⟩ : BufTy).Contents (Elt F) → (⟨S100000x64, .f32⟩ : BufTy).Contents (Elt F)),
    unary main_arg17 main_v148 (broadcastInDim S1x64 ![1] bcast_S64_S1x64_1 : (⟨S64, .f32⟩ : BufTy).Contents (Elt F) → (⟨S1x64, .f32⟩ : BufTy).Contents (Elt F)),
    unary main_v148 main_v149 (broadcastInDim S100000x64 ![0, 1] bcast_S1x64_S100000x64_0_1 : (⟨S1x64, .f32⟩ : BufTy).Contents (Elt F) → (⟨S100000x64, .f32⟩ : BufTy).Contents (Elt F)),
    binary main_v147 main_v149 main_v150 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x64, .f32⟩) main_call1_v0) (broadcastInDim S100000x64 ![] bcast_S_S100000x64),
    TRef.binary (TRef.of (T := ⟨S100000x64, .f32⟩) main_v150) (TRef.of (T := ⟨S100000x64, .f32⟩) main_call1_v0) (TRef.of (T := ⟨S100000x64, .f32⟩) main_v151) maximumf ]
/-- A buffer that none of these operations writes holds afterwards what it held before. -/
theorem win6_keep (V : Valuation τ sig (Elt F)) (r : Ref sig .tc)
    (hr : r ∉ ([main_cst_26, main_v126, main_cst_27, main_v127, main_v128, main_v129, main_v130, main_v131, main_v132, main_cst_28, main_v133, main_cst_29, main_v134, main_v135, main_v136, main_v137, main_v138, main_cst_30, main_v139, main_v140, main_v141, main_v142, main_v143, main_v144, main_v145, main_v146, main_v147, main_v148, main_v149, main_v150, main_call1_cst, main_call1_v0, main_v151] : List (Ref sig .tc))) :
    after (win6 (F := F)) V (Proc.devRef .tc r) = V (Proc.devRef .tc r) :=
  after_of_forall_not_mem _ _ (List.forall_iff_forall_mem.mp (by
    simp only [win6, List.Forall, nullary_writes, unary_writes, binary_writes, ternary_writes, Finset.mem_singleton]
    repeat' apply And.intro
    all_goals exact devRef_ne_of_ne (fun e => hr (by subst e; decide))))

set_option maxRecDepth 8192 in
/-- These operations leave, in their last buffer, the ramp of the normalisation of the specification applied to the table and
    the parameters they start from. -/
theorem win6_out (V : Valuation τ sig (Elt Ideal)) :
    after (win6 (F := Ideal)) V (Proc.devRef .tc main_v151) = relu (bnorm (D := 64) (V (Proc.devRef .tc main_v125)) (V (Proc.devRef .tc main_arg16)) (V (Proc.devRef .tc main_arg17))) := by
  unfold win6
  after_results_simp
  exact (host_relu_eq (D := 64) bcast_S_S100000x64 _).trans (congrArg relu
    (host_bnorm_eq (D := 64) reducesTo_S100000x64_S64_d0 (by decide) h_S_ bcast_S_S64 bcast_S64_S1x64_1 bcast_S1x64_S100000x64_0_1
      (V (Proc.devRef .tc main_v125)) (V (Proc.devRef .tc main_arg16)) (V (Proc.devRef .tc main_arg17))))

end Cert.ReferenceIdeal.RefValue

end
-- ==== Proof.RefWinD.lean ====
/-
  A stretch of the reference program's straight line of host operations, read as one function of the buffers it starts from.

  The fourth layer, whose table is the program's result. Each stretch is taken from ARBITRARY starting contents: its last buffer
  holds the corresponding function of the specification applied to what the buffers it reads held at the start, and every
  buffer it does not write holds what it held at the start. The stretches, in order, are the whole line.
-/
import proofs.«174735_j64811056496761_2_alg».proof.Proof.Gen.ReferenceIdeal
import Idealize.ShloMosaic.Lib.StableHlo.Run
import proofs.«174735_j64811056496761_2_alg».proof.Proof.HostReadLayer
import proofs.«174735_j64811056496761_2_alg».proof.Proof.HostReadNorm

noncomputable section

namespace Cert.ReferenceIdeal.RefValue

open Cert.ReferenceIdeal Cert.ReferenceIdeal.Gen Idealize.ShloMosaic Idealize.ShloMosaic.TcCoe Idealize.SL.Sem Idealize.ShloMosaic.StableHlo
open Cert.GNet Cert.GNet.HostRead Cert.LibGatherRows Cert.LibRowIndex

variable {F : FTy → Type} [FloatOps F]
/-- The fourth layer. -/
def win7 : List (HloOp τ sig (Elt F)) :=
  [
    nullary main_c_31 (constantI S_ 32 0#32),
    unary main_c_31 main_v152 (broadcastInDim S1600000 ![] bcast_S_S1600000 : (⟨S_, .i32⟩ : BufTy).Contents (Elt F) → (⟨S1600000, .i32⟩ : BufTy).Contents (Elt F)),
    binary main_arg1 main_v152 main_v153 (cmpi .slt : (⟨S1600000, .i32⟩ : BufTy).Contents (Elt F) → (⟨S1600000, .i32⟩ : BufTy).Contents (Elt F) → (⟨S1600000, .i1⟩ : BufTy).Contents (Elt F)),
    nullary main_c_32 (constantI S_ 32 100000#32),
    unary main_c_32 main_v154 (broadcastInDim S1600000 ![] bcast_S_S1600000 : (⟨S_, .i32⟩ : BufTy).Contents (Elt F) → (⟨S1600000, .i32⟩ : BufTy).Contents (Elt F)),
    binary main_arg1 main_v154 main_v155 (addi : (⟨S1600000, .i32⟩ : BufTy).Contents (Elt F) → (⟨S1600000, .i32⟩ : BufTy).Contents (Elt F) → (⟨S1600000, .i32⟩ : BufTy).Contents (Elt F)),
    ternary main_v153 main_v155 main_arg1 main_v156 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v156 main_v157 (broadcastInDim S1600000x1 ![0] bcast_S1600000_S1600000x1_0 : (⟨S1600000, .i32⟩ : BufTy).Contents (Elt F) → (⟨S1600000x1, .i32⟩ : BufTy).Contents (Elt F)),
    binary main_v151 main_v157 main_v158 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    nullary main_cst_33 (constant S_ .f32 0x00000000#32),
    unary main_cst_33 main_v159 (broadcastInDim S100000x64 ![] bcast_S_S100000x64 : (⟨S_, .f32⟩ : BufTy).Contents (Elt F) → (⟨S100000x64, .f32⟩ : BufTy).Contents (Elt F)),
    unary main_arg2 main_v160 (broadcastInDim S1600000x1 ![0] bcast_S1600000_S1600000x1_0 : (⟨S1600000, .i32⟩ : BufTy).Contents (Elt F) → (⟨S1600000x1, .i32⟩ : BufTy).Contents (Elt F)),
    ternary main_v159 main_v160 main_v158 main_v161 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    nullary main_cst_34 (constant S_ .f32 0x3F800000#32),
    unary main_cst_34 main_v162 (broadcastInDim S1600000 ![] bcast_S_S1600000 : (⟨S_, .f32⟩ : BufTy).Contents (Elt F) → (⟨S1600000, .f32⟩ : BufTy).Contents (Elt F)),
    nullary main_cst_35 (constant S_ .f32 0x00000000#32),
    unary main_cst_35 main_v163 (broadcastInDim S100000 ![] bcast_S_S100000 : (⟨S_, .f32⟩ : BufTy).Contents (Elt F) → (⟨S100000, .f32⟩ : BufTy).Contents (Elt F)),
    unary main_arg2 main_v164 (broadcastInDim S1600000x1 ![0] bcast_S1600000_S1600000x1_0 : (⟨S1600000, .i32⟩ : BufTy).Contents (Elt F) → (⟨S1600000x1, .i32⟩ : BufTy).Contents (Elt F)),
    ternary main_v163 main_v164 main_v162 main_v165 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_36 (constant S_ .f32 0x3F800000#32),
    unary main_cst_36 main_v166 (broadcastInDim S100000 ![] bcast_S_S100000 : (⟨S_, .f32⟩ : BufTy).Contents (Elt F) → (⟨S100000, .f32⟩ : BufTy).Contents (Elt F)),
    binary main_v165 main_v166 main_v167 (maximumf : (⟨S100000, .f32⟩ : BufTy).Contents (Elt F) → (⟨S100000, .f32⟩ : BufTy).Contents (Elt F) → (⟨S100000, .f32⟩ : BufTy).Contents (Elt F)),
    unary main_v167 main_v168 (broadcastInDim S100000x1 ![0] bcast_S100000_S100000x1_0 : (⟨S100000, .f32⟩ : BufTy).Contents (Elt F) → (⟨S100000x1, .f32⟩ : BufTy).Contents (Elt F)),
    unary main_v168 main_v169 (broadcastInDim S100000x64 ![0, 1] bcast_S100000x1_S100000x64_0_1 : (⟨S100000x1, .f32⟩ : BufTy).Contents (Elt F) → (⟨S100000x64, .f32⟩ : BufTy).Contents (Elt F)),
    binary main_v161 main_v169 main_v170 (Host.divf : (⟨S100000x64, .f32⟩ : BufTy).Contents (Elt F) → (⟨S100000x64, .f32⟩ : BufTy).Contents (Elt F) → (⟨S100000x64, .f32⟩ : BufTy).Contents (Elt F)),
    binary main_v151 main_arg18 main_v171 ((fun l r => Host.dotGeneral dot_S100000x64_S64x16_S100000x16_1_0_0_1_n_n none l r) : (⟨S100000x64, .f32⟩ : BufTy).Contents (Elt F) → (⟨S64x16, .f32⟩ : BufTy).Contents (Elt F) → (⟨S100000x16, .f32⟩ : BufTy).Contents (Elt F)),
    binary main_v170 main_arg19 main_v172 ((fun l r => Host.dotGeneral dot_S100000x64_S64x16_S100000x16_1_0_0_1_n_n none l r) : (⟨S100000x64, .f32⟩ : BufTy).Contents (Elt F) → (⟨S64x16, .f32⟩ : BufTy).Contents (Elt F) → (⟨S100000x16, .f32⟩ : BufTy).Contents (Elt F)),
    binary main_v171 main_v172 main_v173 (addf : (⟨S100000x16, .f32⟩ : BufTy).Contents (Elt F) → (⟨S100000x16, .f32⟩ : BufTy).Contents (Elt F) → (⟨S100000x16, .f32⟩ : BufTy).Contents (Elt F)),
    unary main_arg20 main_v174 (broadcastInDim S1x16 ![1] bcast_S16_S1x16_1 : (⟨S16, .f32⟩ : BufTy).Contents (Elt F) → (⟨S1x16, .f32⟩ : BufTy).Contents (Elt F)),
    unary main_v174 main_v175 (broadcastInDim S100000x16 ![0, 1] bcast_S1x16_S100000x16_0_1 : (⟨S1x16, .f32⟩ : BufTy).Contents (Elt F) → (⟨S100000x16, .f32⟩ : BufTy).Contents (Elt F)),
    binary main_v173 main_v175 main_v176 (addf : (⟨S100000x16, .f32⟩ : BufTy).Contents (Elt F) → (⟨S100000x16, .f32⟩ : BufTy).Contents (Elt F) → (⟨S100000x16, .f32⟩ : BufTy).Contents (Elt F)) ]
/-- A buffer that none of these operations writes holds afterwards what it held before. -/
theorem win7_keep (V : Valuation τ sig (Elt F)) (r : Ref sig .tc)
    (hr : r ∉ ([main_c_31, main_v152, main_v153, main_c_32, main_v154, main_v155, main_v156, main_v157, main_v158, main_cst_33, main_v159, main_v160, main_v161, main_cst_34, main_v162, main_cst_35, main_v163, main_v164, main_v165, main_cst_36, main_v166, main_v167, main_v168, main_v169, main_v170, main_v171, main_v172, main_v173, main_v174, main_v175, main_v176] : List (Ref sig .tc))) :
    after (win7 (F := F)) V (Proc.devRef .tc r) = V (Proc.devRef .tc r) :=
  after_of_forall_not_mem _ _ (List.forall_iff_forall_mem.mp (by
    simp only [win7, List.Forall, nullary_writes, unary_writes, binary_writes, ternary_writes, Finset.mem_singleton]
    repeat' apply And.intro
    all_goals exact devRef_ne_of_ne (fun e => hr (by subst e; decide))))

set_option maxRecDepth 8192 in
/-- These operations leave, in their last buffer, the layer of the specification applied to the table and the parameters they
    start from. -/
theorem win7_out (V : Valuation τ sig (Elt Ideal)) :
    after (win7 (F := Ideal)) V (Proc.devRef .tc main_v176)
      = sage (C := 64) (D := 16) (V (Proc.devRef .tc main_v151)) (V (Proc.devRef .tc main_arg18)) (V (Proc.devRef .tc main_arg19)) (V (Proc.devRef .tc main_arg20)) (V (Proc.devRef .tc main_arg1)) (V (Proc.devRef .tc main_arg2)) := by
  unfold win7
  after_results_simp
  exact host_sage_eq (C := 64) (D := 16) dot_S100000x64_S64x16_S100000x16_1_0_0_1_n_n rfl
    gather_S100000x64_S1600000x1_S1600000x64_1_0_n_n_0_1_164 gather_S100000x64_S1600000x1_S1600000x64_1_0_n_n_0_1_164_wf rfl
    scatter_S100000x64_S1600000x1_S1600000x64_1_0_0_1 scatter_S100000x64_S1600000x1_S1600000x64_1_0_0_1_wf rfl
    scatter_S100000_S1600000x1_S1600000_n_0_0_1 scatter_S100000_S1600000x1_S1600000_n_0_0_1_wf rfl
    bcast_S100000_S100000x1_0 bcast_S100000x1_S100000x64_0_1 bcast_S16_S1x16_1 bcast_S1x16_S100000x16_0_1
    _ (fun _ => bcast_zero_apply _ _) _ (fun _ => bcast_zero_apply _ _) _ (fun _ => rfl) _ (fun _ => rfl)
    (V (Proc.devRef .tc main_v151)) (V (Proc.devRef .tc main_arg18)) (V (Proc.devRef .tc main_arg19)) (V (Proc.devRef .tc main_arg20)) (V (Proc.devRef .tc main_arg1)) (V (Proc.devRef .tc main_arg2))

end Cert.ReferenceIdeal.RefValue

end
-- ==== Proof.RefValue.lean ====
/-
  The reference program computes the network of the specification.

  The program's straight line of host operations is seven stretches in a row: a layer, a normalisation, a layer, a normalisation
  with its ramp, a layer, a normalisation with its ramp, and the last layer. Running the line is running the stretches one after
  the other; each stretch leaves in its last buffer the corresponding function of the specification applied to what the previous
  stretch left and to the parameters, and leaves the argument buffers as they were. Composing the seven functions gives the
  network applied to the arguments.
-/
import proofs.«174735_j64811056496761_2_alg».proof.Proof.RefRun
import proofs.«174735_j64811056496761_2_alg».proof.Proof.RefWinA
import proofs.«174735_j64811056496761_2_alg».proof.Proof.RefWinB
import proofs.«174735_j64811056496761_2_alg».proof.Proof.RefWinC
import proofs.«174735_j64811056496761_2_alg».proof.Proof.RefWinD

noncomputable section

namespace Cert.ReferenceIdeal.RefValue

open Cert.ReferenceIdeal Cert.ReferenceIdeal.Gen Idealize.ShloMosaic Idealize.ShloMosaic.TcCoe Idealize.SL.Sem Idealize.ShloMosaic.StableHlo
open Cert.GNet

/-- The program's operations are the seven stretches in a row. -/
theorem ops_eq {F : FTy → Type} [FloatOps F] :
    RunP.ops (F := F) = win1 ++ (win2 ++ (win3 ++ (win4 ++ (win5 ++ (win6 ++ win7))))) := rfl

set_option maxRecDepth 8192 in
/-- From any starting contents, the line leaves in the result buffer the network applied to the contents of the argument
    buffers. -/
theorem net_of_ops (W : Valuation τ sig (Elt Ideal)) :
    after (RunP.ops (F := Ideal)) W (Proc.devRef .tc main_v176)
      = net (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) (W (Proc.devRef .tc main_arg18)) (W (Proc.devRef .tc main_arg19)) (W (Proc.devRef .tc main_arg20)) := by
  rw [ops_eq, after_append, after_append, after_append, after_append, after_append, after_append]
  rw [win7_out, win6_keep _ main_arg18 (by decide), win6_keep _ main_arg19 (by decide), win6_keep _ main_arg20 (by decide), win6_keep _ main_arg1 (by decide), win6_keep _ main_arg2 (by decide)]
  rw [win6_out, win5_keep _ main_arg18 (by decide), win5_keep _ main_arg19 (by decide), win5_keep _ main_arg20 (by decide), win5_keep _ main_arg1 (by decide), win5_keep _ main_arg2 (by decide), win5_keep _ main_arg16 (by decide), win5_keep _ main_arg17 (by decide)]
  rw [win5_out, win4_keep _ main_arg18 (by decide), win4_keep _ main_arg19 (by decide), win4_keep _ main_arg20 (by decide), win4_keep _ main_arg1 (by decide), win4_keep _ main_arg2 (by decide), win4_keep _ main_arg16 (by decide), win4_keep _ main_arg17 (by decide), win4_keep _ main_arg13 (by decide), win4_keep _ main_arg14 (by decide), win4_keep _ main_arg15 (by decide)]
  rw [win4_out, win3_keep _ main_arg18 (by decide), win3_keep _ main_arg19 (by decide), win3_keep _ main_arg20 (by decide), win3_keep _ main_arg1 (by decide), win3_keep _ main_arg2 (by decide), win3_keep _ main_arg16 (by decide), win3_keep _ main_arg17 (by decide), win3_keep _ main_arg13 (by decide), win3_keep _ main_arg14 (by decide), win3_keep _ main_arg15 (by decide), win3_keep _ main_arg11 (by decide), win3_keep _ main_arg12 (by decide)]
  rw [win3_out, win2_keep _ main_arg18 (by decide), win2_keep _ main_arg19 (by decide), win2_keep _ main_arg20 (by decide), win2_keep _ main_arg1 (by decide), win2_keep _ main_arg2 (by decide), win2_keep _ main_arg16 (by decide), win2_keep _ main_arg17 (by decide), win2_keep _ main_arg13 (by decide), win2_keep _ main_arg14 (by decide), win2_keep _ main_arg15 (by decide), win2_keep _ main_arg11 (by decide), win2_keep _ main_arg12 (by decide), win2_keep _ main_arg8 (by decide), win2_keep _ main_arg9 (by decide), win2_keep _ main_arg10 (by decide)]
  rw [win2_out, win1_keep _ main_arg18 (by decide), win1_keep _ main_arg19 (by decide), win1_keep _ main_arg20 (by decide), win1_keep _ main_arg1 (by decide), win1_keep _ main_arg2 (by decide), win1_keep _ main_arg16 (by decide), win1_keep _ main_arg17 (by decide), win1_keep _ main_arg13 (by decide), win1_keep _ main_arg14 (by decide), win1_keep _ main_arg15 (by decide), win1_keep _ main_arg11 (by decide), win1_keep _ main_arg12 (by decide), win1_keep _ main_arg8 (by decide), win1_keep _ main_arg9 (by decide), win1_keep _ main_arg10 (by decide), win1_keep _ main_arg6 (by decide), win1_keep _ main_arg7 (by decide)]
  rw [win1_out]
  rfl

/-- The reference program's result, from the launch contents, is the network applied to the arguments. -/
theorem ref_eq (m : (ℓ : Loc nD τ sig) → Buf (Elt Ideal) ℓ) (c : Dev nD) :
    after (RunP.ops (F := Ideal)) (launchContents m c) (Proc.devRef .tc main_v176)
      = net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) :=
  net_of_ops (launchContents m c)

end Cert.ReferenceIdeal.RefValue

end
-- ==== Proof.KRun.lean ====
/- The kernel's run with its result named: every weakly fair execution of @main on the TensorCores terminates, and in every
   final state the result buffer main_v150 holds the last boundary's contents (what region 8's write-backs leave) while every
   argument array is as launched. -/
import proofs.«174735_j64811056496761_2_alg».proof.Proof.Gen.KernelIdeal.Frame

set_option maxRecDepth 16384

noncomputable section

namespace Cert.KernelIdeal.Trace

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The run of @main at any `F`: the result buffer ends at the last boundary's contents `Gen.W18`, the arguments as launched. -/
theorem value_run : θ_run defs (onTc (τ := τ) (main (F := F))) ⟨m, fun _ => 0, ρ⟩ (fun r => ∀ c : Dev nD,
      r.2.mem ((c.tc : Thread nD τ).loc main_v150) = Gen.W18 m ρ c (Proc.devRef .tc main_v150)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  Pipeline.θ_run_regions_kit (pcfgs (F := F)) Gen.adm (Gen.pdats m ρ) () Gen.cellOf_inj emb₁ defs₀ Gen.𝒱₀ Gen.L Gen.lv m ρ main (Gen.segs m ρ)
    (fun c Q => by rw [Gen.main_run m ρ c])
    (by simp only [Gen.segs, Pipeline.Seg.pipes_host, Pipeline.Seg.pipes_region, Pipeline.Seg.pipes_nil]; decide)
    (O₀ := 0) (hL := fun _ _ => rfl) (G := fun _ => iprop(emp))
    (u₀ := initOf (Pipeline.cells cfgs Gen.cellOf_inj) (Pipeline.launchToks cfgs Gen.cellOf_inj))
    (hu₀ := by
      iintro Hu; imodintro
      isplitl [Hu]
      · iapply (show (ownU (initOf (Pipeline.cells cfgs Gen.cellOf_inj) (Pipeline.launchToks cfgs Gen.cellOf_inj)) : sProp 𝕄)
            ⊢ BI.own (emb₁ (initOf (Pipeline.cells cfgs Gen.cellOf_inj) (Pipeline.launchToks cfgs Gen.cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.W0 m ρ c) ∗ Gen.R c)) (Tₙ := Gen.Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach Gen.L Gen.lv fun c => ?_
      rw [show unscopedBufs c (fun b => m ((c : Thread nD τ).loc b)) = StableHlo.held (c : Thread nD τ) (Pipeline.ucRefs τ sig) (Gen.W0 m ρ c)
        from Pipeline.unscopedBufs_held c (Gen.W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Gen.W18 m ρ c b)
    (hfin := fun c s' => by
      iintro ⟨⟨Hh, -⟩, HSI⟩
      unfold StableHlo.held
      imodintro
      iapply (pointsTo_read_all (Pipeline.ucRefs τ sig) (fun b => (((c : Thread nD τ)).1, b)) (Gen.W18 m ρ c) s')
      isplitl [Hh] <;> iassumption)
    (hQ := fun s h c =>
      ⟨h c _ (Gen.mem_uc main_v150 (by decide)),
       (h c _ (Gen.mem_uc main_arg0 (by decide))).trans (Gen.W18_main_arg0 m ρ c),
       (h c _ (Gen.mem_uc main_arg1 (by decide))).trans (Gen.W18_main_arg1 m ρ c),
       (h c _ (Gen.mem_uc main_arg2 (by decide))).trans (Gen.W18_main_arg2 m ρ c),
       (h c _ (Gen.mem_uc main_arg3 (by decide))).trans (Gen.W18_main_arg3 m ρ c),
       (h c _ (Gen.mem_uc main_arg4 (by decide))).trans (Gen.W18_main_arg4 m ρ c),
       (h c _ (Gen.mem_uc main_arg5 (by decide))).trans (Gen.W18_main_arg5 m ρ c),
       (h c _ (Gen.mem_uc main_arg6 (by decide))).trans (Gen.W18_main_arg6 m ρ c),
       (h c _ (Gen.mem_uc main_arg7 (by decide))).trans (Gen.W18_main_arg7 m ρ c),
       (h c _ (Gen.mem_uc main_arg8 (by decide))).trans (Gen.W18_main_arg8 m ρ c),
       (h c _ (Gen.mem_uc main_arg9 (by decide))).trans (Gen.W18_main_arg9 m ρ c),
       (h c _ (Gen.mem_uc main_arg10 (by decide))).trans (Gen.W18_main_arg10 m ρ c),
       (h c _ (Gen.mem_uc main_arg11 (by decide))).trans (Gen.W18_main_arg11 m ρ c),
       (h c _ (Gen.mem_uc main_arg12 (by decide))).trans (Gen.W18_main_arg12 m ρ c),
       (h c _ (Gen.mem_uc main_arg13 (by decide))).trans (Gen.W18_main_arg13 m ρ c),
       (h c _ (Gen.mem_uc main_arg14 (by decide))).trans (Gen.W18_main_arg14 m ρ c),
       (h c _ (Gen.mem_uc main_arg15 (by decide))).trans (Gen.W18_main_arg15 m ρ c),
       (h c _ (Gen.mem_uc main_arg16 (by decide))).trans (Gen.W18_main_arg16 m ρ c),
       (h c _ (Gen.mem_uc main_arg17 (by decide))).trans (Gen.W18_main_arg17 m ρ c),
       (h c _ (Gen.mem_uc main_arg18 (by decide))).trans (Gen.W18_main_arg18 m ρ c),
       (h c _ (Gen.mem_uc main_arg19 (by decide))).trans (Gen.W18_main_arg19 m ρ c),
       (h c _ (Gen.mem_uc main_arg20 (by decide))).trans (Gen.W18_main_arg20 m ρ c)⟩)

/-- The result buffer at the last boundary is what region 8's write-backs leave in its output window. -/
theorem result_arr (c : Dev nD) :
    Gen.W18 m ρ c (Proc.devRef .tc main_v150) = (Gen.dat8 (Gen.V17 m ρ) c).arrAt 4 cfg8.N :=
  Gen.W18_arr m ρ c 4

end Cert.KernelIdeal.Trace

end
-- ==== Proof.KHost1.lean ====
/- Host stretch 1 of @main: what each buffer it writes that is read later holds at the stretch's end (boundary 3),
   as the stretch's operations applied to the contents at its start (boundary 2). -/
import proofs.«174735_j64811056496761_2_alg».proof.Proof.Gen.KernelIdeal.Frame

set_option maxRecDepth 16384

noncomputable section

namespace Cert.KernelIdeal.Trace

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- `main_v21` at boundary 3: the operations of host stretch 1 that produce it, composed, over the contents at boundary 2. -/
theorem host1_v21 (c : Dev nD) :
    Gen.W3 m ρ c (Proc.devRef .tc main_v21) =
      ((mulf : (⟨S100000x64, .f32⟩ : BufTy).Contents (Elt F) → (⟨S100000x64, .f32⟩ : BufTy).Contents (Elt F) → (⟨S100000x64, .f32⟩ : BufTy).Contents (Elt F))
        (Host.scatterAdd scatter_S100000x64_S1600000x1_S1600000x64_1_0_0_1
          ((broadcastInDim S100000x64 ![] bcast_S_S100000x64 : (⟨S_, .f32⟩ : BufTy).Contents (Elt F) → (⟨S100000x64, .f32⟩ : BufTy).Contents (Elt F))
            (constant S_ .f32 0x00000000#32 : (⟨S_, .f32⟩ : BufTy).Contents (Elt F)))
          ((broadcastInDim S1600000x1 ![0] bcast_S1600000_S1600000x1_0 : (⟨S1600000, .i32⟩ : BufTy).Contents (Elt F) → (⟨S1600000x1, .i32⟩ : BufTy).Contents (Elt F))
            (Gen.W2 m ρ c (Proc.devRef .tc main_arg2) : (⟨S1600000, .i32⟩ : BufTy).Contents (Elt F)))
          (Host.gather gather_S100000x64_S1600000x1_S1600000x64_1_0_n_n_0_1_164
            (Gen.W2 m ρ c (Proc.devRef .tc main_v8) : (⟨S100000x64, .f32⟩ : BufTy).Contents (Elt F))
            ((broadcastInDim S1600000x1 ![0] bcast_S1600000_S1600000x1_0 : (⟨S1600000, .i32⟩ : BufTy).Contents (Elt F) → (⟨S1600000x1, .i32⟩ : BufTy).Contents (Elt F))
              ((select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F))
                ((cmpi .slt : (⟨S1600000, .i32⟩ : BufTy).Contents (Elt F) → (⟨S1600000, .i32⟩ : BufTy).Contents (Elt F) → (⟨S1600000, .i1⟩ : BufTy).Contents (Elt F))
                  (Gen.W2 m ρ c (Proc.devRef .tc main_arg1) : (⟨S1600000, .i32⟩ : BufTy).Contents (Elt F))
                  ((broadcastInDim S1600000 ![] bcast_S_S1600000 : (⟨S_, .i32⟩ : BufTy).Contents (Elt F) → (⟨S1600000, .i32⟩ : BufTy).Contents (Elt F))
                    (constantI S_ 32 0#32 : (⟨S_, .i32⟩ : BufTy).Contents (Elt F))))
                ((addi : (⟨S1600000, .i32⟩ : BufTy).Contents (Elt F) → (⟨S1600000, .i32⟩ : BufTy).Contents (Elt F) → (⟨S1600000, .i32⟩ : BufTy).Contents (Elt F))
                  (Gen.W2 m ρ c (Proc.devRef .tc main_arg1) : (⟨S1600000, .i32⟩ : BufTy).Contents (Elt F))
                  ((broadcastInDim S1600000 ![] bcast_S_S1600000 : (⟨S_, .i32⟩ : BufTy).Contents (Elt F) → (⟨S1600000, .i32⟩ : BufTy).Contents (Elt F))
                    (constantI S_ 32 100000#32 : (⟨S_, .i32⟩ : BufTy).Contents (Elt F))))
                (Gen.W2 m ρ c (Proc.devRef .tc main_arg1) : (⟨S1600000, .i32⟩ : BufTy).Contents (Elt F)))) : (⟨S1600000x64, .f32⟩ : BufTy).Contents (Elt F)) : (⟨S100000x64, .f32⟩ : BufTy).Contents (Elt F))
        ((broadcastInDim S100000x64 ![0, 1] bcast_S100000x1_S100000x64_0_1 : (⟨S100000x1, .f32⟩ : BufTy).Contents (Elt F) → (⟨S100000x64, .f32⟩ : BufTy).Contents (Elt F))
          ((broadcastInDim S100000x1 ![0] bcast_S100000_S100000x1_0 : (⟨S100000, .f32⟩ : BufTy).Contents (Elt F) → (⟨S100000x1, .f32⟩ : BufTy).Contents (Elt F))
            (Gen.W2 m ρ c (Proc.devRef .tc main_v7) : (⟨S100000, .f32⟩ : BufTy).Contents (Elt F))))) := by
  show StableHlo.after Gen.hostOps1 _ _ = _
  after_results_simp
  all_goals rfl

/-- `main_v22` at boundary 3: the operations of host stretch 1 that produce it, composed, over the contents at boundary 2. -/
theorem host1_v22 (c : Dev nD) :
    Gen.W3 m ρ c (Proc.devRef .tc main_v22) =
      (shapeCast S1x64
        (Gen.W2 m ρ c (Proc.devRef .tc main_arg5) : (⟨S64, .f32⟩ : BufTy).Contents (Elt F))
        shapeCasts_S64_S1x64 : (⟨S1x64, .f32⟩ : BufTy).Contents (Elt F)) := by
  show StableHlo.after Gen.hostOps1 _ _ = _
  after_results_simp
  all_goals rfl

end Cert.KernelIdeal.Trace

end
-- ==== Proof.KStep.lean ====
/- One step of the trace of a buffer through @main: a host stretch leaves every buffer it does not write as it was. -/
import proofs.«174735_j64811056496761_2_alg».proof.Proof.Gen.KernelIdeal.Frame

set_option maxRecDepth 16384

noncomputable section

namespace Cert.KernelIdeal.Trace

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Host stretch 0 leaves a buffer it does not write as it was. -/
theorem host0_keep (c : Dev nD) (b : Ref sig .tc)
    (hb : b ≠ main_cst ∧ b ≠ main_v0 ∧ b ≠ main_cst_0 ∧ b ≠ main_v1 ∧ b ≠ main_v2 ∧ b ≠ main_v3 ∧ b ≠ main_cst_1 ∧ b ≠ main_v4 ∧ b ≠ main_v5 ∧ b ≠ main_cst_2 ∧ b ≠ main_v6 ∧ b ≠ main_v7) :
    Gen.W1 m ρ c (Proc.devRef .tc b) = Gen.W0 m ρ c (Proc.devRef .tc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    obtain ⟨h0, h1, h2, h3, h4, h5, h6, h7, h8, h9, h10, h11⟩ := hb
    exact ⟨StableHlo.devRef_ne_of_ne h0, StableHlo.devRef_ne_of_ne h1, StableHlo.devRef_ne_of_ne h2, StableHlo.devRef_ne_of_ne h3, StableHlo.devRef_ne_of_ne h4, StableHlo.devRef_ne_of_ne h5, StableHlo.devRef_ne_of_ne h6, StableHlo.devRef_ne_of_ne h7, StableHlo.devRef_ne_of_ne h8, StableHlo.devRef_ne_of_ne h9, StableHlo.devRef_ne_of_ne h10, StableHlo.devRef_ne_of_ne h11⟩))

/-- Host stretch 1 leaves a buffer it does not write as it was. -/
theorem host1_keep (c : Dev nD) (b : Ref sig .tc)
    (hb : b ≠ main_c ∧ b ≠ main_v9 ∧ b ≠ main_v10 ∧ b ≠ main_c_3 ∧ b ≠ main_v11 ∧ b ≠ main_v12 ∧ b ≠ main_v13 ∧ b ≠ main_v14 ∧ b ≠ main_v15 ∧ b ≠ main_cst_4 ∧ b ≠ main_v16 ∧ b ≠ main_v17 ∧ b ≠ main_v18 ∧ b ≠ main_v19 ∧ b ≠ main_v20 ∧ b ≠ main_v21 ∧ b ≠ main_v22) :
    Gen.W3 m ρ c (Proc.devRef .tc b) = Gen.W2 m ρ c (Proc.devRef .tc b) :=
  StableHlo.after_of_forall_not_mem (b := Proc.devRef .tc b) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    obtain ⟨h0, h1, h2, h3, h4, h5, h6, h7, h8, h9, h10, h11, h12, h13, h14, h15, h16⟩ := hb
    exact ⟨StableHlo.devRef_ne_of_ne h0, StableHlo.devRef_ne_of_ne h1, StableHlo.devRef_ne_of_ne h2, StableHlo.devRef_ne_of_ne h3, StableHlo.devRef_ne_of_ne h4, StableHlo.devRef_ne_of_ne h5, StableHlo.devRef_ne_of_ne h6, StableHlo.devRef_ne_of_ne h7, StableHlo.devRef_ne_of_ne h8, StableHlo.devRef_ne_of_ne h9, StableHlo.devRef_ne_of_ne h10, StableHlo.devRef_ne_of_ne h11, StableHlo.devRef_ne_of_ne h12, StableHlo.devRef_ne_of_ne h13, StableHlo.devRef_ne_of_ne h14, StableHlo.devRef_ne_of_ne h15, StableHlo.devRef_ne_of_ne h16⟩))

/-- Host stretch 2 leaves a buffer it does not write as it was. -/
theorem host2_keep (c : Dev nD) (b : Ref sig .tc)
    (hb : b ≠ main_v24 ∧ b ≠ main_v25 ∧ b ≠ main_cst_5 ∧ b ≠ main_v26 ∧ b ≠ main_v27 ∧ b ≠ main_v28 ∧ b ≠ main_cst_6 ∧ b ≠ main_v29 ∧ b ≠ main_cst_7 ∧ b ≠ main_v30 ∧ b ≠ main_v31 ∧ b ≠ main_v32 ∧ b ≠ main_cst_8 ∧ b ≠ main_v33 ∧ b ≠ main_v34 ∧ b ≠ main_v35 ∧ b ≠ main_v36 ∧ b ≠ main_v37 ∧ b ≠ main_v38 ∧ b ≠ main_v39 ∧ b ≠ main_v40 ∧ b ≠ main_v41 ∧ b ≠ main_v42 ∧ b ≠ main_v43 ∧ b ≠ main_v44 ∧ b ≠ main_v45 ∧ b ≠ main_v46 ∧ b ≠ main_v47 ∧ b ≠ main_v48) :
    Gen.W5 m ρ c (Proc.devRef .tc b) = Gen.W4 m ρ c (Proc.devRef .tc b) :=
  StableHlo.after_of_forall_not_mem (b := Proc.devRef .tc b) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    obtain ⟨h0, h1, h2, h3, h4, h5, h6, h7, h8, h9, h10, h11, h12, h13, h14, h15, h16, h17, h18, h19, h20, h21, h22, h23, h24, h25, h26, h27, h28⟩ := hb
    exact ⟨StableHlo.devRef_ne_of_ne h0, StableHlo.devRef_ne_of_ne h1, StableHlo.devRef_ne_of_ne h2, StableHlo.devRef_ne_of_ne h3, StableHlo.devRef_ne_of_ne h4, StableHlo.devRef_ne_of_ne h5, StableHlo.devRef_ne_of_ne h6, StableHlo.devRef_ne_of_ne h7, StableHlo.devRef_ne_of_ne h8, StableHlo.devRef_ne_of_ne h9, StableHlo.devRef_ne_of_ne h10, StableHlo.devRef_ne_of_ne h11, StableHlo.devRef_ne_of_ne h12, StableHlo.devRef_ne_of_ne h13, StableHlo.devRef_ne_of_ne h14, StableHlo.devRef_ne_of_ne h15, StableHlo.devRef_ne_of_ne h16, StableHlo.devRef_ne_of_ne h17, StableHlo.devRef_ne_of_ne h18, StableHlo.devRef_ne_of_ne h19, StableHlo.devRef_ne_of_ne h20, StableHlo.devRef_ne_of_ne h21, StableHlo.devRef_ne_of_ne h22, StableHlo.devRef_ne_of_ne h23, StableHlo.devRef_ne_of_ne h24, StableHlo.devRef_ne_of_ne h25, StableHlo.devRef_ne_of_ne h26, StableHlo.devRef_ne_of_ne h27, StableHlo.devRef_ne_of_ne h28⟩))

/-- Host stretch 3 leaves a buffer it does not write as it was. -/
theorem host3_keep (c : Dev nD) (b : Ref sig .tc)
    (hb : b ≠ main_v50 ∧ b ≠ main_c_9 ∧ b ≠ main_v51 ∧ b ≠ main_v52 ∧ b ≠ main_c_10 ∧ b ≠ main_v53 ∧ b ≠ main_v54 ∧ b ≠ main_v55 ∧ b ≠ main_v56 ∧ b ≠ main_v57 ∧ b ≠ main_cst_11 ∧ b ≠ main_v58 ∧ b ≠ main_v59 ∧ b ≠ main_v60 ∧ b ≠ main_v61 ∧ b ≠ main_v62 ∧ b ≠ main_v63 ∧ b ≠ main_v64) :
    Gen.W7 m ρ c (Proc.devRef .tc b) = Gen.W6 m ρ c (Proc.devRef .tc b) :=
  StableHlo.after_of_forall_not_mem (b := Proc.devRef .tc b) _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    obtain ⟨h0, h1, h2, h3, h4, h5, h6, h7, h8, h9, h10, h11, h12, h13, h14, h15, h16, h17⟩ := hb
    exact ⟨StableHlo.devRef_ne_of_ne h0, StableHlo.devRef_ne_of_ne h1, StableHlo.devRef_ne_of_ne h2, StableHlo.devRef_ne_of_ne h3, StableHlo.devRef_ne_of_ne h4, StableHlo.devRef_ne_of_ne h5, StableHlo.devRef_ne_of_ne h6, StableHlo.devRef_ne_of_ne h7, StableHlo.devRef_ne_of_ne h8, StableHlo.devRef_ne_of_ne h9, StableHlo.devRef_ne_of_ne h10, StableHlo.devRef_ne_of_ne h11, StableHlo.devRef_ne_of_ne h12, StableHlo.devRef_ne_of_ne h13, StableHlo.devRef_ne_of_ne h14, StableHlo.devRef_ne_of_ne h15, StableHlo.devRef_ne_of_ne h16, StableHlo.devRef_ne_of_ne h17⟩))

/-- Host stretch 4 leaves a buffer it does not write as it was. -/
theorem host4_keep (c : Dev nD) (b : Ref sig .tc)
    (hb : b ≠ main_v66 ∧ b ≠ main_v67 ∧ b ≠ main_cst_12 ∧ b ≠ main_v68 ∧ b ≠ main_v69 ∧ b ≠ main_v70 ∧ b ≠ main_cst_13 ∧ b ≠ main_v71 ∧ b ≠ main_cst_14 ∧ b ≠ main_v72 ∧ b ≠ main_v73 ∧ b ≠ main_v74 ∧ b ≠ main_cst_15 ∧ b ≠ main_v75 ∧ b ≠ main_v76 ∧ b ≠ main_v77 ∧ b ≠ main_v78 ∧ b ≠ main_v79 ∧ b ≠ main_v80 ∧ b ≠ main_v81 ∧ b ≠ main_v82 ∧ b ≠ main_v83 ∧ b ≠ main_v84 ∧ b ≠ main_v85 ∧ b ≠ main_v86 ∧ b ≠ main_v87 ∧ b ≠ main_v88 ∧ b ≠ main_v89 ∧ b ≠ main_v90) :
    Gen.W9 m ρ c (Proc.devRef .tc b) = Gen.W8 m ρ c (Proc.devRef .tc b) :=
  StableHlo.after_of_forall_not_mem (b := Proc.devRef .tc b) _ _ (List.forall_iff_forall_mem.mp (by
    simp only [hostOps4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    obtain ⟨h0, h1, h2, h3, h4, h5, h6, h7, h8, h9, h10, h11, h12, h13, h14, h15, h16, h17, h18, h19, h20, h21, h22, h23, h24, h25, h26, h27, h28⟩ := hb
    exact ⟨StableHlo.devRef_ne_of_ne h0, StableHlo.devRef_ne_of_ne h1, StableHlo.devRef_ne_of_ne h2, StableHlo.devRef_ne_of_ne h3, StableHlo.devRef_ne_of_ne h4, StableHlo.devRef_ne_of_ne h5, StableHlo.devRef_ne_of_ne h6, StableHlo.devRef_ne_of_ne h7, StableHlo.devRef_ne_of_ne h8, StableHlo.devRef_ne_of_ne h9, StableHlo.devRef_ne_of_ne h10, StableHlo.devRef_ne_of_ne h11, StableHlo.devRef_ne_of_ne h12, StableHlo.devRef_ne_of_ne h13, StableHlo.devRef_ne_of_ne h14, StableHlo.devRef_ne_of_ne h15, StableHlo.devRef_ne_of_ne h16, StableHlo.devRef_ne_of_ne h17, StableHlo.devRef_ne_of_ne h18, StableHlo.devRef_ne_of_ne h19, StableHlo.devRef_ne_of_ne h20, StableHlo.devRef_ne_of_ne h21, StableHlo.devRef_ne_of_ne h22, StableHlo.devRef_ne_of_ne h23, StableHlo.devRef_ne_of_ne h24, StableHlo.devRef_ne_of_ne h25, StableHlo.devRef_ne_of_ne h26, StableHlo.devRef_ne_of_ne h27, StableHlo.devRef_ne_of_ne h28⟩))

/-- Host stretch 5 leaves a buffer it does not write as it was. -/
theorem host5_keep (c : Dev nD) (b : Ref sig .tc)
    (hb : b ≠ main_v92 ∧ b ≠ main_c_16 ∧ b ≠ main_v93 ∧ b ≠ main_v94 ∧ b ≠ main_c_17 ∧ b ≠ main_v95 ∧ b ≠ main_v96 ∧ b ≠ main_v97 ∧ b ≠ main_v98 ∧ b ≠ main_v99 ∧ b ≠ main_cst_18 ∧ b ≠ main_v100 ∧ b ≠ main_v101 ∧ b ≠ main_v102 ∧ b ≠ main_v103 ∧ b ≠ main_v104 ∧ b ≠ main_v105 ∧ b ≠ main_v106) :
    Gen.W11 m ρ c (Proc.devRef .tc b) = Gen.W10 m ρ c (Proc.devRef .tc b) :=
  StableHlo.after_of_forall_not_mem (b := Proc.devRef .tc b) _ _ (List.forall_iff_forall_mem.mp (by
    simp only [hostOps5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    obtain ⟨h0, h1, h2, h3, h4, h5, h6, h7, h8, h9, h10, h11, h12, h13, h14, h15, h16, h17⟩ := hb
    exact ⟨StableHlo.devRef_ne_of_ne h0, StableHlo.devRef_ne_of_ne h1, StableHlo.devRef_ne_of_ne h2, StableHlo.devRef_ne_of_ne h3, StableHlo.devRef_ne_of_ne h4, StableHlo.devRef_ne_of_ne h5, StableHlo.devRef_ne_of_ne h6, StableHlo.devRef_ne_of_ne h7, StableHlo.devRef_ne_of_ne h8, StableHlo.devRef_ne_of_ne h9, StableHlo.devRef_ne_of_ne h10, StableHlo.devRef_ne_of_ne h11, StableHlo.devRef_ne_of_ne h12, StableHlo.devRef_ne_of_ne h13, StableHlo.devRef_ne_of_ne h14, StableHlo.devRef_ne_of_ne h15, StableHlo.devRef_ne_of_ne h16, StableHlo.devRef_ne_of_ne h17⟩))

/-- Host stretch 6 leaves a buffer it does not write as it was. -/
theorem host6_keep (c : Dev nD) (b : Ref sig .tc)
    (hb : b ≠ main_v108 ∧ b ≠ main_v109 ∧ b ≠ main_cst_19 ∧ b ≠ main_v110 ∧ b ≠ main_v111 ∧ b ≠ main_v112 ∧ b ≠ main_cst_20 ∧ b ≠ main_v113 ∧ b ≠ main_cst_21 ∧ b ≠ main_v114 ∧ b ≠ main_v115 ∧ b ≠ main_v116 ∧ b ≠ main_cst_22 ∧ b ≠ main_v117 ∧ b ≠ main_v118 ∧ b ≠ main_v119 ∧ b ≠ main_v120 ∧ b ≠ main_v121 ∧ b ≠ main_v122 ∧ b ≠ main_v123 ∧ b ≠ main_v124 ∧ b ≠ main_v125 ∧ b ≠ main_v126 ∧ b ≠ main_v127 ∧ b ≠ main_v128 ∧ b ≠ main_v129 ∧ b ≠ main_v130 ∧ b ≠ main_v131 ∧ b ≠ main_v132) :
    Gen.W13 m ρ c (Proc.devRef .tc b) = Gen.W12 m ρ c (Proc.devRef .tc b) :=
  StableHlo.after_of_forall_not_mem (b := Proc.devRef .tc b) _ _ (List.forall_iff_forall_mem.mp (by
    simp only [hostOps6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    obtain ⟨h0, h1, h2, h3, h4, h5, h6, h7, h8, h9, h10, h11, h12, h13, h14, h15, h16, h17, h18, h19, h20, h21, h22, h23, h24, h25, h26, h27, h28⟩ := hb
    exact ⟨StableHlo.devRef_ne_of_ne h0, StableHlo.devRef_ne_of_ne h1, StableHlo.devRef_ne_of_ne h2, StableHlo.devRef_ne_of_ne h3, StableHlo.devRef_ne_of_ne h4, StableHlo.devRef_ne_of_ne h5, StableHlo.devRef_ne_of_ne h6, StableHlo.devRef_ne_of_ne h7, StableHlo.devRef_ne_of_ne h8, StableHlo.devRef_ne_of_ne h9, StableHlo.devRef_ne_of_ne h10, StableHlo.devRef_ne_of_ne h11, StableHlo.devRef_ne_of_ne h12, StableHlo.devRef_ne_of_ne h13, StableHlo.devRef_ne_of_ne h14, StableHlo.devRef_ne_of_ne h15, StableHlo.devRef_ne_of_ne h16, StableHlo.devRef_ne_of_ne h17, StableHlo.devRef_ne_of_ne h18, StableHlo.devRef_ne_of_ne h19, StableHlo.devRef_ne_of_ne h20, StableHlo.devRef_ne_of_ne h21, StableHlo.devRef_ne_of_ne h22, StableHlo.devRef_ne_of_ne h23, StableHlo.devRef_ne_of_ne h24, StableHlo.devRef_ne_of_ne h25, StableHlo.devRef_ne_of_ne h26, StableHlo.devRef_ne_of_ne h27, StableHlo.devRef_ne_of_ne h28⟩))

/-- Host stretch 7 leaves a buffer it does not write as it was. -/
theorem host7_keep (c : Dev nD) (b : Ref sig .tc)
    (hb : b ≠ main_v134) :
    Gen.W15 m ρ c (Proc.devRef .tc b) = Gen.W14 m ρ c (Proc.devRef .tc b) :=
  StableHlo.after_of_forall_not_mem (b := Proc.devRef .tc b) _ _ (List.forall_iff_forall_mem.mp (by
    simp only [hostOps7, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    exact StableHlo.devRef_ne_of_ne hb))

/-- Host stretch 8 leaves a buffer it does not write as it was. -/
theorem host8_keep (c : Dev nD) (b : Ref sig .tc)
    (hb : b ≠ main_c_23 ∧ b ≠ main_v136 ∧ b ≠ main_v137 ∧ b ≠ main_c_24 ∧ b ≠ main_v138 ∧ b ≠ main_v139 ∧ b ≠ main_v140 ∧ b ≠ main_v141 ∧ b ≠ main_v142 ∧ b ≠ main_cst_25 ∧ b ≠ main_v143 ∧ b ≠ main_v144 ∧ b ≠ main_v145 ∧ b ≠ main_v146 ∧ b ≠ main_v147 ∧ b ≠ main_v148 ∧ b ≠ main_v149) :
    Gen.W17 m ρ c (Proc.devRef .tc b) = Gen.W16 m ρ c (Proc.devRef .tc b) :=
  StableHlo.after_of_forall_not_mem (b := Proc.devRef .tc b) _ _ (List.forall_iff_forall_mem.mp (by
    simp only [hostOps8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    obtain ⟨h0, h1, h2, h3, h4, h5, h6, h7, h8, h9, h10, h11, h12, h13, h14, h15, h16⟩ := hb
    exact ⟨StableHlo.devRef_ne_of_ne h0, StableHlo.devRef_ne_of_ne h1, StableHlo.devRef_ne_of_ne h2, StableHlo.devRef_ne_of_ne h3, StableHlo.devRef_ne_of_ne h4, StableHlo.devRef_ne_of_ne h5, StableHlo.devRef_ne_of_ne h6, StableHlo.devRef_ne_of_ne h7, StableHlo.devRef_ne_of_ne h8, StableHlo.devRef_ne_of_ne h9, StableHlo.devRef_ne_of_ne h10, StableHlo.devRef_ne_of_ne h11, StableHlo.devRef_ne_of_ne h12, StableHlo.devRef_ne_of_ne h13, StableHlo.devRef_ne_of_ne h14, StableHlo.devRef_ne_of_ne h15, StableHlo.devRef_ne_of_ne h16⟩))

/-- At launch a buffer holds the launch memory. -/
theorem launch_read (c : Dev nD) (b : Ref sig .tc) :
    Gen.W0 m ρ c (Proc.devRef .tc b) = m ((c : Thread nD τ).loc b) := rfl

end Cert.KernelIdeal.Trace

end
-- ==== Proof.KKeep1.lean ====
/- The trace of the buffers the host stretches read again and again — the reciprocal in-degree vector and the two edge
   number vectors — through @main's segments: no stretch and no region writes them between their birth and each use. -/
import proofs.«174735_j64811056496761_2_alg».proof.Proof.KStep

set_option maxRecDepth 16384

noncomputable section

namespace Cert.KernelIdeal.Trace

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The reciprocal guarded in-degree vector (main_v7, written by host stretch 0) is untouched from boundary 1 to boundary 2. -/
theorem v7_W2 (c : Dev nD) :
    Gen.W2 m ρ c (Proc.devRef .tc main_v7) = Gen.W1 m ρ c (Proc.devRef .tc main_v7) :=
  calc Gen.W2 m ρ c (Proc.devRef .tc main_v7)
    _ = Gen.W1 m ρ c (Proc.devRef .tc main_v7) := Gen.W2_of_ne m ρ c main_v7 (by decide)

/-- The reciprocal guarded in-degree vector (main_v7, written by host stretch 0) is untouched from boundary 1 to boundary 6. -/
theorem v7_W6 (c : Dev nD) :
    Gen.W6 m ρ c (Proc.devRef .tc main_v7) = Gen.W1 m ρ c (Proc.devRef .tc main_v7) :=
  calc Gen.W6 m ρ c (Proc.devRef .tc main_v7)
    _ = Gen.W5 m ρ c (Proc.devRef .tc main_v7) := Gen.W6_of_ne m ρ c main_v7 (by decide)
    _ = Gen.W4 m ρ c (Proc.devRef .tc main_v7) := host2_keep m ρ c main_v7 (by decide)
    _ = Gen.W3 m ρ c (Proc.devRef .tc main_v7) := Gen.W4_of_ne m ρ c main_v7 (by decide)
    _ = Gen.W2 m ρ c (Proc.devRef .tc main_v7) := host1_keep m ρ c main_v7 (by decide)
    _ = Gen.W1 m ρ c (Proc.devRef .tc main_v7) := Gen.W2_of_ne m ρ c main_v7 (by decide)

/-- The reciprocal guarded in-degree vector (main_v7, written by host stretch 0) is untouched from boundary 1 to boundary 10. -/
theorem v7_W10 (c : Dev nD) :
    Gen.W10 m ρ c (Proc.devRef .tc main_v7) = Gen.W1 m ρ c (Proc.devRef .tc main_v7) :=
  calc Gen.W10 m ρ c (Proc.devRef .tc main_v7)
    _ = Gen.W9 m ρ c (Proc.devRef .tc main_v7) := Gen.W10_of_ne m ρ c main_v7 (by decide)
    _ = Gen.W8 m ρ c (Proc.devRef .tc main_v7) := host4_keep m ρ c main_v7 (by decide)
    _ = Gen.W7 m ρ c (Proc.devRef .tc main_v7) := Gen.W8_of_ne m ρ c main_v7 (by decide)
    _ = Gen.W6 m ρ c (Proc.devRef .tc main_v7) := host3_keep m ρ c main_v7 (by decide)
    _ = Gen.W5 m ρ c (Proc.devRef .tc main_v7) := Gen.W6_of_ne m ρ c main_v7 (by decide)
    _ = Gen.W4 m ρ c (Proc.devRef .tc main_v7) := host2_keep m ρ c main_v7 (by decide)
    _ = Gen.W3 m ρ c (Proc.devRef .tc main_v7) := Gen.W4_of_ne m ρ c main_v7 (by decide)
    _ = Gen.W2 m ρ c (Proc.devRef .tc main_v7) := host1_keep m ρ c main_v7 (by decide)
    _ = Gen.W1 m ρ c (Proc.devRef .tc main_v7) := Gen.W2_of_ne m ρ c main_v7 (by decide)

/-- The reciprocal guarded in-degree vector (main_v7, written by host stretch 0) is untouched from boundary 1 to boundary 16. -/
theorem v7_W16 (c : Dev nD) :
    Gen.W16 m ρ c (Proc.devRef .tc main_v7) = Gen.W1 m ρ c (Proc.devRef .tc main_v7) :=
  calc Gen.W16 m ρ c (Proc.devRef .tc main_v7)
    _ = Gen.W15 m ρ c (Proc.devRef .tc main_v7) := Gen.W16_of_ne m ρ c main_v7 (by decide)
    _ = Gen.W14 m ρ c (Proc.devRef .tc main_v7) := host7_keep m ρ c main_v7 (by decide)
    _ = Gen.W13 m ρ c (Proc.devRef .tc main_v7) := Gen.W14_of_ne m ρ c main_v7 (by decide)
    _ = Gen.W12 m ρ c (Proc.devRef .tc main_v7) := host6_keep m ρ c main_v7 (by decide)
    _ = Gen.W11 m ρ c (Proc.devRef .tc main_v7) := Gen.W12_of_ne m ρ c main_v7 (by decide)
    _ = Gen.W10 m ρ c (Proc.devRef .tc main_v7) := host5_keep m ρ c main_v7 (by decide)
    _ = Gen.W9 m ρ c (Proc.devRef .tc main_v7) := Gen.W10_of_ne m ρ c main_v7 (by decide)
    _ = Gen.W8 m ρ c (Proc.devRef .tc main_v7) := host4_keep m ρ c main_v7 (by decide)
    _ = Gen.W7 m ρ c (Proc.devRef .tc main_v7) := Gen.W8_of_ne m ρ c main_v7 (by decide)
    _ = Gen.W6 m ρ c (Proc.devRef .tc main_v7) := host3_keep m ρ c main_v7 (by decide)
    _ = Gen.W5 m ρ c (Proc.devRef .tc main_v7) := Gen.W6_of_ne m ρ c main_v7 (by decide)
    _ = Gen.W4 m ρ c (Proc.devRef .tc main_v7) := host2_keep m ρ c main_v7 (by decide)
    _ = Gen.W3 m ρ c (Proc.devRef .tc main_v7) := Gen.W4_of_ne m ρ c main_v7 (by decide)
    _ = Gen.W2 m ρ c (Proc.devRef .tc main_v7) := host1_keep m ρ c main_v7 (by decide)
    _ = Gen.W1 m ρ c (Proc.devRef .tc main_v7) := Gen.W2_of_ne m ρ c main_v7 (by decide)

/-- The edge source numbers (main_arg1) at launch. -/
theorem arg1_W0 (c : Dev nD) :
    Gen.W0 m ρ c (Proc.devRef .tc main_arg1) = m ((c : Thread nD τ).loc main_arg1) := rfl

/-- The edge source numbers (main_arg1) at boundary 2 are the launch memory's. -/
theorem arg1_W2 (c : Dev nD) :
    Gen.W2 m ρ c (Proc.devRef .tc main_arg1) = m ((c : Thread nD τ).loc main_arg1) :=
  calc Gen.W2 m ρ c (Proc.devRef .tc main_arg1)
    _ = Gen.W1 m ρ c (Proc.devRef .tc main_arg1) := Gen.W2_of_ne m ρ c main_arg1 (by decide)
    _ = Gen.W0 m ρ c (Proc.devRef .tc main_arg1) := host0_keep m ρ c main_arg1 (by decide)
    _ = m ((c : Thread nD τ).loc main_arg1) := rfl

/-- The edge source numbers (main_arg1) at boundary 6 are the launch memory's. -/
theorem arg1_W6 (c : Dev nD) :
    Gen.W6 m ρ c (Proc.devRef .tc main_arg1) = m ((c : Thread nD τ).loc main_arg1) :=
  calc Gen.W6 m ρ c (Proc.devRef .tc main_arg1)
    _ = Gen.W5 m ρ c (Proc.devRef .tc main_arg1) := Gen.W6_of_ne m ρ c main_arg1 (by decide)
    _ = Gen.W4 m ρ c (Proc.devRef .tc main_arg1) := host2_keep m ρ c main_arg1 (by decide)
    _ = Gen.W3 m ρ c (Proc.devRef .tc main_arg1) := Gen.W4_of_ne m ρ c main_arg1 (by decide)
    _ = Gen.W2 m ρ c (Proc.devRef .tc main_arg1) := host1_keep m ρ c main_arg1 (by decide)
    _ = Gen.W1 m ρ c (Proc.devRef .tc main_arg1) := Gen.W2_of_ne m ρ c main_arg1 (by decide)
    _ = Gen.W0 m ρ c (Proc.devRef .tc main_arg1) := host0_keep m ρ c main_arg1 (by decide)
    _ = m ((c : Thread nD τ).loc main_arg1) := rfl

/-- The edge source numbers (main_arg1) at boundary 10 are the launch memory's. -/
theorem arg1_W10 (c : Dev nD) :
    Gen.W10 m ρ c (Proc.devRef .tc main_arg1) = m ((c : Thread nD τ).loc main_arg1) :=
  calc Gen.W10 m ρ c (Proc.devRef .tc main_arg1)
    _ = Gen.W9 m ρ c (Proc.devRef .tc main_arg1) := Gen.W10_of_ne m ρ c main_arg1 (by decide)
    _ = Gen.W8 m ρ c (Proc.devRef .tc main_arg1) := host4_keep m ρ c main_arg1 (by decide)
    _ = Gen.W7 m ρ c (Proc.devRef .tc main_arg1) := Gen.W8_of_ne m ρ c main_arg1 (by decide)
    _ = Gen.W6 m ρ c (Proc.devRef .tc main_arg1) := host3_keep m ρ c main_arg1 (by decide)
    _ = Gen.W5 m ρ c (Proc.devRef .tc main_arg1) := Gen.W6_of_ne m ρ c main_arg1 (by decide)
    _ = Gen.W4 m ρ c (Proc.devRef .tc main_arg1) := host2_keep m ρ c main_arg1 (by decide)
    _ = Gen.W3 m ρ c (Proc.devRef .tc main_arg1) := Gen.W4_of_ne m ρ c main_arg1 (by decide)
    _ = Gen.W2 m ρ c (Proc.devRef .tc main_arg1) := host1_keep m ρ c main_arg1 (by decide)
    _ = Gen.W1 m ρ c (Proc.devRef .tc main_arg1) := Gen.W2_of_ne m ρ c main_arg1 (by decide)
    _ = Gen.W0 m ρ c (Proc.devRef .tc main_arg1) := host0_keep m ρ c main_arg1 (by decide)
    _ = m ((c : Thread nD τ).loc main_arg1) := rfl

/-- The edge source numbers (main_arg1) at boundary 16 are the launch memory's. -/
theorem arg1_W16 (c : Dev nD) :
    Gen.W16 m ρ c (Proc.devRef .tc main_arg1) = m ((c : Thread nD τ).loc main_arg1) :=
  calc Gen.W16 m ρ c (Proc.devRef .tc main_arg1)
    _ = Gen.W15 m ρ c (Proc.devRef .tc main_arg1) := Gen.W16_of_ne m ρ c main_arg1 (by decide)
    _ = Gen.W14 m ρ c (Proc.devRef .tc main_arg1) := host7_keep m ρ c main_arg1 (by decide)
    _ = Gen.W13 m ρ c (Proc.devRef .tc main_arg1) := Gen.W14_of_ne m ρ c main_arg1 (by decide)
    _ = Gen.W12 m ρ c (Proc.devRef .tc main_arg1) := host6_keep m ρ c main_arg1 (by decide)
    _ = Gen.W11 m ρ c (Proc.devRef .tc main_arg1) := Gen.W12_of_ne m ρ c main_arg1 (by decide)
    _ = Gen.W10 m ρ c (Proc.devRef .tc main_arg1) := host5_keep m ρ c main_arg1 (by decide)
    _ = Gen.W9 m ρ c (Proc.devRef .tc main_arg1) := Gen.W10_of_ne m ρ c main_arg1 (by decide)
    _ = Gen.W8 m ρ c (Proc.devRef .tc main_arg1) := host4_keep m ρ c main_arg1 (by decide)
    _ = Gen.W7 m ρ c (Proc.devRef .tc main_arg1) := Gen.W8_of_ne m ρ c main_arg1 (by decide)
    _ = Gen.W6 m ρ c (Proc.devRef .tc main_arg1) := host3_keep m ρ c main_arg1 (by decide)
    _ = Gen.W5 m ρ c (Proc.devRef .tc main_arg1) := Gen.W6_of_ne m ρ c main_arg1 (by decide)
    _ = Gen.W4 m ρ c (Proc.devRef .tc main_arg1) := host2_keep m ρ c main_arg1 (by decide)
    _ = Gen.W3 m ρ c (Proc.devRef .tc main_arg1) := Gen.W4_of_ne m ρ c main_arg1 (by decide)
    _ = Gen.W2 m ρ c (Proc.devRef .tc main_arg1) := host1_keep m ρ c main_arg1 (by decide)
    _ = Gen.W1 m ρ c (Proc.devRef .tc main_arg1) := Gen.W2_of_ne m ρ c main_arg1 (by decide)
    _ = Gen.W0 m ρ c (Proc.devRef .tc main_arg1) := host0_keep m ρ c main_arg1 (by decide)
    _ = m ((c : Thread nD τ).loc main_arg1) := rfl

/-- The edge end numbers (main_arg2) at launch. -/
theorem arg2_W0 (c : Dev nD) :
    Gen.W0 m ρ c (Proc.devRef .tc main_arg2) = m ((c : Thread nD τ).loc main_arg2) := rfl

/-- The edge end numbers (main_arg2) at boundary 2 are the launch memory's. -/
theorem arg2_W2 (c : Dev nD) :
    Gen.W2 m ρ c (Proc.devRef .tc main_arg2) = m ((c : Thread nD τ).loc main_arg2) :=
  calc Gen.W2 m ρ c (Proc.devRef .tc main_arg2)
    _ = Gen.W1 m ρ c (Proc.devRef .tc main_arg2) := Gen.W2_of_ne m ρ c main_arg2 (by decide)
    _ = Gen.W0 m ρ c (Proc.devRef .tc main_arg2) := host0_keep m ρ c main_arg2 (by decide)
    _ = m ((c : Thread nD τ).loc main_arg2) := rfl

/-- The edge end numbers (main_arg2) at boundary 6 are the launch memory's. -/
theorem arg2_W6 (c : Dev nD) :
    Gen.W6 m ρ c (Proc.devRef .tc main_arg2) = m ((c : Thread nD τ).loc main_arg2) :=
  calc Gen.W6 m ρ c (Proc.devRef .tc main_arg2)
    _ = Gen.W5 m ρ c (Proc.devRef .tc main_arg2) := Gen.W6_of_ne m ρ c main_arg2 (by decide)
    _ = Gen.W4 m ρ c (Proc.devRef .tc main_arg2) := host2_keep m ρ c main_arg2 (by decide)
    _ = Gen.W3 m ρ c (Proc.devRef .tc main_arg2) := Gen.W4_of_ne m ρ c main_arg2 (by decide)
    _ = Gen.W2 m ρ c (Proc.devRef .tc main_arg2) := host1_keep m ρ c main_arg2 (by decide)
    _ = Gen.W1 m ρ c (Proc.devRef .tc main_arg2) := Gen.W2_of_ne m ρ c main_arg2 (by decide)
    _ = Gen.W0 m ρ c (Proc.devRef .tc main_arg2) := host0_keep m ρ c main_arg2 (by decide)
    _ = m ((c : Thread nD τ).loc main_arg2) := rfl

/-- The edge end numbers (main_arg2) at boundary 10 are the launch memory's. -/
theorem arg2_W10 (c : Dev nD) :
    Gen.W10 m ρ c (Proc.devRef .tc main_arg2) = m ((c : Thread nD τ).loc main_arg2) :=
  calc Gen.W10 m ρ c (Proc.devRef .tc main_arg2)
    _ = Gen.W9 m ρ c (Proc.devRef .tc main_arg2) := Gen.W10_of_ne m ρ c main_arg2 (by decide)
    _ = Gen.W8 m ρ c (Proc.devRef .tc main_arg2) := host4_keep m ρ c main_arg2 (by decide)
    _ = Gen.W7 m ρ c (Proc.devRef .tc main_arg2) := Gen.W8_of_ne m ρ c main_arg2 (by decide)
    _ = Gen.W6 m ρ c (Proc.devRef .tc main_arg2) := host3_keep m ρ c main_arg2 (by decide)
    _ = Gen.W5 m ρ c (Proc.devRef .tc main_arg2) := Gen.W6_of_ne m ρ c main_arg2 (by decide)
    _ = Gen.W4 m ρ c (Proc.devRef .tc main_arg2) := host2_keep m ρ c main_arg2 (by decide)
    _ = Gen.W3 m ρ c (Proc.devRef .tc main_arg2) := Gen.W4_of_ne m ρ c main_arg2 (by decide)
    _ = Gen.W2 m ρ c (Proc.devRef .tc main_arg2) := host1_keep m ρ c main_arg2 (by decide)
    _ = Gen.W1 m ρ c (Proc.devRef .tc main_arg2) := Gen.W2_of_ne m ρ c main_arg2 (by decide)
    _ = Gen.W0 m ρ c (Proc.devRef .tc main_arg2) := host0_keep m ρ c main_arg2 (by decide)
    _ = m ((c : Thread nD τ).loc main_arg2) := rfl

/-- The edge end numbers (main_arg2) at boundary 16 are the launch memory's. -/
theorem arg2_W16 (c : Dev nD) :
    Gen.W16 m ρ c (Proc.devRef .tc main_arg2) = m ((c : Thread nD τ).loc main_arg2) :=
  calc Gen.W16 m ρ c (Proc.devRef .tc main_arg2)
    _ = Gen.W15 m ρ c (Proc.devRef .tc main_arg2) := Gen.W16_of_ne m ρ c main_arg2 (by decide)
    _ = Gen.W14 m ρ c (Proc.devRef .tc main_arg2) := host7_keep m ρ c main_arg2 (by decide)
    _ = Gen.W13 m ρ c (Proc.devRef .tc main_arg2) := Gen.W14_of_ne m ρ c main_arg2 (by decide)
    _ = Gen.W12 m ρ c (Proc.devRef .tc main_arg2) := host6_keep m ρ c main_arg2 (by decide)
    _ = Gen.W11 m ρ c (Proc.devRef .tc main_arg2) := Gen.W12_of_ne m ρ c main_arg2 (by decide)
    _ = Gen.W10 m ρ c (Proc.devRef .tc main_arg2) := host5_keep m ρ c main_arg2 (by decide)
    _ = Gen.W9 m ρ c (Proc.devRef .tc main_arg2) := Gen.W10_of_ne m ρ c main_arg2 (by decide)
    _ = Gen.W8 m ρ c (Proc.devRef .tc main_arg2) := host4_keep m ρ c main_arg2 (by decide)
    _ = Gen.W7 m ρ c (Proc.devRef .tc main_arg2) := Gen.W8_of_ne m ρ c main_arg2 (by decide)
    _ = Gen.W6 m ρ c (Proc.devRef .tc main_arg2) := host3_keep m ρ c main_arg2 (by decide)
    _ = Gen.W5 m ρ c (Proc.devRef .tc main_arg2) := Gen.W6_of_ne m ρ c main_arg2 (by decide)
    _ = Gen.W4 m ρ c (Proc.devRef .tc main_arg2) := host2_keep m ρ c main_arg2 (by decide)
    _ = Gen.W3 m ρ c (Proc.devRef .tc main_arg2) := Gen.W4_of_ne m ρ c main_arg2 (by decide)
    _ = Gen.W2 m ρ c (Proc.devRef .tc main_arg2) := host1_keep m ρ c main_arg2 (by decide)
    _ = Gen.W1 m ρ c (Proc.devRef .tc main_arg2) := Gen.W2_of_ne m ρ c main_arg2 (by decide)
    _ = Gen.W0 m ρ c (Proc.devRef .tc main_arg2) := host0_keep m ρ c main_arg2 (by decide)
    _ = m ((c : Thread nD τ).loc main_arg2) := rfl

end Cert.KernelIdeal.Trace

end
-- ==== Proof.KKeep2.lean ====
/- Each parameter argument of @main, at the boundary where a region or a host stretch reads it, still holds the launch
   memory's contents: no host stretch writes an argument, and a region that has it as a window only reads it. -/
import proofs.«174735_j64811056496761_2_alg».proof.Proof.KStep

set_option maxRecDepth 16384

noncomputable section

namespace Cert.KernelIdeal.Trace

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The argument main_arg0 at boundary 1, where it is read, is the launch memory's. -/
theorem arg0_W1 (c : Dev nD) :
    Gen.W1 m ρ c (Proc.devRef .tc main_arg0) = m ((c : Thread nD τ).loc main_arg0) :=
  calc Gen.W1 m ρ c (Proc.devRef .tc main_arg0)
    _ = Gen.W0 m ρ c (Proc.devRef .tc main_arg0) := host0_keep m ρ c main_arg0 (by decide)
    _ = m ((c : Thread nD τ).loc main_arg0) := rfl

/-- The argument main_arg0 at boundary 3, where it is read, is the launch memory's. -/
theorem arg0_W3 (c : Dev nD) :
    Gen.W3 m ρ c (Proc.devRef .tc main_arg0) = m ((c : Thread nD τ).loc main_arg0) :=
  calc Gen.W3 m ρ c (Proc.devRef .tc main_arg0)
    _ = Gen.W2 m ρ c (Proc.devRef .tc main_arg0) := host1_keep m ρ c main_arg0 (by decide)
    _ = Gen.W1 m ρ c (Proc.devRef .tc main_arg0) := (Gen.W2_arr m ρ c 0).trans (((Gen.dat0 (Gen.V1 m ρ) c).arrAt_in 0 rfl _).trans (Gen.A_eq0 (Gen.V1 m ρ) c 0))
    _ = Gen.W0 m ρ c (Proc.devRef .tc main_arg0) := host0_keep m ρ c main_arg0 (by decide)
    _ = m ((c : Thread nD τ).loc main_arg0) := rfl

/-- The argument main_arg4 at boundary 1, where it is read, is the launch memory's. -/
theorem arg4_W1 (c : Dev nD) :
    Gen.W1 m ρ c (Proc.devRef .tc main_arg4) = m ((c : Thread nD τ).loc main_arg4) :=
  calc Gen.W1 m ρ c (Proc.devRef .tc main_arg4)
    _ = Gen.W0 m ρ c (Proc.devRef .tc main_arg4) := host0_keep m ρ c main_arg4 (by decide)
    _ = m ((c : Thread nD τ).loc main_arg4) := rfl

/-- The argument main_arg3 at boundary 3, where it is read, is the launch memory's. -/
theorem arg3_W3 (c : Dev nD) :
    Gen.W3 m ρ c (Proc.devRef .tc main_arg3) = m ((c : Thread nD τ).loc main_arg3) :=
  calc Gen.W3 m ρ c (Proc.devRef .tc main_arg3)
    _ = Gen.W2 m ρ c (Proc.devRef .tc main_arg3) := host1_keep m ρ c main_arg3 (by decide)
    _ = Gen.W1 m ρ c (Proc.devRef .tc main_arg3) := Gen.W2_of_ne m ρ c main_arg3 (by decide)
    _ = Gen.W0 m ρ c (Proc.devRef .tc main_arg3) := host0_keep m ρ c main_arg3 (by decide)
    _ = m ((c : Thread nD τ).loc main_arg3) := rfl

/-- The argument main_arg5 at boundary 2, where it is read, is the launch memory's. -/
theorem arg5_W2 (c : Dev nD) :
    Gen.W2 m ρ c (Proc.devRef .tc main_arg5) = m ((c : Thread nD τ).loc main_arg5) :=
  calc Gen.W2 m ρ c (Proc.devRef .tc main_arg5)
    _ = Gen.W1 m ρ c (Proc.devRef .tc main_arg5) := Gen.W2_of_ne m ρ c main_arg5 (by decide)
    _ = Gen.W0 m ρ c (Proc.devRef .tc main_arg5) := host0_keep m ρ c main_arg5 (by decide)
    _ = m ((c : Thread nD τ).loc main_arg5) := rfl

/-- The argument main_arg6 at boundary 4, where it is read, is the launch memory's. -/
theorem arg6_W4 (c : Dev nD) :
    Gen.W4 m ρ c (Proc.devRef .tc main_arg6) = m ((c : Thread nD τ).loc main_arg6) :=
  calc Gen.W4 m ρ c (Proc.devRef .tc main_arg6)
    _ = Gen.W3 m ρ c (Proc.devRef .tc main_arg6) := Gen.W4_of_ne m ρ c main_arg6 (by decide)
    _ = Gen.W2 m ρ c (Proc.devRef .tc main_arg6) := host1_keep m ρ c main_arg6 (by decide)
    _ = Gen.W1 m ρ c (Proc.devRef .tc main_arg6) := Gen.W2_of_ne m ρ c main_arg6 (by decide)
    _ = Gen.W0 m ρ c (Proc.devRef .tc main_arg6) := host0_keep m ρ c main_arg6 (by decide)
    _ = m ((c : Thread nD τ).loc main_arg6) := rfl

/-- The argument main_arg7 at boundary 4, where it is read, is the launch memory's. -/
theorem arg7_W4 (c : Dev nD) :
    Gen.W4 m ρ c (Proc.devRef .tc main_arg7) = m ((c : Thread nD τ).loc main_arg7) :=
  calc Gen.W4 m ρ c (Proc.devRef .tc main_arg7)
    _ = Gen.W3 m ρ c (Proc.devRef .tc main_arg7) := Gen.W4_of_ne m ρ c main_arg7 (by decide)
    _ = Gen.W2 m ρ c (Proc.devRef .tc main_arg7) := host1_keep m ρ c main_arg7 (by decide)
    _ = Gen.W1 m ρ c (Proc.devRef .tc main_arg7) := Gen.W2_of_ne m ρ c main_arg7 (by decide)
    _ = Gen.W0 m ρ c (Proc.devRef .tc main_arg7) := host0_keep m ρ c main_arg7 (by decide)
    _ = m ((c : Thread nD τ).loc main_arg7) := rfl

/-- The argument main_arg8 at boundary 7, where it is read, is the launch memory's. -/
theorem arg8_W7 (c : Dev nD) :
    Gen.W7 m ρ c (Proc.devRef .tc main_arg8) = m ((c : Thread nD τ).loc main_arg8) :=
  calc Gen.W7 m ρ c (Proc.devRef .tc main_arg8)
    _ = Gen.W6 m ρ c (Proc.devRef .tc main_arg8) := host3_keep m ρ c main_arg8 (by decide)
    _ = Gen.W5 m ρ c (Proc.devRef .tc main_arg8) := Gen.W6_of_ne m ρ c main_arg8 (by decide)
    _ = Gen.W4 m ρ c (Proc.devRef .tc main_arg8) := host2_keep m ρ c main_arg8 (by decide)
    _ = Gen.W3 m ρ c (Proc.devRef .tc main_arg8) := Gen.W4_of_ne m ρ c main_arg8 (by decide)
    _ = Gen.W2 m ρ c (Proc.devRef .tc main_arg8) := host1_keep m ρ c main_arg8 (by decide)
    _ = Gen.W1 m ρ c (Proc.devRef .tc main_arg8) := Gen.W2_of_ne m ρ c main_arg8 (by decide)
    _ = Gen.W0 m ρ c (Proc.devRef .tc main_arg8) := host0_keep m ρ c main_arg8 (by decide)
    _ = m ((c : Thread nD τ).loc main_arg8) := rfl

/-- The argument main_arg9 at boundary 7, where it is read, is the launch memory's. -/
theorem arg9_W7 (c : Dev nD) :
    Gen.W7 m ρ c (Proc.devRef .tc main_arg9) = m ((c : Thread nD τ).loc main_arg9) :=
  calc Gen.W7 m ρ c (Proc.devRef .tc main_arg9)
    _ = Gen.W6 m ρ c (Proc.devRef .tc main_arg9) := host3_keep m ρ c main_arg9 (by decide)
    _ = Gen.W5 m ρ c (Proc.devRef .tc main_arg9) := Gen.W6_of_ne m ρ c main_arg9 (by decide)
    _ = Gen.W4 m ρ c (Proc.devRef .tc main_arg9) := host2_keep m ρ c main_arg9 (by decide)
    _ = Gen.W3 m ρ c (Proc.devRef .tc main_arg9) := Gen.W4_of_ne m ρ c main_arg9 (by decide)
    _ = Gen.W2 m ρ c (Proc.devRef .tc main_arg9) := host1_keep m ρ c main_arg9 (by decide)
    _ = Gen.W1 m ρ c (Proc.devRef .tc main_arg9) := Gen.W2_of_ne m ρ c main_arg9 (by decide)
    _ = Gen.W0 m ρ c (Proc.devRef .tc main_arg9) := host0_keep m ρ c main_arg9 (by decide)
    _ = m ((c : Thread nD τ).loc main_arg9) := rfl

/-- The argument main_arg10 at boundary 6, where it is read, is the launch memory's. -/
theorem arg10_W6 (c : Dev nD) :
    Gen.W6 m ρ c (Proc.devRef .tc main_arg10) = m ((c : Thread nD τ).loc main_arg10) :=
  calc Gen.W6 m ρ c (Proc.devRef .tc main_arg10)
    _ = Gen.W5 m ρ c (Proc.devRef .tc main_arg10) := Gen.W6_of_ne m ρ c main_arg10 (by decide)
    _ = Gen.W4 m ρ c (Proc.devRef .tc main_arg10) := host2_keep m ρ c main_arg10 (by decide)
    _ = Gen.W3 m ρ c (Proc.devRef .tc main_arg10) := Gen.W4_of_ne m ρ c main_arg10 (by decide)
    _ = Gen.W2 m ρ c (Proc.devRef .tc main_arg10) := host1_keep m ρ c main_arg10 (by decide)
    _ = Gen.W1 m ρ c (Proc.devRef .tc main_arg10) := Gen.W2_of_ne m ρ c main_arg10 (by decide)
    _ = Gen.W0 m ρ c (Proc.devRef .tc main_arg10) := host0_keep m ρ c main_arg10 (by decide)
    _ = m ((c : Thread nD τ).loc main_arg10) := rfl

/-- The argument main_arg11 at boundary 8, where it is read, is the launch memory's. -/
theorem arg11_W8 (c : Dev nD) :
    Gen.W8 m ρ c (Proc.devRef .tc main_arg11) = m ((c : Thread nD τ).loc main_arg11) :=
  calc Gen.W8 m ρ c (Proc.devRef .tc main_arg11)
    _ = Gen.W7 m ρ c (Proc.devRef .tc main_arg11) := Gen.W8_of_ne m ρ c main_arg11 (by decide)
    _ = Gen.W6 m ρ c (Proc.devRef .tc main_arg11) := host3_keep m ρ c main_arg11 (by decide)
    _ = Gen.W5 m ρ c (Proc.devRef .tc main_arg11) := Gen.W6_of_ne m ρ c main_arg11 (by decide)
    _ = Gen.W4 m ρ c (Proc.devRef .tc main_arg11) := host2_keep m ρ c main_arg11 (by decide)
    _ = Gen.W3 m ρ c (Proc.devRef .tc main_arg11) := Gen.W4_of_ne m ρ c main_arg11 (by decide)
    _ = Gen.W2 m ρ c (Proc.devRef .tc main_arg11) := host1_keep m ρ c main_arg11 (by decide)
    _ = Gen.W1 m ρ c (Proc.devRef .tc main_arg11) := Gen.W2_of_ne m ρ c main_arg11 (by decide)
    _ = Gen.W0 m ρ c (Proc.devRef .tc main_arg11) := host0_keep m ρ c main_arg11 (by decide)
    _ = m ((c : Thread nD τ).loc main_arg11) := rfl

/-- The argument main_arg12 at boundary 8, where it is read, is the launch memory's. -/
theorem arg12_W8 (c : Dev nD) :
    Gen.W8 m ρ c (Proc.devRef .tc main_arg12) = m ((c : Thread nD τ).loc main_arg12) :=
  calc Gen.W8 m ρ c (Proc.devRef .tc main_arg12)
    _ = Gen.W7 m ρ c (Proc.devRef .tc main_arg12) := Gen.W8_of_ne m ρ c main_arg12 (by decide)
    _ = Gen.W6 m ρ c (Proc.devRef .tc main_arg12) := host3_keep m ρ c main_arg12 (by decide)
    _ = Gen.W5 m ρ c (Proc.devRef .tc main_arg12) := Gen.W6_of_ne m ρ c main_arg12 (by decide)
    _ = Gen.W4 m ρ c (Proc.devRef .tc main_arg12) := host2_keep m ρ c main_arg12 (by decide)
    _ = Gen.W3 m ρ c (Proc.devRef .tc main_arg12) := Gen.W4_of_ne m ρ c main_arg12 (by decide)
    _ = Gen.W2 m ρ c (Proc.devRef .tc main_arg12) := host1_keep m ρ c main_arg12 (by decide)
    _ = Gen.W1 m ρ c (Proc.devRef .tc main_arg12) := Gen.W2_of_ne m ρ c main_arg12 (by decide)
    _ = Gen.W0 m ρ c (Proc.devRef .tc main_arg12) := host0_keep m ρ c main_arg12 (by decide)
    _ = m ((c : Thread nD τ).loc main_arg12) := rfl

/-- The argument main_arg13 at boundary 11, where it is read, is the launch memory's. -/
theorem arg13_W11 (c : Dev nD) :
    Gen.W11 m ρ c (Proc.devRef .tc main_arg13) = m ((c : Thread nD τ).loc main_arg13) :=
  calc Gen.W11 m ρ c (Proc.devRef .tc main_arg13)
    _ = Gen.W10 m ρ c (Proc.devRef .tc main_arg13) := host5_keep m ρ c main_arg13 (by decide)
    _ = Gen.W9 m ρ c (Proc.devRef .tc main_arg13) := Gen.W10_of_ne m ρ c main_arg13 (by decide)
    _ = Gen.W8 m ρ c (Proc.devRef .tc main_arg13) := host4_keep m ρ c main_arg13 (by decide)
    _ = Gen.W7 m ρ c (Proc.devRef .tc main_arg13) := Gen.W8_of_ne m ρ c main_arg13 (by decide)
    _ = Gen.W6 m ρ c (Proc.devRef .tc main_arg13) := host3_keep m ρ c main_arg13 (by decide)
    _ = Gen.W5 m ρ c (Proc.devRef .tc main_arg13) := Gen.W6_of_ne m ρ c main_arg13 (by decide)
    _ = Gen.W4 m ρ c (Proc.devRef .tc main_arg13) := host2_keep m ρ c main_arg13 (by decide)
    _ = Gen.W3 m ρ c (Proc.devRef .tc main_arg13) := Gen.W4_of_ne m ρ c main_arg13 (by decide)
    _ = Gen.W2 m ρ c (Proc.devRef .tc main_arg13) := host1_keep m ρ c main_arg13 (by decide)
    _ = Gen.W1 m ρ c (Proc.devRef .tc main_arg13) := Gen.W2_of_ne m ρ c main_arg13 (by decide)
    _ = Gen.W0 m ρ c (Proc.devRef .tc main_arg13) := host0_keep m ρ c main_arg13 (by decide)
    _ = m ((c : Thread nD τ).loc main_arg13) := rfl

/-- The argument main_arg14 at boundary 11, where it is read, is the launch memory's. -/
theorem arg14_W11 (c : Dev nD) :
    Gen.W11 m ρ c (Proc.devRef .tc main_arg14) = m ((c : Thread nD τ).loc main_arg14) :=
  calc Gen.W11 m ρ c (Proc.devRef .tc main_arg14)
    _ = Gen.W10 m ρ c (Proc.devRef .tc main_arg14) := host5_keep m ρ c main_arg14 (by decide)
    _ = Gen.W9 m ρ c (Proc.devRef .tc main_arg14) := Gen.W10_of_ne m ρ c main_arg14 (by decide)
    _ = Gen.W8 m ρ c (Proc.devRef .tc main_arg14) := host4_keep m ρ c main_arg14 (by decide)
    _ = Gen.W7 m ρ c (Proc.devRef .tc main_arg14) := Gen.W8_of_ne m ρ c main_arg14 (by decide)
    _ = Gen.W6 m ρ c (Proc.devRef .tc main_arg14) := host3_keep m ρ c main_arg14 (by decide)
    _ = Gen.W5 m ρ c (Proc.devRef .tc main_arg14) := Gen.W6_of_ne m ρ c main_arg14 (by decide)
    _ = Gen.W4 m ρ c (Proc.devRef .tc main_arg14) := host2_keep m ρ c main_arg14 (by decide)
    _ = Gen.W3 m ρ c (Proc.devRef .tc main_arg14) := Gen.W4_of_ne m ρ c main_arg14 (by decide)
    _ = Gen.W2 m ρ c (Proc.devRef .tc main_arg14) := host1_keep m ρ c main_arg14 (by decide)
    _ = Gen.W1 m ρ c (Proc.devRef .tc main_arg14) := Gen.W2_of_ne m ρ c main_arg14 (by decide)
    _ = Gen.W0 m ρ c (Proc.devRef .tc main_arg14) := host0_keep m ρ c main_arg14 (by decide)
    _ = m ((c : Thread nD τ).loc main_arg14) := rfl

/-- The argument main_arg15 at boundary 10, where it is read, is the launch memory's. -/
theorem arg15_W10 (c : Dev nD) :
    Gen.W10 m ρ c (Proc.devRef .tc main_arg15) = m ((c : Thread nD τ).loc main_arg15) :=
  calc Gen.W10 m ρ c (Proc.devRef .tc main_arg15)
    _ = Gen.W9 m ρ c (Proc.devRef .tc main_arg15) := Gen.W10_of_ne m ρ c main_arg15 (by decide)
    _ = Gen.W8 m ρ c (Proc.devRef .tc main_arg15) := host4_keep m ρ c main_arg15 (by decide)
    _ = Gen.W7 m ρ c (Proc.devRef .tc main_arg15) := Gen.W8_of_ne m ρ c main_arg15 (by decide)
    _ = Gen.W6 m ρ c (Proc.devRef .tc main_arg15) := host3_keep m ρ c main_arg15 (by decide)
    _ = Gen.W5 m ρ c (Proc.devRef .tc main_arg15) := Gen.W6_of_ne m ρ c main_arg15 (by decide)
    _ = Gen.W4 m ρ c (Proc.devRef .tc main_arg15) := host2_keep m ρ c main_arg15 (by decide)
    _ = Gen.W3 m ρ c (Proc.devRef .tc main_arg15) := Gen.W4_of_ne m ρ c main_arg15 (by decide)
    _ = Gen.W2 m ρ c (Proc.devRef .tc main_arg15) := host1_keep m ρ c main_arg15 (by decide)
    _ = Gen.W1 m ρ c (Proc.devRef .tc main_arg15) := Gen.W2_of_ne m ρ c main_arg15 (by decide)
    _ = Gen.W0 m ρ c (Proc.devRef .tc main_arg15) := host0_keep m ρ c main_arg15 (by decide)
    _ = m ((c : Thread nD τ).loc main_arg15) := rfl

/-- The argument main_arg16 at boundary 12, where it is read, is the launch memory's. -/
theorem arg16_W12 (c : Dev nD) :
    Gen.W12 m ρ c (Proc.devRef .tc main_arg16) = m ((c : Thread nD τ).loc main_arg16) :=
  calc Gen.W12 m ρ c (Proc.devRef .tc main_arg16)
    _ = Gen.W11 m ρ c (Proc.devRef .tc main_arg16) := Gen.W12_of_ne m ρ c main_arg16 (by decide)
    _ = Gen.W10 m ρ c (Proc.devRef .tc main_arg16) := host5_keep m ρ c main_arg16 (by decide)
    _ = Gen.W9 m ρ c (Proc.devRef .tc main_arg16) := Gen.W10_of_ne m ρ c main_arg16 (by decide)
    _ = Gen.W8 m ρ c (Proc.devRef .tc main_arg16) := host4_keep m ρ c main_arg16 (by decide)
    _ = Gen.W7 m ρ c (Proc.devRef .tc main_arg16) := Gen.W8_of_ne m ρ c main_arg16 (by decide)
    _ = Gen.W6 m ρ c (Proc.devRef .tc main_arg16) := host3_keep m ρ c main_arg16 (by decide)
    _ = Gen.W5 m ρ c (Proc.devRef .tc main_arg16) := Gen.W6_of_ne m ρ c main_arg16 (by decide)
    _ = Gen.W4 m ρ c (Proc.devRef .tc main_arg16) := host2_keep m ρ c main_arg16 (by decide)
    _ = Gen.W3 m ρ c (Proc.devRef .tc main_arg16) := Gen.W4_of_ne m ρ c main_arg16 (by decide)
    _ = Gen.W2 m ρ c (Proc.devRef .tc main_arg16) := host1_keep m ρ c main_arg16 (by decide)
    _ = Gen.W1 m ρ c (Proc.devRef .tc main_arg16) := Gen.W2_of_ne m ρ c main_arg16 (by decide)
    _ = Gen.W0 m ρ c (Proc.devRef .tc main_arg16) := host0_keep m ρ c main_arg16 (by decide)
    _ = m ((c : Thread nD τ).loc main_arg16) := rfl

/-- The argument main_arg17 at boundary 12, where it is read, is the launch memory's. -/
theorem arg17_W12 (c : Dev nD) :
    Gen.W12 m ρ c (Proc.devRef .tc main_arg17) = m ((c : Thread nD τ).loc main_arg17) :=
  calc Gen.W12 m ρ c (Proc.devRef .tc main_arg17)
    _ = Gen.W11 m ρ c (Proc.devRef .tc main_arg17) := Gen.W12_of_ne m ρ c main_arg17 (by decide)
    _ = Gen.W10 m ρ c (Proc.devRef .tc main_arg17) := host5_keep m ρ c main_arg17 (by decide)
    _ = Gen.W9 m ρ c (Proc.devRef .tc main_arg17) := Gen.W10_of_ne m ρ c main_arg17 (by decide)
    _ = Gen.W8 m ρ c (Proc.devRef .tc main_arg17) := host4_keep m ρ c main_arg17 (by decide)
    _ = Gen.W7 m ρ c (Proc.devRef .tc main_arg17) := Gen.W8_of_ne m ρ c main_arg17 (by decide)
    _ = Gen.W6 m ρ c (Proc.devRef .tc main_arg17) := host3_keep m ρ c main_arg17 (by decide)
    _ = Gen.W5 m ρ c (Proc.devRef .tc main_arg17) := Gen.W6_of_ne m ρ c main_arg17 (by decide)
    _ = Gen.W4 m ρ c (Proc.devRef .tc main_arg17) := host2_keep m ρ c main_arg17 (by decide)
    _ = Gen.W3 m ρ c (Proc.devRef .tc main_arg17) := Gen.W4_of_ne m ρ c main_arg17 (by decide)
    _ = Gen.W2 m ρ c (Proc.devRef .tc main_arg17) := host1_keep m ρ c main_arg17 (by decide)
    _ = Gen.W1 m ρ c (Proc.devRef .tc main_arg17) := Gen.W2_of_ne m ρ c main_arg17 (by decide)
    _ = Gen.W0 m ρ c (Proc.devRef .tc main_arg17) := host0_keep m ρ c main_arg17 (by decide)
    _ = m ((c : Thread nD τ).loc main_arg17) := rfl

/-- The argument main_arg19 at boundary 15, where it is read, is the launch memory's. -/
theorem arg19_W15 (c : Dev nD) :
    Gen.W15 m ρ c (Proc.devRef .tc main_arg19) = m ((c : Thread nD τ).loc main_arg19) :=
  calc Gen.W15 m ρ c (Proc.devRef .tc main_arg19)
    _ = Gen.W14 m ρ c (Proc.devRef .tc main_arg19) := host7_keep m ρ c main_arg19 (by decide)
    _ = Gen.W13 m ρ c (Proc.devRef .tc main_arg19) := Gen.W14_of_ne m ρ c main_arg19 (by decide)
    _ = Gen.W12 m ρ c (Proc.devRef .tc main_arg19) := host6_keep m ρ c main_arg19 (by decide)
    _ = Gen.W11 m ρ c (Proc.devRef .tc main_arg19) := Gen.W12_of_ne m ρ c main_arg19 (by decide)
    _ = Gen.W10 m ρ c (Proc.devRef .tc main_arg19) := host5_keep m ρ c main_arg19 (by decide)
    _ = Gen.W9 m ρ c (Proc.devRef .tc main_arg19) := Gen.W10_of_ne m ρ c main_arg19 (by decide)
    _ = Gen.W8 m ρ c (Proc.devRef .tc main_arg19) := host4_keep m ρ c main_arg19 (by decide)
    _ = Gen.W7 m ρ c (Proc.devRef .tc main_arg19) := Gen.W8_of_ne m ρ c main_arg19 (by decide)
    _ = Gen.W6 m ρ c (Proc.devRef .tc main_arg19) := host3_keep m ρ c main_arg19 (by decide)
    _ = Gen.W5 m ρ c (Proc.devRef .tc main_arg19) := Gen.W6_of_ne m ρ c main_arg19 (by decide)
    _ = Gen.W4 m ρ c (Proc.devRef .tc main_arg19) := host2_keep m ρ c main_arg19 (by decide)
    _ = Gen.W3 m ρ c (Proc.devRef .tc main_arg19) := Gen.W4_of_ne m ρ c main_arg19 (by decide)
    _ = Gen.W2 m ρ c (Proc.devRef .tc main_arg19) := host1_keep m ρ c main_arg19 (by decide)
    _ = Gen.W1 m ρ c (Proc.devRef .tc main_arg19) := Gen.W2_of_ne m ρ c main_arg19 (by decide)
    _ = Gen.W0 m ρ c (Proc.devRef .tc main_arg19) := host0_keep m ρ c main_arg19 (by decide)
    _ = m ((c : Thread nD τ).loc main_arg19) := rfl

/-- The argument main_arg18 at boundary 17, where it is read, is the launch memory's. -/
theorem arg18_W17 (c : Dev nD) :
    Gen.W17 m ρ c (Proc.devRef .tc main_arg18) = m ((c : Thread nD τ).loc main_arg18) :=
  calc Gen.W17 m ρ c (Proc.devRef .tc main_arg18)
    _ = Gen.W16 m ρ c (Proc.devRef .tc main_arg18) := host8_keep m ρ c main_arg18 (by decide)
    _ = Gen.W15 m ρ c (Proc.devRef .tc main_arg18) := Gen.W16_of_ne m ρ c main_arg18 (by decide)
    _ = Gen.W14 m ρ c (Proc.devRef .tc main_arg18) := host7_keep m ρ c main_arg18 (by decide)
    _ = Gen.W13 m ρ c (Proc.devRef .tc main_arg18) := Gen.W14_of_ne m ρ c main_arg18 (by decide)
    _ = Gen.W12 m ρ c (Proc.devRef .tc main_arg18) := host6_keep m ρ c main_arg18 (by decide)
    _ = Gen.W11 m ρ c (Proc.devRef .tc main_arg18) := Gen.W12_of_ne m ρ c main_arg18 (by decide)
    _ = Gen.W10 m ρ c (Proc.devRef .tc main_arg18) := host5_keep m ρ c main_arg18 (by decide)
    _ = Gen.W9 m ρ c (Proc.devRef .tc main_arg18) := Gen.W10_of_ne m ρ c main_arg18 (by decide)
    _ = Gen.W8 m ρ c (Proc.devRef .tc main_arg18) := host4_keep m ρ c main_arg18 (by decide)
    _ = Gen.W7 m ρ c (Proc.devRef .tc main_arg18) := Gen.W8_of_ne m ρ c main_arg18 (by decide)
    _ = Gen.W6 m ρ c (Proc.devRef .tc main_arg18) := host3_keep m ρ c main_arg18 (by decide)
    _ = Gen.W5 m ρ c (Proc.devRef .tc main_arg18) := Gen.W6_of_ne m ρ c main_arg18 (by decide)
    _ = Gen.W4 m ρ c (Proc.devRef .tc main_arg18) := host2_keep m ρ c main_arg18 (by decide)
    _ = Gen.W3 m ρ c (Proc.devRef .tc main_arg18) := Gen.W4_of_ne m ρ c main_arg18 (by decide)
    _ = Gen.W2 m ρ c (Proc.devRef .tc main_arg18) := host1_keep m ρ c main_arg18 (by decide)
    _ = Gen.W1 m ρ c (Proc.devRef .tc main_arg18) := Gen.W2_of_ne m ρ c main_arg18 (by decide)
    _ = Gen.W0 m ρ c (Proc.devRef .tc main_arg18) := host0_keep m ρ c main_arg18 (by decide)
    _ = m ((c : Thread nD τ).loc main_arg18) := rfl

/-- The argument main_arg20 at boundary 16, where it is read, is the launch memory's. -/
theorem arg20_W16 (c : Dev nD) :
    Gen.W16 m ρ c (Proc.devRef .tc main_arg20) = m ((c : Thread nD τ).loc main_arg20) :=
  calc Gen.W16 m ρ c (Proc.devRef .tc main_arg20)
    _ = Gen.W15 m ρ c (Proc.devRef .tc main_arg20) := Gen.W16_of_ne m ρ c main_arg20 (by decide)
    _ = Gen.W14 m ρ c (Proc.devRef .tc main_arg20) := host7_keep m ρ c main_arg20 (by decide)
    _ = Gen.W13 m ρ c (Proc.devRef .tc main_arg20) := Gen.W14_of_ne m ρ c main_arg20 (by decide)
    _ = Gen.W12 m ρ c (Proc.devRef .tc main_arg20) := host6_keep m ρ c main_arg20 (by decide)
    _ = Gen.W11 m ρ c (Proc.devRef .tc main_arg20) := Gen.W12_of_ne m ρ c main_arg20 (by decide)
    _ = Gen.W10 m ρ c (Proc.devRef .tc main_arg20) := host5_keep m ρ c main_arg20 (by decide)
    _ = Gen.W9 m ρ c (Proc.devRef .tc main_arg20) := Gen.W10_of_ne m ρ c main_arg20 (by decide)
    _ = Gen.W8 m ρ c (Proc.devRef .tc main_arg20) := host4_keep m ρ c main_arg20 (by decide)
    _ = Gen.W7 m ρ c (Proc.devRef .tc main_arg20) := Gen.W8_of_ne m ρ c main_arg20 (by decide)
    _ = Gen.W6 m ρ c (Proc.devRef .tc main_arg20) := host3_keep m ρ c main_arg20 (by decide)
    _ = Gen.W5 m ρ c (Proc.devRef .tc main_arg20) := Gen.W6_of_ne m ρ c main_arg20 (by decide)
    _ = Gen.W4 m ρ c (Proc.devRef .tc main_arg20) := host2_keep m ρ c main_arg20 (by decide)
    _ = Gen.W3 m ρ c (Proc.devRef .tc main_arg20) := Gen.W4_of_ne m ρ c main_arg20 (by decide)
    _ = Gen.W2 m ρ c (Proc.devRef .tc main_arg20) := host1_keep m ρ c main_arg20 (by decide)
    _ = Gen.W1 m ρ c (Proc.devRef .tc main_arg20) := Gen.W2_of_ne m ρ c main_arg20 (by decide)
    _ = Gen.W0 m ρ c (Proc.devRef .tc main_arg20) := host0_keep m ρ c main_arg20 (by decide)
    _ = m ((c : Thread nD τ).loc main_arg20) := rfl

end Cert.KernelIdeal.Trace

end
-- ==== Proof.KKeep3.lean ====
/- Each region's output arrays at the region's exit, and the one host-written table that two regions read. -/
import proofs.«174735_j64811056496761_2_alg».proof.Proof.KStep

set_option maxRecDepth 16384

noncomputable section

namespace Cert.KernelIdeal.Trace

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Region 0's output main_v8 at the region's exit (boundary 2) is what the write-backs of its window 2 leave. -/
theorem out_v8 (c : Dev nD) :
    Gen.W2 m ρ c (Proc.devRef .tc main_v8) = (Gen.dat0 (Gen.V1 m ρ) c).arrAt 2 cfg0.N :=
  Gen.W2_arr m ρ c 2

/-- Region 1's output main_v23_0 at the region's exit (boundary 4) is what the write-backs of its window 4 leave. -/
theorem out_v23_0 (c : Dev nD) :
    Gen.W4 m ρ c (Proc.devRef .tc main_v23_0) = (Gen.dat1 (Gen.V3 m ρ) c).arrAt 4 cfg1.N :=
  Gen.W4_arr m ρ c 4

/-- Region 1's output main_v23_1 at the region's exit (boundary 4) is what the write-backs of its window 5 leave. -/
theorem out_v23_1 (c : Dev nD) :
    Gen.W4 m ρ c (Proc.devRef .tc main_v23_1) = (Gen.dat1 (Gen.V3 m ρ) c).arrAt 5 cfg1.N :=
  Gen.W4_arr m ρ c 5

/-- Region 1's output main_v23_2 at the region's exit (boundary 4) is what the write-backs of its window 6 leave. -/
theorem out_v23_2 (c : Dev nD) :
    Gen.W4 m ρ c (Proc.devRef .tc main_v23_2) = (Gen.dat1 (Gen.V3 m ρ) c).arrAt 6 cfg1.N :=
  Gen.W4_arr m ρ c 6

/-- Region 2's output main_v49 at the region's exit (boundary 6) is what the write-backs of its window 5 leave. -/
theorem out_v49 (c : Dev nD) :
    Gen.W6 m ρ c (Proc.devRef .tc main_v49) = (Gen.dat2 (Gen.V5 m ρ) c).arrAt 5 cfg2.N :=
  Gen.W6_arr m ρ c 5

/-- Region 3's output main_v65_0 at the region's exit (boundary 8) is what the write-backs of its window 5 leave. -/
theorem out_v65_0 (c : Dev nD) :
    Gen.W8 m ρ c (Proc.devRef .tc main_v65_0) = (Gen.dat3 (Gen.V7 m ρ) c).arrAt 5 cfg3.N :=
  Gen.W8_arr m ρ c 5

/-- Region 3's output main_v65_1 at the region's exit (boundary 8) is what the write-backs of its window 6 leave. -/
theorem out_v65_1 (c : Dev nD) :
    Gen.W8 m ρ c (Proc.devRef .tc main_v65_1) = (Gen.dat3 (Gen.V7 m ρ) c).arrAt 6 cfg3.N :=
  Gen.W8_arr m ρ c 6

/-- Region 3's output main_v65_2 at the region's exit (boundary 8) is what the write-backs of its window 7 leave. -/
theorem out_v65_2 (c : Dev nD) :
    Gen.W8 m ρ c (Proc.devRef .tc main_v65_2) = (Gen.dat3 (Gen.V7 m ρ) c).arrAt 7 cfg3.N :=
  Gen.W8_arr m ρ c 7

/-- Region 4's output main_v91 at the region's exit (boundary 10) is what the write-backs of its window 5 leave. -/
theorem out_v91 (c : Dev nD) :
    Gen.W10 m ρ c (Proc.devRef .tc main_v91) = (Gen.dat4 (Gen.V9 m ρ) c).arrAt 5 cfg4.N :=
  Gen.W10_arr m ρ c 5

/-- Region 5's output main_v107_0 at the region's exit (boundary 12) is what the write-backs of its window 5 leave. -/
theorem out_v107_0 (c : Dev nD) :
    Gen.W12 m ρ c (Proc.devRef .tc main_v107_0) = (Gen.dat5 (Gen.V11 m ρ) c).arrAt 5 cfg5.N :=
  Gen.W12_arr m ρ c 5

/-- Region 5's output main_v107_1 at the region's exit (boundary 12) is what the write-backs of its window 6 leave. -/
theorem out_v107_1 (c : Dev nD) :
    Gen.W12 m ρ c (Proc.devRef .tc main_v107_1) = (Gen.dat5 (Gen.V11 m ρ) c).arrAt 6 cfg5.N :=
  Gen.W12_arr m ρ c 6

/-- Region 5's output main_v107_2 at the region's exit (boundary 12) is what the write-backs of its window 7 leave. -/
theorem out_v107_2 (c : Dev nD) :
    Gen.W12 m ρ c (Proc.devRef .tc main_v107_2) = (Gen.dat5 (Gen.V11 m ρ) c).arrAt 7 cfg5.N :=
  Gen.W12_arr m ρ c 7

/-- Region 6's output main_v133 at the region's exit (boundary 14) is what the write-backs of its window 5 leave. -/
theorem out_v133 (c : Dev nD) :
    Gen.W14 m ρ c (Proc.devRef .tc main_v133) = (Gen.dat6 (Gen.V13 m ρ) c).arrAt 5 cfg6.N :=
  Gen.W14_arr m ρ c 5

/-- Region 7's output main_v135 at the region's exit (boundary 16) is what the write-backs of its window 2 leave. -/
theorem out_v135 (c : Dev nD) :
    Gen.W16 m ρ c (Proc.devRef .tc main_v135) = (Gen.dat7 (Gen.V15 m ρ) c).arrAt 2 cfg7.N :=
  Gen.W16_arr m ρ c 2

/-- Region 8's output main_v150 at the region's exit (boundary 18) is what the write-backs of its window 4 leave. -/
theorem out_v150 (c : Dev nD) :
    Gen.W18 m ρ c (Proc.devRef .tc main_v150) = (Gen.dat8 (Gen.V17 m ρ) c).arrAt 4 cfg8.N :=
  Gen.W18_arr m ρ c 4

/-- The last hidden table (main_v134, written by host stretch 7) passes region 7, which only reads it. -/
theorem v134_W16 (c : Dev nD) :
    Gen.W16 m ρ c (Proc.devRef .tc main_v134) = Gen.W15 m ρ c (Proc.devRef .tc main_v134) :=
  calc Gen.W16 m ρ c (Proc.devRef .tc main_v134)
    _ = Gen.W15 m ρ c (Proc.devRef .tc main_v134) := (Gen.W16_arr m ρ c 0).trans (((Gen.dat7 (Gen.V15 m ρ) c).arrAt_in 0 rfl _).trans (Gen.A_eq7 (Gen.V15 m ρ) c 0))

/-- The last hidden table (main_v134) at region 8's entry is what host stretch 7 left: region 7 only reads it and host stretch 8 does not write it. -/
theorem v134_W17 (c : Dev nD) :
    Gen.W17 m ρ c (Proc.devRef .tc main_v134) = Gen.W15 m ρ c (Proc.devRef .tc main_v134) :=
  calc Gen.W17 m ρ c (Proc.devRef .tc main_v134)
    _ = Gen.W16 m ρ c (Proc.devRef .tc main_v134) := host8_keep m ρ c main_v134 (by decide)
    _ = Gen.W15 m ρ c (Proc.devRef .tc main_v134) := (Gen.W16_arr m ρ c 0).trans (((Gen.dat7 (Gen.V15 m ρ) c).arrAt_in 0 rfl _).trans (Gen.A_eq7 (Gen.V15 m ρ) c 0))

end Cert.KernelIdeal.Trace

end
-- ==== Proof.KHost0.lean ====
/- Host stretch 0 of @main: what each buffer it writes that is read later holds at the stretch's end (boundary 1),
   as the stretch's operations applied to the contents at its start (boundary 0). -/
import proofs.«174735_j64811056496761_2_alg».proof.Proof.Gen.KernelIdeal.Frame

set_option maxRecDepth 16384

noncomputable section

namespace Cert.KernelIdeal.Trace

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- `main_v7` at boundary 1: the operations of host stretch 0 that produce it, composed, over the contents at boundary 0. -/
theorem host0_v7 (c : Dev nD) :
    Gen.W1 m ρ c (Proc.devRef .tc main_v7) =
      ((Host.divf : (⟨S100000, .f32⟩ : BufTy).Contents (Elt F) → (⟨S100000, .f32⟩ : BufTy).Contents (Elt F) → (⟨S100000, .f32⟩ : BufTy).Contents (Elt F))
        ((broadcastInDim S100000 ![] bcast_S_S100000 : (⟨S_, .f32⟩ : BufTy).Contents (Elt F) → (⟨S100000, .f32⟩ : BufTy).Contents (Elt F))
          (constant S_ .f32 0x3F800000#32 : (⟨S_, .f32⟩ : BufTy).Contents (Elt F)))
        ((maximumf : (⟨S100000, .f32⟩ : BufTy).Contents (Elt F) → (⟨S100000, .f32⟩ : BufTy).Contents (Elt F) → (⟨S100000, .f32⟩ : BufTy).Contents (Elt F))
          (Host.scatterAdd scatter_S100000_S1600000x1_S1600000_n_0_0_1
            ((broadcastInDim S100000 ![] bcast_S_S100000 : (⟨S_, .f32⟩ : BufTy).Contents (Elt F) → (⟨S100000, .f32⟩ : BufTy).Contents (Elt F))
              (constant S_ .f32 0x00000000#32 : (⟨S_, .f32⟩ : BufTy).Contents (Elt F)))
            ((broadcastInDim S1600000x1 ![0] bcast_S1600000_S1600000x1_0 : (⟨S1600000, .i32⟩ : BufTy).Contents (Elt F) → (⟨S1600000x1, .i32⟩ : BufTy).Contents (Elt F))
              (Gen.W0 m ρ c (Proc.devRef .tc main_arg2) : (⟨S1600000, .i32⟩ : BufTy).Contents (Elt F)))
            ((broadcastInDim S1600000 ![] bcast_S_S1600000 : (⟨S_, .f32⟩ : BufTy).Contents (Elt F) → (⟨S1600000, .f32⟩ : BufTy).Contents (Elt F))
              (constant S_ .f32 0x3F800000#32 : (⟨S_, .f32⟩ : BufTy).Contents (Elt F))) : (⟨S100000, .f32⟩ : BufTy).Contents (Elt F))
          ((broadcastInDim S100000 ![] bcast_S_S100000 : (⟨S_, .f32⟩ : BufTy).Contents (Elt F) → (⟨S100000, .f32⟩ : BufTy).Contents (Elt F))
            (constant S_ .f32 0x3F800000#32 : (⟨S_, .f32⟩ : BufTy).Contents (Elt F))))) := by
  show StableHlo.after Gen.hostOps0 _ _ = _
  after_results

end Cert.KernelIdeal.Trace

end
-- ==== Proof.LibRealValued.lean ====
/-
  Real-valued extended reals. An extended real is REAL when it is neither infinity. The reals among the extended
  reals are closed under sum, difference, product, negation, maximum, finite sums, the quotient by a NONZERO real,
  the guarded reciprocal (1 / z where z > 0, else 0) of a real z, and contain the value of every unsigned integer.
-/
import Idealize.ShloMosaic.PureOps.Ideal

noncomputable section

open scoped BigOperators

namespace Cert.LibRealValued

open Idealize.ShloMosaic

/-- An extended real that is a real number. -/
def IsReal (x : EReal) : Prop := ∃ r : ℝ, x = (r : EReal)

theorem IsReal.coe (r : ℝ) : IsReal (r : EReal) := ⟨r, rfl⟩
theorem IsReal.zero : IsReal 0 := ⟨0, rfl⟩
theorem IsReal.one : IsReal 1 := ⟨1, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.neg {x : EReal} (hx : IsReal x) : IsReal (-x) := by
  obtain ⟨a, rfl⟩ := hx; exact ⟨-a, (EReal.coe_neg a).symm⟩

theorem IsReal.max {x y : EReal} (hx : IsReal x) (hy : IsReal y) : IsReal (max x y) := by
  rcases le_total x y with h | h
  · rw [max_eq_right h]; exact hy
  · rw [max_eq_left h]; exact hx

/-- A finite sum of reals is real. -/
theorem IsReal.sum {ι : Type*} (s : Finset ι) (f : ι → EReal) (h : ∀ i ∈ s, IsReal (f i)) : IsReal (∑ i ∈ s, f i) := by
  classical
  induction s using Finset.induction_on with
  | empty => rw [Finset.sum_empty]; exact IsReal.zero
  | insert a s ha ih =>
    rw [Finset.sum_insert ha]
    exact (h a (Finset.mem_insert_self a s)).add (ih fun i hi => h i (Finset.mem_insert_of_mem hi))

/-- The quotient of a real by a nonzero real is real. -/
theorem IsReal.div {x : EReal} (hx : IsReal x) {b : ℝ} (hb : b ≠ 0) : IsReal (Ideal.div x (b : EReal)) := by
  rw [Ideal.div_coe hb]; exact hx.mul (IsReal.coe _)

/-- The guarded reciprocal of a real — 1 / z where z > 0, else 0 — is real. -/
theorem IsReal.guardedRecip {z : EReal} (hz : IsReal z) :
    IsReal (Scalar.select (Ideal.cmp .ogt z 0) (Ideal.div 1 z) 0) := by
  obtain ⟨r, rfl⟩ := hz
  show IsReal (if BitVec.ofBool (decide ((0 : EReal) < (r : EReal))) = 1#1 then Ideal.div 1 (r : EReal) else 0)
  by_cases h : (0 : EReal) < (r : EReal)
  · have hr : r ≠ 0 := by
      have : (0 : ℝ) < r := by exact_mod_cast h
      exact ne_of_gt this
    rw [decide_eq_true h, if_pos (show BitVec.ofBool true = 1#1 by decide)]
    exact IsReal.one.div hr
  · rw [decide_eq_false h, if_neg (show ¬ BitVec.ofBool false = 1#1 by decide)]
    exact IsReal.zero

/-- The value of an unsigned integer is real. -/
theorem IsReal.uitofp {w : Nat} (b : BitVec w) : IsReal (FloatOps.uitofp (F := Ideal) .f32 b) :=
  ⟨(b.toNat : ℝ), rfl⟩

end Cert.LibRealValued

end
-- ==== Proof.LibERealSum.lean ====
/-
  General lemmas on real numbers seen as extended reals: the coercion commutes with finite sums, with the maximum,
  with division by a nonzero real and with the reciprocal square root of a positive real. Each says that an
  operation of the extended reals, applied to finite arguments away from its corners, is the operation of the
  reals.
-/
import Idealize.ShloMosaic.PureOps.Ideal

noncomputable section

open scoped BigOperators

namespace Cert.LibERealSum

open Idealize.ShloMosaic

/-- The coercion of a finite sum of reals is the sum of the coercions (sum over a finite set). -/
theorem coe_finset_sum {ι : Type*} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- The coercion of a finite sum of reals is the sum of the coercions (sum over a finite type). -/
theorem coe_sum {ι : Type*} [Fintype ι] (f : ι → ℝ) :
    ((∑ i, f i : ℝ) : EReal) = ∑ i, ((f i : ℝ) : EReal) :=
  coe_finset_sum Finset.univ f

/-- A sum of extended reals each of which is the coercion of a real is the coercion of the real sum. -/
theorem sum_eq_coe {ι : Type*} (s : Finset ι) (g : ι → EReal) (f : ι → ℝ)
    (h : ∀ i ∈ s, g i = ((f i : ℝ) : EReal)) :
    ∑ i ∈ s, g i = ((∑ i ∈ s, f i : ℝ) : EReal) := by
  rw [coe_finset_sum]
  exact Finset.sum_congr rfl h

/-- Zero plus a sum of coerced reals is the coercion of the real sum (sum over a finite set). -/
theorem zero_add_finset_sum_coe {ι : Type*} (s : Finset ι) (f : ι → ℝ) :
    (0 : EReal) + ∑ i ∈ s, ((f i : ℝ) : EReal) = ((∑ i ∈ s, f i : ℝ) : EReal) := by
  rw [zero_add, coe_finset_sum]

/-- Zero plus a sum of coerced reals is the coercion of the real sum (sum over a finite type). -/
theorem zero_add_sum_coe {ι : Type*} [Fintype ι] (f : ι → ℝ) :
    (0 : EReal) + ∑ i, ((f i : ℝ) : EReal) = ((∑ i, f i : ℝ) : EReal) :=
  zero_add_finset_sum_coe Finset.univ f

/-- The maximum of two coerced reals is the coercion of their maximum. -/
theorem max_coe (a b : ℝ) : max (a : EReal) (b : EReal) = ((max a b : ℝ) : EReal) := by
  rcases le_total a b with h | h
  · rw [max_eq_right h, max_eq_right (EReal.coe_le_coe_iff.2 h)]
  · rw [max_eq_left h, max_eq_left (EReal.coe_le_coe_iff.2 h)]

/-- The minimum of two coerced reals is the coercion of their minimum. -/
theorem min_coe (a b : ℝ) : min (a : EReal) (b : EReal) = ((min a b : ℝ) : EReal) := by
  rcases le_total a b with h | h
  · rw [min_eq_left h, min_eq_left (EReal.coe_le_coe_iff.2 h)]
  · rw [min_eq_right h, min_eq_right (EReal.coe_le_coe_iff.2 h)]

/-- Dividing a coerced real by a coerced nonzero real gives the coerced quotient. -/
theorem div_coe_coe (a : ℝ) {b : ℝ} (hb : b ≠ 0) :
    Ideal.div (a : EReal) (b : EReal) = ((a / b : ℝ) : EReal) := by
  rw [Ideal.div_coe hb, ← EReal.coe_mul, one_div, div_eq_mul_inv]

/-- The reciprocal square root of a coerced positive real is the coerced reciprocal of its square root. -/
theorem rsqrt_coe_pos {r : ℝ} (hr : 0 < r) :
    Ideal.rsqrt ((r : ℝ) : EReal) = (((Real.sqrt r)⁻¹ : ℝ) : EReal) := by
  rw [Ideal.rsqrt_coe, if_neg (not_lt.2 hr.le), if_neg hr.ne']

/-- The square root of a coerced non-negative real is the coerced square root. -/
theorem sqrt_coe_nonneg {r : ℝ} (hr : 0 ≤ r) :
    Ideal.sqrt ((r : ℝ) : EReal) = ((Real.sqrt r : ℝ) : EReal) := by
  rw [Ideal.sqrt_coe, if_neg (not_lt.2 hr)]

end Cert.LibERealSum

end
-- ==== Proof.LibRecipMean.lean ====
/-
  A mean taken with a reciprocal computed once, on the extended reals.

  A count a is guarded as max(a, 1) before it divides a sum. One program divides each sum by the guarded count; another computes
  the reciprocal 1 / max(a, 1) once and multiplies each sum by it. With division read as "the product with the inverse, except by
  zero", the two agree for every extended real x and a, finite or not: max(a, 1) is at least 1, so it is not zero, both quotients
  are products with its inverse, and 1 · c⁻¹ = c⁻¹. (When a is +∞ both sides are x · 0.)
-/
import Idealize.ShloMosaic.PureOps.Ideal

noncomputable section

namespace Cert.LibRecipMean

open Idealize.ShloMosaic

/-- A count guarded from below by 1 is not zero, whatever extended real the count is. -/
theorem max_one_ne_zero (a : EReal) : max a (1 : EReal) ≠ 0 := by
  intro h
  have h1 : (1 : EReal) ≤ max a 1 := le_max_right _ _
  rw [h] at h1
  exact absurd h1 (by norm_num)

/-- The reciprocal of a guarded count is its inverse. -/
theorem recip_eq_inv (a : EReal) : Ideal.div 1 (max a 1) = (max a 1)⁻¹ := by
  rw [Ideal.div, if_neg (max_one_ne_zero a), one_mul]

/-- A product with the reciprocal of max(a, 1) is the quotient by max(a, 1), for every extended real x and a. The constant o is
    the program's literal for one, with the fact that it denotes 1. -/
theorem mul_recip_eq_div (x a o : EReal) (ho : o = 1) : x * Ideal.div o (max a o) = Ideal.div x (max a o) := by
  subst ho
  rw [recip_eq_inv, Ideal.div, if_neg (max_one_ne_zero a)]

end Cert.LibRecipMean

end
-- ==== Proof.LibF32Literals.lean ====
/-
  Binary32 literals as extended reals. At the exact (extended-real) reading of floats a literal is the value its
  IEEE-754 pattern denotes: sign bit, eight exponent bits with bias 127, twenty-three fraction bits. The patterns
  here are those of 0, 1, 2, 16, 256 and 16384.
-/
import Idealize.ShloMosaic.PureOps.Ideal

noncomputable section

namespace Cert.LibF32Literals

open Idealize.ShloMosaic

/-- The pattern of +0.0 denotes 0. -/
theorem ofBits_zero : Ideal.ofBits .f32 0x00000000#32 = 0 := by
  simp [Ideal.ofBits, Ideal.ieee]

/-- The pattern 0x3F800000 denotes 1. -/
theorem ofBits_one : Ideal.ofBits .f32 0x3F800000#32 = 1 := by
  simp [Ideal.ofBits, Ideal.ieee, -EReal.coe_mul]; norm_num

/-- The pattern 0x3F800000 denotes the real 1. -/
theorem ofBits_one_coe : Ideal.ofBits .f32 0x3F800000#32 = ((1 : ℝ) : EReal) := by
  rw [ofBits_one]; norm_cast

/-- The pattern 0x40000000 denotes the real 2. -/
theorem ofBits_two : Ideal.ofBits .f32 0x40000000#32 = ((2 : ℝ) : EReal) := by
  simp [Ideal.ofBits, Ideal.ieee, -EReal.coe_mul]; norm_num

/-- The pattern 0x41800000 denotes the real 16. -/
theorem ofBits_16 : Ideal.ofBits .f32 0x41800000#32 = ((16 : ℝ) : EReal) := by
  simp [Ideal.ofBits, Ideal.ieee, -EReal.coe_mul]; norm_num

/-- The pattern 0x43800000 denotes the real 256. -/
theorem ofBits_256 : Ideal.ofBits .f32 0x43800000#32 = ((256 : ℝ) : EReal) := by
  simp [Ideal.ofBits, Ideal.ieee, -EReal.coe_mul]; norm_num

/-- The pattern 0x46800000 denotes the real 16384. -/
theorem ofBits_16384 : Ideal.ofBits .f32 0x46800000#32 = ((16384 : ℝ) : EReal) := by
  simp [Ideal.ofBits, Ideal.ieee, -EReal.coe_mul]; norm_num

end Cert.LibF32Literals

end
-- ==== Proof.LibDegree.lean ====
/-
  A degree count by an accumulating scatter into a vector, and its inverse square root.

  Scattering the entries of a length-R vector of updates into a length-N vector at an [R, 1] column of numbers lands update e —
  when its stored number, read signed, is a valid entry p — on entry p. Started from zeros and fed ones, the scatter counts at
  every entry the updates that land on it: an entry that at least one update lands on holds a natural number ≥ 1, and the
  inverse square root of such a number is a non-negative real.
-/
import Idealize.ShloMosaic.PureOps.Ideal
import Idealize.ShloMosaic.Lib.ValueIdx
import proofs.«174735_j64811056496761_2_alg».proof.Proof.LibRealValued

noncomputable section

namespace Cert.LibDegree

open Idealize.ShloMosaic Idealize.ShloMosaic.ValueIdx Cert.LibRealValued
open scoped BigOperators

/-! ## Where a scatter into a vector lands -/

/-- The dimension numbers of scattering entries into a vector: the operand's one axis is inserted and indexed by the one
    component of each scatter index; an update has no window axis. -/
abbrev vecScatterDims (N R : ℕ) (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

private theorem vec_not_kept : (0 : Fin 1) ∉ (List.finRange 1).filter (fun a : Fin 1 => a ∉ ([0] : List (Fin 1))) := by decide

/-- An update whose stored number is the valid entry p lands on p. -/
theorem vec_lands {N R w : ℕ} (wf : ScatterDims.WF ⟨1, ![N]⟩ ⟨2, ![R, 1]⟩ ⟨1, ![R]⟩ [] [0] [0] 1)
    (idx : IVec ⟨2, ![R, 1]⟩ w) (e : Fin R) (p : Fin N) (h : (idx (ix2 e (0 : Fin 1))).toInt = (p.val : ℤ)) :
    (vecScatterDims N R wf).resultIdx? (ix1 e) idx = some (ix1 p) := by
  have hst : (vecScatterDims N R wf).start (ix1 e) idx (0 : Fin 1) = (idx (ix2 e (0 : Fin 1))).toInt := by
    unfold ScatterDims.start
    rw [dif_pos (show (0 : Fin 1) ∈ (vecScatterDims N R wf).scatterDimsToOperandDims from List.mem_singleton.mpr rfl)]
    have hsi : (vecScatterDims N R wf).siIdx (ix1 e) ⟨List.idxOf (0 : Fin 1) (vecScatterDims N R wf).scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hw : (vecScatterDims N R wf).window (ix1 e) (0 : Fin 1) = 0 := by
    unfold ScatterDims.window
    rw [dif_neg (show (0 : Fin 1) ∉ (vecScatterDims N R wf).sKept from vec_not_kept)]
  have hin : ∀ a, 0 ≤ (vecScatterDims N R wf).start (ix1 e) idx a + (vecScatterDims N R wf).window (ix1 e) a
      ∧ (vecScatterDims N R wf).start (ix1 e) idx a + (vecScatterDims N R wf).window (ix1 e) a
        < (⟨1, ![N]⟩ : Shape).size a := by
    intro a
    match a with
    | ⟨0, _⟩ =>
      show 0 ≤ (vecScatterDims N R wf).start (ix1 e) idx (0 : Fin 1) + (vecScatterDims N R wf).window (ix1 e) (0 : Fin 1)
        ∧ (vecScatterDims N R wf).start (ix1 e) idx (0 : Fin 1) + (vecScatterDims N R wf).window (ix1 e) (0 : Fin 1) < (N : ℤ)
      rw [hst, hw, h]
      have := p.isLt
      omega
  unfold ScatterDims.resultIdx?
  rw [dif_pos hin]
  refine congrArg some ?_
  funext a
  refine Fin.ext ?_
  match a with
  | ⟨0, _⟩ =>
    show ((vecScatterDims N R wf).start (ix1 e) idx (0 : Fin 1) + (vecScatterDims N R wf).window (ix1 e) (0 : Fin 1)).toNat = p.val
    rw [hst, hw, h]
    omega

/-! ## The degree and the factor -/

/-- A sum of ones over a finite set is its number of elements. -/
theorem sum_ones {ι : Type} (S : Finset ι) : ∑ _j ∈ S, (1 : EReal) = ((S.card : ℝ) : EReal) := by
  classical
  induction S using Finset.induction_on with
  | empty => simp
  | insert a s ha ih =>
    rw [Finset.sum_insert ha, ih, Finset.card_insert_of_notMem ha, ← EReal.coe_one, ← EReal.coe_add]
    exact congrArg Real.toEReal (by push_cast; ring)

/-- The degree of a node that some slot lands on — ones added up from zero over the slots landing on it — is a natural number ≥ 1. -/
theorem deg_pos {N R w : ℕ} (wf : ScatterDims.WF ⟨1, ![N]⟩ ⟨2, ![R, 1]⟩ ⟨1, ![R]⟩ [] [0] [0] 1)
    (idx : IVec ⟨2, ![R, 1]⟩ w) (z : (⟨1, ![N]⟩ : Shape).Idx → EReal) (hz : ∀ i, z i = 0)
    (u : (⟨1, ![R]⟩ : Shape).Idx → EReal) (hu : ∀ j, u j = 1)
    (p : Fin N) (e : Fin R) (h : (idx (ix2 e (0 : Fin 1))).toInt = (p.val : ℤ)) :
    ∃ n : ℕ, 1 ≤ n ∧ Ideal.hostScatterAdd (vecScatterDims N R wf) z idx u (ix1 p) = ((n : ℝ) : EReal) := by
  classical
  refine ⟨(Finset.univ.filter (fun j => (vecScatterDims N R wf).resultIdx? j idx = some (ix1 p))).card, ?_, ?_⟩
  · exact Finset.card_pos.mpr ⟨ix1 e, Finset.mem_filter.mpr ⟨Finset.mem_univ _, vec_lands wf idx e p h⟩⟩
  · unfold Ideal.hostScatterAdd
    rw [hz, zero_add, ← sum_ones]
    exact Finset.sum_congr rfl (fun j _ => hu j)

/-- The same for the host operation. -/
theorem host_deg_pos {N R w : ℕ} (wf : ScatterDims.WF ⟨1, ![N]⟩ ⟨2, ![R, 1]⟩ ⟨1, ![R]⟩ [] [0] [0] 1)
    (idx : IVec ⟨2, ![R, 1]⟩ w) (z : FVec Ideal ⟨1, ![N]⟩ .f32) (hz : ∀ i, z i = 0)
    (u : FVec Ideal ⟨1, ![R]⟩ .f32) (hu : ∀ j, u j = 1)
    (p : Fin N) (e : Fin R) (h : (idx (ix2 e (0 : Fin 1))).toInt = (p.val : ℤ)) :
    ∃ n : ℕ, 1 ≤ n ∧ Host.scatterAdd (F := Ideal) (φ := .f32) (vecScatterDims N R wf) z idx u (ix1 p) = ((n : ℝ) : EReal) :=
  deg_pos wf idx z hz u hu p e h

/-- The inverse square root of a natural number ≥ 1 is a non-negative real. -/
theorem rsqrt_nat {n : ℕ} (hn : 1 ≤ n) : 0 ≤ Ideal.rsqrt ((n : ℝ) : EReal) ∧ IsReal (Ideal.rsqrt ((n : ℝ) : EReal)) := by
  have hpos : (0 : ℝ) < (n : ℝ) := by exact_mod_cast hn
  rw [Ideal.rsqrt_coe, if_neg (not_lt.mpr hpos.le), if_neg hpos.ne']
  exact ⟨by exact_mod_cast inv_nonneg.mpr (Real.sqrt_nonneg _), IsReal.coe _⟩

end Cert.LibDegree

end
-- ==== Proof.Consts.lean ====
/-
  The constants of the network and the facts about received-edge counts: the count of edges ending at a node, guarded from
  below by one, is a real number that is at least one; the literal constants are the reals 1 and 100000 and a positive real.
-/
import proofs.«174735_j64811056496761_2_alg».proof.Proof.Spec
import proofs.«174735_j64811056496761_2_alg».proof.Proof.LibRealValued
import proofs.«174735_j64811056496761_2_alg».proof.Proof.LibERealSum
import proofs.«174735_j64811056496761_2_alg».proof.Proof.LibRecipMean
import proofs.«174735_j64811056496761_2_alg».proof.Proof.LibF32Literals
import proofs.«174735_j64811056496761_2_alg».proof.Proof.LibDegree

noncomputable section

namespace Cert.GNet

open Idealize.ShloMosaic Idealize.ShloMosaic.ValueIdx Cert.LibRealValued
open scoped BigOperators

/-- The constant one is 1. -/
theorem cOne_eq : cOne = 1 := Cert.LibF32Literals.ofBits_one

/-- The divisor of a column mean is the real 100000. -/
theorem cN_eq : cN = ((100000 : ℝ) : EReal) := by
  unfold cN
  simp [Ideal.ofBits, Ideal.ieee, -EReal.coe_mul]; norm_num

/-- The constant added to a variance is a positive real. -/
theorem cEps_pos : ∃ r : ℝ, 0 < r ∧ cEps = (r : EReal) := by
  unfold cEps
  refine ⟨_, ?_, by simp [Ideal.ofBits, Ideal.ieee, -EReal.coe_mul]; rfl⟩
  norm_num

/-- The guarded count of received edges is a real number, at least one. -/
theorem deg_real (dst : Edges) (p : Fin NN) : ∃ d : ℝ, 1 ≤ d ∧ deg dst p = (d : EReal) := by
  unfold deg
  rw [cOne_eq, Cert.LibDegree.sum_ones]
  refine ⟨max ((inEdges dst p).card : ℝ) 1, le_max_right _ _, ?_⟩
  rw [show (1 : EReal) = ((1 : ℝ) : EReal) from rfl, Cert.LibERealSum.max_coe]

/-- A product with the reciprocal of the guarded count is the quotient by it, on every extended real. -/
theorem mul_recip_deg (x : EReal) (dst : Edges) (p : Fin NN) :
    x * Ideal.div cOne (deg dst p) = Ideal.div x (deg dst p) := by
  unfold deg
  exact Cert.LibRecipMean.mul_recip_eq_div x _ cOne cOne_eq

end Cert.GNet

end
-- ==== Proof.KStage0.lean ====
/- Stage 0 of the kernel's value: the vector host stretch 0 leaves in main_v7 is, entry by entry, the reciprocal of the guarded
   count of the edges that end at the node. -/
import proofs.«174735_j64811056496761_2_alg».proof.Proof.KHost0
import proofs.«174735_j64811056496761_2_alg».proof.Proof.HostRead
import proofs.«174735_j64811056496761_2_alg».proof.Proof.Consts
import Idealize.ShloMosaic.Lib.IdealHost

set_option maxRecDepth 16384

noncomputable section

namespace Cert.KernelIdeal.Trace

open Idealize.ShloMosaic Idealize.ShloMosaic.TcCoe Idealize.ShloMosaic.ValueIdx
open Cert.KernelIdeal Cert.KernelIdeal.Gen Cert.GNet
open scoped BigOperators

variable (m : (ℓ : Loc nD τ sig) → Buf (Elt Ideal) ℓ) (ρ : Dev nD → PrngReg) (c : Dev nD)

/-- Entry `p` of main_v7 at boundary 1 is one over the guarded count of the edges that end at node `p`. -/
theorem stage0_v7 (p : Fin NN) :
    (Gen.W1 m ρ c (Proc.devRef .tc main_v7) : S100000.Idx → EReal) (ix1 p)
      = Ideal.div cOne (deg (m ((c : Thread nD τ).loc main_arg2)) p) := by
  refine (congrFun (host0_v7 m ρ c) (ix1 p)).trans ?_
  refine (hostDivf_apply _ _ _).trans ?_
  refine congrArg₂ Ideal.div (HostRead.bcast_const_apply _ _ _) ?_
  exact HostRead.deg_apply scatter_S100000_S1600000x1_S1600000_n_0_0_1 scatter_S100000_S1600000x1_S1600000_n_0_0_1_wf rfl
    _ (fun i => HostRead.bcast_zero_apply _ i) _ (fun j => HostRead.bcast_const_apply _ _ j)
    _ (fun i => HostRead.bcast_const_apply _ _ i) (m ((c : Thread nD τ).loc main_arg2)) p

end Cert.KernelIdeal.Trace

end
-- ==== Proof.KSpec.lean ====
/-
  The same network in the arrangement the kernel program computes it in.

  Where a layer's output is narrower than its input the kernel multiplies by `Wn` BEFORE carrying rows along the edges, and
  everywhere it multiplies the summed rows by the reciprocal of the guarded count instead of dividing by the count. The
  column mean and variance come from sums taken tile by tile (20 tiles of 5000 rows), the variance as the mean of the squares
  minus the square of the mean.
-/
import proofs.«174735_j64811056496761_2_alg».proof.Proof.Spec

noncomputable section

namespace Cert.GNet

open Idealize.ShloMosaic Idealize.ShloMosaic.ValueIdx
open scoped BigOperators

/-- Row `k` of tile `t`, of 20 tiles of 5000 rows. -/
def tileRow (t : Fin 20) (k : Fin 5000) : Fin NN := ⟨5000 * t.val + k.val, by show 5000 * t.val + k.val < 100000; omega⟩

/-- The rows of a table times a matrix. -/
def rowsMul {C D : ℕ} (x : Tab NN C) (W : Tab C D) : Tab NN D :=
  fun i => ∑ c : Fin C, x (ix2 (n0 := NN) (i 0) c) * W (ix2 (n1 := D) c (i 1))

/-- The received rows, summed and scaled by the reciprocal of the guarded count. -/
def meanRecip {C : ℕ} (h : Tab NN C) (src dst : Edges) : Tab NN C :=
  fun i => agg h src dst i * Ideal.div cOne (deg dst (i 0))

/-- A layer with the neighbour matrix applied before the rows are carried along the edges. -/
def sageProj {C D : ℕ} (h : Tab NN C) (Ws Wn : Tab C D) (b : Row D) (src dst : Edges) : Tab NN D :=
  fun i => (rowsMul h Ws i + meanRecip (rowsMul h Wn) src dst i) + b (ix1 (i 1))

/-- A layer with the neighbour matrix applied after the rows are carried, the mean by a reciprocal. -/
def sageFull {C D : ℕ} (h : Tab NN C) (Ws Wn : Tab C D) (b : Row D) (src dst : Edges) : Tab NN D :=
  fun i => (rowsMul h Ws i + rowsMul (meanRecip h src dst) Wn i) + b (ix1 (i 1))

/-- The sum of column `q` taken tile by tile, each partial sum started from zero. -/
def tileSum {D : ℕ} (h : Tab NN D) (q : Fin D) : EReal :=
  0 + ∑ t : Fin 20, (0 + ∑ k : Fin 5000, h (ix2 (tileRow t k) q))

/-- The column mean from the tiled sums. -/
def kMean {D : ℕ} (h : Tab NN D) (q : Fin D) : EReal := Ideal.div (tileSum h q) cN

/-- The column variance as mean of squares minus squared mean, from the tiled sums. -/
def kVar {D : ℕ} (h : Tab NN D) (q : Fin D) : EReal :=
  Ideal.div (tileSum (fun i => h i * h i) q) cN - kMean h q * kMean h q

/-- The normalisation with the tiled statistics. -/
def kNorm {D : ℕ} (h : Tab NN D) (g be : Row D) : Tab NN D :=
  fun i => ((h i - kMean h (i 1)) * Ideal.rsqrt (kVar h (i 1) + cEps)) * g (ix1 (i 1)) + be (ix1 (i 1))

/-- The whole network in the kernel's arrangement. -/
def kNet (x : Tab NN 128) (src dst : Edges)
    (Ws1 Wn1 : Tab 128 64) (b1 g1 be1 : Row 64) (Ws2 Wn2 : Tab 64 64) (b2 g2 be2 : Row 64)
    (Ws3 Wn3 : Tab 64 64) (b3 g3 be3 : Row 64) (Ws4 Wn4 : Tab 64 16) (b4 : Row 16) : Tab NN 16 :=
  sageProj (relu (kNorm (sageFull (relu (kNorm (sageFull (kNorm (sageProj x Ws1 Wn1 b1 src dst) g1 be1) Ws2 Wn2 b2 src dst)
    g2 be2)) Ws3 Wn3 b3 src dst) g3 be3)) Ws4 Wn4 b4 src dst

end Cert.GNet

end
-- ==== Proof.KArgs.lean ====
/- The arguments of @main in the launch memory, named as the network's parameters, and the network's intermediate tables as
   functions of them. -/
import proofs.«174735_j64811056496761_2_alg».proof.Proof.Gen.KernelIdeal.Frame
import proofs.«174735_j64811056496761_2_alg».proof.Proof.KSpec

set_option maxRecDepth 16384

noncomputable section

namespace Cert.KernelIdeal.Trace

open Idealize.ShloMosaic Idealize.ShloMosaic.TcCoe Idealize.ShloMosaic.ValueIdx
open Cert.KernelIdeal Cert.KernelIdeal.Gen Cert.GNet
open scoped BigOperators

variable (m : (ℓ : Loc nD τ sig) → Buf (Elt Ideal) ℓ) (c : Dev nD)

/-- The node table. -/
abbrev aX : Tab NN 128 := m ((c : Thread nD τ).loc main_arg0)
/-- The edge source numbers. -/
abbrev aSrc : Edges := m ((c : Thread nD τ).loc main_arg1)
/-- The edge end numbers. -/
abbrev aDst : Edges := m ((c : Thread nD τ).loc main_arg2)
/-- Layer 1's own-row matrix. -/
abbrev aWs1 : Tab 128 64 := m ((c : Thread nD τ).loc main_arg3)
/-- Layer 1's neighbour matrix. -/
abbrev aWn1 : Tab 128 64 := m ((c : Thread nD τ).loc main_arg4)
/-- Layer 1's bias. -/
abbrev aB1 : Row 64 := m ((c : Thread nD τ).loc main_arg5)
/-- Normalisation 1's gain. -/
abbrev aG1 : Row 64 := m ((c : Thread nD τ).loc main_arg6)
/-- Normalisation 1's offset. -/
abbrev aBe1 : Row 64 := m ((c : Thread nD τ).loc main_arg7)
/-- Layer 2's own-row matrix. -/
abbrev aWs2 : Tab 64 64 := m ((c : Thread nD τ).loc main_arg8)
/-- Layer 2's neighbour matrix. -/
abbrev aWn2 : Tab 64 64 := m ((c : Thread nD τ).loc main_arg9)
/-- Layer 2's bias. -/
abbrev aB2 : Row 64 := m ((c : Thread nD τ).loc main_arg10)
/-- Normalisation 2's gain. -/
abbrev aG2 : Row 64 := m ((c : Thread nD τ).loc main_arg11)
/-- Normalisation 2's offset. -/
abbrev aBe2 : Row 64 := m ((c : Thread nD τ).loc main_arg12)
/-- Layer 3's own-row matrix. -/
abbrev aWs3 : Tab 64 64 := m ((c : Thread nD τ).loc main_arg13)
/-- Layer 3's neighbour matrix. -/
abbrev aWn3 : Tab 64 64 := m ((c : Thread nD τ).loc main_arg14)
/-- Layer 3's bias. -/
abbrev aB3 : Row 64 := m ((c : Thread nD τ).loc main_arg15)
/-- Normalisation 3's gain. -/
abbrev aG3 : Row 64 := m ((c : Thread nD τ).loc main_arg16)
/-- Normalisation 3's offset. -/
abbrev aBe3 : Row 64 := m ((c : Thread nD τ).loc main_arg17)
/-- Layer 4's own-row matrix. -/
abbrev aWs4 : Tab 64 16 := m ((c : Thread nD τ).loc main_arg18)
/-- Layer 4's neighbour matrix. -/
abbrev aWn4 : Tab 64 16 := m ((c : Thread nD τ).loc main_arg19)
/-- Layer 4's bias. -/
abbrev aB4 : Row 16 := m ((c : Thread nD τ).loc main_arg20)

/-- Layer 1's output. -/
abbrev kH1 : Tab NN 64 := sageProj (aX m c) (aWs1 m c) (aWn1 m c) (aB1 m c) (aSrc m c) (aDst m c)
/-- Normalisation 1's output. -/
abbrev kN1 : Tab NN 64 := kNorm (kH1 m c) (aG1 m c) (aBe1 m c)
/-- Layer 2's output. -/
abbrev kH2 : Tab NN 64 := sageFull (kN1 m c) (aWs2 m c) (aWn2 m c) (aB2 m c) (aSrc m c) (aDst m c)
/-- Normalisation 2's output after the ramp. -/
abbrev kN2 : Tab NN 64 := relu (kNorm (kH2 m c) (aG2 m c) (aBe2 m c))
/-- Layer 3's output. -/
abbrev kH3 : Tab NN 64 := sageFull (kN2 m c) (aWs3 m c) (aWn3 m c) (aB3 m c) (aSrc m c) (aDst m c)
/-- Normalisation 3's output after the ramp. -/
abbrev kN3 : Tab NN 64 := relu (kNorm (kH3 m c) (aG3 m c) (aBe3 m c))
/-- Layer 4's output: the network's value. -/
abbrev kOut : Tab NN 16 := sageProj (kN3 m c) (aWs4 m c) (aWn4 m c) (aB4 m c) (aSrc m c) (aDst m c)

/-- The network's value is the whole network of the arguments. -/
theorem kOut_eq : kOut m c = kNet (aX m c) (aSrc m c) (aDst m c) (aWs1 m c) (aWn1 m c) (aB1 m c) (aG1 m c) (aBe1 m c)
    (aWs2 m c) (aWn2 m c) (aB2 m c) (aG2 m c) (aBe2 m c) (aWs3 m c) (aWn3 m c) (aB3 m c) (aG3 m c) (aBe3 m c)
    (aWs4 m c) (aWn4 m c) (aB4 m c) := rfl

end Cert.KernelIdeal.Trace

end
-- ==== Proof.KAgg.lean ====
/- The aggregation step of a layer as the host spells it — rows carried along the edges, summed at their end nodes, and
   scaled by a per-node vector repeated across the lanes — is the mean by a reciprocal of the specification, as whole tables,
   whenever the vector holds the reciprocals of the guarded counts. Stated over any table width and any records of dimension
   numbers equal to the canonical ones, so that it serves every layer. -/
import proofs.«174735_j64811056496761_2_alg».proof.Proof.HostRead
import proofs.«174735_j64811056496761_2_alg».proof.Proof.KSpec
import proofs.«174735_j64811056496761_2_alg».proof.Proof.LibColRow
import Idealize.ShloMosaic.Lib.ValueLayout

noncomputable section

namespace Cert.GNet.Agg

open Cert.GNet.HostRead
open Idealize.ShloMosaic Idealize.ShloMosaic.ValueIdx Cert.LibGatherRows Cert.LibRowIndex Cert.LibRowAggLinear Cert.LibColRow
open scoped BigOperators

/-- Gather the rows of `h` the wrapped source numbers name, add them into the rows the end numbers name from the zero table,
    and multiply by the vector `dinv` laid as a column and repeated across the lanes: when `dinv` holds the reciprocals of
    the guarded counts this is `meanRecip h src dst`. -/
theorem aggStage {C : ℕ}
    (G : GatherDims ⟨2, ![NN, C]⟩ ⟨2, ![EE, 1]⟩ ⟨2, ![EE, C]⟩)
    (wfG : GatherDims.WF ⟨2, ![NN, C]⟩ ⟨2, ![EE, 1]⟩ ⟨2, ![EE, C]⟩ [1] [0] [] [0] [] 1 ![1, C])
    (hG : G = rowDims NN EE C wfG)
    (S : ScatterDims ⟨2, ![NN, C]⟩ ⟨2, ![EE, 1]⟩ ⟨2, ![EE, C]⟩)
    (wfS : ScatterDims.WF ⟨2, ![NN, C]⟩ ⟨2, ![EE, 1]⟩ ⟨2, ![EE, C]⟩ [1] [0] [0] 1)
    (hS : S = rowScatterDims NN EE C wfS)
    (hb1 : (⟨1, ![NN]⟩ : Shape).BroadcastsInDim ⟨2, ![NN, 1]⟩ (![0] : Fin 1 → Fin 2))
    (hb2 : (⟨2, ![NN, 1]⟩ : Shape).BroadcastsInDim ⟨2, ![NN, C]⟩ (![0, 1] : Fin 2 → Fin 2))
    (z : FVec Ideal ⟨2, ![NN, C]⟩ .f32) (hz : ∀ i, z i = 0)
    (h : Tab NN C) (src dst : Edges)
    (dinv : FVec Ideal ⟨1, ![NN]⟩ .f32) (hd : ∀ p : Fin NN, dinv (ix1 p) = Ideal.div cOne (deg dst p)) :
    mulf (Host.scatterAdd (F := Ideal) (φ := .f32) S z (asCol dst) (Host.gather G h (srcCol src)))
        (broadcastInDim ⟨2, ![NN, C]⟩ ![0, 1] hb2 (broadcastInDim ⟨2, ![NN, 1]⟩ ![0] hb1 dinv))
      = meanRecip h src dst := by
  rw [gather_scatter_eq G wfG hG S wfS hS z hz h src dst]
  funext i
  obtain ⟨p, q, rfl⟩ : ∃ (p : Fin NN) (q : Fin C), i = ix2 p q := ⟨i 0, i 1, eq_ix2 i⟩
  refine (mulf_apply _ _ _).trans ?_
  rw [bcast_a1_ab_apply, bcast_a_a1_apply, hd]
  rfl

/-- A bias vector viewed as a one-row table reads, at lane `q` of its row, the vector's entry `q`. -/
theorem biasRow_apply {D : ℕ} (b : Row D) (hc : (⟨1, ![D]⟩ : Shape).ShapeCasts ⟨2, ![1, D]⟩) (q : Fin D) :
    shapeCast ⟨2, ![1, D]⟩ b hc (ix2 (0 : Fin 1) q) = b (ix1 q) :=
  shapeCast_a_1a_apply b hc 0 q

end Cert.GNet.Agg

end
-- ==== Proof.KProj.lean ====
/-
  The two projection regions of the kernel, read as whole arrays.

  Each of these regions walks twenty blocks of 5000 rows of a left factor X (100000 rows), multiplies each block by one
  weight matrix W into a zero accumulator, and writes the block of the product back. Row a of a product depends on row
  a of the left factor only, so block t of the result is block t of X · W, and the twenty blocks tile the rows: after
  the region the output array holds, at row p and column q, the sum over k of X(p, k) · W(k, q). The statements hold
  for any contents of the buffers at the region's entry.
-/
import proofs.«174735_j64811056496761_2_alg».proof.Proof.Gen.KernelIdeal.Frame
import proofs.«174735_j64811056496761_2_alg».proof.Proof.LibDenseProduct
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.RegionValue

open Cert.KernelIdeal Cert.KernelIdeal.Gen Cert.LibDenseProduct

variable (V : (c : Dev nD) → (b : Ref sig .tc) → Buf (Elt Ideal) ((c : Thread nD τ).loc b))

theorem hz2 : (![0, 0] : Fin 2 → Nat) = fun _ => 0 := funext fun a => by fin_cases a <;> rfl

/-! ## Region 0: the first layer's neighbour projection, x · Wn -/

/-- The body's payload of region 0 is the dense product of its two loaded blocks: rounding the operands to a narrower
    format changes nothing at the ideal values, and the accumulator starts at zero. -/
theorem pay0_eq (x0 : FVec Ideal S5000x128 .f32) (x1 : FVec Ideal S128x64 .f32) :
    k0_pay1 x0 x1 = mm x0 x1 := by
  unfold k0_pay1
  exact matmul_plain_zero_eq none _ _

/-- The index maps over the grid: the row windows move one block of 5000 rows per point, the weight window stays. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left factor and the weight matrix as region 0 finds them, and the array it leaves in its output window. -/
abbrev X0 (c : Dev nD) : FVec Ideal S100000x128 .f32 := V c (Pipeline.arrRef spec0 0)
abbrev Wn0 (c : Dev nD) : FVec Ideal S128x64 .f32 := V c (Pipeline.arrRef spec0 1)
abbrev P0 (c : Dev nD) : FVec Ideal S100000x64 .f32 := (dat0 V c).arrAt 2 cfg0.N

/-- Block t of the left factor is its rows 5000·t … 5000·t + 4999. -/
theorem iblk0_0_apply (c : Dev nD) (t : Fin cfg0.N) (y : S5000x128.Idx) (i : S100000x128.Idx)
    (h0 : (i 0).val = 5000 * t.val + (y 0).val) (h1 : (i 1).val = (y 1).val) :
    (iblk0 V c 0 t : FVec Ideal S5000x128 .f32) y = X0 V c i := by
  obtain ⟨e0, e1, -⟩ := idx_facts0 t
  unfold iblk0
  rw [View.read_apply]
  show V c _ _ = V c _ _
  congr 1
  funext a
  apply Fin.ext
  match a with
  | ⟨0, _⟩ => show win0_0.index t 0 * 5000 + 1 * (y 0).val = (i 0).val; rw [e0, h0]; omega
  | ⟨1, _⟩ => show win0_0.index t 1 * 128 + 1 * (y 1).val = (i 1).val; rw [e1, h1]; omega

/-- The weight window's one block is the whole weight matrix. -/
theorem iblk0_1_eq (c : Dev nD) (t : Fin cfg0.N) : (iblk0 V c 1 t : FVec Ideal S128x64 .f32) = Wn0 V c := by
  obtain ⟨-, -, e2, e3, -⟩ := idx_facts0 t
  funext y
  unfold iblk0
  rw [View.read_apply]
  show V c _ _ = V c _ _
  congr 1
  funext a
  apply Fin.ext
  match a with
  | ⟨0, _⟩ => show win0_1.index t 0 * 128 + 1 * (y 0).val = (y 0).val; rw [e2]; omega
  | ⟨1, _⟩ => show win0_1.index t 1 * 64 + 1 * (y 1).val = (y 1).val; rw [e3]; omega

/-- What point t writes back is block t of the product of the two arrays: row a of a product reads row a of the left
    factor only, and the block's row a is the array's row 5000·t + a. -/
theorem flushed0_2 (c : Dev nD) (t : Fin cfg0.N) :
    (dat0 V c).flushed 2 t = ((cfg0.win 2).blk t).view.read (Elt Ideal) (mm (X0 V c) (Wn0 V c)) := by
  show (cfg0.win 2).cut (grid0.coords t) ((dat0 V c).after 2 t) = _
  rw [after0_2]
  unfold out0_2
  rw [View.canon_unit_zero hz2]
  simp only [View.ld_unit_zero (S := S5000x128) hz2, View.ld_unit_zero (S := S128x64) hz2]
  rw [pay0_eq, iblk0_1_eq]
  obtain ⟨-, -, -, -, e4, e5⟩ := idx_facts0 t
  funext j
  rw [View.read_apply]
  refine mm_rows (X0 V c) (Wn0 V c) (iblk0 V c 0 t) _ _ (fun k => ?_) ?_
  · refine iblk0_0_apply V c t _ _ ?_ rfl
    show win0_2.index t 0 * 5000 + 1 * (j 0).val = 5000 * t.val + (j 0).val
    rw [e4]; omega
  · apply Fin.ext
    show (j 1).val = win0_2.index t 1 * 64 + 1 * (j 1).val
    rw [e5]; omega

/-- An index of the output array is in point t's block iff each coordinate is in the block's range on its axis. -/
theorem mem_blk0_2 (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v8).slice (win0_2.rect t)).set ↔ _
  rw [View.set_slice_whole, Rect.mem_set_unit]
  exact Iff.rfl

/-- Row r lies in the block of point r / 5000, so the blocks cover the array. -/
theorem cover0_2_arr (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 20 := N_0
  refine ⟨⟨(i 0).val / 5000, by rw [hN]; omega⟩, flush0_2 _, ?_⟩
  rw [mem_blk0_2]
  obtain ⟨-, -, -, -, e4, e5⟩ := idx_facts0 ⟨(i 0).val / 5000, by rw [hN]; omega⟩
  intro a
  match a with
  | ⟨0, _⟩ => show win0_2.index _ 0 * 5000 ≤ (i 0).val ∧ (i 0).val < win0_2.index _ 0 * 5000 + 5000; rw [e4]; show (i 0).val / 5000 * 5000 ≤ (i 0).val ∧ (i 0).val < (i 0).val / 5000 * 5000 + 5000; omega
  | ⟨1, _⟩ => show win0_2.index _ 1 * 64 ≤ (i 1).val ∧ (i 1).val < win0_2.index _ 1 * 64 + 64; rw [e5]; omega

/-- The array region 0 leaves in its output window is the product of its two input arrays, whatever they hold. -/
theorem region0_arr (c : Dev nD) : (dat0 V c).arrAt 2 cfg0.N = mm (X0 V c) (Wn0 V c) :=
  (dat0 V c).arrAt_eq_of_cover 2 (mm (X0 V c) (Wn0 V c)) (fun t _ => flushed0_2 V c t) cover0_2_arr

/-- The same, index by index. -/
theorem region0_out (c : Dev nD) (p : Fin 100000) (q : Fin 64) :
    P0 V c (ix2 p q) = ∑ k : Fin 128, X0 V c (ix2 p k) * Wn0 V c (ix2 k q) := by
  show (dat0 V c).arrAt 2 cfg0.N (ix2 p q) = _
  rw [region0_arr]; rfl

/-! ## Region 7: the last layer's neighbour projection, h · Wn -/

/-- The body's payload of region 7 is the dense product of its two loaded blocks: the cast of the left block to its own
    shape is the identity, rounding the operands to a narrower format changes nothing at the ideal values, and the
    accumulator starts at zero. -/
theorem pay7_eq (x0 : FVec Ideal S5000x64 .f32) (x1 : FVec Ideal S64x16 .f32) :
    k7_pay1 x0 x1 = mm x0 x1 := by
  unfold k7_pay1
  rw [shapeCast_self]
  exact matmul_plain_zero_eq none _ _

/-- The index maps over the grid: the row windows move one block of 5000 rows per point, the weight window stays. -/
theorem idx_facts7 : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 2) = t.val ∧ win7_2.index t (1 : Fin 2) = 0 :=
  (by decide +kernel : ∀ t : Fin grid7.N, _)

/-- The left factor and the weight matrix as region 7 finds them, and the array it leaves in its output window. -/
abbrev X7 (c : Dev nD) : FVec Ideal S100000x64 .f32 := V c (Pipeline.arrRef spec7 0)
abbrev Wn7 (c : Dev nD) : FVec Ideal S64x16 .f32 := V c (Pipeline.arrRef spec7 1)
abbrev P7 (c : Dev nD) : FVec Ideal S100000x16 .f32 := (dat7 V c).arrAt 2 cfg7.N

/-- Block t of the left factor is its rows 5000·t … 5000·t + 4999. -/
theorem iblk7_0_apply (c : Dev nD) (t : Fin cfg7.N) (y : S5000x64.Idx) (i : S100000x64.Idx)
    (h0 : (i 0).val = 5000 * t.val + (y 0).val) (h1 : (i 1).val = (y 1).val) :
    (iblk7 V c 0 t : FVec Ideal S5000x64 .f32) y = X7 V c i := by
  obtain ⟨e0, e1, -⟩ := idx_facts7 t
  unfold iblk7
  rw [View.read_apply]
  show V c _ _ = V c _ _
  congr 1
  funext a
  apply Fin.ext
  match a with
  | ⟨0, _⟩ => show win7_0.index t 0 * 5000 + 1 * (y 0).val = (i 0).val; rw [e0, h0]; omega
  | ⟨1, _⟩ => show win7_0.index t 1 * 64 + 1 * (y 1).val = (i 1).val; rw [e1, h1]; omega

/-- The weight window's one block is the whole weight matrix. -/
theorem iblk7_1_eq (c : Dev nD) (t : Fin cfg7.N) : (iblk7 V c 1 t : FVec Ideal S64x16 .f32) = Wn7 V c := by
  obtain ⟨-, -, e2, e3, -⟩ := idx_facts7 t
  funext y
  unfold iblk7
  rw [View.read_apply]
  show V c _ _ = V c _ _
  congr 1
  funext a
  apply Fin.ext
  match a with
  | ⟨0, _⟩ => show win7_1.index t 0 * 64 + 1 * (y 0).val = (y 0).val; rw [e2]; omega
  | ⟨1, _⟩ => show win7_1.index t 1 * 16 + 1 * (y 1).val = (y 1).val; rw [e3]; omega

/-- What point t writes back is block t of the product of the two arrays: row a of a product reads row a of the left
    factor only, and the block's row a is the array's row 5000·t + a. -/
theorem flushed7_2 (c : Dev nD) (t : Fin cfg7.N) :
    (dat7 V c).flushed 2 t = ((cfg7.win 2).blk t).view.read (Elt Ideal) (mm (X7 V c) (Wn7 V c)) := by
  show (cfg7.win 2).cut (grid7.coords t) ((dat7 V c).after 2 t) = _
  rw [after7_2]
  unfold out7_2
  rw [View.canon_unit_zero hz2]
  simp only [View.ld_unit_zero (S := S5000x64) hz2, View.ld_unit_zero (S := S64x16) hz2]
  rw [pay7_eq, iblk7_1_eq]
  obtain ⟨-, -, -, -, e4, e5⟩ := idx_facts7 t
  funext j
  rw [View.read_apply]
  refine mm_rows (X7 V c) (Wn7 V c) (iblk7 V c 0 t) _ _ (fun k => ?_) ?_
  · refine iblk7_0_apply V c t _ _ ?_ rfl
    show win7_2.index t 0 * 5000 + 1 * (j 0).val = 5000 * t.val + (j 0).val
    rw [e4]; omega
  · apply Fin.ext
    show (j 1).val = win7_2.index t 1 * 16 + 1 * (j 1).val
    rw [e5]; omega

/-- An index of the output array is in point t's block iff each coordinate is in the block's range on its axis. -/
theorem mem_blk7_2 (t : Fin cfg7.N) (i : S100000x16.Idx) :
    i ∈ ((cfg7.win 2).blk t).view.set ↔ ∀ a : Fin 2, win7_2.index t a * S5000x16.size a ≤ (i a).val ∧ (i a).val < win7_2.index t a * S5000x16.size a + S5000x16.size a := by
  show i ∈ ((View.whole main_v135).slice (win7_2.rect t)).set ↔ _
  rw [View.set_slice_whole, Rect.mem_set_unit]
  exact Iff.rfl

/-- Row r lies in the block of point r / 5000, so the blocks cover the array. -/
theorem cover7_2_arr (i : S100000x16.Idx) :
    ∃ t : Fin cfg7.N, (cfg7.win 2).flush t = true ∧ i ∈ ((cfg7.win 2).blk t).view.set := by
  have hi0 : (i 0).val < 100000 := (i 0).isLt
  have hi1 : (i 1).val < 16 := (i 1).isLt
  have hN : cfg7.N = 20 := N_7
  refine ⟨⟨(i 0).val / 5000, by rw [hN]; omega⟩, flush7_2 _, ?_⟩
  rw [mem_blk7_2]
  obtain ⟨-, -, -, -, e4, e5⟩ := idx_facts7 ⟨(i 0).val / 5000, by rw [hN]; omega⟩
  intro a
  match a with
  | ⟨0, _⟩ => show win7_2.index _ 0 * 5000 ≤ (i 0).val ∧ (i 0).val < win7_2.index _ 0 * 5000 + 5000; rw [e4]; show (i 0).val / 5000 * 5000 ≤ (i 0).val ∧ (i 0).val < (i 0).val / 5000 * 5000 + 5000; omega
  | ⟨1, _⟩ => show win7_2.index _ 1 * 16 ≤ (i 1).val ∧ (i 1).val < win7_2.index _ 1 * 16 + 16; rw [e5]; omega

/-- The array region 7 leaves in its output window is the product of its two input arrays, whatever they hold. -/
theorem region7_arr (c : Dev nD) : (dat7 V c).arrAt 2 cfg7.N = mm (X7 V c) (Wn7 V c) :=
  (dat7 V c).arrAt_eq_of_cover 2 (mm (X7 V c) (Wn7 V c)) (fun t _ => flushed7_2 V c t) cover7_2_arr

/-- The same, index by index. -/
theorem region7_out (c : Dev nD) (p : Fin 100000) (q : Fin 16) :
    P7 V c (ix2 p q) = ∑ k : Fin 64, X7 V c (ix2 p k) * Wn7 V c (ix2 k q) := by
  show (dat7 V c).arrAt 2 cfg7.N (ix2 p q) = _
  rw [region7_arr]; rfl

end Cert.KernelIdeal.RegionValue

end
-- ==== Proof.KLayerDefs.lean ====
/-
  The two kinds of layer the kernel's matrix regions compute, as functions of whole arrays, and column sums by tiles.

  A projected layer takes a left factor X, an array A already aggregated and projected, a weight matrix W and a bias
  row B, and has at row p and column q the value (∑ c, X(p, c) · W(c, q) + A(p, q)) + B(0, q). A full layer takes two
  left factors X and A with a weight matrix each, and has (∑ c, X(p, c) · Ws(c, q) + ∑ c, A(p, c) · Wn(c, q)) + B(0, q).
  Row p of either depends on row p of the left factors only, so a block of rows of the arguments gives the same block
  of rows of the layer. The 100000 rows are cut into 20 tiles of 5000; the column sums of an array over each tile, kept
  at each of 8 sublanes, form a [20, 8, 64] array.
-/
import proofs.«174735_j64811056496761_2_alg».proof.Proof.LibDenseProduct
import Idealize.ShloMosaic.Lib.ValueIdx

noncomputable section

open Idealize.ShloMosaic Idealize.ShloMosaic.ValueIdx

namespace Cert.KernelIdeal.RegionValue

open Cert.LibDenseProduct

theorem hz2' : (![0, 0] : Fin 2 → Nat) = fun _ => 0 := funext fun a => by fin_cases a <;> rfl
theorem hz3' : (![0, 0, 0] : Fin 3 → Nat) = fun _ => 0 := funext fun a => by fin_cases a <;> rfl

/-! ## The projected layer as one function of its four arrays -/

/-- At row p and column q: the product of X and W at (p, q), plus A(p, q), plus the bias row at q, in this order. -/
def hproj {m k n : Nat} (X : FVec Ideal ⟨2, ![m, k]⟩ .f32) (A : FVec Ideal ⟨2, ![m, n]⟩ .f32)
    (W : FVec Ideal ⟨2, ![k, n]⟩ .f32) (B : FVec Ideal ⟨2, ![1, n]⟩ .f32) : FVec Ideal ⟨2, ![m, n]⟩ .f32 :=
  fun i => (mm X W i + A i) + B (ix2 (0 : Fin 1) (i 1))

theorem hproj_apply {m k n : Nat} (X : FVec Ideal ⟨2, ![m, k]⟩ .f32) (A : FVec Ideal ⟨2, ![m, n]⟩ .f32)
    (W : FVec Ideal ⟨2, ![k, n]⟩ .f32) (B : FVec Ideal ⟨2, ![1, n]⟩ .f32) (p : Fin m) (q : Fin n) :
    hproj X A W B (ix2 p q) = (∑ c : Fin k, X (ix2 p c) * W (ix2 c q) + A (ix2 p q)) + B (ix2 (0 : Fin 1) q) := rfl

/-- Rows of the layer: a block of rows of X and of A gives the same rows of the layer. -/
theorem hproj_rows {M m k n : Nat} (X : FVec Ideal ⟨2, ![M, k]⟩ .f32) (A : FVec Ideal ⟨2, ![M, n]⟩ .f32)
    (W : FVec Ideal ⟨2, ![k, n]⟩ .f32) (B : FVec Ideal ⟨2, ![1, n]⟩ .f32)
    (x0 : FVec Ideal ⟨2, ![m, k]⟩ .f32) (a0 : FVec Ideal ⟨2, ![m, n]⟩ .f32)
    (j : (⟨2, ![m, n]⟩ : Shape).Idx) (i : (⟨2, ![M, n]⟩ : Shape).Idx)
    (hx : ∀ c : Fin k, x0 (ix2 (j 0) c) = X (ix2 (i 0) c)) (ha : a0 j = A i) (h1 : (j 1 : Fin n) = i 1) :
    hproj x0 a0 W B j = hproj X A W B i := by
  unfold hproj
  rw [mm_rows X W x0 j i hx h1, ha, h1]

/-! ## The full layer as one function of its five arrays -/

/-- At row p and column q: the product of X and Ws at (p, q), plus the product of A and Wn at (p, q), plus the bias row
    at q, in this order. -/
def hfull {m k n : Nat} (X A : FVec Ideal ⟨2, ![m, k]⟩ .f32) (Ws Wn : FVec Ideal ⟨2, ![k, n]⟩ .f32)
    (B : FVec Ideal ⟨2, ![1, n]⟩ .f32) : FVec Ideal ⟨2, ![m, n]⟩ .f32 :=
  fun i => (mm X Ws i + mm A Wn i) + B (ix2 (0 : Fin 1) (i 1))

theorem hfull_apply {m k n : Nat} (X A : FVec Ideal ⟨2, ![m, k]⟩ .f32) (Ws Wn : FVec Ideal ⟨2, ![k, n]⟩ .f32)
    (B : FVec Ideal ⟨2, ![1, n]⟩ .f32) (p : Fin m) (q : Fin n) :
    hfull X A Ws Wn B (ix2 p q)
      = (∑ c : Fin k, X (ix2 p c) * Ws (ix2 c q) + ∑ c : Fin k, A (ix2 p c) * Wn (ix2 c q)) + B (ix2 (0 : Fin 1) q) := rfl

/-- Rows of the layer: a block of rows of X and of A gives the same rows of the layer. -/
theorem hfull_rows {M m k n : Nat} (X A : FVec Ideal ⟨2, ![M, k]⟩ .f32) (Ws Wn : FVec Ideal ⟨2, ![k, n]⟩ .f32)
    (B : FVec Ideal ⟨2, ![1, n]⟩ .f32) (x0 a0 : FVec Ideal ⟨2, ![m, k]⟩ .f32)
    (j : (⟨2, ![m, n]⟩ : Shape).Idx) (i : (⟨2, ![M, n]⟩ : Shape).Idx)
    (hx : ∀ c : Fin k, x0 (ix2 (j 0) c) = X (ix2 (i 0) c)) (ha : ∀ c : Fin k, a0 (ix2 (j 0) c) = A (ix2 (i 0) c))
    (h1 : (j 1 : Fin n) = i 1) :
    hfull x0 a0 Ws Wn B j = hfull X A Ws Wn B i := by
  unfold hfull
  rw [mm_rows X Ws x0 j i hx h1, mm_rows A Wn a0 j i ha h1, h1]

/-! ## Tiles of 5000 rows -/

theorem tile_lt (t : Fin 20) (k : Fin 5000) : 5000 * t.val + k.val < 100000 := by
  have := t.isLt; have := k.isLt; omega

/-- Row k of tile t. -/
def tileRow (t : Fin 20) (k : Fin 5000) : Fin 100000 := ⟨5000 * t.val + k.val, tile_lt t k⟩

/-- The column sums of an array over each tile of 5000 rows, the same at each of the 8 sublanes. -/
def tileSum (H : FVec Ideal (⟨2, ![100000, 64]⟩ : Shape) .f32) : FVec Ideal (⟨3, ![20, 8, 64]⟩ : Shape) .f32 :=
  fun i => ∑ k : Fin 5000, H (ix2 (tileRow (i 0) k) (i 2))

theorem tileSum_apply (H : FVec Ideal (⟨2, ![100000, 64]⟩ : Shape) .f32) (t : Fin 20) (r : Fin 8) (q : Fin 64) :
    tileSum H (ix3 t r q) = ∑ k : Fin 5000, H (ix2 ⟨5000 * t.val + k.val, tile_lt t k⟩ q) := rfl

/-- A block holding tile T's rows sums, column by column, to tile T of the column sums. -/
theorem tile_point (H : FVec Ideal (⟨2, ![100000, 64]⟩ : Shape) .f32) (h0 : FVec Ideal (⟨2, ![5000, 64]⟩ : Shape) .f32) (T : Fin 20)
    (hh : ∀ (k : Fin 5000) (q : Fin 64), h0 (ix2 k q) = H (ix2 (tileRow T k) q)) (q : Fin 64) (i : (⟨3, ![20, 8, 64]⟩ : Shape).Idx)
    (hi0 : (i 0 : Fin 20) = T) (hi2 : (i 2 : Fin 64) = q) :
    ∑ k : Fin 5000, h0 (ix2 k q) = tileSum H i := by
  unfold tileSum
  rw [hi0, hi2]
  exact Finset.sum_congr rfl fun k _ => hh k q

/-- The same for the sums of squares. -/
theorem tile_point_sq (H : FVec Ideal (⟨2, ![100000, 64]⟩ : Shape) .f32) (h0 : FVec Ideal (⟨2, ![5000, 64]⟩ : Shape) .f32) (T : Fin 20)
    (hh : ∀ (k : Fin 5000) (q : Fin 64), h0 (ix2 k q) = H (ix2 (tileRow T k) q)) (q : Fin 64) (i : (⟨3, ![20, 8, 64]⟩ : Shape).Idx)
    (hi0 : (i 0 : Fin 20) = T) (hi2 : (i 2 : Fin 64) = q) :
    ∑ k : Fin 5000, h0 (ix2 k q) * h0 (ix2 k q) = tileSum (mulf H H) i := by
  unfold tileSum
  rw [hi0, hi2]
  exact Finset.sum_congr rfl fun k _ => by rw [hh k q]; rfl

end Cert.KernelIdeal.RegionValue

end
-- ==== Proof.LibColStat.lean ====
/-
  Columns of a rank-2 array: a column statistic, read at an index written by coordinates.

  A statistic of each column of an [a, b] array (a sum over the a rows) is a [b] vector: at column q it is the sum, over
  the row coordinate k, of the array at (k, q). This is the reduction along axis 0, the companion of the lane sum of a
  row statistic (the reduction along axis 1).
-/
import Idealize.ShloMosaic.PureOps.Ideal.Laws
import Idealize.ShloMosaic.Lib.ValueIdx
import Idealize.ShloMosaic.Lib.Pipeline.Value

namespace Cert.LibColStat

open Idealize.ShloMosaic Idealize.ShloMosaic.ValueIdx

/-- The sum of an `[a, b]` array over its rows reads, at column `q`, the sum over `k` of the array at `(k, q)`. At the
    ideal values. -/
theorem sum_rows_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ)
    (q : Fin b) :
    multiReduction .add [0] ⟨1, ![b]⟩ src acc h hφ hacc (ix1 q) = ∑ k : Fin a, src (ix2 k q) :=
  (Ideal.multiReduction_add_single src acc h hφ hacc (ix1 q)).trans
    (Finset.sum_congr rfl fun k _ => congrArg src (funext fun ax => Fin.ext
      (match ax with | ⟨0, _⟩ => rfl | ⟨1, _⟩ => rfl)))

end Cert.LibColStat
-- ==== Proof.KSageProj.lean ====
/-
  The two projected-layer regions of the kernel, read as whole arrays.

  Each region walks twenty blocks of 5000 rows. At a block it multiplies the block of X by the weight matrix into a zero
  accumulator, adds the same block of the aggregated array A and the bias row, and writes the block of the layer back;
  the first of the two regions also writes, per block, the column sums of the layer's block and of its squares, kept at
  each of 8 sublanes. Row p of the layer reads row p of X and of A only, and the twenty blocks tile the rows, so after
  the region the layer's window holds the layer of the whole arrays and the two statistics windows hold its column sums
  by tiles. The statements hold for any contents of the buffers at the region's entry.
-/
import proofs.«174735_j64811056496761_2_alg».proof.Proof.Gen.KernelIdeal.Frame
import proofs.«174735_j64811056496761_2_alg».proof.Proof.KLayerDefs
import proofs.«174735_j64811056496761_2_alg».proof.Proof.LibColStat
import Idealize.ShloMosaic.Lib.ValueLayout
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.RegionValue

open Cert.KernelIdeal Cert.KernelIdeal.Gen Cert.LibDenseProduct

variable (V : (c : Dev nD) → (b : Ref sig .tc) → Buf (Elt Ideal) ((c : Thread nD τ).loc b))

/-! ## Region 1: the first layer, (x · Ws + aggp) + b, and its tile statistics -/

/-- The body's first payload is the layer of its four loaded blocks: casts of a block to its own shape are the identity,
    rounding the operands of the product changes nothing at the ideal values, the accumulator starts at zero, and the
    one bias row is broadcast over the rows. -/
theorem pay1_1_eq (x0 : FVec Ideal S5000x128 .f32) (w : FVec Ideal S128x64 .f32) (a : FVec Ideal S5000x64 .f32)
    (b : FVec Ideal S1x64 .f32) : k1_pay1 x0 w a b = hproj x0 a w b := by
  funext j
  obtain ⟨p, q, rfl⟩ : ∃ (p : Fin 5000) (q : Fin 64), j = ix2 p q := ⟨j 0, j 1, eq_ix2 j⟩
  unfold k1_pay1
  rw [hproj_apply, shapeCast_self, shapeCast_self, addf_apply, addf_apply, broadcastTo_1b_ab_apply]
  refine congrArg (fun z : EReal => (z + a (ix2 p q)) + b (ix2 (0 : Fin 1) q)) ?_
  exact Cert.LibMatmulPlain.matmul_plain_zero_apply none _ _ p q

/-- The second payload: at every sublane r, the sum of the layer's block over its 5000 rows, column by column (the
    reduction starts from the zero word, which adds nothing: no leading 0 + is left). -/
theorem pay1_2_apply (x0 : FVec Ideal S5000x128 .f32) (w : FVec Ideal S128x64 .f32) (a : FVec Ideal S5000x64 .f32)
    (b : FVec Ideal S1x64 .f32) (u : Fin 1) (r : Fin 8) (q : Fin 64) :
    k1_pay2 x0 w a b (ix3 u r q) = ∑ k : Fin 5000, hproj x0 a w b (ix2 k q) := by
  unfold k1_pay2
  rw [shapeCast_ab_1ab_apply, broadcastTo_1b_ab_apply, shapeCast_self, shapeCast_a_1a_apply]
  refine (Cert.LibColStat.sum_rows_apply _ _ _ _ _ q).trans ?_
  rw [pay1_1_eq]

/-- The third payload: the same sum of the squares. -/
theorem pay1_3_apply (x0 : FVec Ideal S5000x128 .f32) (w : FVec Ideal S128x64 .f32) (a : FVec Ideal S5000x64 .f32)
    (b : FVec Ideal S1x64 .f32) (u : Fin 1) (r : Fin 8) (q : Fin 64) :
    k1_pay3 x0 w a b (ix3 u r q) = ∑ k : Fin 5000, hproj x0 a w b (ix2 k q) * hproj x0 a w b (ix2 k q) := by
  unfold k1_pay3
  rw [shapeCast_ab_1ab_apply, broadcastTo_1b_ab_apply, shapeCast_self, shapeCast_a_1a_apply]
  refine (Cert.LibColStat.sum_rows_apply _ _ _ _ _ q).trans ?_
  rw [pay1_1_eq]
  rfl

theorem pay1_2_at (x0 : FVec Ideal S5000x128 .f32) (w : FVec Ideal S128x64 .f32) (a : FVec Ideal S5000x64 .f32)
    (b : FVec Ideal S1x64 .f32) (y : S1x8x64.Idx) :
    k1_pay2 x0 w a b y = ∑ k : Fin 5000, hproj x0 a w b (ix2 k (y 2)) := by
  obtain ⟨u, r, q, rfl⟩ : ∃ (u : Fin 1) (r : Fin 8) (q : Fin 64), y = ix3 u r q := ⟨y 0, y 1, y 2, eq_ix3 y⟩
  exact pay1_2_apply x0 w a b u r q

theorem pay1_3_at (x0 : FVec Ideal S5000x128 .f32) (w : FVec Ideal S128x64 .f32) (a : FVec Ideal S5000x64 .f32)
    (b : FVec Ideal S1x64 .f32) (y : S1x8x64.Idx) :
    k1_pay3 x0 w a b y = ∑ k : Fin 5000, hproj x0 a w b (ix2 k (y 2)) * hproj x0 a w b (ix2 k (y 2)) := by
  obtain ⟨u, r, q, rfl⟩ : ∃ (u : Fin 1) (r : Fin 8) (q : Fin 64), y = ix3 u r q := ⟨y 0, y 1, y 2, eq_ix3 y⟩
  exact pay1_3_apply x0 w a b u r q

/-- The index maps over the grid: the row windows move one block of 5000 rows per point, the statistics windows one
    tile per point, the weight and bias windows stay. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 3) = t.val ∧ win1_5.index t (1 : Fin 3) = 0 ∧ win1_5.index t (2 : Fin 3) = 0
    ∧ win1_6.index t (0 : Fin 3) = t.val ∧ win1_6.index t (1 : Fin 3) = 0 ∧ win1_6.index t (2 : Fin 3) = 0 :=
  (by decide +kernel : ∀ t : Fin grid1.N, _)

/-- The four input arrays as region 1 finds them, and the layer of them. -/
abbrev X1 (c : Dev nD) : FVec Ideal S100000x128 .f32 := V c (Pipeline.arrRef spec1 0)
abbrev A1 (c : Dev nD) : FVec Ideal S100000x64 .f32 := V c (Pipeline.arrRef spec1 1)
abbrev Ws1 (c : Dev nD) : FVec Ideal S128x64 .f32 := V c (Pipeline.arrRef spec1 2)
abbrev B1 (c : Dev nD) : FVec Ideal S1x64 .f32 := V c (Pipeline.arrRef spec1 3)
abbrev H1 (c : Dev nD) : FVec Ideal S100000x64 .f32 := hproj (X1 V c) (A1 V c) (Ws1 V c) (B1 V c)
/-- The arrays region 1 leaves in its output windows. -/
abbrev O1_4 (c : Dev nD) : FVec Ideal S100000x64 .f32 := (dat1 V c).arrAt 4 cfg1.N
abbrev O1_5 (c : Dev nD) : FVec Ideal S20x8x64 .f32 := (dat1 V c).arrAt 5 cfg1.N
abbrev O1_6 (c : Dev nD) : FVec Ideal S20x8x64 .f32 := (dat1 V c).arrAt 6 cfg1.N

/-- Block t of X is its rows 5000·t … 5000·t + 4999. -/
theorem iblk1_0_apply (c : Dev nD) (t : Fin cfg1.N) (y : S5000x128.Idx) (i : S100000x128.Idx)
    (h0 : (i 0).val = 5000 * t.val + (y 0).val) (h1 : (i 1).val = (y 1).val) :
    (iblk1 V c 0 t : FVec Ideal S5000x128 .f32) y = X1 V c i := by
  obtain ⟨e0, e1, -⟩ := idx_facts1 t
  unfold iblk1
  rw [View.read_apply]
  show V c _ _ = V c _ _
  congr 1
  funext a
  apply Fin.ext
  match a with
  | ⟨0, _⟩ => show win1_0.index t 0 * 5000 + 1 * (y 0).val = (i 0).val; rw [e0, h0]; omega
  | ⟨1, _⟩ => show win1_0.index t 1 * 128 + 1 * (y 1).val = (i 1).val; rw [e1, h1]; omega

/-- Block t of A is its rows 5000·t … 5000·t + 4999. -/
theorem iblk1_1_apply (c : Dev nD) (t : Fin cfg1.N) (y : S5000x64.Idx) (i : S100000x64.Idx)
    (h0 : (i 0).val = 5000 * t.val + (y 0).val) (h1 : (i 1).val = (y 1).val) :
    (iblk1 V c 1 t : FVec Ideal S5000x64 .f32) y = A1 V c i := by
  obtain ⟨-, -, e0, e1, -⟩ := idx_facts1 t
  unfold iblk1
  rw [View.read_apply]
  show V c _ _ = V c _ _
  congr 1
  funext a
  apply Fin.ext
  match a with
  | ⟨0, _⟩ => show win1_1.index t 0 * 5000 + 1 * (y 0).val = (i 0).val; rw [e0, h0]; omega
  | ⟨1, _⟩ => show win1_1.index t 1 * 64 + 1 * (y 1).val = (i 1).val; rw [e1, h1]; omega

/-- The weight window's one block is the whole weight matrix. -/
theorem iblk1_2_eq (c : Dev nD) (t : Fin cfg1.N) : (iblk1 V c 2 t : FVec Ideal S128x64 .f32) = Ws1 V c := by
  obtain ⟨-, -, -, -, e2, e3, -⟩ := idx_facts1 t
  funext y
  unfold iblk1
  rw [View.read_apply]
  show V c _ _ = V c _ _
  congr 1
  funext a
  apply Fin.ext
  match a with
  | ⟨0, _⟩ => show win1_2.index t 0 * 128 + 1 * (y 0).val = (y 0).val; rw [e2]; omega
  | ⟨1, _⟩ => show win1_2.index t 1 * 64 + 1 * (y 1).val = (y 1).val; rw [e3]; omega

/-- The bias window's one block is the whole bias row. -/
theorem iblk1_3_eq (c : Dev nD) (t : Fin cfg1.N) : (iblk1 V c 3 t : FVec Ideal S1x64 .f32) = B1 V c := by
  obtain ⟨-, -, -, -, -, -, e2, e3, -⟩ := idx_facts1 t
  funext y
  unfold iblk1
  rw [View.read_apply]
  show V c _ _ = V c _ _
  congr 1
  funext a
  apply Fin.ext
  match a with
  | ⟨0, _⟩ => show win1_3.index t 0 * 1 + 1 * (y 0).val = (y 0).val; rw [e2]; omega
  | ⟨1, _⟩ => show win1_3.index t 1 * 64 + 1 * (y 1).val = (y 1).val; rw [e3]; omega

/-- The layer of the four blocks at point t is rows 5000·t … of the layer of the four arrays. -/
theorem hblk1 (c : Dev nD) (t : Fin cfg1.N) (j : S5000x64.Idx) (i : S100000x64.Idx)
    (h0 : (i 0).val = 5000 * t.val + (j 0).val) (h1 : (i 1).val = (j 1).val) :
    hproj (iblk1 V c 0 t) (iblk1 V c 1 t) (iblk1 V c 2 t) (iblk1 V c 3 t) j = H1 V c i := by
  rw [iblk1_2_eq, iblk1_3_eq]
  exact hproj_rows (X1 V c) (A1 V c) (Ws1 V c) (B1 V c) (iblk1 V c 0 t) (iblk1 V c 1 t) j i
    (fun k => iblk1_0_apply V c t _ _ h0 rfl) (iblk1_1_apply V c t j i h0 h1) (Fin.ext h1.symm)

/-- What point t writes back through window 4 is block t of the layer. -/
theorem flushed1_4 (c : Dev nD) (t : Fin cfg1.N) :
    (dat1 V c).flushed 4 t = ((cfg1.win 4).blk t).view.read (Elt Ideal) (H1 V c) := by
  show (cfg1.win 4).cut (grid1.coords t) ((dat1 V c).after 4 t) = _
  rw [after1_4]
  unfold out1_4
  rw [View.canon_unit_zero hz2']
  simp only [View.ld_unit_zero (S := S5000x128) hz2', View.ld_unit_zero (S := S128x64) hz2', View.ld_unit_zero (S := S5000x64) hz2',
    View.ld_unit_zero (S := S1x64) hz2']
  rw [pay1_1_eq]
  obtain ⟨-, -, -, -, -, -, -, -, e4, e5, -⟩ := idx_facts1 t
  funext j
  rw [View.read_apply]
  refine hblk1 V c t _ _ ?_ ?_
  · show win1_4.index t 0 * 5000 + 1 * (j 0).val = 5000 * t.val + (j 0).val
    rw [e4]; omega
  · show win1_4.index t 1 * 64 + 1 * (j 1).val = (j 1).val
    rw [e5]; omega

theorem mem_blk1_4 (t : Fin cfg1.N) (i : S100000x64.Idx) :
    i ∈ ((cfg1.win 4).blk t).view.set ↔ ∀ a : Fin 2, win1_4.index t a * S5000x64.size a ≤ (i a).val ∧ (i a).val < win1_4.index t a * S5000x64.size a + S5000x64.size a := by
  show i ∈ ((View.whole main_v23_0).slice (win1_4.rect t)).set ↔ _
  rw [View.set_slice_whole, Rect.mem_set_unit]
  exact Iff.rfl

/-- Row r lies in the block of point r / 5000, so the blocks cover the array. -/
theorem cover1_4_arr (i : S100000x64.Idx) :
    ∃ t : Fin cfg1.N, (cfg1.win 4).flush t = true ∧ i ∈ ((cfg1.win 4).blk t).view.set := by
  have hi0 : (i 0).val < 100000 := (i 0).isLt
  have hi1 : (i 1).val < 64 := (i 1).isLt
  have hN : cfg1.N = 20 := N_1
  refine ⟨⟨(i 0).val / 5000, by rw [hN]; omega⟩, flush1_4 _, ?_⟩
  rw [mem_blk1_4]
  obtain ⟨-, -, -, -, -, -, -, -, e4, e5, -⟩ := idx_facts1 ⟨(i 0).val / 5000, by rw [hN]; omega⟩
  intro a
  match a with
  | ⟨0, _⟩ => show win1_4.index _ 0 * 5000 ≤ (i 0).val ∧ (i 0).val < win1_4.index _ 0 * 5000 + 5000; rw [e4]; show (i 0).val / 5000 * 5000 ≤ (i 0).val ∧ (i 0).val < (i 0).val / 5000 * 5000 + 5000; omega
  | ⟨1, _⟩ => show win1_4.index _ 1 * 64 ≤ (i 1).val ∧ (i 1).val < win1_4.index _ 1 * 64 + 64; rw [e5]; omega

/-- The array region 1 leaves in window 4 is the layer of its four input arrays, whatever they hold. -/
theorem region1_arr4 (c : Dev nD) : (dat1 V c).arrAt 4 cfg1.N = H1 V c :=
  (dat1 V c).arrAt_eq_of_cover 4 (H1 V c) (fun t _ => flushed1_4 V c t) cover1_4_arr

/-- The same, index by index. -/
theorem region1_out4 (c : Dev nD) (p : Fin 100000) (q : Fin 64) :
    O1_4 V c (ix2 p q) = (∑ k : Fin 128, X1 V c (ix2 p k) * Ws1 V c (ix2 k q) + A1 V c (ix2 p q)) + B1 V c (ix2 (0 : Fin 1) q) := by
  show (dat1 V c).arrAt 4 cfg1.N (ix2 p q) = _
  rw [region1_arr4]; rfl

/-- What point t writes back through window 5 is tile t of the column sums of the layer. -/
theorem flushed1_5 (c : Dev nD) (t : Fin cfg1.N) :
    (dat1 V c).flushed 5 t = ((cfg1.win 5).blk t).view.read (Elt Ideal) (tileSum (H1 V c)) := by
  show (cfg1.win 5).cut (grid1.coords t) ((dat1 V c).after 5 t) = _
  rw [after1_5]
  unfold out1_5
  rw [View.canon_unit_zero hz3']
  simp only [View.ld_unit_zero (S := S5000x128) hz2', View.ld_unit_zero (S := S128x64) hz2', View.ld_unit_zero (S := S5000x64) hz2',
    View.ld_unit_zero (S := S1x64) hz2']
  obtain ⟨-, -, -, -, -, -, -, -, -, -, e0, e1, e2, -⟩ := idx_facts1 t
  have ht : t.val < 20 := lt_of_lt_of_eq t.isLt (show cfg1.N = 20 from N_1)
  funext j
  rw [View.read_apply]
  refine (pay1_2_at _ _ _ _ _).trans ?_
  refine tile_point (H1 V c) _ ⟨t.val, ht⟩ (fun k q => hblk1 V c t _ _ rfl rfl) _ _ ?_ ?_
  · apply Fin.ext
    show win1_5.index t 0 * 1 + 1 * (j 0).val = t.val
    have : (j 0).val < 1 := (j 0).isLt
    rw [e0]; omega
  · apply Fin.ext
    show win1_5.index t 2 * 64 + 1 * (j 2).val = (j 2).val
    rw [e2]; omega

theorem mem_blk1_5 (t : Fin cfg1.N) (i : S20x8x64.Idx) :
    i ∈ ((cfg1.win 5).blk t).view.set ↔ ∀ a : Fin 3, win1_5.index t a * S1x8x64.size a ≤ (i a).val ∧ (i a).val < win1_5.index t a * S1x8x64.size a + S1x8x64.size a := by
  show i ∈ ((View.whole main_v23_1).slice (win1_5.rect t)).set ↔ _
  rw [View.set_slice_whole, Rect.mem_set_unit]
  exact Iff.rfl

/-- Tile t is the block of point t, so the blocks cover the array. -/
theorem cover1_5_arr (i : S20x8x64.Idx) :
    ∃ t : Fin cfg1.N, (cfg1.win 5).flush t = true ∧ i ∈ ((cfg1.win 5).blk t).view.set := by
  have hi0 : (i 0).val < 20 := (i 0).isLt
  have hi1 : (i 1).val < 8 := (i 1).isLt
  have hi2 : (i 2).val < 64 := (i 2).isLt
  have hN : cfg1.N = 20 := N_1
  refine ⟨⟨(i 0).val, by rw [hN]; omega⟩, flush1_5 _, ?_⟩
  rw [mem_blk1_5]
  obtain ⟨-, -, -, -, -, -, -, -, -, -, e0, e1, e2, -⟩ := idx_facts1 ⟨(i 0).val, by rw [hN]; omega⟩
  intro a
  match a with
  | ⟨0, _⟩ => show win1_5.index _ 0 * 1 ≤ (i 0).val ∧ (i 0).val < win1_5.index _ 0 * 1 + 1; rw [e0]; show (i 0).val * 1 ≤ (i 0).val ∧ (i 0).val < (i 0).val * 1 + 1; omega
  | ⟨1, _⟩ => show win1_5.index _ 1 * 8 ≤ (i 1).val ∧ (i 1).val < win1_5.index _ 1 * 8 + 8; rw [e1]; omega
  | ⟨2, _⟩ => show win1_5.index _ 2 * 64 ≤ (i 2).val ∧ (i 2).val < win1_5.index _ 2 * 64 + 64; rw [e2]; omega

/-- The array region 1 leaves in window 5: per tile of 5000 rows and per column, the sum of the layer over the
    tile's rows, the same at each of the 8 sublanes. -/
theorem region1_arr5 (c : Dev nD) : (dat1 V c).arrAt 5 cfg1.N = tileSum (H1 V c) :=
  (dat1 V c).arrAt_eq_of_cover 5 (tileSum (H1 V c)) (fun t _ => flushed1_5 V c t) cover1_5_arr

/-- The same, index by index (no leading 0 +). -/
theorem region1_out5 (c : Dev nD) (t : Fin 20) (r : Fin 8) (q : Fin 64) :
    O1_5 V c (ix3 t r q) = ∑ k : Fin 5000, H1 V c (ix2 ⟨5000 * t.val + k.val, tile_lt t k⟩ q) := by
  show (dat1 V c).arrAt 5 cfg1.N (ix3 t r q) = _
  rw [region1_arr5]; rfl

/-- What point t writes back through window 6 is tile t of the column sums of the layer's squares. -/
theorem flushed1_6 (c : Dev nD) (t : Fin cfg1.N) :
    (dat1 V c).flushed 6 t = ((cfg1.win 6).blk t).view.read (Elt Ideal) (tileSum (mulf (H1 V c) (H1 V c))) := by
  show (cfg1.win 6).cut (grid1.coords t) ((dat1 V c).after 6 t) = _
  rw [after1_6]
  unfold out1_6
  rw [View.canon_unit_zero hz3']
  simp only [View.ld_unit_zero (S := S5000x128) hz2', View.ld_unit_zero (S := S128x64) hz2', View.ld_unit_zero (S := S5000x64) hz2',
    View.ld_unit_zero (S := S1x64) hz2']
  obtain ⟨-, -, -, -, -, -, -, -, -, -, -, -, -, e0, e1, e2⟩ := idx_facts1 t
  have ht : t.val < 20 := lt_of_lt_of_eq t.isLt (show cfg1.N = 20 from N_1)
  funext j
  rw [View.read_apply]
  refine (pay1_3_at _ _ _ _ _).trans ?_
  refine tile_point_sq (H1 V c) _ ⟨t.val, ht⟩ (fun k q => hblk1 V c t _ _ rfl rfl) _ _ ?_ ?_
  · apply Fin.ext
    show win1_6.index t 0 * 1 + 1 * (j 0).val = t.val
    have : (j 0).val < 1 := (j 0).isLt
    rw [e0]; omega
  · apply Fin.ext
    show win1_6.index t 2 * 64 + 1 * (j 2).val = (j 2).val
    rw [e2]; omega

theorem mem_blk1_6 (t : Fin cfg1.N) (i : S20x8x64.Idx) :
    i ∈ ((cfg1.win 6).blk t).view.set ↔ ∀ a : Fin 3, win1_6.index t a * S1x8x64.size a ≤ (i a).val ∧ (i a).val < win1_6.index t a * S1x8x64.size a + S1x8x64.size a := by
  show i ∈ ((View.whole main_v23_2).slice (win1_6.rect t)).set ↔ _
  rw [View.set_slice_whole, Rect.mem_set_unit]
  exact Iff.rfl

/-- Tile t is the block of point t, so the blocks cover the array. -/
theorem cover1_6_arr (i : S20x8x64.Idx) :
    ∃ t : Fin cfg1.N, (cfg1.win 6).flush t = true ∧ i ∈ ((cfg1.win 6).blk t).view.set := by
  have hi0 : (i 0).val < 20 := (i 0).isLt
  have hi1 : (i 1).val < 8 := (i 1).isLt
  have hi2 : (i 2).val < 64 := (i 2).isLt
  have hN : cfg1.N = 20 := N_1
  refine ⟨⟨(i 0).val, by rw [hN]; omega⟩, flush1_6 _, ?_⟩
  rw [mem_blk1_6]
  obtain ⟨-, -, -, -, -, -, -, -, -, -, -, -, -, e0, e1, e2⟩ := idx_facts1 ⟨(i 0).val, by rw [hN]; omega⟩
  intro a
  match a with
  | ⟨0, _⟩ => show win1_6.index _ 0 * 1 ≤ (i 0).val ∧ (i 0).val < win1_6.index _ 0 * 1 + 1; rw [e0]; show (i 0).val * 1 ≤ (i 0).val ∧ (i 0).val < (i 0).val * 1 + 1; omega
  | ⟨1, _⟩ => show win1_6.index _ 1 * 8 ≤ (i 1).val ∧ (i 1).val < win1_6.index _ 1 * 8 + 8; rw [e1]; omega
  | ⟨2, _⟩ => show win1_6.index _ 2 * 64 ≤ (i 2).val ∧ (i 2).val < win1_6.index _ 2 * 64 + 64; rw [e2]; omega

/-- The array region 1 leaves in window 6: per tile of 5000 rows and per column, the sum of the layer's squares over the
    tile's rows, the same at each of the 8 sublanes. -/
theorem region1_arr6 (c : Dev nD) : (dat1 V c).arrAt 6 cfg1.N = tileSum (mulf (H1 V c) (H1 V c)) :=
  (dat1 V c).arrAt_eq_of_cover 6 (tileSum (mulf (H1 V c) (H1 V c))) (fun t _ => flushed1_6 V c t) cover1_6_arr

/-- The same, index by index (no leading 0 +). -/
theorem region1_out6 (c : Dev nD) (t : Fin 20) (r : Fin 8) (q : Fin 64) :
    O1_6 V c (ix3 t r q) = ∑ k : Fin 5000, H1 V c (ix2 ⟨5000 * t.val + k.val, tile_lt t k⟩ q) * H1 V c (ix2 ⟨5000 * t.val + k.val, tile_lt t k⟩ q) := by
  show (dat1 V c).arrAt 6 cfg1.N (ix3 t r q) = _
  rw [region1_arr6]; rfl

/-! ## Region 8: the last layer, (h · Ws + aggp) + b -/

/-- The body's first payload is the layer of its four loaded blocks: casts of a block to its own shape are the identity,
    rounding the operands of the product changes nothing at the ideal values, the accumulator starts at zero, and the
    one bias row is broadcast over the rows. -/
theorem pay8_1_eq (x0 : FVec Ideal S5000x64 .f32) (w : FVec Ideal S64x16 .f32) (a : FVec Ideal S5000x16 .f32)
    (b : FVec Ideal S1x16 .f32) : k8_pay1 x0 w a b = hproj x0 a w b := by
  funext j
  obtain ⟨p, q, rfl⟩ : ∃ (p : Fin 5000) (q : Fin 16), j = ix2 p q := ⟨j 0, j 1, eq_ix2 j⟩
  unfold k8_pay1
  rw [hproj_apply, shapeCast_self, shapeCast_self, shapeCast_self, addf_apply, addf_apply, broadcastTo_1b_ab_apply]
  refine congrArg (fun z : EReal => (z + a (ix2 p q)) + b (ix2 (0 : Fin 1) q)) ?_
  exact Cert.LibMatmulPlain.matmul_plain_zero_apply none _ _ p q

/-- The index maps over the grid: the row windows move one block of 5000 rows per point, the weight and bias windows stay. -/
theorem idx_facts8 : ∀ t : Fin cfg8.N, win8_0.index t (0 : Fin 2) = t.val ∧ win8_0.index t (1 : Fin 2) = 0
    ∧ win8_1.index t (0 : Fin 2) = t.val ∧ win8_1.index t (1 : Fin 2) = 0
    ∧ win8_2.index t (0 : Fin 2) = 0 ∧ win8_2.index t (1 : Fin 2) = 0
    ∧ win8_3.index t (0 : Fin 2) = 0 ∧ win8_3.index t (1 : Fin 2) = 0
    ∧ win8_4.index t (0 : Fin 2) = t.val ∧ win8_4.index t (1 : Fin 2) = 0 :=
  (by decide +kernel : ∀ t : Fin grid8.N, _)

/-- The four input arrays as region 8 finds them, and the layer of them. -/
abbrev X8 (c : Dev nD) : FVec Ideal S100000x64 .f32 := V c (Pipeline.arrRef spec8 0)
abbrev A8 (c : Dev nD) : FVec Ideal S100000x16 .f32 := V c (Pipeline.arrRef spec8 1)
abbrev Ws8 (c : Dev nD) : FVec Ideal S64x16 .f32 := V c (Pipeline.arrRef spec8 2)
abbrev B8 (c : Dev nD) : FVec Ideal S1x16 .f32 := V c (Pipeline.arrRef spec8 3)
abbrev H8 (c : Dev nD) : FVec Ideal S100000x16 .f32 := hproj (X8 V c) (A8 V c) (Ws8 V c) (B8 V c)
/-- The arrays region 8 leaves in its output windows. -/
abbrev O8_4 (c : Dev nD) : FVec Ideal S100000x16 .f32 := (dat8 V c).arrAt 4 cfg8.N

/-- Block t of X is its rows 5000·t … 5000·t + 4999. -/
theorem iblk8_0_apply (c : Dev nD) (t : Fin cfg8.N) (y : S5000x64.Idx) (i : S100000x64.Idx)
    (h0 : (i 0).val = 5000 * t.val + (y 0).val) (h1 : (i 1).val = (y 1).val) :
    (iblk8 V c 0 t : FVec Ideal S5000x64 .f32) y = X8 V c i := by
  obtain ⟨e0, e1, -⟩ := idx_facts8 t
  unfold iblk8
  rw [View.read_apply]
  show V c _ _ = V c _ _
  congr 1
  funext a
  apply Fin.ext
  match a with
  | ⟨0, _⟩ => show win8_0.index t 0 * 5000 + 1 * (y 0).val = (i 0).val; rw [e0, h0]; omega
  | ⟨1, _⟩ => show win8_0.index t 1 * 64 + 1 * (y 1).val = (i 1).val; rw [e1, h1]; omega

/-- Block t of A is its rows 5000·t … 5000·t + 4999. -/
theorem iblk8_1_apply (c : Dev nD) (t : Fin cfg8.N) (y : S5000x16.Idx) (i : S100000x16.Idx)
    (h0 : (i 0).val = 5000 * t.val + (y 0).val) (h1 : (i 1).val = (y 1).val) :
    (iblk8 V c 1 t : FVec Ideal S5000x16 .f32) y = A8 V c i := by
  obtain ⟨-, -, e0, e1, -⟩ := idx_facts8 t
  unfold iblk8
  rw [View.read_apply]
  show V c _ _ = V c _ _
  congr 1
  funext a
  apply Fin.ext
  match a with
  | ⟨0, _⟩ => show win8_1.index t 0 * 5000 + 1 * (y 0).val = (i 0).val; rw [e0, h0]; omega
  | ⟨1, _⟩ => show win8_1.index t 1 * 16 + 1 * (y 1).val = (i 1).val; rw [e1, h1]; omega

/-- The weight window's one block is the whole weight matrix. -/
theorem iblk8_2_eq (c : Dev nD) (t : Fin cfg8.N) : (iblk8 V c 2 t : FVec Ideal S64x16 .f32) = Ws8 V c := by
  obtain ⟨-, -, -, -, e2, e3, -⟩ := idx_facts8 t
  funext y
  unfold iblk8
  rw [View.read_apply]
  show V c _ _ = V c _ _
  congr 1
  funext a
  apply Fin.ext
  match a with
  | ⟨0, _⟩ => show win8_2.index t 0 * 64 + 1 * (y 0).val = (y 0).val; rw [e2]; omega
  | ⟨1, _⟩ => show win8_2.index t 1 * 16 + 1 * (y 1).val = (y 1).val; rw [e3]; omega

/-- The bias window's one block is the whole bias row. -/
theorem iblk8_3_eq (c : Dev nD) (t : Fin cfg8.N) : (iblk8 V c 3 t : FVec Ideal S1x16 .f32) = B8 V c := by
  obtain ⟨-, -, -, -, -, -, e2, e3, -⟩ := idx_facts8 t
  funext y
  unfold iblk8
  rw [View.read_apply]
  show V c _ _ = V c _ _
  congr 1
  funext a
  apply Fin.ext
  match a with
  | ⟨0, _⟩ => show win8_3.index t 0 * 1 + 1 * (y 0).val = (y 0).val; rw [e2]; omega
  | ⟨1, _⟩ => show win8_3.index t 1 * 16 + 1 * (y 1).val = (y 1).val; rw [e3]; omega

/-- The layer of the four blocks at point t is rows 5000·t … of the layer of the four arrays. -/
theorem hblk8 (c : Dev nD) (t : Fin cfg8.N) (j : S5000x16.Idx) (i : S100000x16.Idx)
    (h0 : (i 0).val = 5000 * t.val + (j 0).val) (h1 : (i 1).val = (j 1).val) :
    hproj (iblk8 V c 0 t) (iblk8 V c 1 t) (iblk8 V c 2 t) (iblk8 V c 3 t) j = H8 V c i := by
  rw [iblk8_2_eq, iblk8_3_eq]
  exact hproj_rows (X8 V c) (A8 V c) (Ws8 V c) (B8 V c) (iblk8 V c 0 t) (iblk8 V c 1 t) j i
    (fun k => iblk8_0_apply V c t _ _ h0 rfl) (iblk8_1_apply V c t j i h0 h1) (Fin.ext h1.symm)

/-- What point t writes back through window 4 is block t of the layer. -/
theorem flushed8_4 (c : Dev nD) (t : Fin cfg8.N) :
    (dat8 V c).flushed 4 t = ((cfg8.win 4).blk t).view.read (Elt Ideal) (H8 V c) := by
  show (cfg8.win 4).cut (grid8.coords t) ((dat8 V c).after 4 t) = _
  rw [after8_4]
  unfold out8_4
  rw [View.canon_unit_zero hz2']
  simp only [View.ld_unit_zero (S := S5000x64) hz2', View.ld_unit_zero (S := S64x16) hz2', View.ld_unit_zero (S := S5000x16) hz2',
    View.ld_unit_zero (S := S1x16) hz2']
  rw [pay8_1_eq]
  obtain ⟨-, -, -, -, -, -, -, -, e4, e5⟩ := idx_facts8 t
  funext j
  rw [View.read_apply]
  refine hblk8 V c t _ _ ?_ ?_
  · show win8_4.index t 0 * 5000 + 1 * (j 0).val = 5000 * t.val + (j 0).val
    rw [e4]; omega
  · show win8_4.index t 1 * 16 + 1 * (j 1).val = (j 1).val
    rw [e5]; omega

theorem mem_blk8_4 (t : Fin cfg8.N) (i : S100000x16.Idx) :
    i ∈ ((cfg8.win 4).blk t).view.set ↔ ∀ a : Fin 2, win8_4.index t a * S5000x16.size a ≤ (i a).val ∧ (i a).val < win8_4.index t a * S5000x16.size a + S5000x16.size a := by
  show i ∈ ((View.whole main_v150).slice (win8_4.rect t)).set ↔ _
  rw [View.set_slice_whole, Rect.mem_set_unit]
  exact Iff.rfl

/-- Row r lies in the block of point r / 5000, so the blocks cover the array. -/
theorem cover8_4_arr (i : S100000x16.Idx) :
    ∃ t : Fin cfg8.N, (cfg8.win 4).flush t = true ∧ i ∈ ((cfg8.win 4).blk t).view.set := by
  have hi0 : (i 0).val < 100000 := (i 0).isLt
  have hi1 : (i 1).val < 16 := (i 1).isLt
  have hN : cfg8.N = 20 := N_8
  refine ⟨⟨(i 0).val / 5000, by rw [hN]; omega⟩, flush8_4 _, ?_⟩
  rw [mem_blk8_4]
  obtain ⟨-, -, -, -, -, -, -, -, e4, e5⟩ := idx_facts8 ⟨(i 0).val / 5000, by rw [hN]; omega⟩
  intro a
  match a with
  | ⟨0, _⟩ => show win8_4.index _ 0 * 5000 ≤ (i 0).val ∧ (i 0).val < win8_4.index _ 0 * 5000 + 5000; rw [e4]; show (i 0).val / 5000 * 5000 ≤ (i 0).val ∧ (i 0).val < (i 0).val / 5000 * 5000 + 5000; omega
  | ⟨1, _⟩ => show win8_4.index _ 1 * 16 ≤ (i 1).val ∧ (i 1).val < win8_4.index _ 1 * 16 + 16; rw [e5]; omega

/-- The array region 8 leaves in window 4 is the layer of its four input arrays, whatever they hold. -/
theorem region8_arr4 (c : Dev nD) : (dat8 V c).arrAt 4 cfg8.N = H8 V c :=
  (dat8 V c).arrAt_eq_of_cover 4 (H8 V c) (fun t _ => flushed8_4 V c t) cover8_4_arr

/-- The same, index by index. -/
theorem region8_out4 (c : Dev nD) (p : Fin 100000) (q : Fin 16) :
    O8_4 V c (ix2 p q) = (∑ k : Fin 64, X8 V c (ix2 p k) * Ws8 V c (ix2 k q) + A8 V c (ix2 p q)) + B8 V c (ix2 (0 : Fin 1) q) := by
  show (dat8 V c).arrAt 4 cfg8.N (ix2 p q) = _
  rw [region8_arr4]; rfl

end Cert.KernelIdeal.RegionValue

end
-- ==== Proof.LawLayer.lean ====
/-
  The two arrangements of a layer agree.

  Dividing the summed rows by the guarded count, or multiplying them by its reciprocal, is the same on every extended real.
  Applying the neighbour matrix before or after carrying rows along the edges is the same when the rows and the matrix hold
  real numbers: the matrix product is a finite sum of products, additive in the row, and the guarded count is a nonzero real.
-/
import proofs.«174735_j64811056496761_2_alg».proof.Proof.KSpec
import proofs.«174735_j64811056496761_2_alg».proof.Proof.Consts

noncomputable section

namespace Cert.GNet

open Idealize.ShloMosaic Idealize.ShloMosaic.ValueIdx Cert.LibRealValued
open scoped BigOperators

variable {C D : ℕ}

theorem agg_apply (h : Tab NN C) (src dst : Edges) (p : Fin NN) (c : Fin C) :
    agg h src dst (ix2 p c) = ∑ e ∈ inEdges dst p, h (ix2 (srcRow src e) c) := rfl

theorem rowsMul_apply (x : Tab NN C) (W : Tab C D) (p : Fin NN) (q : Fin D) :
    rowsMul x W (ix2 p q) = ∑ c : Fin C, x (ix2 p c) * W (ix2 c q) := rfl

theorem meanRecip_apply (h : Tab NN C) (src dst : Edges) (p : Fin NN) (c : Fin C) :
    meanRecip h src dst (ix2 p c) = agg h src dst (ix2 p c) * Ideal.div cOne (deg dst p) := rfl

theorem sage_apply (h : Tab NN C) (Ws Wn : Tab C D) (b : Row D) (src dst : Edges) (p : Fin NN) (q : Fin D) :
    sage h Ws Wn b src dst (ix2 p q)
      = ((∑ c : Fin C, h (ix2 p c) * Ws (ix2 c q))
          + ∑ c : Fin C, Ideal.div (agg h src dst (ix2 p c)) (deg dst p) * Wn (ix2 c q)) + b (ix1 q) := rfl

theorem sageProj_apply (h : Tab NN C) (Ws Wn : Tab C D) (b : Row D) (src dst : Edges) (p : Fin NN) (q : Fin D) :
    sageProj h Ws Wn b src dst (ix2 p q)
      = (rowsMul h Ws (ix2 p q) + meanRecip (rowsMul h Wn) src dst (ix2 p q)) + b (ix1 q) := rfl

theorem sageFull_apply (h : Tab NN C) (Ws Wn : Tab C D) (b : Row D) (src dst : Edges) (p : Fin NN) (q : Fin D) :
    sageFull h Ws Wn b src dst (ix2 p q)
      = (rowsMul h Ws (ix2 p q) + rowsMul (meanRecip h src dst) Wn (ix2 p q)) + b (ix1 q) := rfl

/-- The mean by a reciprocal is the mean by a quotient: the arrangement with the matrix applied afterwards IS the layer. -/
theorem sageFull_eq (h : Tab NN C) (Ws Wn : Tab C D) (b : Row D) (src dst : Edges) :
    sageFull h Ws Wn b src dst = sage h Ws Wn b src dst := by
  funext i
  obtain ⟨p, q, rfl⟩ : ∃ (p : Fin NN) (q : Fin D), i = ix2 p q := ⟨i 0, i 1, eq_ix2 i⟩
  rw [sageFull_apply, sage_apply, rowsMul_apply, rowsMul_apply]
  refine congrArg (fun z => (_ + z) + _) (Finset.sum_congr rfl fun c _ => ?_)
  rw [meanRecip_apply, mul_recip_deg]

/-- Carrying the rows already multiplied by the matrix, for real rows and a real matrix. -/
theorem proj_law (h : Tab NN C) (Wn : Tab C D) (src dst : Edges) (hh : ∀ i, IsReal (h i)) (hW : ∀ i, IsReal (Wn i))
    (p : Fin NN) (q : Fin D) :
    meanRecip (rowsMul h Wn) src dst (ix2 p q)
      = ∑ c : Fin C, Ideal.div (agg h src dst (ix2 p c)) (deg dst p) * Wn (ix2 c q) := by
  obtain ⟨d, hd1, hd⟩ := deg_real dst p
  have hd0 : d ≠ 0 := ne_of_gt (lt_of_lt_of_le one_pos hd1)
  choose hr hhr using hh
  choose wr hwr using hW
  rw [meanRecip_apply, agg_apply]
  simp only [agg_apply, rowsMul_apply, hd, cOne_eq, hhr, hwr]
  rw [show (1 : EReal) = ((1 : ℝ) : EReal) from rfl]
  simp only [← EReal.coe_mul, ← Cert.LibERealSum.coe_finset_sum, ← Cert.LibERealSum.coe_sum,
    Cert.LibERealSum.div_coe_coe _ hd0]
  refine congrArg Real.toEReal ?_
  rw [Finset.sum_comm, Finset.sum_mul]
  refine Finset.sum_congr rfl fun c _ => ?_
  rw [← Finset.sum_mul]
  field_simp

/-- The arrangement with the matrix applied first IS the layer, for real rows and a real neighbour matrix. -/
theorem sageProj_eq (h : Tab NN C) (Ws Wn : Tab C D) (b : Row D) (src dst : Edges)
    (hh : ∀ i, IsReal (h i)) (hW : ∀ i, IsReal (Wn i)) :
    sageProj h Ws Wn b src dst = sage h Ws Wn b src dst := by
  funext i
  obtain ⟨p, q, rfl⟩ : ∃ (p : Fin NN) (q : Fin D), i = ix2 p q := ⟨i 0, i 1, eq_ix2 i⟩
  rw [sageProj_apply, sage_apply, rowsMul_apply, proj_law h Wn src dst hh hW]

end Cert.GNet

end
-- ==== Proof.KStage1.lean ====
/- Stages 1 to 3 of the kernel's value, layer 1: the neighbour projection region 0 leaves, its mean by a reciprocal over the
   edges that host stretch 1 computes, and what region 1 leaves in its three output arrays — the layer's output table and
   the per-tile column sums of it and of its square — as functions of the arguments. -/
import proofs.«174735_j64811056496761_2_alg».proof.Proof.KHost1
import proofs.«174735_j64811056496761_2_alg».proof.Proof.KKeep1
import proofs.«174735_j64811056496761_2_alg».proof.Proof.KKeep2
import proofs.«174735_j64811056496761_2_alg».proof.Proof.KKeep3
import proofs.«174735_j64811056496761_2_alg».proof.Proof.KStage0
import proofs.«174735_j64811056496761_2_alg».proof.Proof.KArgs
import proofs.«174735_j64811056496761_2_alg».proof.Proof.KAgg
import proofs.«174735_j64811056496761_2_alg».proof.Proof.KProj
import proofs.«174735_j64811056496761_2_alg».proof.Proof.KSageProj
import proofs.«174735_j64811056496761_2_alg».proof.Proof.LawLayer
import Idealize.ShloMosaic.Lib.IdealHost

set_option maxRecDepth 16384

noncomputable section

namespace Cert.KernelIdeal.Trace

open Idealize.ShloMosaic Idealize.ShloMosaic.TcCoe Idealize.ShloMosaic.ValueIdx
open Cert.KernelIdeal Cert.KernelIdeal.Gen Cert.GNet
open scoped BigOperators

variable (m : (ℓ : Loc nD τ sig) → Buf (Elt Ideal) ℓ) (ρ : Dev nD → PrngReg) (c : Dev nD)

/-- Stage 1: region 0 leaves in main_v8 the node table times layer 1's neighbour matrix. -/
theorem stage1_v8 :
    (Gen.W2 m ρ c (Proc.devRef .tc main_v8) : Tab NN 64) = rowsMul (aX m c) (aWn1 m c) := by
  refine (out_v8 m ρ c).trans ((RegionValue.region0_arr (Gen.V1 m ρ) c).trans ?_)
  show Cert.LibDenseProduct.mm (Gen.W1 m ρ c (Proc.devRef .tc main_arg0) : FVec Ideal S100000x128 .f32)
      (Gen.W1 m ρ c (Proc.devRef .tc main_arg4) : FVec Ideal S128x64 .f32) = _
  rw [arg0_W1 m ρ c, arg4_W1 m ρ c]
  rfl

/-- Stage 2: host stretch 1 leaves in main_v21 the projected rows carried along the edges, summed at their end nodes and
    scaled by the reciprocal of the guarded count. -/
theorem stage2_v21 :
    (Gen.W3 m ρ c (Proc.devRef .tc main_v21) : Tab NN 64)
      = meanRecip (rowsMul (aX m c) (aWn1 m c)) (aSrc m c) (aDst m c) := by
  refine (host1_v21 m ρ c).trans ?_
  rw [arg1_W2 m ρ c, arg2_W2 m ρ c, stage1_v8 m ρ c]
  exact Agg.aggStage gather_S100000x64_S1600000x1_S1600000x64_1_0_n_n_0_1_164
    gather_S100000x64_S1600000x1_S1600000x64_1_0_n_n_0_1_164_wf rfl
    scatter_S100000x64_S1600000x1_S1600000x64_1_0_0_1 scatter_S100000x64_S1600000x1_S1600000x64_1_0_0_1_wf rfl
    bcast_S100000_S100000x1_0 bcast_S100000x1_S100000x64_0_1 _ (fun i => HostRead.bcast_zero_apply _ i)
    (rowsMul (aX m c) (aWn1 m c)) (aSrc m c) (aDst m c) (Gen.W2 m ρ c (Proc.devRef .tc main_v7))
    (fun p => (congrFun (v7_W2 m ρ c) (ix1 p)).trans (stage0_v7 m ρ c p))

/-- Layer 1's bias as region 1 reads it: the one-row table host stretch 1 makes of it, at lane `q`. -/
theorem stage2_v22 (q : Fin 64) :
    (Gen.W3 m ρ c (Proc.devRef .tc main_v22) : Tab 1 64) (ix2 (0 : Fin 1) q) = aB1 m c (ix1 q) := by
  refine (congrFun (host1_v22 m ρ c) (ix2 (0 : Fin 1) q)).trans ?_
  rw [arg5_W2 m ρ c]
  exact Agg.biasRow_apply _ _ q

/-- Region 1's first input array at its entry is the node table. -/
theorem r1_X : RegionValue.X1 (Gen.V3 m ρ) c = aX m c := arg0_W3 m ρ c
/-- Its second is the projected rows' mean by a reciprocal. -/
theorem r1_A : RegionValue.A1 (Gen.V3 m ρ) c = meanRecip (rowsMul (aX m c) (aWn1 m c)) (aSrc m c) (aDst m c) :=
  stage2_v21 m ρ c
/-- Its third is layer 1's own-row matrix. -/
theorem r1_Ws : RegionValue.Ws1 (Gen.V3 m ρ) c = aWs1 m c := arg3_W3 m ρ c
/-- Its fourth, the bias row, reads layer 1's bias. -/
theorem r1_B (q : Fin 64) : RegionValue.B1 (Gen.V3 m ρ) c (ix2 (0 : Fin 1) q) = aB1 m c (ix1 q) := stage2_v22 m ρ c q

/-- What region 1 computes at row `p`, lane `q` from its four input arrays as they are at its entry — the row of the node table
    times the own-row matrix, plus the aggregated table's entry, plus the bias row's lane — is layer 1's output at (p, q). -/
theorem r1H_eq (p : Fin NN) (q : Fin 64) :
    (∑ k : Fin 128, RegionValue.X1 (Gen.V3 m ρ) c (ix2 p k) * RegionValue.Ws1 (Gen.V3 m ρ) c (ix2 k q)
        + RegionValue.A1 (Gen.V3 m ρ) c (ix2 p q)) + RegionValue.B1 (Gen.V3 m ρ) c (ix2 (0 : Fin 1) q)
      = kH1 m c (ix2 p q) := by
  rw [r1_X m ρ c, r1_Ws m ρ c, r1_A m ρ c, r1_B m ρ c q,
    show kH1 m c (ix2 p q) = _ from sageProj_apply _ _ _ _ _ _ p q, rowsMul_apply]

/-- Region 1's whole table of such values is layer 1's output. -/
theorem r1H_arr : RegionValue.H1 (Gen.V3 m ρ) c = kH1 m c := by
  funext i
  obtain ⟨p, q, rfl⟩ : ∃ (p : Fin NN) (q : Fin 64), i = ix2 p q := ⟨i 0, i 1, eq_ix2 i⟩
  exact (RegionValue.hproj_apply _ _ _ _ p q).trans (r1H_eq m ρ c p q)

/-- Stage 3: region 1 leaves layer 1's output in main_v23_0. -/
theorem stage3_v23_0 : (Gen.W4 m ρ c (Proc.devRef .tc main_v23_0) : Tab NN 64) = kH1 m c :=
  (out_v23_0 m ρ c).trans ((RegionValue.region1_arr4 (Gen.V3 m ρ) c).trans (r1H_arr m ρ c))

/-- Region 1 leaves in main_v23_1, at tile `t` (any of its 8 rows), the column sums of layer 1's output over the tile. -/
theorem stage3_v23_1 (t : Fin 20) (r : Fin 8) (q : Fin 64) :
    (Gen.W4 m ρ c (Proc.devRef .tc main_v23_1) : S20x8x64.Idx → EReal) (ix3 t r q)
      = ∑ k : Fin 5000, kH1 m c (ix2 (tileRow t k) q) := by
  refine (congrFun (out_v23_1 m ρ c) (ix3 t r q)).trans ((RegionValue.region1_out5 (Gen.V3 m ρ) c t r q).trans ?_)
  rw [r1H_arr m ρ c]
  rfl

/-- Region 1 leaves in main_v23_2, at tile `t`, the column sums of the square of layer 1's output over the tile. -/
theorem stage3_v23_2 (t : Fin 20) (r : Fin 8) (q : Fin 64) :
    (Gen.W4 m ρ c (Proc.devRef .tc main_v23_2) : S20x8x64.Idx → EReal) (ix3 t r q)
      = ∑ k : Fin 5000, kH1 m c (ix2 (tileRow t k) q) * kH1 m c (ix2 (tileRow t k) q) := by
  refine (congrFun (out_v23_2 m ρ c) (ix3 t r q)).trans ((RegionValue.region1_out6 (Gen.V3 m ρ) c t r q).trans ?_)
  rw [r1H_arr m ρ c]
  rfl

end Cert.KernelIdeal.Trace

end
-- ==== Proof.KHost3.lean ====
/- Host stretch 3 of @main: what each buffer it writes that is read later holds at the stretch's end (boundary 7),
   as the stretch's operations applied to the contents at its start (boundary 6). -/
import proofs.«174735_j64811056496761_2_alg».proof.Proof.Gen.KernelIdeal.Frame

set_option maxRecDepth 16384

noncomputable section

namespace Cert.KernelIdeal.Trace

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- `main_v50` at boundary 7: the operations of host stretch 3 that produce it, composed, over the contents at boundary 6. -/
theorem host3_v50 (c : Dev nD) :
    Gen.W7 m ρ c (Proc.devRef .tc main_v50) =
      (shapeCast S100000x64
        (Gen.W6 m ρ c (Proc.devRef .tc main_v49) : (⟨S50000x128, .f32⟩ : BufTy).Contents (Elt F))
        shapeCasts_S50000x128_S100000x64 : (⟨S100000x64, .f32⟩ : BufTy).Contents (Elt F)) := by
  show StableHlo.after Gen.hostOps3 _ _ = _
  after_results_simp
  all_goals rfl

/-- `main_v63` at boundary 7: the operations of host stretch 3 that produce it, composed, over the contents at boundary 6. -/
theorem host3_v63 (c : Dev nD) :
    Gen.W7 m ρ c (Proc.devRef .tc main_v63) =
      ((mulf : (⟨S100000x64, .f32⟩ : BufTy).Contents (Elt F) → (⟨S100000x64, .f32⟩ : BufTy).Contents (Elt F) → (⟨S100000x64, .f32⟩ : BufTy).Contents (Elt F))
        (Host.scatterAdd scatter_S100000x64_S1600000x1_S1600000x64_1_0_0_1
          ((broadcastInDim S100000x64 ![] bcast_S_S100000x64 : (⟨S_, .f32⟩ : BufTy).Contents (Elt F) → (⟨S100000x64, .f32⟩ : BufTy).Contents (Elt F))
            (constant S_ .f32 0x00000000#32 : (⟨S_, .f32⟩ : BufTy).Contents (Elt F)))
          ((broadcastInDim S1600000x1 ![0] bcast_S1600000_S1600000x1_0 : (⟨S1600000, .i32⟩ : BufTy).Contents (Elt F) → (⟨S1600000x1, .i32⟩ : BufTy).Contents (Elt F))
            (Gen.W6 m ρ c (Proc.devRef .tc main_arg2) : (⟨S1600000, .i32⟩ : BufTy).Contents (Elt F)))
          (Host.gather gather_S100000x64_S1600000x1_S1600000x64_1_0_n_n_0_1_164
            (shapeCast S100000x64
              (Gen.W6 m ρ c (Proc.devRef .tc main_v49) : (⟨S50000x128, .f32⟩ : BufTy).Contents (Elt F))
              shapeCasts_S50000x128_S100000x64 : (⟨S100000x64, .f32⟩ : BufTy).Contents (Elt F))
            ((broadcastInDim S1600000x1 ![0] bcast_S1600000_S1600000x1_0 : (⟨S1600000, .i32⟩ : BufTy).Contents (Elt F) → (⟨S1600000x1, .i32⟩ : BufTy).Contents (Elt F))
              ((select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F))
                ((cmpi .slt : (⟨S1600000, .i32⟩ : BufTy).Contents (Elt F) → (⟨S1600000, .i32⟩ : BufTy).Contents (Elt F) → (⟨S1600000, .i1⟩ : BufTy).Contents (Elt F))
                  (Gen.W6 m ρ c (Proc.devRef .tc main_arg1) : (⟨S1600000, .i32⟩ : BufTy).Contents (Elt F))
                  ((broadcastInDim S1600000 ![] bcast_S_S1600000 : (⟨S_, .i32⟩ : BufTy).Contents (Elt F) → (⟨S1600000, .i32⟩ : BufTy).Contents (Elt F))
                    (constantI S_ 32 0#32 : (⟨S_, .i32⟩ : BufTy).Contents (Elt F))))
                ((addi : (⟨S1600000, .i32⟩ : BufTy).Contents (Elt F) → (⟨S1600000, .i32⟩ : BufTy).Contents (Elt F) → (⟨S1600000, .i32⟩ : BufTy).Contents (Elt F))
                  (Gen.W6 m ρ c (Proc.devRef .tc main_arg1) : (⟨S1600000, .i32⟩ : BufTy).Contents (Elt F))
                  ((broadcastInDim S1600000 ![] bcast_S_S1600000 : (⟨S_, .i32⟩ : BufTy).Contents (Elt F) → (⟨S1600000, .i32⟩ : BufTy).Contents (Elt F))
                    (constantI S_ 32 100000#32 : (⟨S_, .i32⟩ : BufTy).Contents (Elt F))))
                (Gen.W6 m ρ c (Proc.devRef .tc main_arg1) : (⟨S1600000, .i32⟩ : BufTy).Contents (Elt F)))) : (⟨S1600000x64, .f32⟩ : BufTy).Contents (Elt F)) : (⟨S100000x64, .f32⟩ : BufTy).Contents (Elt F))
        ((broadcastInDim S100000x64 ![0, 1] bcast_S100000x1_S100000x64_0_1 : (⟨S100000x1, .f32⟩ : BufTy).Contents (Elt F) → (⟨S100000x64, .f32⟩ : BufTy).Contents (Elt F))
          ((broadcastInDim S100000x1 ![0] bcast_S100000_S100000x1_0 : (⟨S100000, .f32⟩ : BufTy).Contents (Elt F) → (⟨S100000x1, .f32⟩ : BufTy).Contents (Elt F))
            (Gen.W6 m ρ c (Proc.devRef .tc main_v7) : (⟨S100000, .f32⟩ : BufTy).Contents (Elt F))))) := by
  show StableHlo.after Gen.hostOps3 _ _ = _
  after_results_simp
  all_goals rfl

/-- `main_v64` at boundary 7: the operations of host stretch 3 that produce it, composed, over the contents at boundary 6. -/
theorem host3_v64 (c : Dev nD) :
    Gen.W7 m ρ c (Proc.devRef .tc main_v64) =
      (shapeCast S1x64
        (Gen.W6 m ρ c (Proc.devRef .tc main_arg10) : (⟨S64, .f32⟩ : BufTy).Contents (Elt F))
        shapeCasts_S64_S1x64 : (⟨S1x64, .f32⟩ : BufTy).Contents (Elt F)) := by
  show StableHlo.after Gen.hostOps3 _ _ = _
  after_results_simp
  all_goals rfl

end Cert.KernelIdeal.Trace

end
-- ==== Proof.KSageFull3.lean ====
/-
  The second layer's region of the kernel, read as whole arrays.

  The region walks twenty blocks of 5000 rows. At a block it multiplies the block of X by the first weight matrix and the
  same block of the aggregated array A by the second, each into a zero accumulator, adds the two products and the bias
  row, and writes the block of the layer back; it also writes, per block, the column sums of the layer's block and of its
  squares, kept at each of 8 sublanes. Row p of the layer reads row p of X and of A only, and the twenty blocks tile the
  rows, so after the region the layer's window holds the layer of the whole arrays and the two statistics windows hold
  its column sums by tiles. The statements hold for any contents of the buffers at the region's entry.
-/
import proofs.«174735_j64811056496761_2_alg».proof.Proof.Gen.KernelIdeal.Frame
import proofs.«174735_j64811056496761_2_alg».proof.Proof.KLayerDefs
import proofs.«174735_j64811056496761_2_alg».proof.Proof.LibColStat
import Idealize.ShloMosaic.Lib.ValueLayout
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.RegionValue

open Cert.KernelIdeal Cert.KernelIdeal.Gen Cert.LibDenseProduct

variable (V : (c : Dev nD) → (b : Ref sig .tc) → Buf (Elt Ideal) ((c : Thread nD τ).loc b))

/-! ## Region 3: the second layer, (h · Ws + agg · Wn) + b, and its tile statistics -/

/-- The body's first payload is the full layer of its five loaded blocks: casts of a block to its own shape are the
    identity, rounding the operands of the two products changes nothing at the ideal values, both accumulators start at
    zero, and the one bias row is broadcast over the rows. -/
theorem pay3_1_eq (x0 a : FVec Ideal S5000x64 .f32) (ws wn : FVec Ideal S64x64 .f32) (b : FVec Ideal S1x64 .f32) :
    k3_pay1 x0 a ws wn b = hfull x0 a ws wn b := by
  funext j
  obtain ⟨p, q, rfl⟩ : ∃ (p : Fin 5000) (q : Fin 64), j = ix2 p q := ⟨j 0, j 1, eq_ix2 j⟩
  unfold k3_pay1
  rw [hfull_apply, shapeCast_self, shapeCast_self, shapeCast_self, addf_apply, addf_apply, broadcastTo_1b_ab_apply]
  refine congrArg₂ (fun z z' : EReal => (z + z') + b (ix2 (0 : Fin 1) q)) ?_ ?_
  · exact Cert.LibMatmulPlain.matmul_plain_zero_apply none _ _ p q
  · exact Cert.LibMatmulPlain.matmul_plain_zero_apply none _ _ p q

/-- The second payload: at every sublane r, the sum of the layer's block over its 5000 rows, column by column (the
    reduction starts from the zero word, which adds nothing: no leading 0 + is left). -/
theorem pay3_2_apply (x0 a : FVec Ideal S5000x64 .f32) (ws wn : FVec Ideal S64x64 .f32) (b : FVec Ideal S1x64 .f32)
    (u : Fin 1) (r : Fin 8) (q : Fin 64) :
    k3_pay2 x0 a ws wn b (ix3 u r q) = ∑ k : Fin 5000, hfull x0 a ws wn b (ix2 k q) := by
  unfold k3_pay2
  rw [shapeCast_ab_1ab_apply, broadcastTo_1b_ab_apply, shapeCast_self, shapeCast_a_1a_apply]
  refine (Cert.LibColStat.sum_rows_apply _ _ _ _ _ q).trans ?_
  rw [pay3_1_eq]

/-- The third payload: the same sum of the squares. -/
theorem pay3_3_apply (x0 a : FVec Ideal S5000x64 .f32) (ws wn : FVec Ideal S64x64 .f32) (b : FVec Ideal S1x64 .f32)
    (u : Fin 1) (r : Fin 8) (q : Fin 64) :
    k3_pay3 x0 a ws wn b (ix3 u r q)
      = ∑ k : Fin 5000, hfull x0 a ws wn b (ix2 k q) * hfull x0 a ws wn b (ix2 k q) := by
  unfold k3_pay3
  rw [shapeCast_ab_1ab_apply, broadcastTo_1b_ab_apply, shapeCast_self, shapeCast_a_1a_apply]
  refine (Cert.LibColStat.sum_rows_apply _ _ _ _ _ q).trans ?_
  rw [pay3_1_eq]
  rfl

theorem pay3_2_at (x0 a : FVec Ideal S5000x64 .f32) (ws wn : FVec Ideal S64x64 .f32) (b : FVec Ideal S1x64 .f32)
    (y : S1x8x64.Idx) :
    k3_pay2 x0 a ws wn b y = ∑ k : Fin 5000, hfull x0 a ws wn b (ix2 k (y 2)) := by
  obtain ⟨u, r, q, rfl⟩ : ∃ (u : Fin 1) (r : Fin 8) (q : Fin 64), y = ix3 u r q := ⟨y 0, y 1, y 2, eq_ix3 y⟩
  exact pay3_2_apply x0 a ws wn b u r q

theorem pay3_3_at (x0 a : FVec Ideal S5000x64 .f32) (ws wn : FVec Ideal S64x64 .f32) (b : FVec Ideal S1x64 .f32)
    (y : S1x8x64.Idx) :
    k3_pay3 x0 a ws wn b y
      = ∑ k : Fin 5000, hfull x0 a ws wn b (ix2 k (y 2)) * hfull x0 a ws wn b (ix2 k (y 2)) := by
  obtain ⟨u, r, q, rfl⟩ : ∃ (u : Fin 1) (r : Fin 8) (q : Fin 64), y = ix3 u r q := ⟨y 0, y 1, y 2, eq_ix3 y⟩
  exact pay3_3_apply x0 a ws wn b u r q

/-- The index maps over the grid: the row windows move one block of 5000 rows per point, the statistics windows one
    tile per point, the weight and bias windows stay. -/
theorem idx_facts3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0
    ∧ win3_6.index t (0 : Fin 3) = t.val ∧ win3_6.index t (1 : Fin 3) = 0 ∧ win3_6.index t (2 : Fin 3) = 0
    ∧ win3_7.index t (0 : Fin 3) = t.val ∧ win3_7.index t (1 : Fin 3) = 0 ∧ win3_7.index t (2 : Fin 3) = 0 :=
  (by decide +kernel : ∀ t : Fin grid3.N, _)

/-- The five input arrays as region 3 finds them, and the full layer of them. -/
abbrev X3 (c : Dev nD) : FVec Ideal S100000x64 .f32 := V c (Pipeline.arrRef spec3 0)
abbrev A3 (c : Dev nD) : FVec Ideal S100000x64 .f32 := V c (Pipeline.arrRef spec3 1)
abbrev Ws3 (c : Dev nD) : FVec Ideal S64x64 .f32 := V c (Pipeline.arrRef spec3 2)
abbrev Wn3 (c : Dev nD) : FVec Ideal S64x64 .f32 := V c (Pipeline.arrRef spec3 3)
abbrev B3 (c : Dev nD) : FVec Ideal S1x64 .f32 := V c (Pipeline.arrRef spec3 4)
abbrev H3 (c : Dev nD) : FVec Ideal S100000x64 .f32 := hfull (X3 V c) (A3 V c) (Ws3 V c) (Wn3 V c) (B3 V c)
/-- The arrays region 3 leaves in its output windows. -/
abbrev O3_5 (c : Dev nD) : FVec Ideal S100000x64 .f32 := (dat3 V c).arrAt 5 cfg3.N
abbrev O3_6 (c : Dev nD) : FVec Ideal S20x8x64 .f32 := (dat3 V c).arrAt 6 cfg3.N
abbrev O3_7 (c : Dev nD) : FVec Ideal S20x8x64 .f32 := (dat3 V c).arrAt 7 cfg3.N

/-- Block t of X is its rows 5000·t … 5000·t + 4999. -/
theorem iblk3_0_apply (c : Dev nD) (t : Fin cfg3.N) (y : S5000x64.Idx) (i : S100000x64.Idx)
    (h0 : (i 0).val = 5000 * t.val + (y 0).val) (h1 : (i 1).val = (y 1).val) :
    (iblk3 V c 0 t : FVec Ideal S5000x64 .f32) y = X3 V c i := by
  obtain ⟨e0, e1, -⟩ := idx_facts3 t
  unfold iblk3
  rw [View.read_apply]
  show V c _ _ = V c _ _
  congr 1
  funext a
  apply Fin.ext
  match a with
  | ⟨0, _⟩ => show win3_0.index t 0 * 5000 + 1 * (y 0).val = (i 0).val; rw [e0, h0]; omega
  | ⟨1, _⟩ => show win3_0.index t 1 * 64 + 1 * (y 1).val = (i 1).val; rw [e1, h1]; omega

/-- Block t of A is its rows 5000·t … 5000·t + 4999. -/
theorem iblk3_1_apply (c : Dev nD) (t : Fin cfg3.N) (y : S5000x64.Idx) (i : S100000x64.Idx)
    (h0 : (i 0).val = 5000 * t.val + (y 0).val) (h1 : (i 1).val = (y 1).val) :
    (iblk3 V c 1 t : FVec Ideal S5000x64 .f32) y = A3 V c i := by
  obtain ⟨-, -, e0, e1, -⟩ := idx_facts3 t
  unfold iblk3
  rw [View.read_apply]
  show V c _ _ = V c _ _
  congr 1
  funext a
  apply Fin.ext
  match a with
  | ⟨0, _⟩ => show win3_1.index t 0 * 5000 + 1 * (y 0).val = (i 0).val; rw [e0, h0]; omega
  | ⟨1, _⟩ => show win3_1.index t 1 * 64 + 1 * (y 1).val = (i 1).val; rw [e1, h1]; omega

/-- The first weight window's one block is the whole array. -/
theorem iblk3_2_eq (c : Dev nD) (t : Fin cfg3.N) : (iblk3 V c 2 t : FVec Ideal S64x64 .f32) = Ws3 V c := by
  obtain ⟨-, -, -, -, e2, e3, -⟩ := idx_facts3 t
  funext y
  unfold iblk3
  rw [View.read_apply]
  show V c _ _ = V c _ _
  congr 1
  funext a
  apply Fin.ext
  match a with
  | ⟨0, _⟩ => show win3_2.index t 0 * 64 + 1 * (y 0).val = (y 0).val; rw [e2]; omega
  | ⟨1, _⟩ => show win3_2.index t 1 * 64 + 1 * (y 1).val = (y 1).val; rw [e3]; omega

/-- The second weight window's one block is the whole array. -/
theorem iblk3_3_eq (c : Dev nD) (t : Fin cfg3.N) : (iblk3 V c 3 t : FVec Ideal S64x64 .f32) = Wn3 V c := by
  obtain ⟨-, -, -, -, -, -, e2, e3, -⟩ := idx_facts3 t
  funext y
  unfold iblk3
  rw [View.read_apply]
  show V c _ _ = V c _ _
  congr 1
  funext a
  apply Fin.ext
  match a with
  | ⟨0, _⟩ => show win3_3.index t 0 * 64 + 1 * (y 0).val = (y 0).val; rw [e2]; omega
  | ⟨1, _⟩ => show win3_3.index t 1 * 64 + 1 * (y 1).val = (y 1).val; rw [e3]; omega

/-- The bias window's one block is the whole array. -/
theorem iblk3_4_eq (c : Dev nD) (t : Fin cfg3.N) : (iblk3 V c 4 t : FVec Ideal S1x64 .f32) = B3 V c := by
  obtain ⟨-, -, -, -, -, -, -, -, e2, e3, -⟩ := idx_facts3 t
  funext y
  unfold iblk3
  rw [View.read_apply]
  show V c _ _ = V c _ _
  congr 1
  funext a
  apply Fin.ext
  match a with
  | ⟨0, _⟩ => show win3_4.index t 0 * 1 + 1 * (y 0).val = (y 0).val; rw [e2]; omega
  | ⟨1, _⟩ => show win3_4.index t 1 * 64 + 1 * (y 1).val = (y 1).val; rw [e3]; omega

/-- The layer of the five blocks at point t is rows 5000·t … of the layer of the five arrays. -/
theorem hblk3 (c : Dev nD) (t : Fin cfg3.N) (j : S5000x64.Idx) (i : S100000x64.Idx)
    (h0 : (i 0).val = 5000 * t.val + (j 0).val) (h1 : (i 1).val = (j 1).val) :
    hfull (iblk3 V c 0 t) (iblk3 V c 1 t) (iblk3 V c 2 t) (iblk3 V c 3 t) (iblk3 V c 4 t) j = H3 V c i := by
  rw [iblk3_2_eq, iblk3_3_eq, iblk3_4_eq]
  exact hfull_rows (X3 V c) (A3 V c) (Ws3 V c) (Wn3 V c) (B3 V c) (iblk3 V c 0 t) (iblk3 V c 1 t) j i
    (fun k => iblk3_0_apply V c t _ _ h0 rfl) (fun k => iblk3_1_apply V c t _ _ h0 rfl) (Fin.ext h1.symm)

/-- What point t writes back through window 5 is block t of the layer. -/
theorem flushed3_5 (c : Dev nD) (t : Fin cfg3.N) :
    (dat3 V c).flushed 5 t = ((cfg3.win 5).blk t).view.read (Elt Ideal) (H3 V c) := by
  show (cfg3.win 5).cut (grid3.coords t) ((dat3 V c).after 5 t) = _
  rw [after3_5]
  unfold out3_5
  rw [View.canon_unit_zero hz2']
  simp only [View.ld_unit_zero (S := S5000x64) hz2', View.ld_unit_zero (S := S64x64) hz2', View.ld_unit_zero (S := S1x64) hz2']
  rw [pay3_1_eq]
  obtain ⟨-, -, -, -, -, -, -, -, -, -, e4, e5, -⟩ := idx_facts3 t
  funext j
  rw [View.read_apply]
  refine hblk3 V c t _ _ ?_ ?_
  · show win3_5.index t 0 * 5000 + 1 * (j 0).val = 5000 * t.val + (j 0).val
    rw [e4]; omega
  · show win3_5.index t 1 * 64 + 1 * (j 1).val = (j 1).val
    rw [e5]; omega

theorem mem_blk3_5 (t : Fin cfg3.N) (i : S100000x64.Idx) :
    i ∈ ((cfg3.win 5).blk t).view.set ↔ ∀ a : Fin 2, win3_5.index t a * S5000x64.size a ≤ (i a).val ∧ (i a).val < win3_5.index t a * S5000x64.size a + S5000x64.size a := by
  show i ∈ ((View.whole main_v65_0).slice (win3_5.rect t)).set ↔ _
  rw [View.set_slice_whole, Rect.mem_set_unit]
  exact Iff.rfl

/-- Row r lies in the block of point r / 5000, so the blocks cover the array. -/
theorem cover3_5_arr (i : S100000x64.Idx) :
    ∃ t : Fin cfg3.N, (cfg3.win 5).flush t = true ∧ i ∈ ((cfg3.win 5).blk t).view.set := by
  have hi0 : (i 0).val < 100000 := (i 0).isLt
  have hi1 : (i 1).val < 64 := (i 1).isLt
  have hN : cfg3.N = 20 := N_3
  refine ⟨⟨(i 0).val / 5000, by rw [hN]; omega⟩, flush3_5 _, ?_⟩
  rw [mem_blk3_5]
  obtain ⟨-, -, -, -, -, -, -, -, -, -, e4, e5, -⟩ := idx_facts3 ⟨(i 0).val / 5000, by rw [hN]; omega⟩
  intro a
  match a with
  | ⟨0, _⟩ => show win3_5.index _ 0 * 5000 ≤ (i 0).val ∧ (i 0).val < win3_5.index _ 0 * 5000 + 5000; rw [e4]; show (i 0).val / 5000 * 5000 ≤ (i 0).val ∧ (i 0).val < (i 0).val / 5000 * 5000 + 5000; omega
  | ⟨1, _⟩ => show win3_5.index _ 1 * 64 ≤ (i 1).val ∧ (i 1).val < win3_5.index _ 1 * 64 + 64; rw [e5]; omega

/-- The array region 3 leaves in window 5 is the full layer of its five input arrays, whatever they hold. -/
theorem region3_arr5 (c : Dev nD) : (dat3 V c).arrAt 5 cfg3.N = H3 V c :=
  (dat3 V c).arrAt_eq_of_cover 5 (H3 V c) (fun t _ => flushed3_5 V c t) cover3_5_arr

/-- The same, index by index. -/
theorem region3_out5 (c : Dev nD) (p : Fin 100000) (q : Fin 64) :
    O3_5 V c (ix2 p q) = (∑ k : Fin 64, X3 V c (ix2 p k) * Ws3 V c (ix2 k q) + ∑ k : Fin 64, A3 V c (ix2 p k) * Wn3 V c (ix2 k q)) + B3 V c (ix2 (0 : Fin 1) q) := by
  show (dat3 V c).arrAt 5 cfg3.N (ix2 p q) = _
  rw [region3_arr5]; rfl

/-- What point t writes back through window 6 is tile t of the column sums of the layer. -/
theorem flushed3_6 (c : Dev nD) (t : Fin cfg3.N) :
    (dat3 V c).flushed 6 t = ((cfg3.win 6).blk t).view.read (Elt Ideal) (tileSum (H3 V c)) := by
  show (cfg3.win 6).cut (grid3.coords t) ((dat3 V c).after 6 t) = _
  rw [after3_6]
  unfold out3_6
  rw [View.canon_unit_zero hz3']
  simp only [View.ld_unit_zero (S := S5000x64) hz2', View.ld_unit_zero (S := S64x64) hz2', View.ld_unit_zero (S := S1x64) hz2']
  obtain ⟨-, -, -, -, -, -, -, -, -, -, -, -, e0, e1, e2, -⟩ := idx_facts3 t
  have ht : t.val < 20 := lt_of_lt_of_eq t.isLt (show cfg3.N = 20 from N_3)
  funext j
  rw [View.read_apply]
  refine (pay3_2_at _ _ _ _ _ _).trans ?_
  refine tile_point (H3 V c) _ ⟨t.val, ht⟩ (fun k q => hblk3 V c t _ _ rfl rfl) _ _ ?_ ?_
  · apply Fin.ext
    show win3_6.index t 0 * 1 + 1 * (j 0).val = t.val
    have : (j 0).val < 1 := (j 0).isLt
    rw [e0]; omega
  · apply Fin.ext
    show win3_6.index t 2 * 64 + 1 * (j 2).val = (j 2).val
    rw [e2]; omega

theorem mem_blk3_6 (t : Fin cfg3.N) (i : S20x8x64.Idx) :
    i ∈ ((cfg3.win 6).blk t).view.set ↔ ∀ a : Fin 3, win3_6.index t a * S1x8x64.size a ≤ (i a).val ∧ (i a).val < win3_6.index t a * S1x8x64.size a + S1x8x64.size a := by
  show i ∈ ((View.whole main_v65_1).slice (win3_6.rect t)).set ↔ _
  rw [View.set_slice_whole, Rect.mem_set_unit]
  exact Iff.rfl

/-- Tile t is the block of point t, so the blocks cover the array. -/
theorem cover3_6_arr (i : S20x8x64.Idx) :
    ∃ t : Fin cfg3.N, (cfg3.win 6).flush t = true ∧ i ∈ ((cfg3.win 6).blk t).view.set := by
  have hi0 : (i 0).val < 20 := (i 0).isLt
  have hi1 : (i 1).val < 8 := (i 1).isLt
  have hi2 : (i 2).val < 64 := (i 2).isLt
  have hN : cfg3.N = 20 := N_3
  refine ⟨⟨(i 0).val, by rw [hN]; omega⟩, flush3_6 _, ?_⟩
  rw [mem_blk3_6]
  obtain ⟨-, -, -, -, -, -, -, -, -, -, -, -, e0, e1, e2, -⟩ := idx_facts3 ⟨(i 0).val, by rw [hN]; omega⟩
  intro a
  match a with
  | ⟨0, _⟩ => show win3_6.index _ 0 * 1 ≤ (i 0).val ∧ (i 0).val < win3_6.index _ 0 * 1 + 1; rw [e0]; show (i 0).val * 1 ≤ (i 0).val ∧ (i 0).val < (i 0).val * 1 + 1; omega
  | ⟨1, _⟩ => show win3_6.index _ 1 * 8 ≤ (i 1).val ∧ (i 1).val < win3_6.index _ 1 * 8 + 8; rw [e1]; omega
  | ⟨2, _⟩ => show win3_6.index _ 2 * 64 ≤ (i 2).val ∧ (i 2).val < win3_6.index _ 2 * 64 + 64; rw [e2]; omega

/-- The array region 3 leaves in window 6: per tile of 5000 rows and per column, the sum of the layer over the
    tile's rows, the same at each of the 8 sublanes. -/
theorem region3_arr6 (c : Dev nD) : (dat3 V c).arrAt 6 cfg3.N = tileSum (H3 V c) :=
  (dat3 V c).arrAt_eq_of_cover 6 (tileSum (H3 V c)) (fun t _ => flushed3_6 V c t) cover3_6_arr

/-- The same, index by index (no leading 0 +). -/
theorem region3_out6 (c : Dev nD) (t : Fin 20) (r : Fin 8) (q : Fin 64) :
    O3_6 V c (ix3 t r q) = ∑ k : Fin 5000, H3 V c (ix2 ⟨5000 * t.val + k.val, tile_lt t k⟩ q) := by
  show (dat3 V c).arrAt 6 cfg3.N (ix3 t r q) = _
  rw [region3_arr6]; rfl

/-- What point t writes back through window 7 is tile t of the column sums of the layer's squares. -/
theorem flushed3_7 (c : Dev nD) (t : Fin cfg3.N) :
    (dat3 V c).flushed 7 t = ((cfg3.win 7).blk t).view.read (Elt Ideal) (tileSum (mulf (H3 V c) (H3 V c))) := by
  show (cfg3.win 7).cut (grid3.coords t) ((dat3 V c).after 7 t) = _
  rw [after3_7]
  unfold out3_7
  rw [View.canon_unit_zero hz3']
  simp only [View.ld_unit_zero (S := S5000x64) hz2', View.ld_unit_zero (S := S64x64) hz2', View.ld_unit_zero (S := S1x64) hz2']
  obtain ⟨-, -, -, -, -, -, -, -, -, -, -, -, -, -, -, e0, e1, e2⟩ := idx_facts3 t
  have ht : t.val < 20 := lt_of_lt_of_eq t.isLt (show cfg3.N = 20 from N_3)
  funext j
  rw [View.read_apply]
  refine (pay3_3_at _ _ _ _ _ _).trans ?_
  refine tile_point_sq (H3 V c) _ ⟨t.val, ht⟩ (fun k q => hblk3 V c t _ _ rfl rfl) _ _ ?_ ?_
  · apply Fin.ext
    show win3_7.index t 0 * 1 + 1 * (j 0).val = t.val
    have : (j 0).val < 1 := (j 0).isLt
    rw [e0]; omega
  · apply Fin.ext
    show win3_7.index t 2 * 64 + 1 * (j 2).val = (j 2).val
    rw [e2]; omega

theorem mem_blk3_7 (t : Fin cfg3.N) (i : S20x8x64.Idx) :
    i ∈ ((cfg3.win 7).blk t).view.set ↔ ∀ a : Fin 3, win3_7.index t a * S1x8x64.size a ≤ (i a).val ∧ (i a).val < win3_7.index t a * S1x8x64.size a + S1x8x64.size a := by
  show i ∈ ((View.whole main_v65_2).slice (win3_7.rect t)).set ↔ _
  rw [View.set_slice_whole, Rect.mem_set_unit]
  exact Iff.rfl

/-- Tile t is the block of point t, so the blocks cover the array. -/
theorem cover3_7_arr (i : S20x8x64.Idx) :
    ∃ t : Fin cfg3.N, (cfg3.win 7).flush t = true ∧ i ∈ ((cfg3.win 7).blk t).view.set := by
  have hi0 : (i 0).val < 20 := (i 0).isLt
  have hi1 : (i 1).val < 8 := (i 1).isLt
  have hi2 : (i 2).val < 64 := (i 2).isLt
  have hN : cfg3.N = 20 := N_3
  refine ⟨⟨(i 0).val, by rw [hN]; omega⟩, flush3_7 _, ?_⟩
  rw [mem_blk3_7]
  obtain ⟨-, -, -, -, -, -, -, -, -, -, -, -, -, -, -, e0, e1, e2⟩ := idx_facts3 ⟨(i 0).val, by rw [hN]; omega⟩
  intro a
  match a with
  | ⟨0, _⟩ => show win3_7.index _ 0 * 1 ≤ (i 0).val ∧ (i 0).val < win3_7.index _ 0 * 1 + 1; rw [e0]; show (i 0).val * 1 ≤ (i 0).val ∧ (i 0).val < (i 0).val * 1 + 1; omega
  | ⟨1, _⟩ => show win3_7.index _ 1 * 8 ≤ (i 1).val ∧ (i 1).val < win3_7.index _ 1 * 8 + 8; rw [e1]; omega
  | ⟨2, _⟩ => show win3_7.index _ 2 * 64 ≤ (i 2).val ∧ (i 2).val < win3_7.index _ 2 * 64 + 64; rw [e2]; omega

/-- The array region 3 leaves in window 7: per tile of 5000 rows and per column, the sum of the layer's squares over the
    tile's rows, the same at each of the 8 sublanes. -/
theorem region3_arr7 (c : Dev nD) : (dat3 V c).arrAt 7 cfg3.N = tileSum (mulf (H3 V c) (H3 V c)) :=
  (dat3 V c).arrAt_eq_of_cover 7 (tileSum (mulf (H3 V c) (H3 V c))) (fun t _ => flushed3_7 V c t) cover3_7_arr

/-- The same, index by index (no leading 0 +). -/
theorem region3_out7 (c : Dev nD) (t : Fin 20) (r : Fin 8) (q : Fin 64) :
    O3_7 V c (ix3 t r q) = ∑ k : Fin 5000, H3 V c (ix2 ⟨5000 * t.val + k.val, tile_lt t k⟩ q) * H3 V c (ix2 ⟨5000 * t.val + k.val, tile_lt t k⟩ q) := by
  show (dat3 V c).arrAt 7 cfg3.N (ix3 t r q) = _
  rw [region3_arr7]; rfl

end Cert.KernelIdeal.RegionValue

end
-- ==== Proof.KStage7.lean ====
/- Layer 2 of the kernel's value, given that the table the layer reads (main_v50, at boundary 7) is the previous
   normalisation's output: the mean by a reciprocal host stretch 3 computes, the bias row, and what region 3 leaves in its
   three output arrays — the layer's output table and the per-tile column sums of it and of its square. -/
import proofs.«174735_j64811056496761_2_alg».proof.Proof.KHost3
import proofs.«174735_j64811056496761_2_alg».proof.Proof.KKeep1
import proofs.«174735_j64811056496761_2_alg».proof.Proof.KKeep2
import proofs.«174735_j64811056496761_2_alg».proof.Proof.KKeep3
import proofs.«174735_j64811056496761_2_alg».proof.Proof.KStage0
import proofs.«174735_j64811056496761_2_alg».proof.Proof.KArgs
import proofs.«174735_j64811056496761_2_alg».proof.Proof.KAgg
import proofs.«174735_j64811056496761_2_alg».proof.Proof.LawLayer
import proofs.«174735_j64811056496761_2_alg».proof.Proof.KSageFull3
import Idealize.ShloMosaic.Lib.IdealHost

set_option maxRecDepth 16384

noncomputable section

namespace Cert.KernelIdeal.Trace

open Idealize.ShloMosaic Idealize.ShloMosaic.TcCoe Idealize.ShloMosaic.ValueIdx
open Cert.KernelIdeal Cert.KernelIdeal.Gen Cert.GNet
open scoped BigOperators

variable (m : (ℓ : Loc nD τ sig) → Buf (Elt Ideal) ℓ) (ρ : Dev nD → PrngReg) (c : Dev nD)

/-- Host stretch 3 leaves in main_v63 the rows of the layer's input carried along the edges, summed at their end nodes and scaled
    by the reciprocal of the guarded count. -/
theorem stage7_v63 (hN : (Gen.W7 m ρ c (Proc.devRef .tc main_v50) : Tab NN 64) = kN1 m c) :
    (Gen.W7 m ρ c (Proc.devRef .tc main_v63) : Tab NN 64) = meanRecip (kN1 m c) (aSrc m c) (aDst m c) := by
  refine (host3_v63 m ρ c).trans ?_
  rw [← host3_v50 m ρ c, hN, arg1_W6 m ρ c, arg2_W6 m ρ c]
  exact Agg.aggStage gather_S100000x64_S1600000x1_S1600000x64_1_0_n_n_0_1_164
    gather_S100000x64_S1600000x1_S1600000x64_1_0_n_n_0_1_164_wf rfl
    scatter_S100000x64_S1600000x1_S1600000x64_1_0_0_1 scatter_S100000x64_S1600000x1_S1600000x64_1_0_0_1_wf rfl
    bcast_S100000_S100000x1_0 bcast_S100000x1_S100000x64_0_1 _ (fun i => HostRead.bcast_zero_apply _ i)
    (kN1 m c) (aSrc m c) (aDst m c) (Gen.W6 m ρ c (Proc.devRef .tc main_v7))
    (fun p => (congrFun (v7_W6 m ρ c) (ix1 p)).trans (stage0_v7 m ρ c p))

/-- Layer 2's bias as region 3 reads it: the one-row table host stretch 3 makes of it, at lane `q`. -/
theorem stage7_v64 (q : Fin 64) :
    (Gen.W7 m ρ c (Proc.devRef .tc main_v64) : Tab 1 64) (ix2 (0 : Fin 1) q) = aB2 m c (ix1 q) := by
  refine (congrFun (host3_v64 m ρ c) (ix2 (0 : Fin 1) q)).trans ?_
  rw [arg10_W6 m ρ c]
  exact Agg.biasRow_apply _ _ q

/-- Region 3's first input array at its entry is the layer's input. -/
theorem r3_X (hN : (Gen.W7 m ρ c (Proc.devRef .tc main_v50) : Tab NN 64) = kN1 m c) : RegionValue.X3 (Gen.V7 m ρ) c = kN1 m c := hN
/-- Its second is the input's mean by a reciprocal over the edges. -/
theorem r3_A (hN : (Gen.W7 m ρ c (Proc.devRef .tc main_v50) : Tab NN 64) = kN1 m c) : RegionValue.A3 (Gen.V7 m ρ) c = meanRecip (kN1 m c) (aSrc m c) (aDst m c) :=
  stage7_v63 m ρ c hN
/-- Its third is layer 2's own-row matrix. -/
theorem r3_Ws : RegionValue.Ws3 (Gen.V7 m ρ) c = aWs2 m c := arg8_W7 m ρ c
/-- Its fourth is layer 2's neighbour matrix. -/
theorem r3_Wn : RegionValue.Wn3 (Gen.V7 m ρ) c = aWn2 m c := arg9_W7 m ρ c
/-- Its fifth, the bias row, reads layer 2's bias. -/
theorem r3_B (q : Fin 64) : RegionValue.B3 (Gen.V7 m ρ) c (ix2 (0 : Fin 1) q) = aB2 m c (ix1 q) := stage7_v64 m ρ c q

/-- What region 3 computes at row `p`, lane `q` from its five input arrays as they are at its entry — the row of the layer's
    input times the own-row matrix, plus the row of the aggregated table times the neighbour matrix, plus the bias row's
    lane — is layer 2's output at (p, q). -/
theorem r3H_eq (hN : (Gen.W7 m ρ c (Proc.devRef .tc main_v50) : Tab NN 64) = kN1 m c) (p : Fin NN) (q : Fin 64) :
    (∑ k : Fin 64, RegionValue.X3 (Gen.V7 m ρ) c (ix2 p k) * RegionValue.Ws3 (Gen.V7 m ρ) c (ix2 k q)
        + ∑ k : Fin 64, RegionValue.A3 (Gen.V7 m ρ) c (ix2 p k) * RegionValue.Wn3 (Gen.V7 m ρ) c (ix2 k q))
      + RegionValue.B3 (Gen.V7 m ρ) c (ix2 (0 : Fin 1) q)
      = kH2 m c (ix2 p q) := by
  rw [r3_X m ρ c hN, r3_Ws m ρ c, r3_A m ρ c hN, r3_Wn m ρ c, r3_B m ρ c q,
    show kH2 m c (ix2 p q) = _ from sageFull_apply _ _ _ _ _ _ p q, rowsMul_apply, rowsMul_apply]

/-- Region 3's whole table of such values is layer 2's output. -/
theorem r3H_arr (hN : (Gen.W7 m ρ c (Proc.devRef .tc main_v50) : Tab NN 64) = kN1 m c) : RegionValue.H3 (Gen.V7 m ρ) c = kH2 m c := by
  funext i
  obtain ⟨p, q, rfl⟩ : ∃ (p : Fin NN) (q : Fin 64), i = ix2 p q := ⟨i 0, i 1, eq_ix2 i⟩
  exact (RegionValue.hfull_apply _ _ _ _ _ p q).trans (r3H_eq m ρ c hN p q)

/-- Region 3 leaves layer 2's output in main_v65_0. -/
theorem stage8_v65_0 (hN : (Gen.W7 m ρ c (Proc.devRef .tc main_v50) : Tab NN 64) = kN1 m c) :
    (Gen.W8 m ρ c (Proc.devRef .tc main_v65_0) : Tab NN 64) = kH2 m c :=
  (out_v65_0 m ρ c).trans ((RegionValue.region3_arr5 (Gen.V7 m ρ) c).trans (r3H_arr m ρ c hN))

/-- Region 3 leaves in main_v65_1, at tile `t` (any of its 8 rows), the column sums of layer 2's output over the tile. -/
theorem stage8_v65_1 (hN : (Gen.W7 m ρ c (Proc.devRef .tc main_v50) : Tab NN 64) = kN1 m c) (t : Fin 20) (r : Fin 8) (q : Fin 64) :
    (Gen.W8 m ρ c (Proc.devRef .tc main_v65_1) : S20x8x64.Idx → EReal) (ix3 t r q)
      = ∑ k : Fin 5000, kH2 m c (ix2 (tileRow t k) q) := by
  refine (congrFun (out_v65_1 m ρ c) (ix3 t r q)).trans ((RegionValue.region3_out6 (Gen.V7 m ρ) c t r q).trans ?_)
  rw [r3H_arr m ρ c hN]
  rfl

/-- Region 3 leaves in main_v65_2, at tile `t`, the column sums of the square of layer 2's output over the tile. -/
theorem stage8_v65_2 (hN : (Gen.W7 m ρ c (Proc.devRef .tc main_v50) : Tab NN 64) = kN1 m c) (t : Fin 20) (r : Fin 8) (q : Fin 64) :
    (Gen.W8 m ρ c (Proc.devRef .tc main_v65_2) : S20x8x64.Idx → EReal) (ix3 t r q)
      = ∑ k : Fin 5000, kH2 m c (ix2 (tileRow t k) q) * kH2 m c (ix2 (tileRow t k) q) := by
  refine (congrFun (out_v65_2 m ρ c) (ix3 t r q)).trans ((RegionValue.region3_out7 (Gen.V7 m ρ) c t r q).trans ?_)
  rw [r3H_arr m ρ c hN]
  rfl

end Cert.KernelIdeal.Trace

end
-- ==== Proof.KHost5.lean ====
/- Host stretch 5 of @main: what each buffer it writes that is read later holds at the stretch's end (boundary 11),
   as the stretch's operations applied to the contents at its start (boundary 10). -/
import proofs.«174735_j64811056496761_2_alg».proof.Proof.Gen.KernelIdeal.Frame

set_option maxRecDepth 16384

noncomputable section

namespace Cert.KernelIdeal.Trace

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- `main_v92` at boundary 11: the operations of host stretch 5 that produce it, composed, over the contents at boundary 10. -/
theorem host5_v92 (c : Dev nD) :
    Gen.W11 m ρ c (Proc.devRef .tc main_v92) =
      (shapeCast S100000x64
        (Gen.W10 m ρ c (Proc.devRef .tc main_v91) : (⟨S50000x128, .f32⟩ : BufTy).Contents (Elt F))
        shapeCasts_S50000x128_S100000x64 : (⟨S100000x64, .f32⟩ : BufTy).Contents (Elt F)) := by
  show StableHlo.after Gen.hostOps5 _ _ = _
  after_results_simp
  all_goals rfl

/-- `main_v105` at boundary 11: the operations of host stretch 5 that produce it, composed, over the contents at boundary 10. -/
theorem host5_v105 (c : Dev nD) :
    Gen.W11 m ρ c (Proc.devRef .tc main_v105) =
      ((mulf : (⟨S100000x64, .f32⟩ : BufTy).Contents (Elt F) → (⟨S100000x64, .f32⟩ : BufTy).Contents (Elt F) → (⟨S100000x64, .f32⟩ : BufTy).Contents (Elt F))
        (Host.scatterAdd scatter_S100000x64_S1600000x1_S1600000x64_1_0_0_1
          ((broadcastInDim S100000x64 ![] bcast_S_S100000x64 : (⟨S_, .f32⟩ : BufTy).Contents (Elt F) → (⟨S100000x64, .f32⟩ : BufTy).Contents (Elt F))
            (constant S_ .f32 0x00000000#32 : (⟨S_, .f32⟩ : BufTy).Contents (Elt F)))
          ((broadcastInDim S1600000x1 ![0] bcast_S1600000_S1600000x1_0 : (⟨S1600000, .i32⟩ : BufTy).Contents (Elt F) → (⟨S1600000x1, .i32⟩ : BufTy).Contents (Elt F))
            (Gen.W10 m ρ c (Proc.devRef .tc main_arg2) : (⟨S1600000, .i32⟩ : BufTy).Contents (Elt F)))
          (Host.gather gather_S100000x64_S1600000x1_S1600000x64_1_0_n_n_0_1_164
            (shapeCast S100000x64
              (Gen.W10 m ρ c (Proc.devRef .tc main_v91) : (⟨S50000x128, .f32⟩ : BufTy).Contents (Elt F))
              shapeCasts_S50000x128_S100000x64 : (⟨S100000x64, .f32⟩ : BufTy).Contents (Elt F))
            ((broadcastInDim S1600000x1 ![0] bcast_S1600000_S1600000x1_0 : (⟨S1600000, .i32⟩ : BufTy).Contents (Elt F) → (⟨S1600000x1, .i32⟩ : BufTy).Contents (Elt F))
              ((select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F))
                ((cmpi .slt : (⟨S1600000, .i32⟩ : BufTy).Contents (Elt F) → (⟨S1600000, .i32⟩ : BufTy).Contents (Elt F) → (⟨S1600000, .i1⟩ : BufTy).Contents (Elt F))
                  (Gen.W10 m ρ c (Proc.devRef .tc main_arg1) : (⟨S1600000, .i32⟩ : BufTy).Contents (Elt F))
                  ((broadcastInDim S1600000 ![] bcast_S_S1600000 : (⟨S_, .i32⟩ : BufTy).Contents (Elt F) → (⟨S1600000, .i32⟩ : BufTy).Contents (Elt F))
                    (constantI S_ 32 0#32 : (⟨S_, .i32⟩ : BufTy).Contents (Elt F))))
                ((addi : (⟨S1600000, .i32⟩ : BufTy).Contents (Elt F) → (⟨S1600000, .i32⟩ : BufTy).Contents (Elt F) → (⟨S1600000, .i32⟩ : BufTy).Contents (Elt F))
                  (Gen.W10 m ρ c (Proc.devRef .tc main_arg1) : (⟨S1600000, .i32⟩ : BufTy).Contents (Elt F))
                  ((broadcastInDim S1600000 ![] bcast_S_S1600000 : (⟨S_, .i32⟩ : BufTy).Contents (Elt F) → (⟨S1600000, .i32⟩ : BufTy).Contents (Elt F))
                    (constantI S_ 32 100000#32 : (⟨S_, .i32⟩ : BufTy).Contents (Elt F))))
                (Gen.W10 m ρ c (Proc.devRef .tc main_arg1) : (⟨S1600000, .i32⟩ : BufTy).Contents (Elt F)))) : (⟨S1600000x64, .f32⟩ : BufTy).Contents (Elt F)) : (⟨S100000x64, .f32⟩ : BufTy).Contents (Elt F))
        ((broadcastInDim S100000x64 ![0, 1] bcast_S100000x1_S100000x64_0_1 : (⟨S100000x1, .f32⟩ : BufTy).Contents (Elt F) → (⟨S100000x64, .f32⟩ : BufTy).Contents (Elt F))
          ((broadcastInDim S100000x1 ![0] bcast_S100000_S100000x1_0 : (⟨S100000, .f32⟩ : BufTy).Contents (Elt F) → (⟨S100000x1, .f32⟩ : BufTy).Contents (Elt F))
            (Gen.W10 m ρ c (Proc.devRef .tc main_v7) : (⟨S100000, .f32⟩ : BufTy).Contents (Elt F))))) := by
  show StableHlo.after Gen.hostOps5 _ _ = _
  after_results_simp
  all_goals rfl

/-- `main_v106` at boundary 11: the operations of host stretch 5 that produce it, composed, over the contents at boundary 10. -/
theorem host5_v106 (c : Dev nD) :
    Gen.W11 m ρ c (Proc.devRef .tc main_v106) =
      (shapeCast S1x64
        (Gen.W10 m ρ c (Proc.devRef .tc main_arg15) : (⟨S64, .f32⟩ : BufTy).Contents (Elt F))
        shapeCasts_S64_S1x64 : (⟨S1x64, .f32⟩ : BufTy).Contents (Elt F)) := by
  show StableHlo.after Gen.hostOps5 _ _ = _
  after_results_simp
  all_goals rfl

end Cert.KernelIdeal.Trace

end
-- ==== Proof.KSageFull5.lean ====
/-
  The third layer's region of the kernel, read as whole arrays.

  The region walks twenty blocks of 5000 rows. At a block it multiplies the block of X by the first weight matrix and the
  same block of the aggregated array A by the second, each into a zero accumulator, adds the two products and the bias
  row, and writes the block of the layer back; it also writes, per block, the column sums of the layer's block and of its
  squares, kept at each of 8 sublanes. Row p of the layer reads row p of X and of A only, and the twenty blocks tile the
  rows, so after the region the layer's window holds the layer of the whole arrays and the two statistics windows hold
  its column sums by tiles. The statements hold for any contents of the buffers at the region's entry.
-/
import proofs.«174735_j64811056496761_2_alg».proof.Proof.Gen.KernelIdeal.Frame
import proofs.«174735_j64811056496761_2_alg».proof.Proof.KLayerDefs
import proofs.«174735_j64811056496761_2_alg».proof.Proof.LibColStat
import Idealize.ShloMosaic.Lib.ValueLayout
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.RegionValue

open Cert.KernelIdeal Cert.KernelIdeal.Gen Cert.LibDenseProduct

variable (V : (c : Dev nD) → (b : Ref sig .tc) → Buf (Elt Ideal) ((c : Thread nD τ).loc b))

/-! ## Region 5: the third layer, (h · Ws + agg · Wn) + b, and its tile statistics -/

/-- The body's first payload is the full layer of its five loaded blocks: casts of a block to its own shape are the
    identity, rounding the operands of the two products changes nothing at the ideal values, both accumulators start at
    zero, and the one bias row is broadcast over the rows. -/
theorem pay5_1_eq (x0 a : FVec Ideal S5000x64 .f32) (ws wn : FVec Ideal S64x64 .f32) (b : FVec Ideal S1x64 .f32) :
    k5_pay1 x0 a ws wn b = hfull x0 a ws wn b := by
  funext j
  obtain ⟨p, q, rfl⟩ : ∃ (p : Fin 5000) (q : Fin 64), j = ix2 p q := ⟨j 0, j 1, eq_ix2 j⟩
  unfold k5_pay1
  rw [hfull_apply, shapeCast_self, shapeCast_self, shapeCast_self, addf_apply, addf_apply, broadcastTo_1b_ab_apply]
  refine congrArg₂ (fun z z' : EReal => (z + z') + b (ix2 (0 : Fin 1) q)) ?_ ?_
  · exact Cert.LibMatmulPlain.matmul_plain_zero_apply none _ _ p q
  · exact Cert.LibMatmulPlain.matmul_plain_zero_apply none _ _ p q

/-- The second payload: at every sublane r, the sum of the layer's block over its 5000 rows, column by column (the
    reduction starts from the zero word, which adds nothing: no leading 0 + is left). -/
theorem pay5_2_apply (x0 a : FVec Ideal S5000x64 .f32) (ws wn : FVec Ideal S64x64 .f32) (b : FVec Ideal S1x64 .f32)
    (u : Fin 1) (r : Fin 8) (q : Fin 64) :
    k5_pay2 x0 a ws wn b (ix3 u r q) = ∑ k : Fin 5000, hfull x0 a ws wn b (ix2 k q) := by
  unfold k5_pay2
  rw [shapeCast_ab_1ab_apply, broadcastTo_1b_ab_apply, shapeCast_self, shapeCast_a_1a_apply]
  refine (Cert.LibColStat.sum_rows_apply _ _ _ _ _ q).trans ?_
  rw [pay5_1_eq]

/-- The third payload: the same sum of the squares. -/
theorem pay5_3_apply (x0 a : FVec Ideal S5000x64 .f32) (ws wn : FVec Ideal S64x64 .f32) (b : FVec Ideal S1x64 .f32)
    (u : Fin 1) (r : Fin 8) (q : Fin 64) :
    k5_pay3 x0 a ws wn b (ix3 u r q)
      = ∑ k : Fin 5000, hfull x0 a ws wn b (ix2 k q) * hfull x0 a ws wn b (ix2 k q) := by
  unfold k5_pay3
  rw [shapeCast_ab_1ab_apply, broadcastTo_1b_ab_apply, shapeCast_self, shapeCast_a_1a_apply]
  refine (Cert.LibColStat.sum_rows_apply _ _ _ _ _ q).trans ?_
  rw [pay5_1_eq]
  rfl

theorem pay5_2_at (x0 a : FVec Ideal S5000x64 .f32) (ws wn : FVec Ideal S64x64 .f32) (b : FVec Ideal S1x64 .f32)
    (y : S1x8x64.Idx) :
    k5_pay2 x0 a ws wn b y = ∑ k : Fin 5000, hfull x0 a ws wn b (ix2 k (y 2)) := by
  obtain ⟨u, r, q, rfl⟩ : ∃ (u : Fin 1) (r : Fin 8) (q : Fin 64), y = ix3 u r q := ⟨y 0, y 1, y 2, eq_ix3 y⟩
  exact pay5_2_apply x0 a ws wn b u r q

theorem pay5_3_at (x0 a : FVec Ideal S5000x64 .f32) (ws wn : FVec Ideal S64x64 .f32) (b : FVec Ideal S1x64 .f32)
    (y : S1x8x64.Idx) :
    k5_pay3 x0 a ws wn b y
      = ∑ k : Fin 5000, hfull x0 a ws wn b (ix2 k (y 2)) * hfull x0 a ws wn b (ix2 k (y 2)) := by
  obtain ⟨u, r, q, rfl⟩ : ∃ (u : Fin 1) (r : Fin 8) (q : Fin 64), y = ix3 u r q := ⟨y 0, y 1, y 2, eq_ix3 y⟩
  exact pay5_3_apply x0 a ws wn b u r q

/-- The index maps over the grid: the row windows move one block of 5000 rows per point, the statistics windows one
    tile per point, the weight and bias windows stay. -/
theorem idx_facts5 : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0
    ∧ win5_6.index t (0 : Fin 3) = t.val ∧ win5_6.index t (1 : Fin 3) = 0 ∧ win5_6.index t (2 : Fin 3) = 0
    ∧ win5_7.index t (0 : Fin 3) = t.val ∧ win5_7.index t (1 : Fin 3) = 0 ∧ win5_7.index t (2 : Fin 3) = 0 :=
  (by decide +kernel : ∀ t : Fin grid5.N, _)

/-- The five input arrays as region 5 finds them, and the full layer of them. -/
abbrev X5 (c : Dev nD) : FVec Ideal S100000x64 .f32 := V c (Pipeline.arrRef spec5 0)
abbrev A5 (c : Dev nD) : FVec Ideal S100000x64 .f32 := V c (Pipeline.arrRef spec5 1)
abbrev Ws5 (c : Dev nD) : FVec Ideal S64x64 .f32 := V c (Pipeline.arrRef spec5 2)
abbrev Wn5 (c : Dev nD) : FVec Ideal S64x64 .f32 := V c (Pipeline.arrRef spec5 3)
abbrev B5 (c : Dev nD) : FVec Ideal S1x64 .f32 := V c (Pipeline.arrRef spec5 4)
abbrev H5 (c : Dev nD) : FVec Ideal S100000x64 .f32 := hfull (X5 V c) (A5 V c) (Ws5 V c) (Wn5 V c) (B5 V c)
/-- The arrays region 5 leaves in its output windows. -/
abbrev O5_5 (c : Dev nD) : FVec Ideal S100000x64 .f32 := (dat5 V c).arrAt 5 cfg5.N
abbrev O5_6 (c : Dev nD) : FVec Ideal S20x8x64 .f32 := (dat5 V c).arrAt 6 cfg5.N
abbrev O5_7 (c : Dev nD) : FVec Ideal S20x8x64 .f32 := (dat5 V c).arrAt 7 cfg5.N

/-- Block t of X is its rows 5000·t … 5000·t + 4999. -/
theorem iblk5_0_apply (c : Dev nD) (t : Fin cfg5.N) (y : S5000x64.Idx) (i : S100000x64.Idx)
    (h0 : (i 0).val = 5000 * t.val + (y 0).val) (h1 : (i 1).val = (y 1).val) :
    (iblk5 V c 0 t : FVec Ideal S5000x64 .f32) y = X5 V c i := by
  obtain ⟨e0, e1, -⟩ := idx_facts5 t
  unfold iblk5
  rw [View.read_apply]
  show V c _ _ = V c _ _
  congr 1
  funext a
  apply Fin.ext
  match a with
  | ⟨0, _⟩ => show win5_0.index t 0 * 5000 + 1 * (y 0).val = (i 0).val; rw [e0, h0]; omega
  | ⟨1, _⟩ => show win5_0.index t 1 * 64 + 1 * (y 1).val = (i 1).val; rw [e1, h1]; omega

/-- Block t of A is its rows 5000·t … 5000·t + 4999. -/
theorem iblk5_1_apply (c : Dev nD) (t : Fin cfg5.N) (y : S5000x64.Idx) (i : S100000x64.Idx)
    (h0 : (i 0).val = 5000 * t.val + (y 0).val) (h1 : (i 1).val = (y 1).val) :
    (iblk5 V c 1 t : FVec Ideal S5000x64 .f32) y = A5 V c i := by
  obtain ⟨-, -, e0, e1, -⟩ := idx_facts5 t
  unfold iblk5
  rw [View.read_apply]
  show V c _ _ = V c _ _
  congr 1
  funext a
  apply Fin.ext
  match a with
  | ⟨0, _⟩ => show win5_1.index t 0 * 5000 + 1 * (y 0).val = (i 0).val; rw [e0, h0]; omega
  | ⟨1, _⟩ => show win5_1.index t 1 * 64 + 1 * (y 1).val = (i 1).val; rw [e1, h1]; omega

/-- The first weight window's one block is the whole array. -/
theorem iblk5_2_eq (c : Dev nD) (t : Fin cfg5.N) : (iblk5 V c 2 t : FVec Ideal S64x64 .f32) = Ws5 V c := by
  obtain ⟨-, -, -, -, e2, e3, -⟩ := idx_facts5 t
  funext y
  unfold iblk5
  rw [View.read_apply]
  show V c _ _ = V c _ _
  congr 1
  funext a
  apply Fin.ext
  match a with
  | ⟨0, _⟩ => show win5_2.index t 0 * 64 + 1 * (y 0).val = (y 0).val; rw [e2]; omega
  | ⟨1, _⟩ => show win5_2.index t 1 * 64 + 1 * (y 1).val = (y 1).val; rw [e3]; omega

/-- The second weight window's one block is the whole array. -/
theorem iblk5_3_eq (c : Dev nD) (t : Fin cfg5.N) : (iblk5 V c 3 t : FVec Ideal S64x64 .f32) = Wn5 V c := by
  obtain ⟨-, -, -, -, -, -, e2, e3, -⟩ := idx_facts5 t
  funext y
  unfold iblk5
  rw [View.read_apply]
  show V c _ _ = V c _ _
  congr 1
  funext a
  apply Fin.ext
  match a with
  | ⟨0, _⟩ => show win5_3.index t 0 * 64 + 1 * (y 0).val = (y 0).val; rw [e2]; omega
  | ⟨1, _⟩ => show win5_3.index t 1 * 64 + 1 * (y 1).val = (y 1).val; rw [e3]; omega

/-- The bias window's one block is the whole array. -/
theorem iblk5_4_eq (c : Dev nD) (t : Fin cfg5.N) : (iblk5 V c 4 t : FVec Ideal S1x64 .f32) = B5 V c := by
  obtain ⟨-, -, -, -, -, -, -, -, e2, e3, -⟩ := idx_facts5 t
  funext y
  unfold iblk5
  rw [View.read_apply]
  show V c _ _ = V c _ _
  congr 1
  funext a
  apply Fin.ext
  match a with
  | ⟨0, _⟩ => show win5_4.index t 0 * 1 + 1 * (y 0).val = (y 0).val; rw [e2]; omega
  | ⟨1, _⟩ => show win5_4.index t 1 * 64 + 1 * (y 1).val = (y 1).val; rw [e3]; omega

/-- The layer of the five blocks at point t is rows 5000·t … of the layer of the five arrays. -/
theorem hblk5 (c : Dev nD) (t : Fin cfg5.N) (j : S5000x64.Idx) (i : S100000x64.Idx)
    (h0 : (i 0).val = 5000 * t.val + (j 0).val) (h1 : (i 1).val = (j 1).val) :
    hfull (iblk5 V c 0 t) (iblk5 V c 1 t) (iblk5 V c 2 t) (iblk5 V c 3 t) (iblk5 V c 4 t) j = H5 V c i := by
  rw [iblk5_2_eq, iblk5_3_eq, iblk5_4_eq]
  exact hfull_rows (X5 V c) (A5 V c) (Ws5 V c) (Wn5 V c) (B5 V c) (iblk5 V c 0 t) (iblk5 V c 1 t) j i
    (fun k => iblk5_0_apply V c t _ _ h0 rfl) (fun k => iblk5_1_apply V c t _ _ h0 rfl) (Fin.ext h1.symm)

/-- What point t writes back through window 5 is block t of the layer. -/
theorem flushed5_5 (c : Dev nD) (t : Fin cfg5.N) :
    (dat5 V c).flushed 5 t = ((cfg5.win 5).blk t).view.read (Elt Ideal) (H5 V c) := by
  show (cfg5.win 5).cut (grid5.coords t) ((dat5 V c).after 5 t) = _
  rw [after5_5]
  unfold out5_5
  rw [View.canon_unit_zero hz2']
  simp only [View.ld_unit_zero (S := S5000x64) hz2', View.ld_unit_zero (S := S64x64) hz2', View.ld_unit_zero (S := S1x64) hz2']
  rw [pay5_1_eq]
  obtain ⟨-, -, -, -, -, -, -, -, -, -, e4, e5, -⟩ := idx_facts5 t
  funext j
  rw [View.read_apply]
  refine hblk5 V c t _ _ ?_ ?_
  · show win5_5.index t 0 * 5000 + 1 * (j 0).val = 5000 * t.val + (j 0).val
    rw [e4]; omega
  · show win5_5.index t 1 * 64 + 1 * (j 1).val = (j 1).val
    rw [e5]; omega

theorem mem_blk5_5 (t : Fin cfg5.N) (i : S100000x64.Idx) :
    i ∈ ((cfg5.win 5).blk t).view.set ↔ ∀ a : Fin 2, win5_5.index t a * S5000x64.size a ≤ (i a).val ∧ (i a).val < win5_5.index t a * S5000x64.size a + S5000x64.size a := by
  show i ∈ ((View.whole main_v107_0).slice (win5_5.rect t)).set ↔ _
  rw [View.set_slice_whole, Rect.mem_set_unit]
  exact Iff.rfl

/-- Row r lies in the block of point r / 5000, so the blocks cover the array. -/
theorem cover5_5_arr (i : S100000x64.Idx) :
    ∃ t : Fin cfg5.N, (cfg5.win 5).flush t = true ∧ i ∈ ((cfg5.win 5).blk t).view.set := by
  have hi0 : (i 0).val < 100000 := (i 0).isLt
  have hi1 : (i 1).val < 64 := (i 1).isLt
  have hN : cfg5.N = 20 := N_5
  refine ⟨⟨(i 0).val / 5000, by rw [hN]; omega⟩, flush5_5 _, ?_⟩
  rw [mem_blk5_5]
  obtain ⟨-, -, -, -, -, -, -, -, -, -, e4, e5, -⟩ := idx_facts5 ⟨(i 0).val / 5000, by rw [hN]; omega⟩
  intro a
  match a with
  | ⟨0, _⟩ => show win5_5.index _ 0 * 5000 ≤ (i 0).val ∧ (i 0).val < win5_5.index _ 0 * 5000 + 5000; rw [e4]; show (i 0).val / 5000 * 5000 ≤ (i 0).val ∧ (i 0).val < (i 0).val / 5000 * 5000 + 5000; omega
  | ⟨1, _⟩ => show win5_5.index _ 1 * 64 ≤ (i 1).val ∧ (i 1).val < win5_5.index _ 1 * 64 + 64; rw [e5]; omega

/-- The array region 5 leaves in window 5 is the full layer of its five input arrays, whatever they hold. -/
theorem region5_arr5 (c : Dev nD) : (dat5 V c).arrAt 5 cfg5.N = H5 V c :=
  (dat5 V c).arrAt_eq_of_cover 5 (H5 V c) (fun t _ => flushed5_5 V c t) cover5_5_arr

/-- The same, index by index. -/
theorem region5_out5 (c : Dev nD) (p : Fin 100000) (q : Fin 64) :
    O5_5 V c (ix2 p q) = (∑ k : Fin 64, X5 V c (ix2 p k) * Ws5 V c (ix2 k q) + ∑ k : Fin 64, A5 V c (ix2 p k) * Wn5 V c (ix2 k q)) + B5 V c (ix2 (0 : Fin 1) q) := by
  show (dat5 V c).arrAt 5 cfg5.N (ix2 p q) = _
  rw [region5_arr5]; rfl

/-- What point t writes back through window 6 is tile t of the column sums of the layer. -/
theorem flushed5_6 (c : Dev nD) (t : Fin cfg5.N) :
    (dat5 V c).flushed 6 t = ((cfg5.win 6).blk t).view.read (Elt Ideal) (tileSum (H5 V c)) := by
  show (cfg5.win 6).cut (grid5.coords t) ((dat5 V c).after 6 t) = _
  rw [after5_6]
  unfold out5_6
  rw [View.canon_unit_zero hz3']
  simp only [View.ld_unit_zero (S := S5000x64) hz2', View.ld_unit_zero (S := S64x64) hz2', View.ld_unit_zero (S := S1x64) hz2']
  obtain ⟨-, -, -, -, -, -, -, -, -, -, -, -, e0, e1, e2, -⟩ := idx_facts5 t
  have ht : t.val < 20 := lt_of_lt_of_eq t.isLt (show cfg5.N = 20 from N_5)
  funext j
  rw [View.read_apply]
  refine (pay5_2_at _ _ _ _ _ _).trans ?_
  refine tile_point (H5 V c) _ ⟨t.val, ht⟩ (fun k q => hblk5 V c t _ _ rfl rfl) _ _ ?_ ?_
  · apply Fin.ext
    show win5_6.index t 0 * 1 + 1 * (j 0).val = t.val
    have : (j 0).val < 1 := (j 0).isLt
    rw [e0]; omega
  · apply Fin.ext
    show win5_6.index t 2 * 64 + 1 * (j 2).val = (j 2).val
    rw [e2]; omega

theorem mem_blk5_6 (t : Fin cfg5.N) (i : S20x8x64.Idx) :
    i ∈ ((cfg5.win 6).blk t).view.set ↔ ∀ a : Fin 3, win5_6.index t a * S1x8x64.size a ≤ (i a).val ∧ (i a).val < win5_6.index t a * S1x8x64.size a + S1x8x64.size a := by
  show i ∈ ((View.whole main_v107_1).slice (win5_6.rect t)).set ↔ _
  rw [View.set_slice_whole, Rect.mem_set_unit]
  exact Iff.rfl

/-- Tile t is the block of point t, so the blocks cover the array. -/
theorem cover5_6_arr (i : S20x8x64.Idx) :
    ∃ t : Fin cfg5.N, (cfg5.win 6).flush t = true ∧ i ∈ ((cfg5.win 6).blk t).view.set := by
  have hi0 : (i 0).val < 20 := (i 0).isLt
  have hi1 : (i 1).val < 8 := (i 1).isLt
  have hi2 : (i 2).val < 64 := (i 2).isLt
  have hN : cfg5.N = 20 := N_5
  refine ⟨⟨(i 0).val, by rw [hN]; omega⟩, flush5_6 _, ?_⟩
  rw [mem_blk5_6]
  obtain ⟨-, -, -, -, -, -, -, -, -, -, -, -, e0, e1, e2, -⟩ := idx_facts5 ⟨(i 0).val, by rw [hN]; omega⟩
  intro a
  match a with
  | ⟨0, _⟩ => show win5_6.index _ 0 * 1 ≤ (i 0).val ∧ (i 0).val < win5_6.index _ 0 * 1 + 1; rw [e0]; show (i 0).val * 1 ≤ (i 0).val ∧ (i 0).val < (i 0).val * 1 + 1; omega
  | ⟨1, _⟩ => show win5_6.index _ 1 * 8 ≤ (i 1).val ∧ (i 1).val < win5_6.index _ 1 * 8 + 8; rw [e1]; omega
  | ⟨2, _⟩ => show win5_6.index _ 2 * 64 ≤ (i 2).val ∧ (i 2).val < win5_6.index _ 2 * 64 + 64; rw [e2]; omega

/-- The array region 5 leaves in window 6: per tile of 5000 rows and per column, the sum of the layer over the
    tile's rows, the same at each of the 8 sublanes. -/
theorem region5_arr6 (c : Dev nD) : (dat5 V c).arrAt 6 cfg5.N = tileSum (H5 V c) :=
  (dat5 V c).arrAt_eq_of_cover 6 (tileSum (H5 V c)) (fun t _ => flushed5_6 V c t) cover5_6_arr

/-- The same, index by index (no leading 0 +). -/
theorem region5_out6 (c : Dev nD) (t : Fin 20) (r : Fin 8) (q : Fin 64) :
    O5_6 V c (ix3 t r q) = ∑ k : Fin 5000, H5 V c (ix2 ⟨5000 * t.val + k.val, tile_lt t k⟩ q) := by
  show (dat5 V c).arrAt 6 cfg5.N (ix3 t r q) = _
  rw [region5_arr6]; rfl

/-- What point t writes back through window 7 is tile t of the column sums of the layer's squares. -/
theorem flushed5_7 (c : Dev nD) (t : Fin cfg5.N) :
    (dat5 V c).flushed 7 t = ((cfg5.win 7).blk t).view.read (Elt Ideal) (tileSum (mulf (H5 V c) (H5 V c))) := by
  show (cfg5.win 7).cut (grid5.coords t) ((dat5 V c).after 7 t) = _
  rw [after5_7]
  unfold out5_7
  rw [View.canon_unit_zero hz3']
  simp only [View.ld_unit_zero (S := S5000x64) hz2', View.ld_unit_zero (S := S64x64) hz2', View.ld_unit_zero (S := S1x64) hz2']
  obtain ⟨-, -, -, -, -, -, -, -, -, -, -, -, -, -, -, e0, e1, e2⟩ := idx_facts5 t
  have ht : t.val < 20 := lt_of_lt_of_eq t.isLt (show cfg5.N = 20 from N_5)
  funext j
  rw [View.read_apply]
  refine (pay5_3_at _ _ _ _ _ _).trans ?_
  refine tile_point_sq (H5 V c) _ ⟨t.val, ht⟩ (fun k q => hblk5 V c t _ _ rfl rfl) _ _ ?_ ?_
  · apply Fin.ext
    show win5_7.index t 0 * 1 + 1 * (j 0).val = t.val
    have : (j 0).val < 1 := (j 0).isLt
    rw [e0]; omega
  · apply Fin.ext
    show win5_7.index t 2 * 64 + 1 * (j 2).val = (j 2).val
    rw [e2]; omega

theorem mem_blk5_7 (t : Fin cfg5.N) (i : S20x8x64.Idx) :
    i ∈ ((cfg5.win 7).blk t).view.set ↔ ∀ a : Fin 3, win5_7.index t a * S1x8x64.size a ≤ (i a).val ∧ (i a).val < win5_7.index t a * S1x8x64.size a + S1x8x64.size a := by
  show i ∈ ((View.whole main_v107_2).slice (win5_7.rect t)).set ↔ _
  rw [View.set_slice_whole, Rect.mem_set_unit]
  exact Iff.rfl

/-- Tile t is the block of point t, so the blocks cover the array. -/
theorem cover5_7_arr (i : S20x8x64.Idx) :
    ∃ t : Fin cfg5.N, (cfg5.win 7).flush t = true ∧ i ∈ ((cfg5.win 7).blk t).view.set := by
  have hi0 : (i 0).val < 20 := (i 0).isLt
  have hi1 : (i 1).val < 8 := (i 1).isLt
  have hi2 : (i 2).val < 64 := (i 2).isLt
  have hN : cfg5.N = 20 := N_5
  refine ⟨⟨(i 0).val, by rw [hN]; omega⟩, flush5_7 _, ?_⟩
  rw [mem_blk5_7]
  obtain ⟨-, -, -, -, -, -, -, -, -, -, -, -, -, -, -, e0, e1, e2⟩ := idx_facts5 ⟨(i 0).val, by rw [hN]; omega⟩
  intro a
  match a with
  | ⟨0, _⟩ => show win5_7.index _ 0 * 1 ≤ (i 0).val ∧ (i 0).val < win5_7.index _ 0 * 1 + 1; rw [e0]; show (i 0).val * 1 ≤ (i 0).val ∧ (i 0).val < (i 0).val * 1 + 1; omega
  | ⟨1, _⟩ => show win5_7.index _ 1 * 8 ≤ (i 1).val ∧ (i 1).val < win5_7.index _ 1 * 8 + 8; rw [e1]; omega
  | ⟨2, _⟩ => show win5_7.index _ 2 * 64 ≤ (i 2).val ∧ (i 2).val < win5_7.index _ 2 * 64 + 64; rw [e2]; omega

/-- The array region 5 leaves in window 7: per tile of 5000 rows and per column, the sum of the layer's squares over the
    tile's rows, the same at each of the 8 sublanes. -/
theorem region5_arr7 (c : Dev nD) : (dat5 V c).arrAt 7 cfg5.N = tileSum (mulf (H5 V c) (H5 V c)) :=
  (dat5 V c).arrAt_eq_of_cover 7 (tileSum (mulf (H5 V c) (H5 V c))) (fun t _ => flushed5_7 V c t) cover5_7_arr

/-- The same, index by index (no leading 0 +). -/
theorem region5_out7 (c : Dev nD) (t : Fin 20) (r : Fin 8) (q : Fin 64) :
    O5_7 V c (ix3 t r q) = ∑ k : Fin 5000, H5 V c (ix2 ⟨5000 * t.val + k.val, tile_lt t k⟩ q) * H5 V c (ix2 ⟨5000 * t.val + k.val, tile_lt t k⟩ q) := by
  show (dat5 V c).arrAt 7 cfg5.N (ix3 t r q) = _
  rw [region5_arr7]; rfl

end Cert.KernelIdeal.RegionValue

end
-- ==== Proof.KStage11.lean ====
/- Layer 3 of the kernel's value, given that the table the layer reads (main_v92, at boundary 11) is the previous
   normalisation's output: the mean by a reciprocal host stretch 5 computes, the bias row, and what region 5 leaves in its
   three output arrays — the layer's output table and the per-tile column sums of it and of its square. -/
import proofs.«174735_j64811056496761_2_alg».proof.Proof.KHost5
import proofs.«174735_j64811056496761_2_alg».proof.Proof.KKeep1
import proofs.«174735_j64811056496761_2_alg».proof.Proof.KKeep2
import proofs.«174735_j64811056496761_2_alg».proof.Proof.KKeep3
import proofs.«174735_j64811056496761_2_alg».proof.Proof.KStage0
import proofs.«174735_j64811056496761_2_alg».proof.Proof.KArgs
import proofs.«174735_j64811056496761_2_alg».proof.Proof.KAgg
import proofs.«174735_j64811056496761_2_alg».proof.Proof.LawLayer
import proofs.«174735_j64811056496761_2_alg».proof.Proof.KSageFull5
import Idealize.ShloMosaic.Lib.IdealHost

set_option maxRecDepth 16384

noncomputable section

namespace Cert.KernelIdeal.Trace

open Idealize.ShloMosaic Idealize.ShloMosaic.TcCoe Idealize.ShloMosaic.ValueIdx
open Cert.KernelIdeal Cert.KernelIdeal.Gen Cert.GNet
open scoped BigOperators

variable (m : (ℓ : Loc nD τ sig) → Buf (Elt Ideal) ℓ) (ρ : Dev nD → PrngReg) (c : Dev nD)

/-- Host stretch 5 leaves in main_v105 the rows of the layer's input carried along the edges, summed at their end nodes and scaled
    by the reciprocal of the guarded count. -/
theorem stage11_v105 (hN : (Gen.W11 m ρ c (Proc.devRef .tc main_v92) : Tab NN 64) = kN2 m c) :
    (Gen.W11 m ρ c (Proc.devRef .tc main_v105) : Tab NN 64) = meanRecip (kN2 m c) (aSrc m c) (aDst m c) := by
  refine (host5_v105 m ρ c).trans ?_
  rw [← host5_v92 m ρ c, hN, arg1_W10 m ρ c, arg2_W10 m ρ c]
  exact Agg.aggStage gather_S100000x64_S1600000x1_S1600000x64_1_0_n_n_0_1_164
    gather_S100000x64_S1600000x1_S1600000x64_1_0_n_n_0_1_164_wf rfl
    scatter_S100000x64_S1600000x1_S1600000x64_1_0_0_1 scatter_S100000x64_S1600000x1_S1600000x64_1_0_0_1_wf rfl
    bcast_S100000_S100000x1_0 bcast_S100000x1_S100000x64_0_1 _ (fun i => HostRead.bcast_zero_apply _ i)
    (kN2 m c) (aSrc m c) (aDst m c) (Gen.W10 m ρ c (Proc.devRef .tc main_v7))
    (fun p => (congrFun (v7_W10 m ρ c) (ix1 p)).trans (stage0_v7 m ρ c p))

/-- Layer 3's bias as region 5 reads it: the one-row table host stretch 5 makes of it, at lane `q`. -/
theorem stage11_v106 (q : Fin 64) :
    (Gen.W11 m ρ c (Proc.devRef .tc main_v106) : Tab 1 64) (ix2 (0 : Fin 1) q) = aB3 m c (ix1 q) := by
  refine (congrFun (host5_v106 m ρ c) (ix2 (0 : Fin 1) q)).trans ?_
  rw [arg15_W10 m ρ c]
  exact Agg.biasRow_apply _ _ q

/-- Region 5's first input array at its entry is the layer's input. -/
theorem r5_X (hN : (Gen.W11 m ρ c (Proc.devRef .tc main_v92) : Tab NN 64) = kN2 m c) : RegionValue.X5 (Gen.V11 m ρ) c = kN2 m c := hN
/-- Its second is the input's mean by a reciprocal over the edges. -/
theorem r5_A (hN : (Gen.W11 m ρ c (Proc.devRef .tc main_v92) : Tab NN 64) = kN2 m c) : RegionValue.A5 (Gen.V11 m ρ) c = meanRecip (kN2 m c) (aSrc m c) (aDst m c) :=
  stage11_v105 m ρ c hN
/-- Its third is layer 3's own-row matrix. -/
theorem r5_Ws : RegionValue.Ws5 (Gen.V11 m ρ) c = aWs3 m c := arg13_W11 m ρ c
/-- Its fourth is layer 3's neighbour matrix. -/
theorem r5_Wn : RegionValue.Wn5 (Gen.V11 m ρ) c = aWn3 m c := arg14_W11 m ρ c
/-- Its fifth, the bias row, reads layer 3's bias. -/
theorem r5_B (q : Fin 64) : RegionValue.B5 (Gen.V11 m ρ) c (ix2 (0 : Fin 1) q) = aB3 m c (ix1 q) := stage11_v106 m ρ c q

/-- What region 5 computes at row `p`, lane `q` from its five input arrays as they are at its entry — the row of the layer's
    input times the own-row matrix, plus the row of the aggregated table times the neighbour matrix, plus the bias row's
    lane — is layer 3's output at (p, q). -/
theorem r5H_eq (hN : (Gen.W11 m ρ c (Proc.devRef .tc main_v92) : Tab NN 64) = kN2 m c) (p : Fin NN) (q : Fin 64) :
    (∑ k : Fin 64, RegionValue.X5 (Gen.V11 m ρ) c (ix2 p k) * RegionValue.Ws5 (Gen.V11 m ρ) c (ix2 k q)
        + ∑ k : Fin 64, RegionValue.A5 (Gen.V11 m ρ) c (ix2 p k) * RegionValue.Wn5 (Gen.V11 m ρ) c (ix2 k q))
      + RegionValue.B5 (Gen.V11 m ρ) c (ix2 (0 : Fin 1) q)
      = kH3 m c (ix2 p q) := by
  rw [r5_X m ρ c hN, r5_Ws m ρ c, r5_A m ρ c hN, r5_Wn m ρ c, r5_B m ρ c q,
    show kH3 m c (ix2 p q) = _ from sageFull_apply _ _ _ _ _ _ p q, rowsMul_apply, rowsMul_apply]

/-- Region 5's whole table of such values is layer 3's output. -/
theorem r5H_arr (hN : (Gen.W11 m ρ c (Proc.devRef .tc main_v92) : Tab NN 64) = kN2 m c) : RegionValue.H5 (Gen.V11 m ρ) c = kH3 m c := by
  funext i
  obtain ⟨p, q, rfl⟩ : ∃ (p : Fin NN) (q : Fin 64), i = ix2 p q := ⟨i 0, i 1, eq_ix2 i⟩
  exact (RegionValue.hfull_apply _ _ _ _ _ p q).trans (r5H_eq m ρ c hN p q)

/-- Region 5 leaves layer 3's output in main_v107_0. -/
theorem stage12_v107_0 (hN : (Gen.W11 m ρ c (Proc.devRef .tc main_v92) : Tab NN 64) = kN2 m c) :
    (Gen.W12 m ρ c (Proc.devRef .tc main_v107_0) : Tab NN 64) = kH3 m c :=
  (out_v107_0 m ρ c).trans ((RegionValue.region5_arr5 (Gen.V11 m ρ) c).trans (r5H_arr m ρ c hN))

/-- Region 5 leaves in main_v107_1, at tile `t` (any of its 8 rows), the column sums of layer 3's output over the tile. -/
theorem stage12_v107_1 (hN : (Gen.W11 m ρ c (Proc.devRef .tc main_v92) : Tab NN 64) = kN2 m c) (t : Fin 20) (r : Fin 8) (q : Fin 64) :
    (Gen.W12 m ρ c (Proc.devRef .tc main_v107_1) : S20x8x64.Idx → EReal) (ix3 t r q)
      = ∑ k : Fin 5000, kH3 m c (ix2 (tileRow t k) q) := by
  refine (congrFun (out_v107_1 m ρ c) (ix3 t r q)).trans ((RegionValue.region5_out6 (Gen.V11 m ρ) c t r q).trans ?_)
  rw [r5H_arr m ρ c hN]
  rfl

/-- Region 5 leaves in main_v107_2, at tile `t`, the column sums of the square of layer 3's output over the tile. -/
theorem stage12_v107_2 (hN : (Gen.W11 m ρ c (Proc.devRef .tc main_v92) : Tab NN 64) = kN2 m c) (t : Fin 20) (r : Fin 8) (q : Fin 64) :
    (Gen.W12 m ρ c (Proc.devRef .tc main_v107_2) : S20x8x64.Idx → EReal) (ix3 t r q)
      = ∑ k : Fin 5000, kH3 m c (ix2 (tileRow t k) q) * kH3 m c (ix2 (tileRow t k) q) := by
  refine (congrFun (out_v107_2 m ρ c) (ix3 t r q)).trans ((RegionValue.region5_out7 (Gen.V11 m ρ) c t r q).trans ?_)
  rw [r5H_arr m ρ c hN]
  rfl

end Cert.KernelIdeal.Trace

end
-- ==== Proof.LibFoldRows.lean ====
/-
  Two rows of a matrix folded into one, read at an index written by coordinates.

  A [100000, 64] matrix and a [50000, 128] matrix have the same entries in the same row-major order: entry (a, l) of the
  wide one sits at position 128 a + l, which is position 64 (2 a + l / 64) + l % 64 of the narrow one. So the wide matrix
  holds rows 2 a and 2 a + 1 of the narrow one side by side, and entry (p, q) of the narrow matrix is entry
  (p / 2, 64 (p % 2) + q) of the wide one. A vector of length 64 laid twice end to end and viewed as a [1, 128] row reads,
  at lane l, the vector's entry l % 64: the row that a per-column quantity of the narrow matrix becomes when the matrix is
  folded. Every statement is for any element type.
-/
import Idealize.ShloMosaic.Lib.ValueIdx
import Idealize.ShloMosaic.Lib.ValueLayout
import Idealize.ShloMosaic.Lib.Pipeline.Value

namespace Cert.LibFoldRows

open Idealize.ShloMosaic Idealize.ShloMosaic.ValueIdx

variable {α : Type}

/-- The narrow matrix's row that entry (a, l) of the folded matrix comes from: 2 a + l / 64. -/
abbrev foldRow (a : Fin 50000) (l : Fin 128) : Fin 100000 := ⟨2 * a.val + l.val / 64, by have := a.isLt; have := l.isLt; omega⟩

/-- Its column: l % 64. -/
abbrev foldCol (l : Fin 128) : Fin 64 := ⟨l.val % 64, Nat.mod_lt _ (by decide)⟩

/-- The folded matrix's row that entry (p, q) of the narrow matrix goes to: p / 2. -/
abbrev unfoldRow (p : Fin 100000) : Fin 50000 := ⟨p.val / 2, by have := p.isLt; omega⟩

/-- Its lane: 64 (p % 2) + q. -/
abbrev unfoldCol (p : Fin 100000) (q : Fin 64) : Fin 128 := ⟨64 * (p.val % 2) + q.val, by have := q.isLt; omega⟩

/-- A [100000, 64] matrix viewed as [50000, 128] reads, at (a, l), the matrix at row 2 a + l / 64, column l % 64. -/
theorem fold_apply (h : (⟨2, ![100000, 64]⟩ : Shape).Idx → α)
    (hc : (⟨2, ![100000, 64]⟩ : Shape).ShapeCasts ⟨2, ![50000, 128]⟩) (a : Fin 50000) (l : Fin 128) :
    shapeCast ⟨2, ![50000, 128]⟩ h hc (ix2 a l) = h (ix2 (foldRow a l) (foldCol l)) :=
  shapeCast_apply h hc _ _ (by
    rw [Shape.rowMajor_val_two, Shape.rowMajor_val_two]
    show (2 * a.val + l.val / 64) * 64 + l.val % 64 = a.val * 128 + l.val
    omega)

/-- A [50000, 128] matrix viewed as [100000, 64] reads, at (p, q), the matrix at row p / 2, lane 64 (p % 2) + q. -/
theorem unfold_apply (g : (⟨2, ![50000, 128]⟩ : Shape).Idx → α)
    (hc : (⟨2, ![50000, 128]⟩ : Shape).ShapeCasts ⟨2, ![100000, 64]⟩) (p : Fin 100000) (q : Fin 64) :
    shapeCast ⟨2, ![100000, 64]⟩ g hc (ix2 p q) = g (ix2 (unfoldRow p) (unfoldCol p q)) :=
  shapeCast_apply g hc _ _ (by
    rw [Shape.rowMajor_val_two, Shape.rowMajor_val_two]
    show p.val / 2 * 128 + (64 * (p.val % 2) + q.val) = p.val * 64 + q.val
    omega)

/-- Folding and then reading where an entry of the narrow matrix went gives that entry back. -/
theorem fold_at_unfold (h : (⟨2, ![100000, 64]⟩ : Shape).Idx → α)
    (hc : (⟨2, ![100000, 64]⟩ : Shape).ShapeCasts ⟨2, ![50000, 128]⟩) (p : Fin 100000) (q : Fin 64) :
    shapeCast ⟨2, ![50000, 128]⟩ h hc (ix2 (unfoldRow p) (unfoldCol p q)) = h (ix2 p q) := by
  rw [fold_apply]
  refine congrArg h ?_
  have hq := q.isLt
  have e1 : foldRow (unfoldRow p) (unfoldCol p q) = p := Fin.ext (by
    show 2 * (p.val / 2) + (64 * (p.val % 2) + q.val) / 64 = p.val
    omega)
  have e2 : foldCol (unfoldCol p q) = q := Fin.ext (by
    show (64 * (p.val % 2) + q.val) % 64 = q.val
    omega)
  rw [e1, e2]

/-- The column that lane 64 (p % 2) + q of the folded matrix holds is q. -/
theorem foldCol_unfoldCol (p : Fin 100000) (q : Fin 64) : foldCol (unfoldCol p q) = q := Fin.ext (by
  have hq := q.isLt
  show (64 * (p.val % 2) + q.val) % 64 = q.val
  omega)

/-- A vector of length 64 laid twice end to end reads, at l, its entry l % 64. -/
theorem twice_apply (v : (⟨1, ![64]⟩ : Shape).Idx → α)
    (hcat : Shape.Concatenates [⟨1, ![64]⟩, ⟨1, ![64]⟩] ⟨1, ![128]⟩ 0) (l : Fin 128) :
    concatenate ⟨1, ![128]⟩ 0 [⟨⟨1, ![64]⟩, v⟩, ⟨⟨1, ![64]⟩, v⟩] hcat (ix1 l) = v (ix1 (foldCol l)) := by
  by_cases hl : l.val < 64
  · refine concatenate_pair_apply_left (t := ⟨1, ![128]⟩) (s₁ := ⟨1, ![64]⟩) (s₂ := ⟨1, ![64]⟩) (0 : Fin 1) v v hcat _ rfl _
      (fun d => ?_)
    match d with
    | ⟨0, _⟩ => show l.val % 64 = l.val; omega
  · refine concatenate_pair_apply_right (t := ⟨1, ![128]⟩) (s₁ := ⟨1, ![64]⟩) (s₂ := ⟨1, ![64]⟩) (0 : Fin 1) v v hcat _ rfl rfl _
      (fun d hd => ?_) ?_
    · match d with
      | ⟨0, _⟩ => exact absurd rfl hd
    · have := l.isLt
      show l.val % 64 + 64 = l.val
      omega

/-- That doubled vector viewed as a [1, 128] row reads, at (u, l), the vector's entry l % 64. -/
theorem twice_row_apply (v : (⟨1, ![64]⟩ : Shape).Idx → α)
    (hcat : Shape.Concatenates [⟨1, ![64]⟩, ⟨1, ![64]⟩] ⟨1, ![128]⟩ 0)
    (hc : (⟨1, ![128]⟩ : Shape).ShapeCasts ⟨2, ![1, 128]⟩) (u : Fin 1) (l : Fin 128) :
    shapeCast ⟨2, ![1, 128]⟩ (concatenate ⟨1, ![128]⟩ 0 [⟨⟨1, ![64]⟩, v⟩, ⟨⟨1, ![64]⟩, v⟩] hcat) hc (ix2 u l)
      = v (ix1 (foldCol l)) := by
  rw [shapeCast_a_1a_apply, twice_apply]

/-- A [1, 64] row viewed as a vector reads, at q, the row's entry (0, q). -/
theorem row_to_vec_apply (x : (⟨2, ![1, 64]⟩ : Shape).Idx → α)
    (hc : (⟨2, ![1, 64]⟩ : Shape).ShapeCasts ⟨1, ![64]⟩) (q : Fin 64) :
    shapeCast ⟨1, ![64]⟩ x hc (ix1 q) = x (ix2 (0 : Fin 1) q) :=
  shapeCast_1a_a_apply x hc q

/-- A vector of length 64 viewed as a [1, 64] row reads, at (u, q), the vector's entry q. -/
theorem vec_to_row_apply (x : (⟨1, ![64]⟩ : Shape).Idx → α)
    (hc : (⟨1, ![64]⟩ : Shape).ShapeCasts ⟨2, ![1, 64]⟩) (u : Fin 1) (q : Fin 64) :
    shapeCast ⟨2, ![1, 64]⟩ x hc (ix2 u q) = x (ix1 q) :=
  shapeCast_a_1a_apply x hc u q

/-- A [1, 64] row made a vector, doubled, and viewed as a [1, 128] row reads, at (u, l), the row's entry (0, l % 64). -/
theorem row_twice_row_apply (x : (⟨2, ![1, 64]⟩ : Shape).Idx → α)
    (h1 : (⟨2, ![1, 64]⟩ : Shape).ShapeCasts ⟨1, ![64]⟩)
    (hcat : Shape.Concatenates [⟨1, ![64]⟩, ⟨1, ![64]⟩] ⟨1, ![128]⟩ 0)
    (hc : (⟨1, ![128]⟩ : Shape).ShapeCasts ⟨2, ![1, 128]⟩) (u : Fin 1) (l : Fin 128) :
    shapeCast ⟨2, ![1, 128]⟩ (concatenate ⟨1, ![128]⟩ 0
        [⟨⟨1, ![64]⟩, shapeCast ⟨1, ![64]⟩ x h1⟩, ⟨⟨1, ![64]⟩, shapeCast ⟨1, ![64]⟩ x h1⟩] hcat) hc (ix2 u l)
      = x (ix2 (0 : Fin 1) (foldCol l)) := by
  rw [twice_row_apply, row_to_vec_apply]

end Cert.LibFoldRows
-- ==== Proof.KNormStage.lean ====
/-
  A normalisation stage of the network as one whole array.

  The kernel program keeps, for each of 20 tiles of 5000 rows, the column sums of a [100000, 64] table h and of its
  squares (every one of the 8 slots of a tile's [8, 64] block holds the same sums). From slot 0 of every tile the host
  adds the 20 partial sums from zero and divides by the number of rows: the column mean and the mean of the squares, the
  variance being the second less the square of the first. It views h as [50000, 128] (two rows side by side), lays each
  of the mean, the variance, the scale and the shift twice end to end as a [1, 128] row, and a region normalises lane by
  lane; the result viewed back as [100000, 64] is the normalisation of h by its tiled column statistics, entry by entry:
  entry (p, q) sits in row p / 2 at lane 64 (p % 2) + q of the folded result, whose lane reads column q of each row.
-/
import proofs.«174735_j64811056496761_2_alg».proof.Proof.Gen.KernelIdeal
import proofs.«174735_j64811056496761_2_alg».proof.Proof.KSpec
import proofs.«174735_j64811056496761_2_alg».proof.Proof.LibFoldRows
import Idealize.ShloMosaic.PureOps.Ideal.Laws
import Idealize.ShloMosaic.Lib.ValueLayout

noncomputable section

namespace Cert.KernelIdeal.NormStage

open Cert.KernelIdeal Cert.KernelIdeal.Gen Idealize.ShloMosaic Idealize.ShloMosaic.ValueIdx Cert.GNet Cert.LibFoldRows
open scoped BigOperators

/-! ## The host's operations on the tiled sums, read at an index -/

/-- The host's sum of an [a, D] table over its rows, from an initial value: at column q, the initial value plus the sum
    over the rows of the entries of column q. -/
theorem rows_sum_apply {a D : ℕ} (hr : (⟨2, ![a, D]⟩ : Shape).ReducesTo [0] ⟨1, ![D]⟩)
    (hr' : (⟨2, ![a, D]⟩ : Shape).Reduces [0] ⟨1, ![D]⟩) (hu : 0 < (⟨0, ![]⟩ : Shape).numel)
    (x : FVec Ideal ⟨2, ![a, D]⟩ .f32) (init : FVec Ideal ⟨0, ![]⟩ .f32) (q : Fin D) :
    Host.reduceAdd x init hr hu (ix1 q) = init (Shape.Idx.first hu) + ∑ t : Fin a, x (ix2 t q) := by
  simp only [Host.reduceAdd, Ideal.hostReduceAdd_def]
  rw [Ideal.hostReduceAdd_single hr hr']
  refine congrArg (_ + ·) (Finset.sum_congr rfl fun k _ => ?_)
  exact congrArg x (funext fun b => Fin.ext (by match b with | ⟨0, _⟩ => rfl | ⟨1, _⟩ => rfl))

/-- Slot 0 of every tile's block, as a [20, 64] table: at (t, q), the tiled array at (t, 0, q). -/
theorem tile_slot_apply (T : FVec Ideal S20x8x64 .f32) (t : Fin 20) (q : Fin 64) :
    shapeCast S20x64 (extractStridedSlice S20x1x64 ![0, 0, 0] T slices_S20x8x64_S20x1x64_0_0_0) shapeCasts_S20x1x64_S20x64 (ix2 t q)
      = T (ix3 t (0 : Fin 8) q) := by
  refine (shapeCast_apply _ _ (ix2 t q) (ix3 t (0 : Fin 1) q) ?_).trans ?_
  · rw [Shape.rowMajor_val_three, Shape.rowMajor_val_two]
    show (t.val * 1 + 0) * 64 + q.val = t.val * 64 + q.val
    omega
  · exact slice3_axis1_apply 0 T _ t 0 q 0 rfl

/-! ## The rows the host prepares for the region -/

/-- The [1, 64] row of column means of the tiled sums T: slot 0 of the 20 tiles added from zero, over the row count. -/
def meanRow (T : FVec Ideal S20x8x64 .f32) : FVec Ideal S1x64 .f32 :=
  shapeCast S1x64
    (Host.divf
      (Host.reduceAdd
        (shapeCast S20x64 (extractStridedSlice S20x1x64 ![0, 0, 0] T slices_S20x8x64_S20x1x64_0_0_0) shapeCasts_S20x1x64_S20x64)
        (constant S_ .f32 0x00000000#32) reducesTo_S20x64_S64_d0 h_S_)
      (broadcastInDim S64 ![] bcast_S_S64 (constant S_ .f32 0x47C35000#32)))
    shapeCasts_S64_S1x64

/-- The [1, 64] row of column variances: the mean row of the squares' sums less the square of the mean row. -/
def varRow (T1 T2 : FVec Ideal S20x8x64 .f32) : FVec Ideal S1x64 .f32 :=
  subf (meanRow T2) (mulf (meanRow T1) (meanRow T1))

/-- A [1, 64] row laid twice end to end as a [1, 128] row. -/
def dupRow (x : FVec Ideal S1x64 .f32) : FVec Ideal S1x128 .f32 :=
  shapeCast S1x128
    (concatenate S128 0 [⟨S64, shapeCast S64 x shapeCasts_S1x64_S64⟩, ⟨S64, shapeCast S64 x shapeCasts_S1x64_S64⟩]
      concatenates_S64_S64_S128_d0)
    shapeCasts_S128_S1x128

/-- A 64-vector laid twice end to end as a [1, 128] row. -/
def dupVec (v : FVec Ideal S64 .f32) : FVec Ideal S1x128 .f32 :=
  shapeCast S1x128 (concatenate S128 0 [⟨S64, v⟩, ⟨S64, v⟩] concatenates_S64_S64_S128_d0) shapeCasts_S128_S1x128

/-- The mean row at column q is the tiled column mean of h, when T holds the tiles' column sums of h. -/
theorem meanRow_apply (T : FVec Ideal S20x8x64 .f32) (h : Tab NN 64)
    (hT : ∀ (t : Fin 20) (r : Fin 8) (q : Fin 64), T (ix3 t r q) = 0 + ∑ k : Fin 5000, h (ix2 (tileRow t k) q))
    (u : Fin 1) (q : Fin 64) : meanRow T (ix2 u q) = kMean h q := by
  unfold meanRow
  rw [shapeCast_a_1a_apply]
  show Ideal.div (Host.reduceAdd (F := Ideal) (φ := .f32) _ _ reducesTo_S20x64_S64_d0 h_S_ (ix1 q)) (Ideal.ofBits .f32 0x47C35000#32) = _
  rw [rows_sum_apply reducesTo_S20x64_S64_d0 (by decide) h_S_]
  show Ideal.div (Ideal.ofBits .f32 0x00000000#32 + ∑ t : Fin 20, _) _ = _
  rw [Ideal.ofBits_zero_f32]
  unfold kMean tileSum cN
  refine congrArg (fun s => Ideal.div (0 + s) _) (Finset.sum_congr rfl fun t _ => ?_)
  rw [tile_slot_apply, hT]

/-- The variance row at column q is the tiled column variance of h, when T1 holds the tiles' column sums of h and T2
    those of its squares. -/
theorem varRow_apply (T1 T2 : FVec Ideal S20x8x64 .f32) (h : Tab NN 64)
    (hT1 : ∀ (t : Fin 20) (r : Fin 8) (q : Fin 64), T1 (ix3 t r q) = 0 + ∑ k : Fin 5000, h (ix2 (tileRow t k) q))
    (hT2 : ∀ (t : Fin 20) (r : Fin 8) (q : Fin 64),
      T2 (ix3 t r q) = 0 + ∑ k : Fin 5000, h (ix2 (tileRow t k) q) * h (ix2 (tileRow t k) q))
    (u : Fin 1) (q : Fin 64) : varRow T1 T2 (ix2 u q) = kVar h q := by
  show meanRow T2 (ix2 u q) - meanRow T1 (ix2 u q) * meanRow T1 (ix2 u q) = _
  rw [meanRow_apply T1 h hT1, meanRow_apply T2 (fun i => h i * h i) hT2]
  rfl

/-- A doubled row at lane l is the row at column l % 64. -/
theorem dupRow_apply (x : FVec Ideal S1x64 .f32) (u : Fin 1) (l : Fin 128) :
    dupRow x (ix2 u l) = x (ix2 (0 : Fin 1) (foldCol l)) :=
  row_twice_row_apply x _ _ _ u l

/-- A doubled vector at lane l is the vector at l % 64. -/
theorem dupVec_apply (v : FVec Ideal S64 .f32) (u : Fin 1) (l : Fin 128) : dupVec v (ix2 u l) = v (ix1 (foldCol l)) :=
  twice_row_apply v _ _ u l

/-! ## The stage -/

/-- The region's result viewed back as [100000, 64] is the normalisation of h by its tiled column statistics. -/
theorem stage_norm (h : Tab NN 64) (g be : Row 64) (T1 T2 : FVec Ideal S20x8x64 .f32)
    (hT1 : ∀ (t : Fin 20) (r : Fin 8) (q : Fin 64), T1 (ix3 t r q) = 0 + ∑ k : Fin 5000, h (ix2 (tileRow t k) q))
    (hT2 : ∀ (t : Fin 20) (r : Fin 8) (q : Fin 64),
      T2 (ix3 t r q) = 0 + ∑ k : Fin 5000, h (ix2 (tileRow t k) q) * h (ix2 (tileRow t k) q))
    (H2 : FVec Ideal S50000x128 .f32) (M Vr G Bt : FVec Ideal S1x128 .f32)
    (hH : H2 = shapeCast S50000x128 h shapeCasts_S100000x64_S50000x128) (hM : M = dupRow (meanRow T1))
    (hV : Vr = dupRow (varRow T1 T2)) (hG : G = dupVec g) (hB : Bt = dupVec be)
    (OUT : FVec Ideal S50000x128 .f32)
    (hOUT : ∀ (a : Fin 50000) (l : Fin 128), OUT (ix2 a l)
      = ((H2 (ix2 a l) - M (ix2 0 l)) * Ideal.rsqrt (Vr (ix2 0 l) + Ideal.ofBits .f32 0x3727C5AC#32)) * G (ix2 0 l) + Bt (ix2 0 l)) :
    shapeCast S100000x64 OUT shapeCasts_S50000x128_S100000x64 = kNorm h g be := by
  subst hH hM hV hG hB
  funext i
  obtain ⟨p, q, rfl⟩ : ∃ (p : Fin 100000) (q : Fin 64), i = ix2 p q := ⟨i 0, i 1, eq_ix2 i⟩
  rw [unfold_apply, hOUT, fold_at_unfold, dupRow_apply, dupRow_apply, dupVec_apply, dupVec_apply, foldCol_unfoldCol,
    meanRow_apply T1 h hT1, varRow_apply T1 T2 h hT1 hT2]
  rfl

/-- The same with the region's ramp: the larger of the normalisation and zero. -/
theorem stage_norm_relu (h : Tab NN 64) (g be : Row 64) (T1 T2 : FVec Ideal S20x8x64 .f32)
    (hT1 : ∀ (t : Fin 20) (r : Fin 8) (q : Fin 64), T1 (ix3 t r q) = 0 + ∑ k : Fin 5000, h (ix2 (tileRow t k) q))
    (hT2 : ∀ (t : Fin 20) (r : Fin 8) (q : Fin 64),
      T2 (ix3 t r q) = 0 + ∑ k : Fin 5000, h (ix2 (tileRow t k) q) * h (ix2 (tileRow t k) q))
    (H2 : FVec Ideal S50000x128 .f32) (M Vr G Bt : FVec Ideal S1x128 .f32)
    (hH : H2 = shapeCast S50000x128 h shapeCasts_S100000x64_S50000x128) (hM : M = dupRow (meanRow T1))
    (hV : Vr = dupRow (varRow T1 T2)) (hG : G = dupVec g) (hB : Bt = dupVec be)
    (OUT : FVec Ideal S50000x128 .f32)
    (hOUT : ∀ (a : Fin 50000) (l : Fin 128), OUT (ix2 a l)
      = max (((H2 (ix2 a l) - M (ix2 0 l)) * Ideal.rsqrt (Vr (ix2 0 l) + Ideal.ofBits .f32 0x3727C5AC#32)) * G (ix2 0 l) + Bt (ix2 0 l)) 0) :
    shapeCast S100000x64 OUT shapeCasts_S50000x128_S100000x64 = relu (kNorm h g be) := by
  subst hH hM hV hG hB
  funext i
  obtain ⟨p, q, rfl⟩ : ∃ (p : Fin 100000) (q : Fin 64), i = ix2 p q := ⟨i 0, i 1, eq_ix2 i⟩
  rw [unfold_apply, hOUT, fold_at_unfold, dupRow_apply, dupRow_apply, dupVec_apply, dupVec_apply, foldCol_unfoldCol,
    meanRow_apply T1 h hT1, varRow_apply T1 T2 h hT1 hT2]
  rfl

end Cert.KernelIdeal.NormStage

end
-- ==== Proof.KNorm2.lean ====
/-
  The first normalisation region, read as a whole array.

  The region works on the folded layout: the [100000, 64] activations viewed as [50000, 128], two rows side by side, and
  the per-column mean, variance, scale and shift as [1, 128] rows (each 64-vector laid twice). Its ten grid points each
  stage 5000 rows of the folded matrix and the four rows, and store, lane by lane,
  ((h − mean) · rsqrt(variance + ε)) · scale + shift. Here: the body's value at an entry of a block, which rows of the
  arrays a block's entry sits over, and that the ten blocks cover the result, so that the result array after the region
  is that formula of the arrays as the region finds them, entry by entry.
-/
import proofs.«174735_j64811056496761_2_alg».proof.Proof.Gen.KernelIdeal.Frame
import Idealize.ShloMosaic.Lib.Pipeline.Value
import Idealize.ShloMosaic.Lib.ValueIdx
import Idealize.ShloMosaic.Lib.ValueLayout

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The staging buffers are loaded and stored whole: the offsets of the body's one rectangle are zero. -/
theorem bn2_zero : (![0, 0] : Fin 2 → Nat) = fun _ => 0 := funext fun a => by fin_cases a <;> rfl

/-- The normalised folded matrix, entry by entry: entry (a, l) of the matrix less lane l of the mean row, times the
    reciprocal square root of lane l of the variance row plus the small constant, times lane l of the scale row, plus lane l
    of the shift row. -/
def bn2G (H : S50000x128.Idx → EReal) (M Vr G Bt : S1x128.Idx → EReal) : S50000x128.Idx → EReal := fun i =>
  ((H i - M (ix2 0 (i 1))) * Ideal.rsqrt (Vr (ix2 0 (i 1)) + Ideal.ofBits .f32 0x3727C5AC#32)) * G (ix2 0 (i 1)) + Bt (ix2 0 (i 1))

/-- The body's value at row r, lane l of its block: the same formula of the block's entry and the four rows' lanes. -/
theorem bn2_pay_apply (x0 : Vec Ideal S5000x128 .f32) (xv xm xg xb : Vec Ideal S1x128 .f32) (r : Fin 5000) (l : Fin 128) :
    k2_pay1 x0 xv xm xg xb (ix2 r l)
      = ((x0 (ix2 r l) - xm (ix2 0 l)) * Ideal.rsqrt (xv (ix2 0 l) + Ideal.ofBits .f32 0x3727C5AC#32)) * xg (ix2 0 l) + xb (ix2 0 l) := by
  unfold k2_pay1
  simp only [shapeCast_self, addf_apply, mulf_apply, subf_apply, broadcastTo_1b_ab_apply]
  rfl

/-- One entry of a block: when the block's entry is the matrix's entry i and the four staged rows' lanes are the four
    rows' lanes at i's lane, the body's value there is the normalised matrix's entry i. -/
theorem bn2_point (H : S50000x128.Idx → EReal) (M Vr G Bt : S1x128.Idx → EReal)
    (x0 : Vec Ideal S5000x128 .f32) (xv xm xg xb : Vec Ideal S1x128 .f32) (y : S5000x128.Idx) (i : S50000x128.Idx)
    (h0 : x0 y = H i) (hv : xv (ix2 0 (y 1)) = Vr (ix2 0 (i 1))) (hm : xm (ix2 0 (y 1)) = M (ix2 0 (i 1)))
    (hg : xg (ix2 0 (y 1)) = G (ix2 0 (i 1))) (hb : xb (ix2 0 (y 1)) = Bt (ix2 0 (i 1))) :
    k2_pay1 x0 xv xm xg xb y = bn2G H M Vr G Bt i := by
  obtain ⟨r, l, rfl⟩ : ∃ (r : Fin 5000) (l : Fin 128), y = ix2 r l := ⟨y 0, y 1, eq_ix2 y⟩
  rw [bn2_pay_apply]
  show _ = ((H i - M (ix2 0 (i 1))) * Ideal.rsqrt (Vr (ix2 0 (i 1)) + Ideal.ofBits .f32 0x3727C5AC#32)) * G (ix2 0 (i 1)) + Bt (ix2 0 (i 1))
  rw [← h0, ← hv, ← hm, ← hg, ← hb]

/-- The printed index maps over the ten grid points: point t stages block t of the matrix and of the result (rows
    5000 t … 5000 t + 4999, all 128 lanes), and the one block of each of the four rows. -/
theorem bn2_idx_facts : ∀ t : Fin cfg2.N,
    win2_5.index t (0 : Fin 2) = t.val ∧ win2_5.index t (1 : Fin 2) = 0
    ∧ win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0 :=
  (by decide +kernel : ∀ t : Fin grid2.N, _)

/-- The staged block of the matrix at point t is its rows 5000 t … 5000 t + 4999. -/
theorem bn2_blk0 (c : Dev nD) (t : Fin cfg2.N) (x : S5000x128.Idx) (k : S50000x128.Idx)
    (h0 : (k 0).val = 5000 * t.val + (x 0).val) (h1 : (k 1).val = (x 1).val) :
    (iblk2 V c 0 t : Vec Ideal S5000x128 .f32) x = (V c (Pipeline.arrRef spec2 0) : S50000x128.Idx → EReal) k := by
  obtain ⟨-, -, e00, e01, -⟩ := bn2_idx_facts t
  show V c (Pipeline.arrRef spec2 0) (((cfg2.win 0).blk t).view.emb x) = V c (Pipeline.arrRef spec2 0) k
  refine congrArg _ (funext fun a => Fin.ext ?_)
  match a with
  | ⟨0, _⟩ => show win2_0.index t (0 : Fin 2) * 5000 + 1 * (x 0).val = (k 0).val; omega
  | ⟨1, _⟩ => show win2_0.index t (1 : Fin 2) * 128 + 1 * (x 1).val = (k 1).val; omega

/-- The staged block of the mean row is the row: its lane at any point is the array's lane. -/
theorem bn2_row1 (c : Dev nD) (t : Fin cfg2.N) (x k : S1x128.Idx) (h : (k 1).val = (x 1).val) :
    (iblk2 V c 1 t : Vec Ideal S1x128 .f32) x = (V c (Pipeline.arrRef spec2 1) : S1x128.Idx → EReal) k := by
  obtain ⟨-, -, -, -, e10, e11, e20, e21, e30, e31, e40, e41⟩ := bn2_idx_facts t
  have hx : (x 0).val < 1 := (x 0).isLt
  have hk : (k 0).val < 1 := (k 0).isLt
  show V c (Pipeline.arrRef spec2 1) (((cfg2.win 1).blk t).view.emb x) = V c (Pipeline.arrRef spec2 1) k
  refine congrArg _ (funext fun a => Fin.ext ?_)
  match a with
  | ⟨0, _⟩ => show win2_1.index t (0 : Fin 2) * 1 + 1 * (x 0).val = (k 0).val; omega
  | ⟨1, _⟩ => show win2_1.index t (1 : Fin 2) * 128 + 1 * (x 1).val = (k 1).val; omega

/-- The staged block of the variance row is the row: its lane at any point is the array's lane. -/
theorem bn2_row2 (c : Dev nD) (t : Fin cfg2.N) (x k : S1x128.Idx) (h : (k 1).val = (x 1).val) :
    (iblk2 V c 2 t : Vec Ideal S1x128 .f32) x = (V c (Pipeline.arrRef spec2 2) : S1x128.Idx → EReal) k := by
  obtain ⟨-, -, -, -, e10, e11, e20, e21, e30, e31, e40, e41⟩ := bn2_idx_facts t
  have hx : (x 0).val < 1 := (x 0).isLt
  have hk : (k 0).val < 1 := (k 0).isLt
  show V c (Pipeline.arrRef spec2 2) (((cfg2.win 2).blk t).view.emb x) = V c (Pipeline.arrRef spec2 2) k
  refine congrArg _ (funext fun a => Fin.ext ?_)
  match a with
  | ⟨0, _⟩ => show win2_2.index t (0 : Fin 2) * 1 + 1 * (x 0).val = (k 0).val; omega
  | ⟨1, _⟩ => show win2_2.index t (1 : Fin 2) * 128 + 1 * (x 1).val = (k 1).val; omega

/-- The staged block of the scale row is the row: its lane at any point is the array's lane. -/
theorem bn2_row3 (c : Dev nD) (t : Fin cfg2.N) (x k : S1x128.Idx) (h : (k 1).val = (x 1).val) :
    (iblk2 V c 3 t : Vec Ideal S1x128 .f32) x = (V c (Pipeline.arrRef spec2 3) : S1x128.Idx → EReal) k := by
  obtain ⟨-, -, -, -, e10, e11, e20, e21, e30, e31, e40, e41⟩ := bn2_idx_facts t
  have hx : (x 0).val < 1 := (x 0).isLt
  have hk : (k 0).val < 1 := (k 0).isLt
  show V c (Pipeline.arrRef spec2 3) (((cfg2.win 3).blk t).view.emb x) = V c (Pipeline.arrRef spec2 3) k
  refine congrArg _ (funext fun a => Fin.ext ?_)
  match a with
  | ⟨0, _⟩ => show win2_3.index t (0 : Fin 2) * 1 + 1 * (x 0).val = (k 0).val; omega
  | ⟨1, _⟩ => show win2_3.index t (1 : Fin 2) * 128 + 1 * (x 1).val = (k 1).val; omega

/-- The staged block of the shift row is the row: its lane at any point is the array's lane. -/
theorem bn2_row4 (c : Dev nD) (t : Fin cfg2.N) (x k : S1x128.Idx) (h : (k 1).val = (x 1).val) :
    (iblk2 V c 4 t : Vec Ideal S1x128 .f32) x = (V c (Pipeline.arrRef spec2 4) : S1x128.Idx → EReal) k := by
  obtain ⟨-, -, -, -, e10, e11, e20, e21, e30, e31, e40, e41⟩ := bn2_idx_facts t
  have hx : (x 0).val < 1 := (x 0).isLt
  have hk : (k 0).val < 1 := (k 0).isLt
  show V c (Pipeline.arrRef spec2 4) (((cfg2.win 4).blk t).view.emb x) = V c (Pipeline.arrRef spec2 4) k
  refine congrArg _ (funext fun a => Fin.ext ?_)
  match a with
  | ⟨0, _⟩ => show win2_4.index t (0 : Fin 2) * 1 + 1 * (x 0).val = (k 0).val; omega
  | ⟨1, _⟩ => show win2_4.index t (1 : Fin 2) * 128 + 1 * (x 1).val = (k 1).val; omega

/-- The body's value at an entry of point t's block is the normalised matrix at the entry of the array under it. -/
theorem bn2_block_entry (c : Dev nD) (t : Fin cfg2.N) (y : S5000x128.Idx) (i : S50000x128.Idx)
    (h0 : (i 0).val = 5000 * t.val + (y 0).val) (h1 : (i 1).val = (y 1).val) :
    k2_pay1 (iblk2 V c 0 t) (iblk2 V c 2 t) (iblk2 V c 1 t) (iblk2 V c 3 t) (iblk2 V c 4 t) y
      = bn2G (V c (Pipeline.arrRef spec2 0)) (V c (Pipeline.arrRef spec2 1)) (V c (Pipeline.arrRef spec2 2)) (V c (Pipeline.arrRef spec2 3)) (V c (Pipeline.arrRef spec2 4)) i :=
  bn2_point (V c (Pipeline.arrRef spec2 0)) (V c (Pipeline.arrRef spec2 1)) (V c (Pipeline.arrRef spec2 2)) (V c (Pipeline.arrRef spec2 3)) (V c (Pipeline.arrRef spec2 4))
    (iblk2 V c 0 t) (iblk2 V c 2 t) (iblk2 V c 1 t) (iblk2 V c 3 t) (iblk2 V c 4 t) y i
    (bn2_blk0 V c t y i h0 h1) (bn2_row2 V c t (ix2 0 (y 1)) (ix2 0 (i 1)) h1) (bn2_row1 V c t (ix2 0 (y 1)) (ix2 0 (i 1)) h1)
    (bn2_row3 V c t (ix2 0 (y 1)) (ix2 0 (i 1)) h1) (bn2_row4 V c t (ix2 0 (y 1)) (ix2 0 (i 1)) h1)

/-- What point t writes back is block t of the normalised matrix of the arrays as the region finds them. -/
theorem bn2_flushed (c : Dev nD) (t : Fin cfg2.N) :
    (dat2 V c).flushed 5 t = ((cfg2.win 5).blk t).view.read (Elt Ideal) (bn2G (V c (Pipeline.arrRef spec2 0)) (V c (Pipeline.arrRef spec2 1)) (V c (Pipeline.arrRef spec2 2)) (V c (Pipeline.arrRef spec2 3)) (V c (Pipeline.arrRef spec2 4))) := by
  show (cfg2.win 5).cut (grid2.coords t) ((dat2 V c).after 5 t) = _
  rw [after2_5]
  unfold out2_5
  rw [View.canon_unit_zero bn2_zero]
  simp only [View.ld_unit_zero (S := S5000x128) bn2_zero, View.ld_unit_zero (S := S1x128) bn2_zero]
  obtain ⟨e50, e51, -⟩ := bn2_idx_facts t
  funext j
  refine bn2_block_entry V c t j (((cfg2.win 5).blk t).view.emb j) ?_ ?_
  · show win2_5.index t (0 : Fin 2) * 5000 + 1 * (j 0).val = 5000 * t.val + (j 0).val; omega
  · show win2_5.index t (1 : Fin 2) * 128 + 1 * (j 1).val = (j 1).val; omega

/-- An index of the result is in point t's block iff each coordinate is in the block's range on its axis. -/
theorem bn2_mem_blk (t : Fin cfg2.N) (i : S50000x128.Idx) :
    i ∈ ((cfg2.win 5).blk t).view.set ↔ ∀ a : Fin 2, win2_5.index t a * S5000x128.size a ≤ (i a).val ∧ (i a).val < win2_5.index t a * S5000x128.size a + S5000x128.size a := by
  show i ∈ ((View.whole main_v49).slice (win2_5.rect t)).set ↔ _
  rw [View.set_slice_whole, Rect.mem_set_unit]
  exact Iff.rfl

/-- Every entry of the result is written: row a is in the block of point a / 5000. -/
theorem bn2_cover (i : S50000x128.Idx) :
    ∃ t : Fin cfg2.N, (cfg2.win 5).flush t = true ∧ i ∈ ((cfg2.win 5).blk t).view.set := by
  have hi0 : (i 0).val < 50000 := (i 0).isLt
  have hi1 : (i 1).val < 128 := (i 1).isLt
  have hN : cfg2.N = 10 := N_2
  have ht : (i 0).val / 5000 < cfg2.N := by rw [hN]; omega
  obtain ⟨e50, e51, -⟩ := bn2_idx_facts ⟨(i 0).val / 5000, ht⟩
  refine ⟨⟨(i 0).val / 5000, ht⟩, flush2_5 _, ?_⟩
  rw [bn2_mem_blk]
  intro a
  match a with
  | ⟨0, _⟩ =>
    show win2_5.index ⟨(i 0).val / 5000, ht⟩ (0 : Fin 2) * 5000 ≤ (i 0).val ∧ (i 0).val < win2_5.index ⟨(i 0).val / 5000, ht⟩ (0 : Fin 2) * 5000 + 5000
    rw [e50]; show (i 0).val / 5000 * 5000 ≤ (i 0).val ∧ (i 0).val < (i 0).val / 5000 * 5000 + 5000; omega
  | ⟨1, _⟩ =>
    show win2_5.index ⟨(i 0).val / 5000, ht⟩ (1 : Fin 2) * 128 ≤ (i 1).val ∧ (i 1).val < win2_5.index ⟨(i 0).val / 5000, ht⟩ (1 : Fin 2) * 128 + 128
    rw [e51]; omega

/-- The result array after the region: the normalised matrix of the arrays as the region finds them. -/
theorem bn2_arr (c : Dev nD) : (dat2 V c).arrAt 5 cfg2.N = bn2G (V c (Pipeline.arrRef spec2 0)) (V c (Pipeline.arrRef spec2 1)) (V c (Pipeline.arrRef spec2 2)) (V c (Pipeline.arrRef spec2 3)) (V c (Pipeline.arrRef spec2 4)) :=
  (dat2 V c).arrAt_eq_of_cover 5 (bn2G (V c (Pipeline.arrRef spec2 0)) (V c (Pipeline.arrRef spec2 1)) (V c (Pipeline.arrRef spec2 2)) (V c (Pipeline.arrRef spec2 3)) (V c (Pipeline.arrRef spec2 4))) (fun t _ => bn2_flushed V c t) bn2_cover

/-- The arrays as the region finds them, at their literal index types: the folded matrix, and the mean, variance, scale and
    shift rows. -/
abbrev bn2_H (c : Dev nD) : S50000x128.Idx → EReal := V c (Pipeline.arrRef spec2 0)
abbrev bn2_M (c : Dev nD) : S1x128.Idx → EReal := V c (Pipeline.arrRef spec2 1)
abbrev bn2_Vr (c : Dev nD) : S1x128.Idx → EReal := V c (Pipeline.arrRef spec2 2)
abbrev bn2_G (c : Dev nD) : S1x128.Idx → EReal := V c (Pipeline.arrRef spec2 3)
abbrev bn2_Bt (c : Dev nD) : S1x128.Idx → EReal := V c (Pipeline.arrRef spec2 4)
/-- The result array after the region, at its literal index type. -/
abbrev bn2_out (c : Dev nD) : S50000x128.Idx → EReal := (dat2 V c).arrAt 5 cfg2.N

/-- Entry (a, l) of the result array after the region, from the entry contents of the five input arrays. -/
theorem region2_value (c : Dev nD) (a : Fin 50000) (l : Fin 128) :
    bn2_out V c (ix2 a l)
      = ((bn2_H V c (ix2 a l) - bn2_M V c (ix2 0 l)) * Ideal.rsqrt (bn2_Vr V c (ix2 0 l) + Ideal.ofBits .f32 0x3727C5AC#32)) * bn2_G V c (ix2 0 l) + bn2_Bt V c (ix2 0 l) := by
  show (dat2 V c).arrAt 5 cfg2.N (ix2 a l) = _
  rw [bn2_arr]
  rfl

end Cert.KernelIdeal.RegionValue

end
-- ==== Proof.KHost2.lean ====
/- Host stretch 2 of @main: what each buffer it writes that is read later holds at the stretch's end (boundary 5),
   as the stretch's operations applied to the contents at its start (boundary 4). -/
import proofs.«174735_j64811056496761_2_alg».proof.Proof.Gen.KernelIdeal.Frame

set_option maxRecDepth 16384

noncomputable section

namespace Cert.KernelIdeal.Trace

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- `main_v32` at boundary 5: the operations of host stretch 2 that produce it, composed, over the contents at boundary 4. -/
theorem host2_v32 (c : Dev nD) :
    Gen.W5 m ρ c (Proc.devRef .tc main_v32) =
      (shapeCast S1x64
        ((Host.divf : (⟨S64, .f32⟩ : BufTy).Contents (Elt F) → (⟨S64, .f32⟩ : BufTy).Contents (Elt F) → (⟨S64, .f32⟩ : BufTy).Contents (Elt F))
          (Host.reduceAdd
            (shapeCast S20x64
              (extractStridedSlice S20x1x64 ![0, 0, 0]
                (Gen.W4 m ρ c (Proc.devRef .tc main_v23_1) : (⟨S20x8x64, .f32⟩ : BufTy).Contents (Elt F))
                slices_S20x8x64_S20x1x64_0_0_0 : (⟨S20x1x64, .f32⟩ : BufTy).Contents (Elt F))
              shapeCasts_S20x1x64_S20x64 : (⟨S20x64, .f32⟩ : BufTy).Contents (Elt F))
            (constant S_ .f32 0x00000000#32 : (⟨S_, .f32⟩ : BufTy).Contents (Elt F))
            reducesTo_S20x64_S64_d0 h_S_ : (⟨S64, .f32⟩ : BufTy).Contents (Elt F))
          ((broadcastInDim S64 ![] bcast_S_S64 : (⟨S_, .f32⟩ : BufTy).Contents (Elt F) → (⟨S64, .f32⟩ : BufTy).Contents (Elt F))
            (constant S_ .f32 0x47C35000#32 : (⟨S_, .f32⟩ : BufTy).Contents (Elt F))))
        shapeCasts_S64_S1x64 : (⟨S1x64, .f32⟩ : BufTy).Contents (Elt F)) := by
  show StableHlo.after Gen.hostOps2 _ _ = _
  after_results_simp
  all_goals rfl

/-- `main_v37` at boundary 5: the operations of host stretch 2 that produce it, composed, over the contents at boundary 4. -/
theorem host2_v37 (c : Dev nD) :
    Gen.W5 m ρ c (Proc.devRef .tc main_v37) =
      ((subf : (⟨S1x64, .f32⟩ : BufTy).Contents (Elt F) → (⟨S1x64, .f32⟩ : BufTy).Contents (Elt F) → (⟨S1x64, .f32⟩ : BufTy).Contents (Elt F))
        (shapeCast S1x64
          ((Host.divf : (⟨S64, .f32⟩ : BufTy).Contents (Elt F) → (⟨S64, .f32⟩ : BufTy).Contents (Elt F) → (⟨S64, .f32⟩ : BufTy).Contents (Elt F))
            (Host.reduceAdd
              (shapeCast S20x64
                (extractStridedSlice S20x1x64 ![0, 0, 0]
                  (Gen.W4 m ρ c (Proc.devRef .tc main_v23_2) : (⟨S20x8x64, .f32⟩ : BufTy).Contents (Elt F))
                  slices_S20x8x64_S20x1x64_0_0_0 : (⟨S20x1x64, .f32⟩ : BufTy).Contents (Elt F))
                shapeCasts_S20x1x64_S20x64 : (⟨S20x64, .f32⟩ : BufTy).Contents (Elt F))
              (constant S_ .f32 0x00000000#32 : (⟨S_, .f32⟩ : BufTy).Contents (Elt F))
              reducesTo_S20x64_S64_d0 h_S_ : (⟨S64, .f32⟩ : BufTy).Contents (Elt F))
            ((broadcastInDim S64 ![] bcast_S_S64 : (⟨S_, .f32⟩ : BufTy).Contents (Elt F) → (⟨S64, .f32⟩ : BufTy).Contents (Elt F))
              (constant S_ .f32 0x47C35000#32 : (⟨S_, .f32⟩ : BufTy).Contents (Elt F))))
          shapeCasts_S64_S1x64 : (⟨S1x64, .f32⟩ : BufTy).Contents (Elt F))
        ((mulf : (⟨S1x64, .f32⟩ : BufTy).Contents (Elt F) → (⟨S1x64, .f32⟩ : BufTy).Contents (Elt F) → (⟨S1x64, .f32⟩ : BufTy).Contents (Elt F))
          (shapeCast S1x64
            ((Host.divf : (⟨S64, .f32⟩ : BufTy).Contents (Elt F) → (⟨S64, .f32⟩ : BufTy).Contents (Elt F) → (⟨S64, .f32⟩ : BufTy).Contents (Elt F))
              (Host.reduceAdd
                (shapeCast S20x64
                  (extractStridedSlice S20x1x64 ![0, 0, 0]
                    (Gen.W4 m ρ c (Proc.devRef .tc main_v23_1) : (⟨S20x8x64, .f32⟩ : BufTy).Contents (Elt F))
                    slices_S20x8x64_S20x1x64_0_0_0 : (⟨S20x1x64, .f32⟩ : BufTy).Contents (Elt F))
                  shapeCasts_S20x1x64_S20x64 : (⟨S20x64, .f32⟩ : BufTy).Contents (Elt F))
                (constant S_ .f32 0x00000000#32 : (⟨S_, .f32⟩ : BufTy).Contents (Elt F))
                reducesTo_S20x64_S64_d0 h_S_ : (⟨S64, .f32⟩ : BufTy).Contents (Elt F))
              ((broadcastInDim S64 ![] bcast_S_S64 : (⟨S_, .f32⟩ : BufTy).Contents (Elt F) → (⟨S64, .f32⟩ : BufTy).Contents (Elt F))
                (constant S_ .f32 0x47C35000#32 : (⟨S_, .f32⟩ : BufTy).Contents (Elt F))))
            shapeCasts_S64_S1x64 : (⟨S1x64, .f32⟩ : BufTy).Contents (Elt F))
          (shapeCast S1x64
            ((Host.divf : (⟨S64, .f32⟩ : BufTy).Contents (Elt F) → (⟨S64, .f32⟩ : BufTy).Contents (Elt F) → (⟨S64, .f32⟩ : BufTy).Contents (Elt F))
              (Host.reduceAdd
                (shapeCast S20x64
                  (extractStridedSlice S20x1x64 ![0, 0, 0]
                    (Gen.W4 m ρ c (Proc.devRef .tc main_v23_1) : (⟨S20x8x64, .f32⟩ : BufTy).Contents (Elt F))
                    slices_S20x8x64_S20x1x64_0_0_0 : (⟨S20x1x64, .f32⟩ : BufTy).Contents (Elt F))
                  shapeCasts_S20x1x64_S20x64 : (⟨S20x64, .f32⟩ : BufTy).Contents (Elt F))
                (constant S_ .f32 0x00000000#32 : (⟨S_, .f32⟩ : BufTy).Contents (Elt F))
                reducesTo_S20x64_S64_d0 h_S_ : (⟨S64, .f32⟩ : BufTy).Contents (Elt F))
              ((broadcastInDim S64 ![] bcast_S_S64 : (⟨S_, .f32⟩ : BufTy).Contents (Elt F) → (⟨S64, .f32⟩ : BufTy).Contents (Elt F))
                (constant S_ .f32 0x47C35000#32 : (⟨S_, .f32⟩ : BufTy).Contents (Elt F))))
            shapeCasts_S64_S1x64 : (⟨S1x64, .f32⟩ : BufTy).Contents (Elt F)))) := by
  show StableHlo.after Gen.hostOps2 _ _ = _
  after_results_simp
  all_goals rfl

/-- `main_v38` at boundary 5: the operations of host stretch 2 that produce it, composed, over the contents at boundary 4. -/
theorem host2_v38 (c : Dev nD) :
    Gen.W5 m ρ c (Proc.devRef .tc main_v38) =
      (shapeCast S50000x128
        (Gen.W4 m ρ c (Proc.devRef .tc main_v23_0) : (⟨S100000x64, .f32⟩ : BufTy).Contents (Elt F))
        shapeCasts_S100000x64_S50000x128 : (⟨S50000x128, .f32⟩ : BufTy).Contents (Elt F)) := by
  show StableHlo.after Gen.hostOps2 _ _ = _
  after_results_simp
  all_goals rfl

/-- `main_v41` at boundary 5: the operations of host stretch 2 that produce it, composed, over the contents at boundary 4. -/
theorem host2_v41 (c : Dev nD) :
    Gen.W5 m ρ c (Proc.devRef .tc main_v41) =
      (shapeCast S1x128
        (concatenate S128 0
          [⟨S64,
            (shapeCast S64
              (shapeCast S1x64
                ((Host.divf : (⟨S64, .f32⟩ : BufTy).Contents (Elt F) → (⟨S64, .f32⟩ : BufTy).Contents (Elt F) → (⟨S64, .f32⟩ : BufTy).Contents (Elt F))
                  (Host.reduceAdd
                    (shapeCast S20x64
                      (extractStridedSlice S20x1x64 ![0, 0, 0]
                        (Gen.W4 m ρ c (Proc.devRef .tc main_v23_1) : (⟨S20x8x64, .f32⟩ : BufTy).Contents (Elt F))
                        slices_S20x8x64_S20x1x64_0_0_0 : (⟨S20x1x64, .f32⟩ : BufTy).Contents (Elt F))
                      shapeCasts_S20x1x64_S20x64 : (⟨S20x64, .f32⟩ : BufTy).Contents (Elt F))
                    (constant S_ .f32 0x00000000#32 : (⟨S_, .f32⟩ : BufTy).Contents (Elt F))
                    reducesTo_S20x64_S64_d0 h_S_ : (⟨S64, .f32⟩ : BufTy).Contents (Elt F))
                  ((broadcastInDim S64 ![] bcast_S_S64 : (⟨S_, .f32⟩ : BufTy).Contents (Elt F) → (⟨S64, .f32⟩ : BufTy).Contents (Elt F))
                    (constant S_ .f32 0x47C35000#32 : (⟨S_, .f32⟩ : BufTy).Contents (Elt F))))
                shapeCasts_S64_S1x64 : (⟨S1x64, .f32⟩ : BufTy).Contents (Elt F))
              shapeCasts_S1x64_S64 : (⟨S64, .f32⟩ : BufTy).Contents (Elt F))⟩,
           ⟨S64,
            (shapeCast S64
              (shapeCast S1x64
                ((Host.divf : (⟨S64, .f32⟩ : BufTy).Contents (Elt F) → (⟨S64, .f32⟩ : BufTy).Contents (Elt F) → (⟨S64, .f32⟩ : BufTy).Contents (Elt F))
                  (Host.reduceAdd
                    (shapeCast S20x64
                      (extractStridedSlice S20x1x64 ![0, 0, 0]
                        (Gen.W4 m ρ c (Proc.devRef .tc main_v23_1) : (⟨S20x8x64, .f32⟩ : BufTy).Contents (Elt F))
                        slices_S20x8x64_S20x1x64_0_0_0 : (⟨S20x1x64, .f32⟩ : BufTy).Contents (Elt F))
                      shapeCasts_S20x1x64_S20x64 : (⟨S20x64, .f32⟩ : BufTy).Contents (Elt F))
                    (constant S_ .f32 0x00000000#32 : (⟨S_, .f32⟩ : BufTy).Contents (Elt F))
                    reducesTo_S20x64_S64_d0 h_S_ : (⟨S64, .f32⟩ : BufTy).Contents (Elt F))
                  ((broadcastInDim S64 ![] bcast_S_S64 : (⟨S_, .f32⟩ : BufTy).Contents (Elt F) → (⟨S64, .f32⟩ : BufTy).Contents (Elt F))
                    (constant S_ .f32 0x47C35000#32 : (⟨S_, .f32⟩ : BufTy).Contents (Elt F))))
                shapeCasts_S64_S1x64 : (⟨S1x64, .f32⟩ : BufTy).Contents (Elt F))
              shapeCasts_S1x64_S64 : (⟨S64, .f32⟩ : BufTy).Contents (Elt F))⟩]
          concatenates_S64_S64_S128_d0 : (⟨S128, .f32⟩ : BufTy).Contents (Elt F))
        shapeCasts_S128_S1x128 : (⟨S1x128, .f32⟩ : BufTy).Contents (Elt F)) := by
  show StableHlo.after Gen.hostOps2 _ _ = _
  after_results_simp
  all_goals rfl

/-- `main_v44` at boundary 5: the operations of host stretch 2 that produce it, composed, over the contents at boundary 4. -/
theorem host2_v44 (c : Dev nD) :
    Gen.W5 m ρ c (Proc.devRef .tc main_v44) =
      (shapeCast S1x128
        (concatenate S128 0
          [⟨S64,
            (shapeCast S64
              ((subf : (⟨S1x64, .f32⟩ : BufTy).Contents (Elt F) → (⟨S1x64, .f32⟩ : BufTy).Contents (Elt F) → (⟨S1x64, .f32⟩ : BufTy).Contents (Elt F))
                (shapeCast S1x64
                  ((Host.divf : (⟨S64, .f32⟩ : BufTy).Contents (Elt F) → (⟨S64, .f32⟩ : BufTy).Contents (Elt F) → (⟨S64, .f32⟩ : BufTy).Contents (Elt F))
                    (Host.reduceAdd
                      (shapeCast S20x64
                        (extractStridedSlice S20x1x64 ![0, 0, 0]
                          (Gen.W4 m ρ c (Proc.devRef .tc main_v23_2) : (⟨S20x8x64, .f32⟩ : BufTy).Contents (Elt F))
                          slices_S20x8x64_S20x1x64_0_0_0 : (⟨S20x1x64, .f32⟩ : BufTy).Contents (Elt F))
                        shapeCasts_S20x1x64_S20x64 : (⟨S20x64, .f32⟩ : BufTy).Contents (Elt F))
                      (constant S_ .f32 0x00000000#32 : (⟨S_, .f32⟩ : BufTy).Contents (Elt F))
                      reducesTo_S20x64_S64_d0 h_S_ : (⟨S64, .f32⟩ : BufTy).Contents (Elt F))
                    ((broadcastInDim S64 ![] bcast_S_S64 : (⟨S_, .f32⟩ : BufTy).Contents (Elt F) → (⟨S64, .f32⟩ : BufTy).Contents (Elt F))
                      (constant S_ .f32 0x47C35000#32 : (⟨S_, .f32⟩ : BufTy).Contents (Elt F))))
                  shapeCasts_S64_S1x64 : (⟨S1x64, .f32⟩ : BufTy).Contents (Elt F))
                ((mulf : (⟨S1x64, .f32⟩ : BufTy).Contents (Elt F) → (⟨S1x64, .f32⟩ : BufTy).Contents (Elt F) → (⟨S1x64, .f32⟩ : BufTy).Contents (Elt F))
                  (shapeCast S1x64
                    ((Host.divf : (⟨S64, .f32⟩ : BufTy).Contents (Elt F) → (⟨S64, .f32⟩ : BufTy).Contents (Elt F) → (⟨S64, .f32⟩ : BufTy).Contents (Elt F))
                      (Host.reduceAdd
                        (shapeCast S20x64
                          (extractStridedSlice S20x1x64 ![0, 0, 0]
                            (Gen.W4 m ρ c (Proc.devRef .tc main_v23_1) : (⟨S20x8x64, .f32⟩ : BufTy).Contents (Elt F))
                            slices_S20x8x64_S20x1x64_0_0_0 : (⟨S20x1x64, .f32⟩ : BufTy).Contents (Elt F))
                          shapeCasts_S20x1x64_S20x64 : (⟨S20x64, .f32⟩ : BufTy).Contents (Elt F))
                        (constant S_ .f32 0x00000000#32 : (⟨S_, .f32⟩ : BufTy).Contents (Elt F))
                        reducesTo_S20x64_S64_d0 h_S_ : (⟨S64, .f32⟩ : BufTy).Contents (Elt F))
                      ((broadcastInDim S64 ![] bcast_S_S64 : (⟨S_, .f32⟩ : BufTy).Contents (Elt F) → (⟨S64, .f32⟩ : BufTy).Contents (Elt F))
                        (constant S_ .f32 0x47C35000#32 : (⟨S_, .f32⟩ : BufTy).Contents (Elt F))))
                    shapeCasts_S64_S1x64 : (⟨S1x64, .f32⟩ : BufTy).Contents (Elt F))
                  (shapeCast S1x64
                    ((Host.divf : (⟨S64, .f32⟩ : BufTy).Contents (Elt F) → (⟨S64, .f32⟩ : BufTy).Contents (Elt F) → (⟨S64, .f32⟩ : BufTy).Contents (Elt F))
                      (Host.reduceAdd
                        (shapeCast S20x64
                          (extractStridedSlice S20x1x64 ![0, 0, 0]
                            (Gen.W4 m ρ c (Proc.devRef .tc main_v23_1) : (⟨S20x8x64, .f32⟩ : BufTy).Contents (Elt F))
                            slices_S20x8x64_S20x1x64_0_0_0 : (⟨S20x1x64, .f32⟩ : BufTy).Contents (Elt F))
                          shapeCasts_S20x1x64_S20x64 : (⟨S20x64, .f32⟩ : BufTy).Contents (Elt F))
                        (constant S_ .f32 0x00000000#32 : (⟨S_, .f32⟩ : BufTy).Contents (Elt F))
                        reducesTo_S20x64_S64_d0 h_S_ : (⟨S64, .f32⟩ : BufTy).Contents (Elt F))
                      ((broadcastInDim S64 ![] bcast_S_S64 : (⟨S_, .f32⟩ : BufTy).Contents (Elt F) → (⟨S64, .f32⟩ : BufTy).Contents (Elt F))
                        (constant S_ .f32 0x47C35000#32 : (⟨S_, .f32⟩ : BufTy).Contents (Elt F))))
                    shapeCasts_S64_S1x64 : (⟨S1x64, .f32⟩ : BufTy).Contents (Elt F))))
              shapeCasts_S1x64_S64 : (⟨S64, .f32⟩ : BufTy).Contents (Elt F))⟩,
           ⟨S64,
            (shapeCast S64
              ((subf : (⟨S1x64, .f32⟩ : BufTy).Contents (Elt F) → (⟨S1x64, .f32⟩ : BufTy).Contents (Elt F) → (⟨S1x64, .f32⟩ : BufTy).Contents (Elt F))
                (shapeCast S1x64
                  ((Host.divf : (⟨S64, .f32⟩ : BufTy).Contents (Elt F) → (⟨S64, .f32⟩ : BufTy).Contents (Elt F) → (⟨S64, .f32⟩ : BufTy).Contents (Elt F))
                    (Host.reduceAdd
                      (shapeCast S20x64
                        (extractStridedSlice S20x1x64 ![0, 0, 0]
                          (Gen.W4 m ρ c (Proc.devRef .tc main_v23_2) : (⟨S20x8x64, .f32⟩ : BufTy).Contents (Elt F))
                          slices_S20x8x64_S20x1x64_0_0_0 : (⟨S20x1x64, .f32⟩ : BufTy).Contents (Elt F))
                        shapeCasts_S20x1x64_S20x64 : (⟨S20x64, .f32⟩ : BufTy).Contents (Elt F))
                      (constant S_ .f32 0x00000000#32 : (⟨S_, .f32⟩ : BufTy).Contents (Elt F))
                      reducesTo_S20x64_S64_d0 h_S_ : (⟨S64, .f32⟩ : BufTy).Contents (Elt F))
                    ((broadcastInDim S64 ![] bcast_S_S64 : (⟨S_, .f32⟩ : BufTy).Contents (Elt F) → (⟨S64, .f32⟩ : BufTy).Contents (Elt F))
                      (constant S_ .f32 0x47C35000#32 : (⟨S_, .f32⟩ : BufTy).Contents (Elt F))))
                  shapeCasts_S64_S1x64 : (⟨S1x64, .f32⟩ : BufTy).Contents (Elt F))
                ((mulf : (⟨S1x64, .f32⟩ : BufTy).Contents (Elt F) → (⟨S1x64, .f32⟩ : BufTy).Contents (Elt F) → (⟨S1x64, .f32⟩ : BufTy).Contents (Elt F))
                  (shapeCast S1x64
                    ((Host.divf : (⟨S64, .f32⟩ : BufTy).Contents (Elt F) → (⟨S64, .f32⟩ : BufTy).Contents (Elt F) → (⟨S64, .f32⟩ : BufTy).Contents (Elt F))
                      (Host.reduceAdd
                        (shapeCast S20x64
                          (extractStridedSlice S20x1x64 ![0, 0, 0]
                            (Gen.W4 m ρ c (Proc.devRef .tc main_v23_1) : (⟨S20x8x64, .f32⟩ : BufTy).Contents (Elt F))
                            slices_S20x8x64_S20x1x64_0_0_0 : (⟨S20x1x64, .f32⟩ : BufTy).Contents (Elt F))
                          shapeCasts_S20x1x64_S20x64 : (⟨S20x64, .f32⟩ : BufTy).Contents (Elt F))
                        (constant S_ .f32 0x00000000#32 : (⟨S_, .f32⟩ : BufTy).Contents (Elt F))
                        reducesTo_S20x64_S64_d0 h_S_ : (⟨S64, .f32⟩ : BufTy).Contents (Elt F))
                      ((broadcastInDim S64 ![] bcast_S_S64 : (⟨S_, .f32⟩ : BufTy).Contents (Elt F) → (⟨S64, .f32⟩ : BufTy).Contents (Elt F))
                        (constant S_ .f32 0x47C35000#32 : (⟨S_, .f32⟩ : BufTy).Contents (Elt F))))
                    shapeCasts_S64_S1x64 : (⟨S1x64, .f32⟩ : BufTy).Contents (Elt F))
                  (shapeCast S1x64
                    ((Host.divf : (⟨S64, .f32⟩ : BufTy).Contents (Elt F) → (⟨S64, .f32⟩ : BufTy).Contents (Elt F) → (⟨S64, .f32⟩ : BufTy).Contents (Elt F))
                      (Host.reduceAdd
                        (shapeCast S20x64
                          (extractStridedSlice S20x1x64 ![0, 0, 0]
                            (Gen.W4 m ρ c (Proc.devRef .tc main_v23_1) : (⟨S20x8x64, .f32⟩ : BufTy).Contents (Elt F))
                            slices_S20x8x64_S20x1x64_0_0_0 : (⟨S20x1x64, .f32⟩ : BufTy).Contents (Elt F))
                          shapeCasts_S20x1x64_S20x64 : (⟨S20x64, .f32⟩ : BufTy).Contents (Elt F))
                        (constant S_ .f32 0x00000000#32 : (⟨S_, .f32⟩ : BufTy).Contents (Elt F))
                        reducesTo_S20x64_S64_d0 h_S_ : (⟨S64, .f32⟩ : BufTy).Contents (Elt F))
                      ((broadcastInDim S64 ![] bcast_S_S64 : (⟨S_, .f32⟩ : BufTy).Contents (Elt F) → (⟨S64, .f32⟩ : BufTy).Contents (Elt F))
                        (constant S_ .f32 0x47C35000#32 : (⟨S_, .f32⟩ : BufTy).Contents (Elt F))))
                    shapeCasts_S64_S1x64 : (⟨S1x64, .f32⟩ : BufTy).Contents (Elt F))))
              shapeCasts_S1x64_S64 : (⟨S64, .f32⟩ : BufTy).Contents (Elt F))⟩]
          concatenates_S64_S64_S128_d0 : (⟨S128, .f32⟩ : BufTy).Contents (Elt F))
        shapeCasts_S128_S1x128 : (⟨S1x128, .f32⟩ : BufTy).Contents (Elt F)) := by
  show StableHlo.after Gen.hostOps2 _ _ = _
  after_results_simp
  all_goals rfl

/-- `main_v46` at boundary 5: the operations of host stretch 2 that produce it, composed, over the contents at boundary 4. -/
theorem host2_v46 (c : Dev nD) :
    Gen.W5 m ρ c (Proc.devRef .tc main_v46) =
      (shapeCast S1x128
        (concatenate S128 0
          [⟨S64,
            (Gen.W4 m ρ c (Proc.devRef .tc main_arg6) : (⟨S64, .f32⟩ : BufTy).Contents (Elt F))⟩,
           ⟨S64,
            (Gen.W4 m ρ c (Proc.devRef .tc main_arg6) : (⟨S64, .f32⟩ : BufTy).Contents (Elt F))⟩]
          concatenates_S64_S64_S128_d0 : (⟨S128, .f32⟩ : BufTy).Contents (Elt F))
        shapeCasts_S128_S1x128 : (⟨S1x128, .f32⟩ : BufTy).Contents (Elt F)) := by
  show StableHlo.after Gen.hostOps2 _ _ = _
  after_results_simp
  all_goals rfl

/-- `main_v48` at boundary 5: the operations of host stretch 2 that produce it, composed, over the contents at boundary 4. -/
theorem host2_v48 (c : Dev nD) :
    Gen.W5 m ρ c (Proc.devRef .tc main_v48) =
      (shapeCast S1x128
        (concatenate S128 0
          [⟨S64,
            (Gen.W4 m ρ c (Proc.devRef .tc main_arg7) : (⟨S64, .f32⟩ : BufTy).Contents (Elt F))⟩,
           ⟨S64,
            (Gen.W4 m ρ c (Proc.devRef .tc main_arg7) : (⟨S64, .f32⟩ : BufTy).Contents (Elt F))⟩]
          concatenates_S64_S64_S128_d0 : (⟨S128, .f32⟩ : BufTy).Contents (Elt F))
        shapeCasts_S128_S1x128 : (⟨S1x128, .f32⟩ : BufTy).Contents (Elt F)) := by
  show StableHlo.after Gen.hostOps2 _ _ = _
  after_results_simp
  all_goals rfl

end Cert.KernelIdeal.Trace

end
-- ==== Proof.KNormStage1.lean ====
/-
  The first normalisation stage of the kernel program, from the layer's output to the next layer's input.

  When the layer before left the table h and, tile by tile, the column sums of h and of its squares, the host's
  preparation, the region on the folded layout and the view back leave the normalisation of h by its tiled column
  statistics, with the scale and shift the program was launched with.
-/
import proofs.«174735_j64811056496761_2_alg».proof.Proof.KNormStage
import proofs.«174735_j64811056496761_2_alg».proof.Proof.KNorm2
import proofs.«174735_j64811056496761_2_alg».proof.Proof.KHost2
import proofs.«174735_j64811056496761_2_alg».proof.Proof.KHost3
import proofs.«174735_j64811056496761_2_alg».proof.Proof.KKeep2
import proofs.«174735_j64811056496761_2_alg».proof.Proof.KKeep3

set_option maxRecDepth 16384

noncomputable section

namespace Cert.KernelIdeal.NormStage

open Cert.KernelIdeal Cert.KernelIdeal.Gen Cert.KernelIdeal.Trace Cert.KernelIdeal.RegionValue
open Idealize.ShloMosaic Idealize.ShloMosaic.TcCoe Idealize.ShloMosaic.ValueIdx Idealize.SL.Sem Cert.GNet
open scoped BigOperators

variable (m : (ℓ : Loc nD τ sig) → Buf (Elt Ideal) ℓ) (ρ : Dev nD → PrngReg)

/-- The layer's output table before the stage, at its literal type. -/
abbrev st1_h (c : Dev nD) : Tab NN 64 := Gen.W4 m ρ c (Proc.devRef .tc main_v23_0)
/-- The tiles' column sums before the stage. -/
abbrev st1_T1 (c : Dev nD) : FVec Ideal S20x8x64 .f32 := Gen.W4 m ρ c (Proc.devRef .tc main_v23_1)
/-- The tiles' column sums of squares before the stage. -/
abbrev st1_T2 (c : Dev nD) : FVec Ideal S20x8x64 .f32 := Gen.W4 m ρ c (Proc.devRef .tc main_v23_2)
/-- The next layer's input table after the stage. -/
abbrev st1_out (c : Dev nD) : Tab NN 64 := Gen.W7 m ρ c (Proc.devRef .tc main_v50)

/-- The stage: the next layer's input is the normalisation of the layer's output by its tiled column statistics. -/
theorem norm1 (c : Dev nD) (h : Tab NN 64) (hh : st1_h m ρ c = h)
    (hsum : ∀ (t : Fin 20) (r : Fin 8) (q : Fin 64), st1_T1 m ρ c (ix3 t r q) = 0 + ∑ k : Fin 5000, h (ix2 (tileRow t k) q))
    (hsq : ∀ (t : Fin 20) (r : Fin 8) (q : Fin 64),
      st1_T2 m ρ c (ix3 t r q) = 0 + ∑ k : Fin 5000, h (ix2 (tileRow t k) q) * h (ix2 (tileRow t k) q)) :
    st1_out m ρ c = kNorm h (m ((c : Thread nD τ).loc main_arg6)) (m ((c : Thread nD τ).loc main_arg7)) := by
  show Gen.W7 m ρ c (Proc.devRef .tc main_v50) = _
  rw [host3_v50, out_v49]
  refine stage_norm h _ _ (st1_T1 m ρ c) (st1_T2 m ρ c) hsum hsq
    (bn2_H (Gen.V5 m ρ) c) (bn2_M (Gen.V5 m ρ) c) (bn2_Vr (Gen.V5 m ρ) c) (bn2_G (Gen.V5 m ρ) c) (bn2_Bt (Gen.V5 m ρ) c)
    ?_ ?_ ?_ ?_ ?_ (bn2_out (Gen.V5 m ρ) c) (fun a l => region2_value (Gen.V5 m ρ) c a l)
  · subst hh; exact host2_v38 m ρ c
  · exact host2_v41 m ρ c
  · exact host2_v44 m ρ c
  · rw [← arg6_W4 m ρ c]; exact host2_v46 m ρ c
  · rw [← arg7_W4 m ρ c]; exact host2_v48 m ρ c

end Cert.KernelIdeal.NormStage

end
-- ==== Proof.KNorm4.lean ====
/-
  The second normalisation region, read as a whole array.

  The region works on the folded layout: the [100000, 64] activations viewed as [50000, 128], two rows side by side, and
  the per-column mean, variance, scale and shift as [1, 128] rows (each 64-vector laid twice). Its ten grid points each
  stage 5000 rows of the folded matrix and the four rows, and store, lane by lane, the larger of zero and
  ((h − mean) · rsqrt(variance + ε)) · scale + shift. Here: the body's value at an entry of a block, which rows of the
  arrays a block's entry sits over, and that the ten blocks cover the result, so that the result array after the region
  is that formula of the arrays as the region finds them, entry by entry.
-/
import proofs.«174735_j64811056496761_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The staging buffers are loaded and stored whole: the offsets of the body's one rectangle are zero. -/
theorem bn4_zero : (![0, 0] : Fin 2 → Nat) = fun _ => 0 := funext fun a => by fin_cases a <;> rfl

/-- The normalised folded matrix, entry by entry: entry (a, l) of the matrix less lane l of the mean row, times the
    reciprocal square root of lane l of the variance row plus the small constant, times lane l of the scale row, plus lane l
    of the shift row, and of that and zero the larger. -/
def bn4G (H : S50000x128.Idx → EReal) (M Vr G Bt : S1x128.Idx → EReal) : S50000x128.Idx → EReal := fun i =>
  max (((H i - M (ix2 0 (i 1))) * Ideal.rsqrt (Vr (ix2 0 (i 1)) + Ideal.ofBits .f32 0x3727C5AC#32)) * G (ix2 0 (i 1)) + Bt (ix2 0 (i 1))) 0

/-- The body's value at row r, lane l of its block: the same formula of the block's entry and the four rows' lanes. -/
theorem bn4_pay_apply (x0 : Vec Ideal S5000x128 .f32) (xv xm xg xb : Vec Ideal S1x128 .f32) (r : Fin 5000) (l : Fin 128) :
    k4_pay1 x0 xv xm xg xb (ix2 r l)
      = max (((x0 (ix2 r l) - xm (ix2 0 l)) * Ideal.rsqrt (xv (ix2 0 l) + Ideal.ofBits .f32 0x3727C5AC#32)) * xg (ix2 0 l) + xb (ix2 0 l)) 0 := by
  unfold k4_pay1
  simp only [shapeCast_self, addf_apply, mulf_apply, subf_apply, maximumf_apply, broadcast_apply, broadcastTo_1b_ab_apply]
  show max _ (Ideal.ofBits .f32 0x00000000#32) = _
  rw [Ideal.ofBits_zero_f32]
  rfl

/-- One entry of a block: when the block's entry is the matrix's entry i and the four staged rows' lanes are the four
    rows' lanes at i's lane, the body's value there is the normalised matrix's entry i. -/
theorem bn4_point (H : S50000x128.Idx → EReal) (M Vr G Bt : S1x128.Idx → EReal)
    (x0 : Vec Ideal S5000x128 .f32) (xv xm xg xb : Vec Ideal S1x128 .f32) (y : S5000x128.Idx) (i : S50000x128.Idx)
    (h0 : x0 y = H i) (hv : xv (ix2 0 (y 1)) = Vr (ix2 0 (i 1))) (hm : xm (ix2 0 (y 1)) = M (ix2 0 (i 1)))
    (hg : xg (ix2 0 (y 1)) = G (ix2 0 (i 1))) (hb : xb (ix2 0 (y 1)) = Bt (ix2 0 (i 1))) :
    k4_pay1 x0 xv xm xg xb y = bn4G H M Vr G Bt i := by
  obtain ⟨r, l, rfl⟩ : ∃ (r : Fin 5000) (l : Fin 128), y = ix2 r l := ⟨y 0, y 1, eq_ix2 y⟩
  rw [bn4_pay_apply]
  show _ = max (((H i - M (ix2 0 (i 1))) * Ideal.rsqrt (Vr (ix2 0 (i 1)) + Ideal.ofBits .f32 0x3727C5AC#32)) * G (ix2 0 (i 1)) + Bt (ix2 0 (i 1))) 0
  rw [← h0, ← hv, ← hm, ← hg, ← hb]

/-- The printed index maps over the ten grid points: point t stages block t of the matrix and of the result (rows
    5000 t … 5000 t + 4999, all 128 lanes), and the one block of each of the four rows. -/
theorem bn4_idx_facts : ∀ t : Fin cfg4.N,
    win4_5.index t (0 : Fin 2) = t.val ∧ win4_5.index t (1 : Fin 2) = 0
    ∧ win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0 :=
  (by decide +kernel : ∀ t : Fin grid4.N, _)

/-- The staged block of the matrix at point t is its rows 5000 t … 5000 t + 4999. -/
theorem bn4_blk0 (c : Dev nD) (t : Fin cfg4.N) (x : S5000x128.Idx) (k : S50000x128.Idx)
    (h0 : (k 0).val = 5000 * t.val + (x 0).val) (h1 : (k 1).val = (x 1).val) :
    (iblk4 V c 0 t : Vec Ideal S5000x128 .f32) x = (V c (Pipeline.arrRef spec4 0) : S50000x128.Idx → EReal) k := by
  obtain ⟨-, -, e00, e01, -⟩ := bn4_idx_facts t
  show V c (Pipeline.arrRef spec4 0) (((cfg4.win 0).blk t).view.emb x) = V c (Pipeline.arrRef spec4 0) k
  refine congrArg _ (funext fun a => Fin.ext ?_)
  match a with
  | ⟨0, _⟩ => show win4_0.index t (0 : Fin 2) * 5000 + 1 * (x 0).val = (k 0).val; omega
  | ⟨1, _⟩ => show win4_0.index t (1 : Fin 2) * 128 + 1 * (x 1).val = (k 1).val; omega

/-- The staged block of the mean row is the row: its lane at any point is the array's lane. -/
theorem bn4_row1 (c : Dev nD) (t : Fin cfg4.N) (x k : S1x128.Idx) (h : (k 1).val = (x 1).val) :
    (iblk4 V c 1 t : Vec Ideal S1x128 .f32) x = (V c (Pipeline.arrRef spec4 1) : S1x128.Idx → EReal) k := by
  obtain ⟨-, -, -, -, e10, e11, e20, e21, e30, e31, e40, e41⟩ := bn4_idx_facts t
  have hx : (x 0).val < 1 := (x 0).isLt
  have hk : (k 0).val < 1 := (k 0).isLt
  show V c (Pipeline.arrRef spec4 1) (((cfg4.win 1).blk t).view.emb x) = V c (Pipeline.arrRef spec4 1) k
  refine congrArg _ (funext fun a => Fin.ext ?_)
  match a with
  | ⟨0, _⟩ => show win4_1.index t (0 : Fin 2) * 1 + 1 * (x 0).val = (k 0).val; omega
  | ⟨1, _⟩ => show win4_1.index t (1 : Fin 2) * 128 + 1 * (x 1).val = (k 1).val; omega

/-- The staged block of the variance row is the row: its lane at any point is the array's lane. -/
theorem bn4_row2 (c : Dev nD) (t : Fin cfg4.N) (x k : S1x128.Idx) (h : (k 1).val = (x 1).val) :
    (iblk4 V c 2 t : Vec Ideal S1x128 .f32) x = (V c (Pipeline.arrRef spec4 2) : S1x128.Idx → EReal) k := by
  obtain ⟨-, -, -, -, e10, e11, e20, e21, e30, e31, e40, e41⟩ := bn4_idx_facts t
  have hx : (x 0).val < 1 := (x 0).isLt
  have hk : (k 0).val < 1 := (k 0).isLt
  show V c (Pipeline.arrRef spec4 2) (((cfg4.win 2).blk t).view.emb x) = V c (Pipeline.arrRef spec4 2) k
  refine congrArg _ (funext fun a => Fin.ext ?_)
  match a with
  | ⟨0, _⟩ => show win4_2.index t (0 : Fin 2) * 1 + 1 * (x 0).val = (k 0).val; omega
  | ⟨1, _⟩ => show win4_2.index t (1 : Fin 2) * 128 + 1 * (x 1).val = (k 1).val; omega

/-- The staged block of the scale row is the row: its lane at any point is the array's lane. -/
theorem bn4_row3 (c : Dev nD) (t : Fin cfg4.N) (x k : S1x128.Idx) (h : (k 1).val = (x 1).val) :
    (iblk4 V c 3 t : Vec Ideal S1x128 .f32) x = (V c (Pipeline.arrRef spec4 3) : S1x128.Idx → EReal) k := by
  obtain ⟨-, -, -, -, e10, e11, e20, e21, e30, e31, e40, e41⟩ := bn4_idx_facts t
  have hx : (x 0).val < 1 := (x 0).isLt
  have hk : (k 0).val < 1 := (k 0).isLt
  show V c (Pipeline.arrRef spec4 3) (((cfg4.win 3).blk t).view.emb x) = V c (Pipeline.arrRef spec4 3) k
  refine congrArg _ (funext fun a => Fin.ext ?_)
  match a with
  | ⟨0, _⟩ => show win4_3.index t (0 : Fin 2) * 1 + 1 * (x 0).val = (k 0).val; omega
  | ⟨1, _⟩ => show win4_3.index t (1 : Fin 2) * 128 + 1 * (x 1).val = (k 1).val; omega

/-- The staged block of the shift row is the row: its lane at any point is the array's lane. -/
theorem bn4_row4 (c : Dev nD) (t : Fin cfg4.N) (x k : S1x128.Idx) (h : (k 1).val = (x 1).val) :
    (iblk4 V c 4 t : Vec Ideal S1x128 .f32) x = (V c (Pipeline.arrRef spec4 4) : S1x128.Idx → EReal) k := by
  obtain ⟨-, -, -, -, e10, e11, e20, e21, e30, e31, e40, e41⟩ := bn4_idx_facts t
  have hx : (x 0).val < 1 := (x 0).isLt
  have hk : (k 0).val < 1 := (k 0).isLt
  show V c (Pipeline.arrRef spec4 4) (((cfg4.win 4).blk t).view.emb x) = V c (Pipeline.arrRef spec4 4) k
  refine congrArg _ (funext fun a => Fin.ext ?_)
  match a with
  | ⟨0, _⟩ => show win4_4.index t (0 : Fin 2) * 1 + 1 * (x 0).val = (k 0).val; omega
  | ⟨1, _⟩ => show win4_4.index t (1 : Fin 2) * 128 + 1 * (x 1).val = (k 1).val; omega

/-- The body's value at an entry of point t's block is the normalised matrix at the entry of the array under it. -/
theorem bn4_block_entry (c : Dev nD) (t : Fin cfg4.N) (y : S5000x128.Idx) (i : S50000x128.Idx)
    (h0 : (i 0).val = 5000 * t.val + (y 0).val) (h1 : (i 1).val = (y 1).val) :
    k4_pay1 (iblk4 V c 0 t) (iblk4 V c 2 t) (iblk4 V c 1 t) (iblk4 V c 3 t) (iblk4 V c 4 t) y
      = bn4G (V c (Pipeline.arrRef spec4 0)) (V c (Pipeline.arrRef spec4 1)) (V c (Pipeline.arrRef spec4 2)) (V c (Pipeline.arrRef spec4 3)) (V c (Pipeline.arrRef spec4 4)) i :=
  bn4_point (V c (Pipeline.arrRef spec4 0)) (V c (Pipeline.arrRef spec4 1)) (V c (Pipeline.arrRef spec4 2)) (V c (Pipeline.arrRef spec4 3)) (V c (Pipeline.arrRef spec4 4))
    (iblk4 V c 0 t) (iblk4 V c 2 t) (iblk4 V c 1 t) (iblk4 V c 3 t) (iblk4 V c 4 t) y i
    (bn4_blk0 V c t y i h0 h1) (bn4_row2 V c t (ix2 0 (y 1)) (ix2 0 (i 1)) h1) (bn4_row1 V c t (ix2 0 (y 1)) (ix2 0 (i 1)) h1)
    (bn4_row3 V c t (ix2 0 (y 1)) (ix2 0 (i 1)) h1) (bn4_row4 V c t (ix2 0 (y 1)) (ix2 0 (i 1)) h1)

/-- What point t writes back is block t of the normalised matrix of the arrays as the region finds them. -/
theorem bn4_flushed (c : Dev nD) (t : Fin cfg4.N) :
    (dat4 V c).flushed 5 t = ((cfg4.win 5).blk t).view.read (Elt Ideal) (bn4G (V c (Pipeline.arrRef spec4 0)) (V c (Pipeline.arrRef spec4 1)) (V c (Pipeline.arrRef spec4 2)) (V c (Pipeline.arrRef spec4 3)) (V c (Pipeline.arrRef spec4 4))) := by
  show (cfg4.win 5).cut (grid4.coords t) ((dat4 V c).after 5 t) = _
  rw [after4_5]
  unfold out4_5
  rw [View.canon_unit_zero bn4_zero]
  simp only [View.ld_unit_zero (S := S5000x128) bn4_zero, View.ld_unit_zero (S := S1x128) bn4_zero]
  obtain ⟨e50, e51, -⟩ := bn4_idx_facts t
  funext j
  refine bn4_block_entry V c t j (((cfg4.win 5).blk t).view.emb j) ?_ ?_
  · show win4_5.index t (0 : Fin 2) * 5000 + 1 * (j 0).val = 5000 * t.val + (j 0).val; omega
  · show win4_5.index t (1 : Fin 2) * 128 + 1 * (j 1).val = (j 1).val; omega

/-- An index of the result is in point t's block iff each coordinate is in the block's range on its axis. -/
theorem bn4_mem_blk (t : Fin cfg4.N) (i : S50000x128.Idx) :
    i ∈ ((cfg4.win 5).blk t).view.set ↔ ∀ a : Fin 2, win4_5.index t a * S5000x128.size a ≤ (i a).val ∧ (i a).val < win4_5.index t a * S5000x128.size a + S5000x128.size a := by
  show i ∈ ((View.whole main_v91).slice (win4_5.rect t)).set ↔ _
  rw [View.set_slice_whole, Rect.mem_set_unit]
  exact Iff.rfl

/-- Every entry of the result is written: row a is in the block of point a / 5000. -/
theorem bn4_cover (i : S50000x128.Idx) :
    ∃ t : Fin cfg4.N, (cfg4.win 5).flush t = true ∧ i ∈ ((cfg4.win 5).blk t).view.set := by
  have hi0 : (i 0).val < 50000 := (i 0).isLt
  have hi1 : (i 1).val < 128 := (i 1).isLt
  have hN : cfg4.N = 10 := N_4
  have ht : (i 0).val / 5000 < cfg4.N := by rw [hN]; omega
  obtain ⟨e50, e51, -⟩ := bn4_idx_facts ⟨(i 0).val / 5000, ht⟩
  refine ⟨⟨(i 0).val / 5000, ht⟩, flush4_5 _, ?_⟩
  rw [bn4_mem_blk]
  intro a
  match a with
  | ⟨0, _⟩ =>
    show win4_5.index ⟨(i 0).val / 5000, ht⟩ (0 : Fin 2) * 5000 ≤ (i 0).val ∧ (i 0).val < win4_5.index ⟨(i 0).val / 5000, ht⟩ (0 : Fin 2) * 5000 + 5000
    rw [e50]; show (i 0).val / 5000 * 5000 ≤ (i 0).val ∧ (i 0).val < (i 0).val / 5000 * 5000 + 5000; omega
  | ⟨1, _⟩ =>
    show win4_5.index ⟨(i 0).val / 5000, ht⟩ (1 : Fin 2) * 128 ≤ (i 1).val ∧ (i 1).val < win4_5.index ⟨(i 0).val / 5000, ht⟩ (1 : Fin 2) * 128 + 128
    rw [e51]; omega

/-- The result array after the region: the normalised matrix of the arrays as the region finds them. -/
theorem bn4_arr (c : Dev nD) : (dat4 V c).arrAt 5 cfg4.N = bn4G (V c (Pipeline.arrRef spec4 0)) (V c (Pipeline.arrRef spec4 1)) (V c (Pipeline.arrRef spec4 2)) (V c (Pipeline.arrRef spec4 3)) (V c (Pipeline.arrRef spec4 4)) :=
  (dat4 V c).arrAt_eq_of_cover 5 (bn4G (V c (Pipeline.arrRef spec4 0)) (V c (Pipeline.arrRef spec4 1)) (V c (Pipeline.arrRef spec4 2)) (V c (Pipeline.arrRef spec4 3)) (V c (Pipeline.arrRef spec4 4))) (fun t _ => bn4_flushed V c t) bn4_cover

/-- The arrays as the region finds them, at their literal index types: the folded matrix, and the mean, variance, scale and
    shift rows. -/
abbrev bn4_H (c : Dev nD) : S50000x128.Idx → EReal := V c (Pipeline.arrRef spec4 0)
abbrev bn4_M (c : Dev nD) : S1x128.Idx → EReal := V c (Pipeline.arrRef spec4 1)
abbrev bn4_Vr (c : Dev nD) : S1x128.Idx → EReal := V c (Pipeline.arrRef spec4 2)
abbrev bn4_G (c : Dev nD) : S1x128.Idx → EReal := V c (Pipeline.arrRef spec4 3)
abbrev bn4_Bt (c : Dev nD) : S1x128.Idx → EReal := V c (Pipeline.arrRef spec4 4)
/-- The result array after the region, at its literal index type. -/
abbrev bn4_out (c : Dev nD) : S50000x128.Idx → EReal := (dat4 V c).arrAt 5 cfg4.N

/-- Entry (a, l) of the result array after the region, from the entry contents of the five input arrays. -/
theorem region4_value (c : Dev nD) (a : Fin 50000) (l : Fin 128) :
    bn4_out V c (ix2 a l)
      = max (((bn4_H V c (ix2 a l) - bn4_M V c (ix2 0 l)) * Ideal.rsqrt (bn4_Vr V c (ix2 0 l) + Ideal.ofBits .f32 0x3727C5AC#32)) * bn4_G V c (ix2 0 l) + bn4_Bt V c (ix2 0 l)) 0 := by
  show (dat4 V c).arrAt 5 cfg4.N (ix2 a l) = _
  rw [bn4_arr]
  rfl

end Cert.KernelIdeal.RegionValue

end
-- ==== Proof.KHost4.lean ====
/- Host stretch 4 of @main: what each buffer it writes that is read later holds at the stretch's end (boundary 9),
   as the stretch's operations applied to the contents at its start (boundary 8). -/
import proofs.«174735_j64811056496761_2_alg».proof.Proof.Gen.KernelIdeal.Frame

set_option maxRecDepth 16384

noncomputable section

namespace Cert.KernelIdeal.Trace

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- `main_v74` at boundary 9: the operations of host stretch 4 that produce it, composed, over the contents at boundary 8. -/
theorem host4_v74 (c : Dev nD) :
    Gen.W9 m ρ c (Proc.devRef .tc main_v74) =
      (shapeCast S1x64
        ((Host.divf : (⟨S64, .f32⟩ : BufTy).Contents (Elt F) → (⟨S64, .f32⟩ : BufTy).Contents (Elt F) → (⟨S64, .f32⟩ : BufTy).Contents (Elt F))
          (Host.reduceAdd
            (shapeCast S20x64
              (extractStridedSlice S20x1x64 ![0, 0, 0]
                (Gen.W8 m ρ c (Proc.devRef .tc main_v65_1) : (⟨S20x8x64, .f32⟩ : BufTy).Contents (Elt F))
                slices_S20x8x64_S20x1x64_0_0_0 : (⟨S20x1x64, .f32⟩ : BufTy).Contents (Elt F))
              shapeCasts_S20x1x64_S20x64 : (⟨S20x64, .f32⟩ : BufTy).Contents (Elt F))
            (constant S_ .f32 0x00000000#32 : (⟨S_, .f32⟩ : BufTy).Contents (Elt F))
            reducesTo_S20x64_S64_d0 h_S_ : (⟨S64, .f32⟩ : BufTy).Contents (Elt F))
          ((broadcastInDim S64 ![] bcast_S_S64 : (⟨S_, .f32⟩ : BufTy).Contents (Elt F) → (⟨S64, .f32⟩ : BufTy).Contents (Elt F))
            (constant S_ .f32 0x47C35000#32 : (⟨S_, .f32⟩ : BufTy).Contents (Elt F))))
        shapeCasts_S64_S1x64 : (⟨S1x64, .f32⟩ : BufTy).Contents (Elt F)) := by
  show StableHlo.after Gen.hostOps4 _ _ = _
  after_results_simp
  all_goals rfl

/-- `main_v79` at boundary 9: the operations of host stretch 4 that produce it, composed, over the contents at boundary 8. -/
theorem host4_v79 (c : Dev nD) :
    Gen.W9 m ρ c (Proc.devRef .tc main_v79) =
      ((subf : (⟨S1x64, .f32⟩ : BufTy).Contents (Elt F) → (⟨S1x64, .f32⟩ : BufTy).Contents (Elt F) → (⟨S1x64, .f32⟩ : BufTy).Contents (Elt F))
        (shapeCast S1x64
          ((Host.divf : (⟨S64, .f32⟩ : BufTy).Contents (Elt F) → (⟨S64, .f32⟩ : BufTy).Contents (Elt F) → (⟨S64, .f32⟩ : BufTy).Contents (Elt F))
            (Host.reduceAdd
              (shapeCast S20x64
                (extractStridedSlice S20x1x64 ![0, 0, 0]
                  (Gen.W8 m ρ c (Proc.devRef .tc main_v65_2) : (⟨S20x8x64, .f32⟩ : BufTy).Contents (Elt F))
                  slices_S20x8x64_S20x1x64_0_0_0 : (⟨S20x1x64, .f32⟩ : BufTy).Contents (Elt F))
                shapeCasts_S20x1x64_S20x64 : (⟨S20x64, .f32⟩ : BufTy).Contents (Elt F))
              (constant S_ .f32 0x00000000#32 : (⟨S_, .f32⟩ : BufTy).Contents (Elt F))
              reducesTo_S20x64_S64_d0 h_S_ : (⟨S64, .f32⟩ : BufTy).Contents (Elt F))
            ((broadcastInDim S64 ![] bcast_S_S64 : (⟨S_, .f32⟩ : BufTy).Contents (Elt F) → (⟨S64, .f32⟩ : BufTy).Contents (Elt F))
              (constant S_ .f32 0x47C35000#32 : (⟨S_, .f32⟩ : BufTy).Contents (Elt F))))
          shapeCasts_S64_S1x64 : (⟨S1x64, .f32⟩ : BufTy).Contents (Elt F))
        ((mulf : (⟨S1x64, .f32⟩ : BufTy).Contents (Elt F) → (⟨S1x64, .f32⟩ : BufTy).Contents (Elt F) → (⟨S1x64, .f32⟩ : BufTy).Contents (Elt F))
          (shapeCast S1x64
            ((Host.divf : (⟨S64, .f32⟩ : BufTy).Contents (Elt F) → (⟨S64, .f32⟩ : BufTy).Contents (Elt F) → (⟨S64, .f32⟩ : BufTy).Contents (Elt F))
              (Host.reduceAdd
                (shapeCast S20x64
                  (extractStridedSlice S20x1x64 ![0, 0, 0]
                    (Gen.W8 m ρ c (Proc.devRef .tc main_v65_1) : (⟨S20x8x64, .f32⟩ : BufTy).Contents (Elt F))
                    slices_S20x8x64_S20x1x64_0_0_0 : (⟨S20x1x64, .f32⟩ : BufTy).Contents (Elt F))
                  shapeCasts_S20x1x64_S20x64 : (⟨S20x64, .f32⟩ : BufTy).Contents (Elt F))
                (constant S_ .f32 0x00000000#32 : (⟨S_, .f32⟩ : BufTy).Contents (Elt F))
                reducesTo_S20x64_S64_d0 h_S_ : (⟨S64, .f32⟩ : BufTy).Contents (Elt F))
              ((broadcastInDim S64 ![] bcast_S_S64 : (⟨S_, .f32⟩ : BufTy).Contents (Elt F) → (⟨S64, .f32⟩ : BufTy).Contents (Elt F))
                (constant S_ .f32 0x47C35000#32 : (⟨S_, .f32⟩ : BufTy).Contents (Elt F))))
            shapeCasts_S64_S1x64 : (⟨S1x64, .f32⟩ : BufTy).Contents (Elt F))
          (shapeCast S1x64
            ((Host.divf : (⟨S64, .f32⟩ : BufTy).Contents (Elt F) → (⟨S64, .f32⟩ : BufTy).Contents (Elt F) → (⟨S64, .f32⟩ : BufTy).Contents (Elt F))
              (Host.reduceAdd
                (shapeCast S20x64
                  (extractStridedSlice S20x1x64 ![0, 0, 0]
                    (Gen.W8 m ρ c (Proc.devRef .tc main_v65_1) : (⟨S20x8x64, .f32⟩ : BufTy).Contents (Elt F))
                    slices_S20x8x64_S20x1x64_0_0_0 : (⟨S20x1x64, .f32⟩ : BufTy).Contents (Elt F))
                  shapeCasts_S20x1x64_S20x64 : (⟨S20x64, .f32⟩ : BufTy).Contents (Elt F))
                (constant S_ .f32 0x00000000#32 : (⟨S_, .f32⟩ : BufTy).Contents (Elt F))
                reducesTo_S20x64_S64_d0 h_S_ : (⟨S64, .f32⟩ : BufTy).Contents (Elt F))
              ((broadcastInDim S64 ![] bcast_S_S64 : (⟨S_, .f32⟩ : BufTy).Contents (Elt F) → (⟨S64, .f32⟩ : BufTy).Contents (Elt F))
                (constant S_ .f32 0x47C35000#32 : (⟨S_, .f32⟩ : BufTy).Contents (Elt F))))
            shapeCasts_S64_S1x64 : (⟨S1x64, .f32⟩ : BufTy).Contents (Elt F)))) := by
  show StableHlo.after Gen.hostOps4 _ _ = _
  after_results_simp
  all_goals rfl

/-- `main_v80` at boundary 9: the operations of host stretch 4 that produce it, composed, over the contents at boundary 8. -/
theorem host4_v80 (c : Dev nD) :
    Gen.W9 m ρ c (Proc.devRef .tc main_v80) =
      (shapeCast S50000x128
        (Gen.W8 m ρ c (Proc.devRef .tc main_v65_0) : (⟨S100000x64, .f32⟩ : BufTy).Contents (Elt F))
        shapeCasts_S100000x64_S50000x128 : (⟨S50000x128, .f32⟩ : BufTy).Contents (Elt F)) := by
  show StableHlo.after Gen.hostOps4 _ _ = _
  after_results_simp
  all_goals rfl

/-- `main_v83` at boundary 9: the operations of host stretch 4 that produce it, composed, over the contents at boundary 8. -/
theorem host4_v83 (c : Dev nD) :
    Gen.W9 m ρ c (Proc.devRef .tc main_v83) =
      (shapeCast S1x128
        (concatenate S128 0
          [⟨S64,
            (shapeCast S64
              (shapeCast S1x64
                ((Host.divf : (⟨S64, .f32⟩ : BufTy).Contents (Elt F) → (⟨S64, .f32⟩ : BufTy).Contents (Elt F) → (⟨S64, .f32⟩ : BufTy).Contents (Elt F))
                  (Host.reduceAdd
                    (shapeCast S20x64
                      (extractStridedSlice S20x1x64 ![0, 0, 0]
                        (Gen.W8 m ρ c (Proc.devRef .tc main_v65_1) : (⟨S20x8x64, .f32⟩ : BufTy).Contents (Elt F))
                        slices_S20x8x64_S20x1x64_0_0_0 : (⟨S20x1x64, .f32⟩ : BufTy).Contents (Elt F))
                      shapeCasts_S20x1x64_S20x64 : (⟨S20x64, .f32⟩ : BufTy).Contents (Elt F))
                    (constant S_ .f32 0x00000000#32 : (⟨S_, .f32⟩ : BufTy).Contents (Elt F))
                    reducesTo_S20x64_S64_d0 h_S_ : (⟨S64, .f32⟩ : BufTy).Contents (Elt F))
                  ((broadcastInDim S64 ![] bcast_S_S64 : (⟨S_, .f32⟩ : BufTy).Contents (Elt F) → (⟨S64, .f32⟩ : BufTy).Contents (Elt F))
                    (constant S_ .f32 0x47C35000#32 : (⟨S_, .f32⟩ : BufTy).Contents (Elt F))))
                shapeCasts_S64_S1x64 : (⟨S1x64, .f32⟩ : BufTy).Contents (Elt F))
              shapeCasts_S1x64_S64 : (⟨S64, .f32⟩ : BufTy).Contents (Elt F))⟩,
           ⟨S64,
            (shapeCast S64
              (shapeCast S1x64
                ((Host.divf : (⟨S64, .f32⟩ : BufTy).Contents (Elt F) → (⟨S64, .f32⟩ : BufTy).Contents (Elt F) → (⟨S64, .f32⟩ : BufTy).Contents (Elt F))
                  (Host.reduceAdd
                    (shapeCast S20x64
                      (extractStridedSlice S20x1x64 ![0, 0, 0]
                        (Gen.W8 m ρ c (Proc.devRef .tc main_v65_1) : (⟨S20x8x64, .f32⟩ : BufTy).Contents (Elt F))
                        slices_S20x8x64_S20x1x64_0_0_0 : (⟨S20x1x64, .f32⟩ : BufTy).Contents (Elt F))
                      shapeCasts_S20x1x64_S20x64 : (⟨S20x64, .f32⟩ : BufTy).Contents (Elt F))
                    (constant S_ .f32 0x00000000#32 : (⟨S_, .f32⟩ : BufTy).Contents (Elt F))
                    reducesTo_S20x64_S64_d0 h_S_ : (⟨S64, .f32⟩ : BufTy).Contents (Elt F))
                  ((broadcastInDim S64 ![] bcast_S_S64 : (⟨S_, .f32⟩ : BufTy).Contents (Elt F) → (⟨S64, .f32⟩ : BufTy).Contents (Elt F))
                    (constant S_ .f32 0x47C35000#32 : (⟨S_, .f32⟩ : BufTy).Contents (Elt F))))
                shapeCasts_S64_S1x64 : (⟨S1x64, .f32⟩ : BufTy).Contents (Elt F))
              shapeCasts_S1x64_S64 : (⟨S64, .f32⟩ : BufTy).Contents (Elt F))⟩]
          concatenates_S64_S64_S128_d0 : (⟨S128, .f32⟩ : BufTy).Contents (Elt F))
        shapeCasts_S128_S1x128 : (⟨S1x128, .f32⟩ : BufTy).Contents (Elt F)) := by
  show StableHlo.after Gen.hostOps4 _ _ = _
  after_results_simp
  all_goals rfl

/-- `main_v86` at boundary 9: the operations of host stretch 4 that produce it, composed, over the contents at boundary 8. -/
theorem host4_v86 (c : Dev nD) :
    Gen.W9 m ρ c (Proc.devRef .tc main_v86) =
      (shapeCast S1x128
        (concatenate S128 0
          [⟨S64,
            (shapeCast S64
              ((subf : (⟨S1x64, .f32⟩ : BufTy).Contents (Elt F) → (⟨S1x64, .f32⟩ : BufTy).Contents (Elt F) → (⟨S1x64, .f32⟩ : BufTy).Contents (Elt F))
                (shapeCast S1x64
                  ((Host.divf : (⟨S64, .f32⟩ : BufTy).Contents (Elt F) → (⟨S64, .f32⟩ : BufTy).Contents (Elt F) → (⟨S64, .f32⟩ : BufTy).Contents (Elt F))
                    (Host.reduceAdd
                      (shapeCast S20x64
                        (extractStridedSlice S20x1x64 ![0, 0, 0]
                          (Gen.W8 m ρ c (Proc.devRef .tc main_v65_2) : (⟨S20x8x64, .f32⟩ : BufTy).Contents (Elt F))
                          slices_S20x8x64_S20x1x64_0_0_0 : (⟨S20x1x64, .f32⟩ : BufTy).Contents (Elt F))
                        shapeCasts_S20x1x64_S20x64 : (⟨S20x64, .f32⟩ : BufTy).Contents (Elt F))
                      (constant S_ .f32 0x00000000#32 : (⟨S_, .f32⟩ : BufTy).Contents (Elt F))
                      reducesTo_S20x64_S64_d0 h_S_ : (⟨S64, .f32⟩ : BufTy).Contents (Elt F))
                    ((broadcastInDim S64 ![] bcast_S_S64 : (⟨S_, .f32⟩ : BufTy).Contents (Elt F) → (⟨S64, .f32⟩ : BufTy).Contents (Elt F))
                      (constant S_ .f32 0x47C35000#32 : (⟨S_, .f32⟩ : BufTy).Contents (Elt F))))
                  shapeCasts_S64_S1x64 : (⟨S1x64, .f32⟩ : BufTy).Contents (Elt F))
                ((mulf : (⟨S1x64, .f32⟩ : BufTy).Contents (Elt F) → (⟨S1x64, .f32⟩ : BufTy).Contents (Elt F) → (⟨S1x64, .f32⟩ : BufTy).Contents (Elt F))
                  (shapeCast S1x64
                    ((Host.divf : (⟨S64, .f32⟩ : BufTy).Contents (Elt F) → (⟨S64, .f32⟩ : BufTy).Contents (Elt F) → (⟨S64, .f32⟩ : BufTy).Contents (Elt F))
                      (Host.reduceAdd
                        (shapeCast S20x64
                          (extractStridedSlice S20x1x64 ![0, 0, 0]
                            (Gen.W8 m ρ c (Proc.devRef .tc main_v65_1) : (⟨S20x8x64, .f32⟩ : BufTy).Contents (Elt F))
                            slices_S20x8x64_S20x1x64_0_0_0 : (⟨S20x1x64, .f32⟩ : BufTy).Contents (Elt F))
                          shapeCasts_S20x1x64_S20x64 : (⟨S20x64, .f32⟩ : BufTy).Contents (Elt F))
                        (constant S_ .f32 0x00000000#32 : (⟨S_, .f32⟩ : BufTy).Contents (Elt F))
                        reducesTo_S20x64_S64_d0 h_S_ : (⟨S64, .f32⟩ : BufTy).Contents (Elt F))
                      ((broadcastInDim S64 ![] bcast_S_S64 : (⟨S_, .f32⟩ : BufTy).Contents (Elt F) → (⟨S64, .f32⟩ : BufTy).Contents (Elt F))
                        (constant S_ .f32 0x47C35000#32 : (⟨S_, .f32⟩ : BufTy).Contents (Elt F))))
                    shapeCasts_S64_S1x64 : (⟨S1x64, .f32⟩ : BufTy).Contents (Elt F))
                  (shapeCast S1x64
                    ((Host.divf : (⟨S64, .f32⟩ : BufTy).Contents (Elt F) → (⟨S64, .f32⟩ : BufTy).Contents (Elt F) → (⟨S64, .f32⟩ : BufTy).Contents (Elt F))
                      (Host.reduceAdd
                        (shapeCast S20x64
                          (extractStridedSlice S20x1x64 ![0, 0, 0]
                            (Gen.W8 m ρ c (Proc.devRef .tc main_v65_1) : (⟨S20x8x64, .f32⟩ : BufTy).Contents (Elt F))
                            slices_S20x8x64_S20x1x64_0_0_0 : (⟨S20x1x64, .f32⟩ : BufTy).Contents (Elt F))
                          shapeCasts_S20x1x64_S20x64 : (⟨S20x64, .f32⟩ : BufTy).Contents (Elt F))
                        (constant S_ .f32 0x00000000#32 : (⟨S_, .f32⟩ : BufTy).Contents (Elt F))
                        reducesTo_S20x64_S64_d0 h_S_ : (⟨S64, .f32⟩ : BufTy).Contents (Elt F))
                      ((broadcastInDim S64 ![] bcast_S_S64 : (⟨S_, .f32⟩ : BufTy).Contents (Elt F) → (⟨S64, .f32⟩ : BufTy).Contents (Elt F))
                        (constant S_ .f32 0x47C35000#32 : (⟨S_, .f32⟩ : BufTy).Contents (Elt F))))
                    shapeCasts_S64_S1x64 : (⟨S1x64, .f32⟩ : BufTy).Contents (Elt F))))
              shapeCasts_S1x64_S64 : (⟨S64, .f32⟩ : BufTy).Contents (Elt F))⟩,
           ⟨S64,
            (shapeCast S64
              ((subf : (⟨S1x64, .f32⟩ : BufTy).Contents (Elt F) → (⟨S1x64, .f32⟩ : BufTy).Contents (Elt F) → (⟨S1x64, .f32⟩ : BufTy).Contents (Elt F))
                (shapeCast S1x64
                  ((Host.divf : (⟨S64, .f32⟩ : BufTy).Contents (Elt F) → (⟨S64, .f32⟩ : BufTy).Contents (Elt F) → (⟨S64, .f32⟩ : BufTy).Contents (Elt F))
                    (Host.reduceAdd
                      (shapeCast S20x64
                        (extractStridedSlice S20x1x64 ![0, 0, 0]
                          (Gen.W8 m ρ c (Proc.devRef .tc main_v65_2) : (⟨S20x8x64, .f32⟩ : BufTy).Contents (Elt F))
                          slices_S20x8x64_S20x1x64_0_0_0 : (⟨S20x1x64, .f32⟩ : BufTy).Contents (Elt F))
                        shapeCasts_S20x1x64_S20x64 : (⟨S20x64, .f32⟩ : BufTy).Contents (Elt F))
                      (constant S_ .f32 0x00000000#32 : (⟨S_, .f32⟩ : BufTy).Contents (Elt F))
                      reducesTo_S20x64_S64_d0 h_S_ : (⟨S64, .f32⟩ : BufTy).Contents (Elt F))
                    ((broadcastInDim S64 ![] bcast_S_S64 : (⟨S_, .f32⟩ : BufTy).Contents (Elt F) → (⟨S64, .f32⟩ : BufTy).Contents (Elt F))
                      (constant S_ .f32 0x47C35000#32 : (⟨S_, .f32⟩ : BufTy).Contents (Elt F))))
                  shapeCasts_S64_S1x64 : (⟨S1x64, .f32⟩ : BufTy).Contents (Elt F))
                ((mulf : (⟨S1x64, .f32⟩ : BufTy).Contents (Elt F) → (⟨S1x64, .f32⟩ : BufTy).Contents (Elt F) → (⟨S1x64, .f32⟩ : BufTy).Contents (Elt F))
                  (shapeCast S1x64
                    ((Host.divf : (⟨S64, .f32⟩ : BufTy).Contents (Elt F) → (⟨S64, .f32⟩ : BufTy).Contents (Elt F) → (⟨S64, .f32⟩ : BufTy).Contents (Elt F))
                      (Host.reduceAdd
                        (shapeCast S20x64
                          (extractStridedSlice S20x1x64 ![0, 0, 0]
                            (Gen.W8 m ρ c (Proc.devRef .tc main_v65_1) : (⟨S20x8x64, .f32⟩ : BufTy).Contents (Elt F))
                            slices_S20x8x64_S20x1x64_0_0_0 : (⟨S20x1x64, .f32⟩ : BufTy).Contents (Elt F))
                          shapeCasts_S20x1x64_S20x64 : (⟨S20x64, .f32⟩ : BufTy).Contents (Elt F))
                        (constant S_ .f32 0x00000000#32 : (⟨S_, .f32⟩ : BufTy).Contents (Elt F))
                        reducesTo_S20x64_S64_d0 h_S_ : (⟨S64, .f32⟩ : BufTy).Contents (Elt F))
                      ((broadcastInDim S64 ![] bcast_S_S64 : (⟨S_, .f32⟩ : BufTy).Contents (Elt F) → (⟨S64, .f32⟩ : BufTy).Contents (Elt F))
                        (constant S_ .f32 0x47C35000#32 : (⟨S_, .f32⟩ : BufTy).Contents (Elt F))))
                    shapeCasts_S64_S1x64 : (⟨S1x64, .f32⟩ : BufTy).Contents (Elt F))
                  (shapeCast S1x64
                    ((Host.divf : (⟨S64, .f32⟩ : BufTy).Contents (Elt F) → (⟨S64, .f32⟩ : BufTy).Contents (Elt F) → (⟨S64, .f32⟩ : BufTy).Contents (Elt F))
                      (Host.reduceAdd
                        (shapeCast S20x64
                          (extractStridedSlice S20x1x64 ![0, 0, 0]
                            (Gen.W8 m ρ c (Proc.devRef .tc main_v65_1) : (⟨S20x8x64, .f32⟩ : BufTy).Contents (Elt F))
                            slices_S20x8x64_S20x1x64_0_0_0 : (⟨S20x1x64, .f32⟩ : BufTy).Contents (Elt F))
                          shapeCasts_S20x1x64_S20x64 : (⟨S20x64, .f32⟩ : BufTy).Contents (Elt F))
                        (constant S_ .f32 0x00000000#32 : (⟨S_, .f32⟩ : BufTy).Contents (Elt F))
                        reducesTo_S20x64_S64_d0 h_S_ : (⟨S64, .f32⟩ : BufTy).Contents (Elt F))
                      ((broadcastInDim S64 ![] bcast_S_S64 : (⟨S_, .f32⟩ : BufTy).Contents (Elt F) → (⟨S64, .f32⟩ : BufTy).Contents (Elt F))
                        (constant S_ .f32 0x47C35000#32 : (⟨S_, .f32⟩ : BufTy).Contents (Elt F))))
                    shapeCasts_S64_S1x64 : (⟨S1x64, .f32⟩ : BufTy).Contents (Elt F))))
              shapeCasts_S1x64_S64 : (⟨S64, .f32⟩ : BufTy).Contents (Elt F))⟩]
          concatenates_S64_S64_S128_d0 : (⟨S128, .f32⟩ : BufTy).Contents (Elt F))
        shapeCasts_S128_S1x128 : (⟨S1x128, .f32⟩ : BufTy).Contents (Elt F)) := by
  show StableHlo.after Gen.hostOps4 _ _ = _
  after_results_simp
  all_goals rfl

/-- `main_v88` at boundary 9: the operations of host stretch 4 that produce it, composed, over the contents at boundary 8. -/
theorem host4_v88 (c : Dev nD) :
    Gen.W9 m ρ c (Proc.devRef .tc main_v88) =
      (shapeCast S1x128
        (concatenate S128 0
          [⟨S64,
            (Gen.W8 m ρ c (Proc.devRef .tc main_arg11) : (⟨S64, .f32⟩ : BufTy).Contents (Elt F))⟩,
           ⟨S64,
            (Gen.W8 m ρ c (Proc.devRef .tc main_arg11) : (⟨S64, .f32⟩ : BufTy).Contents (Elt F))⟩]
          concatenates_S64_S64_S128_d0 : (⟨S128, .f32⟩ : BufTy).Contents (Elt F))
        shapeCasts_S128_S1x128 : (⟨S1x128, .f32⟩ : BufTy).Contents (Elt F)) := by
  show StableHlo.after Gen.hostOps4 _ _ = _
  after_results_simp
  all_goals rfl

/-- `main_v90` at boundary 9: the operations of host stretch 4 that produce it, composed, over the contents at boundary 8. -/
theorem host4_v90 (c : Dev nD) :
    Gen.W9 m ρ c (Proc.devRef .tc main_v90) =
      (shapeCast S1x128
        (concatenate S128 0
          [⟨S64,
            (Gen.W8 m ρ c (Proc.devRef .tc main_arg12) : (⟨S64, .f32⟩ : BufTy).Contents (Elt F))⟩,
           ⟨S64,
            (Gen.W8 m ρ c (Proc.devRef .tc main_arg12) : (⟨S64, .f32⟩ : BufTy).Contents (Elt F))⟩]
          concatenates_S64_S64_S128_d0 : (⟨S128, .f32⟩ : BufTy).Contents (Elt F))
        shapeCasts_S128_S1x128 : (⟨S1x128, .f32⟩ : BufTy).Contents (Elt F)) := by
  show StableHlo.after Gen.hostOps4 _ _ = _
  after_results_simp
  all_goals rfl

end Cert.KernelIdeal.Trace

end
-- ==== Proof.KNormStage2.lean ====
/-
  The second normalisation stage of the kernel program, from the layer's output to the next layer's input.

  When the layer before left the table h and, tile by tile, the column sums of h and of its squares, the host's
  preparation, the region on the folded layout and the view back leave the normalisation of h by its tiled column
  statistics, with the ramp, with the scale and shift the program was launched with.
-/
import proofs.«174735_j64811056496761_2_alg».proof.Proof.KNormStage
import proofs.«174735_j64811056496761_2_alg».proof.Proof.KNorm4
import proofs.«174735_j64811056496761_2_alg».proof.Proof.KHost4
import proofs.«174735_j64811056496761_2_alg».proof.Proof.KHost5
import proofs.«174735_j64811056496761_2_alg».proof.Proof.KKeep2
import proofs.«174735_j64811056496761_2_alg».proof.Proof.KKeep3

set_option maxRecDepth 16384

noncomputable section

namespace Cert.KernelIdeal.NormStage

open Cert.KernelIdeal Cert.KernelIdeal.Gen Cert.KernelIdeal.Trace Cert.KernelIdeal.RegionValue
open Idealize.ShloMosaic Idealize.ShloMosaic.TcCoe Idealize.ShloMosaic.ValueIdx Idealize.SL.Sem Cert.GNet
open scoped BigOperators

variable (m : (ℓ : Loc nD τ sig) → Buf (Elt Ideal) ℓ) (ρ : Dev nD → PrngReg)

/-- The layer's output table before the stage, at its literal type. -/
abbrev st2_h (c : Dev nD) : Tab NN 64 := Gen.W8 m ρ c (Proc.devRef .tc main_v65_0)
/-- The tiles' column sums before the stage. -/
abbrev st2_T1 (c : Dev nD) : FVec Ideal S20x8x64 .f32 := Gen.W8 m ρ c (Proc.devRef .tc main_v65_1)
/-- The tiles' column sums of squares before the stage. -/
abbrev st2_T2 (c : Dev nD) : FVec Ideal S20x8x64 .f32 := Gen.W8 m ρ c (Proc.devRef .tc main_v65_2)
/-- The next layer's input table after the stage. -/
abbrev st2_out (c : Dev nD) : Tab NN 64 := Gen.W11 m ρ c (Proc.devRef .tc main_v92)

/-- The stage: the next layer's input is the normalisation of the layer's output by its tiled column statistics, ramped. -/
theorem norm2 (c : Dev nD) (h : Tab NN 64) (hh : st2_h m ρ c = h)
    (hsum : ∀ (t : Fin 20) (r : Fin 8) (q : Fin 64), st2_T1 m ρ c (ix3 t r q) = 0 + ∑ k : Fin 5000, h (ix2 (tileRow t k) q))
    (hsq : ∀ (t : Fin 20) (r : Fin 8) (q : Fin 64),
      st2_T2 m ρ c (ix3 t r q) = 0 + ∑ k : Fin 5000, h (ix2 (tileRow t k) q) * h (ix2 (tileRow t k) q)) :
    st2_out m ρ c = relu (kNorm h (m ((c : Thread nD τ).loc main_arg11)) (m ((c : Thread nD τ).loc main_arg12))) := by
  show Gen.W11 m ρ c (Proc.devRef .tc main_v92) = _
  rw [host5_v92, out_v91]
  refine stage_norm_relu h _ _ (st2_T1 m ρ c) (st2_T2 m ρ c) hsum hsq
    (bn4_H (Gen.V9 m ρ) c) (bn4_M (Gen.V9 m ρ) c) (bn4_Vr (Gen.V9 m ρ) c) (bn4_G (Gen.V9 m ρ) c) (bn4_Bt (Gen.V9 m ρ) c)
    ?_ ?_ ?_ ?_ ?_ (bn4_out (Gen.V9 m ρ) c) (fun a l => region4_value (Gen.V9 m ρ) c a l)
  · subst hh; exact host4_v80 m ρ c
  · exact host4_v83 m ρ c
  · exact host4_v86 m ρ c
  · rw [← arg11_W8 m ρ c]; exact host4_v88 m ρ c
  · rw [← arg12_W8 m ρ c]; exact host4_v90 m ρ c

end Cert.KernelIdeal.NormStage

end
-- ==== Proof.KNorm6.lean ====
/-
  The third normalisation region, read as a whole array.

  The region works on the folded layout: the [100000, 64] activations viewed as [50000, 128], two rows side by side, and
  the per-column mean, variance, scale and shift as [1, 128] rows (each 64-vector laid twice). Its ten grid points each
  stage 5000 rows of the folded matrix and the four rows, and store, lane by lane, the larger of zero and
  ((h − mean) · rsqrt(variance + ε)) · scale + shift. Here: the body's value at an entry of a block, which rows of the
  arrays a block's entry sits over, and that the ten blocks cover the result, so that the result array after the region
  is that formula of the arrays as the region finds them, entry by entry.
-/
import proofs.«174735_j64811056496761_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The staging buffers are loaded and stored whole: the offsets of the body's one rectangle are zero. -/
theorem bn6_zero : (![0, 0] : Fin 2 → Nat) = fun _ => 0 := funext fun a => by fin_cases a <;> rfl

/-- The normalised folded matrix, entry by entry: entry (a, l) of the matrix less lane l of the mean row, times the
    reciprocal square root of lane l of the variance row plus the small constant, times lane l of the scale row, plus lane l
    of the shift row, and of that and zero the larger. -/
def bn6G (H : S50000x128.Idx → EReal) (M Vr G Bt : S1x128.Idx → EReal) : S50000x128.Idx → EReal := fun i =>
  max (((H i - M (ix2 0 (i 1))) * Ideal.rsqrt (Vr (ix2 0 (i 1)) + Ideal.ofBits .f32 0x3727C5AC#32)) * G (ix2 0 (i 1)) + Bt (ix2 0 (i 1))) 0

/-- The body's value at row r, lane l of its block: the same formula of the block's entry and the four rows' lanes. -/
theorem bn6_pay_apply (x0 : Vec Ideal S5000x128 .f32) (xv xm xg xb : Vec Ideal S1x128 .f32) (r : Fin 5000) (l : Fin 128) :
    k6_pay1 x0 xv xm xg xb (ix2 r l)
      = max (((x0 (ix2 r l) - xm (ix2 0 l)) * Ideal.rsqrt (xv (ix2 0 l) + Ideal.ofBits .f32 0x3727C5AC#32)) * xg (ix2 0 l) + xb (ix2 0 l)) 0 := by
  unfold k6_pay1
  simp only [shapeCast_self, addf_apply, mulf_apply, subf_apply, maximumf_apply, broadcast_apply, broadcastTo_1b_ab_apply]
  show max _ (Ideal.ofBits .f32 0x00000000#32) = _
  rw [Ideal.ofBits_zero_f32]
  rfl

/-- One entry of a block: when the block's entry is the matrix's entry i and the four staged rows' lanes are the four
    rows' lanes at i's lane, the body's value there is the normalised matrix's entry i. -/
theorem bn6_point (H : S50000x128.Idx → EReal) (M Vr G Bt : S1x128.Idx → EReal)
    (x0 : Vec Ideal S5000x128 .f32) (xv xm xg xb : Vec Ideal S1x128 .f32) (y : S5000x128.Idx) (i : S50000x128.Idx)
    (h0 : x0 y = H i) (hv : xv (ix2 0 (y 1)) = Vr (ix2 0 (i 1))) (hm : xm (ix2 0 (y 1)) = M (ix2 0 (i 1)))
    (hg : xg (ix2 0 (y 1)) = G (ix2 0 (i 1))) (hb : xb (ix2 0 (y 1)) = Bt (ix2 0 (i 1))) :
    k6_pay1 x0 xv xm xg xb y = bn6G H M Vr G Bt i := by
  obtain ⟨r, l, rfl⟩ : ∃ (r : Fin 5000) (l : Fin 128), y = ix2 r l := ⟨y 0, y 1, eq_ix2 y⟩
  rw [bn6_pay_apply]
  show _ = max (((H i - M (ix2 0 (i 1))) * Ideal.rsqrt (Vr (ix2 0 (i 1)) + Ideal.ofBits .f32 0x3727C5AC#32)) * G (ix2 0 (i 1)) + Bt (ix2 0 (i 1))) 0
  rw [← h0, ← hv, ← hm, ← hg, ← hb]

/-- The printed index maps over the ten grid points: point t stages block t of the matrix and of the result (rows
    5000 t … 5000 t + 4999, all 128 lanes), and the one block of each of the four rows. -/
theorem bn6_idx_facts : ∀ t : Fin cfg6.N,
    win6_5.index t (0 : Fin 2) = t.val ∧ win6_5.index t (1 : Fin 2) = 0
    ∧ win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0 :=
  (by decide +kernel : ∀ t : Fin grid6.N, _)

/-- The staged block of the matrix at point t is its rows 5000 t … 5000 t + 4999. -/
theorem bn6_blk0 (c : Dev nD) (t : Fin cfg6.N) (x : S5000x128.Idx) (k : S50000x128.Idx)
    (h0 : (k 0).val = 5000 * t.val + (x 0).val) (h1 : (k 1).val = (x 1).val) :
    (iblk6 V c 0 t : Vec Ideal S5000x128 .f32) x = (V c (Pipeline.arrRef spec6 0) : S50000x128.Idx → EReal) k := by
  obtain ⟨-, -, e00, e01, -⟩ := bn6_idx_facts t
  show V c (Pipeline.arrRef spec6 0) (((cfg6.win 0).blk t).view.emb x) = V c (Pipeline.arrRef spec6 0) k
  refine congrArg _ (funext fun a => Fin.ext ?_)
  match a with
  | ⟨0, _⟩ => show win6_0.index t (0 : Fin 2) * 5000 + 1 * (x 0).val = (k 0).val; omega
  | ⟨1, _⟩ => show win6_0.index t (1 : Fin 2) * 128 + 1 * (x 1).val = (k 1).val; omega

/-- The staged block of the mean row is the row: its lane at any point is the array's lane. -/
theorem bn6_row1 (c : Dev nD) (t : Fin cfg6.N) (x k : S1x128.Idx) (h : (k 1).val = (x 1).val) :
    (iblk6 V c 1 t : Vec Ideal S1x128 .f32) x = (V c (Pipeline.arrRef spec6 1) : S1x128.Idx → EReal) k := by
  obtain ⟨-, -, -, -, e10, e11, e20, e21, e30, e31, e40, e41⟩ := bn6_idx_facts t
  have hx : (x 0).val < 1 := (x 0).isLt
  have hk : (k 0).val < 1 := (k 0).isLt
  show V c (Pipeline.arrRef spec6 1) (((cfg6.win 1).blk t).view.emb x) = V c (Pipeline.arrRef spec6 1) k
  refine congrArg _ (funext fun a => Fin.ext ?_)
  match a with
  | ⟨0, _⟩ => show win6_1.index t (0 : Fin 2) * 1 + 1 * (x 0).val = (k 0).val; omega
  | ⟨1, _⟩ => show win6_1.index t (1 : Fin 2) * 128 + 1 * (x 1).val = (k 1).val; omega

/-- The staged block of the variance row is the row: its lane at any point is the array's lane. -/
theorem bn6_row2 (c : Dev nD) (t : Fin cfg6.N) (x k : S1x128.Idx) (h : (k 1).val = (x 1).val) :
    (iblk6 V c 2 t : Vec Ideal S1x128 .f32) x = (V c (Pipeline.arrRef spec6 2) : S1x128.Idx → EReal) k := by
  obtain ⟨-, -, -, -, e10, e11, e20, e21, e30, e31, e40, e41⟩ := bn6_idx_facts t
  have hx : (x 0).val < 1 := (x 0).isLt
  have hk : (k 0).val < 1 := (k 0).isLt
  show V c (Pipeline.arrRef spec6 2) (((cfg6.win 2).blk t).view.emb x) = V c (Pipeline.arrRef spec6 2) k
  refine congrArg _ (funext fun a => Fin.ext ?_)
  match a with
  | ⟨0, _⟩ => show win6_2.index t (0 : Fin 2) * 1 + 1 * (x 0).val = (k 0).val; omega
  | ⟨1, _⟩ => show win6_2.index t (1 : Fin 2) * 128 + 1 * (x 1).val = (k 1).val; omega

/-- The staged block of the scale row is the row: its lane at any point is the array's lane. -/
theorem bn6_row3 (c : Dev nD) (t : Fin cfg6.N) (x k : S1x128.Idx) (h : (k 1).val = (x 1).val) :
    (iblk6 V c 3 t : Vec Ideal S1x128 .f32) x = (V c (Pipeline.arrRef spec6 3) : S1x128.Idx → EReal) k := by
  obtain ⟨-, -, -, -, e10, e11, e20, e21, e30, e31, e40, e41⟩ := bn6_idx_facts t
  have hx : (x 0).val < 1 := (x 0).isLt
  have hk : (k 0).val < 1 := (k 0).isLt
  show V c (Pipeline.arrRef spec6 3) (((cfg6.win 3).blk t).view.emb x) = V c (Pipeline.arrRef spec6 3) k
  refine congrArg _ (funext fun a => Fin.ext ?_)
  match a with
  | ⟨0, _⟩ => show win6_3.index t (0 : Fin 2) * 1 + 1 * (x 0).val = (k 0).val; omega
  | ⟨1, _⟩ => show win6_3.index t (1 : Fin 2) * 128 + 1 * (x 1).val = (k 1).val; omega

/-- The staged block of the shift row is the row: its lane at any point is the array's lane. -/
theorem bn6_row4 (c : Dev nD) (t : Fin cfg6.N) (x k : S1x128.Idx) (h : (k 1).val = (x 1).val) :
    (iblk6 V c 4 t : Vec Ideal S1x128 .f32) x = (V c (Pipeline.arrRef spec6 4) : S1x128.Idx → EReal) k := by
  obtain ⟨-, -, -, -, e10, e11, e20, e21, e30, e31, e40, e41⟩ := bn6_idx_facts t
  have hx : (x 0).val < 1 := (x 0).isLt
  have hk : (k 0).val < 1 := (k 0).isLt
  show V c (Pipeline.arrRef spec6 4) (((cfg6.win 4).blk t).view.emb x) = V c (Pipeline.arrRef spec6 4) k
  refine congrArg _ (funext fun a => Fin.ext ?_)
  match a with
  | ⟨0, _⟩ => show win6_4.index t (0 : Fin 2) * 1 + 1 * (x 0).val = (k 0).val; omega
  | ⟨1, _⟩ => show win6_4.index t (1 : Fin 2) * 128 + 1 * (x 1).val = (k 1).val; omega

/-- The body's value at an entry of point t's block is the normalised matrix at the entry of the array under it. -/
theorem bn6_block_entry (c : Dev nD) (t : Fin cfg6.N) (y : S5000x128.Idx) (i : S50000x128.Idx)
    (h0 : (i 0).val = 5000 * t.val + (y 0).val) (h1 : (i 1).val = (y 1).val) :
    k6_pay1 (iblk6 V c 0 t) (iblk6 V c 2 t) (iblk6 V c 1 t) (iblk6 V c 3 t) (iblk6 V c 4 t) y
      = bn6G (V c (Pipeline.arrRef spec6 0)) (V c (Pipeline.arrRef spec6 1)) (V c (Pipeline.arrRef spec6 2)) (V c (Pipeline.arrRef spec6 3)) (V c (Pipeline.arrRef spec6 4)) i :=
  bn6_point (V c (Pipeline.arrRef spec6 0)) (V c (Pipeline.arrRef spec6 1)) (V c (Pipeline.arrRef spec6 2)) (V c (Pipeline.arrRef spec6 3)) (V c (Pipeline.arrRef spec6 4))
    (iblk6 V c 0 t) (iblk6 V c 2 t) (iblk6 V c 1 t) (iblk6 V c 3 t) (iblk6 V c 4 t) y i
    (bn6_blk0 V c t y i h0 h1) (bn6_row2 V c t (ix2 0 (y 1)) (ix2 0 (i 1)) h1) (bn6_row1 V c t (ix2 0 (y 1)) (ix2 0 (i 1)) h1)
    (bn6_row3 V c t (ix2 0 (y 1)) (ix2 0 (i 1)) h1) (bn6_row4 V c t (ix2 0 (y 1)) (ix2 0 (i 1)) h1)

/-- What point t writes back is block t of the normalised matrix of the arrays as the region finds them. -/
theorem bn6_flushed (c : Dev nD) (t : Fin cfg6.N) :
    (dat6 V c).flushed 5 t = ((cfg6.win 5).blk t).view.read (Elt Ideal) (bn6G (V c (Pipeline.arrRef spec6 0)) (V c (Pipeline.arrRef spec6 1)) (V c (Pipeline.arrRef spec6 2)) (V c (Pipeline.arrRef spec6 3)) (V c (Pipeline.arrRef spec6 4))) := by
  show (cfg6.win 5).cut (grid6.coords t) ((dat6 V c).after 5 t) = _
  rw [after6_5]
  unfold out6_5
  rw [View.canon_unit_zero bn6_zero]
  simp only [View.ld_unit_zero (S := S5000x128) bn6_zero, View.ld_unit_zero (S := S1x128) bn6_zero]
  obtain ⟨e50, e51, -⟩ := bn6_idx_facts t
  funext j
  refine bn6_block_entry V c t j (((cfg6.win 5).blk t).view.emb j) ?_ ?_
  · show win6_5.index t (0 : Fin 2) * 5000 + 1 * (j 0).val = 5000 * t.val + (j 0).val; omega
  · show win6_5.index t (1 : Fin 2) * 128 + 1 * (j 1).val = (j 1).val; omega

/-- An index of the result is in point t's block iff each coordinate is in the block's range on its axis. -/
theorem bn6_mem_blk (t : Fin cfg6.N) (i : S50000x128.Idx) :
    i ∈ ((cfg6.win 5).blk t).view.set ↔ ∀ a : Fin 2, win6_5.index t a * S5000x128.size a ≤ (i a).val ∧ (i a).val < win6_5.index t a * S5000x128.size a + S5000x128.size a := by
  show i ∈ ((View.whole main_v133).slice (win6_5.rect t)).set ↔ _
  rw [View.set_slice_whole, Rect.mem_set_unit]
  exact Iff.rfl

/-- Every entry of the result is written: row a is in the block of point a / 5000. -/
theorem bn6_cover (i : S50000x128.Idx) :
    ∃ t : Fin cfg6.N, (cfg6.win 5).flush t = true ∧ i ∈ ((cfg6.win 5).blk t).view.set := by
  have hi0 : (i 0).val < 50000 := (i 0).isLt
  have hi1 : (i 1).val < 128 := (i 1).isLt
  have hN : cfg6.N = 10 := N_6
  have ht : (i 0).val / 5000 < cfg6.N := by rw [hN]; omega
  obtain ⟨e50, e51, -⟩ := bn6_idx_facts ⟨(i 0).val / 5000, ht⟩
  refine ⟨⟨(i 0).val / 5000, ht⟩, flush6_5 _, ?_⟩
  rw [bn6_mem_blk]
  intro a
  match a with
  | ⟨0, _⟩ =>
    show win6_5.index ⟨(i 0).val / 5000, ht⟩ (0 : Fin 2) * 5000 ≤ (i 0).val ∧ (i 0).val < win6_5.index ⟨(i 0).val / 5000, ht⟩ (0 : Fin 2) * 5000 + 5000
    rw [e50]; show (i 0).val / 5000 * 5000 ≤ (i 0).val ∧ (i 0).val < (i 0).val / 5000 * 5000 + 5000; omega
  | ⟨1, _⟩ =>
    show win6_5.index ⟨(i 0).val / 5000, ht⟩ (1 : Fin 2) * 128 ≤ (i 1).val ∧ (i 1).val < win6_5.index ⟨(i 0).val / 5000, ht⟩ (1 : Fin 2) * 128 + 128
    rw [e51]; omega

/-- The result array after the region: the normalised matrix of the arrays as the region finds them. -/
theorem bn6_arr (c : Dev nD) : (dat6 V c).arrAt 5 cfg6.N = bn6G (V c (Pipeline.arrRef spec6 0)) (V c (Pipeline.arrRef spec6 1)) (V c (Pipeline.arrRef spec6 2)) (V c (Pipeline.arrRef spec6 3)) (V c (Pipeline.arrRef spec6 4)) :=
  (dat6 V c).arrAt_eq_of_cover 5 (bn6G (V c (Pipeline.arrRef spec6 0)) (V c (Pipeline.arrRef spec6 1)) (V c (Pipeline.arrRef spec6 2)) (V c (Pipeline.arrRef spec6 3)) (V c (Pipeline.arrRef spec6 4))) (fun t _ => bn6_flushed V c t) bn6_cover

/-- The arrays as the region finds them, at their literal index types: the folded matrix, and the mean, variance, scale and
    shift rows. -/
abbrev bn6_H (c : Dev nD) : S50000x128.Idx → EReal := V c (Pipeline.arrRef spec6 0)
abbrev bn6_M (c : Dev nD) : S1x128.Idx → EReal := V c (Pipeline.arrRef spec6 1)
abbrev bn6_Vr (c : Dev nD) : S1x128.Idx → EReal := V c (Pipeline.arrRef spec6 2)
abbrev bn6_G (c : Dev nD) : S1x128.Idx → EReal := V c (Pipeline.arrRef spec6 3)
abbrev bn6_Bt (c : Dev nD) : S1x128.Idx → EReal := V c (Pipeline.arrRef spec6 4)
/-- The result array after the region, at its literal index type. -/
abbrev bn6_out (c : Dev nD) : S50000x128.Idx → EReal := (dat6 V c).arrAt 5 cfg6.N

/-- Entry (a, l) of the result array after the region, from the entry contents of the five input arrays. -/
theorem region6_value (c : Dev nD) (a : Fin 50000) (l : Fin 128) :
    bn6_out V c (ix2 a l)
      = max (((bn6_H V c (ix2 a l) - bn6_M V c (ix2 0 l)) * Ideal.rsqrt (bn6_Vr V c (ix2 0 l) + Ideal.ofBits .f32 0x3727C5AC#32)) * bn6_G V c (ix2 0 l) + bn6_Bt V c (ix2 0 l)) 0 := by
  show (dat6 V c).arrAt 5 cfg6.N (ix2 a l) = _
  rw [bn6_arr]
  rfl

end Cert.KernelIdeal.RegionValue

end
-- ==== Proof.KHost6.lean ====
/- Host stretch 6 of @main: what each buffer it writes that is read later holds at the stretch's end (boundary 13),
   as the stretch's operations applied to the contents at its start (boundary 12). -/
import proofs.«174735_j64811056496761_2_alg».proof.Proof.Gen.KernelIdeal.Frame

set_option maxRecDepth 16384

noncomputable section

namespace Cert.KernelIdeal.Trace

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- `main_v116` at boundary 13: the operations of host stretch 6 that produce it, composed, over the contents at boundary 12. -/
theorem host6_v116 (c : Dev nD) :
    Gen.W13 m ρ c (Proc.devRef .tc main_v116) =
      (shapeCast S1x64
        ((Host.divf : (⟨S64, .f32⟩ : BufTy).Contents (Elt F) → (⟨S64, .f32⟩ : BufTy).Contents (Elt F) → (⟨S64, .f32⟩ : BufTy).Contents (Elt F))
          (Host.reduceAdd
            (shapeCast S20x64
              (extractStridedSlice S20x1x64 ![0, 0, 0]
                (Gen.W12 m ρ c (Proc.devRef .tc main_v107_1) : (⟨S20x8x64, .f32⟩ : BufTy).Contents (Elt F))
                slices_S20x8x64_S20x1x64_0_0_0 : (⟨S20x1x64, .f32⟩ : BufTy).Contents (Elt F))
              shapeCasts_S20x1x64_S20x64 : (⟨S20x64, .f32⟩ : BufTy).Contents (Elt F))
            (constant S_ .f32 0x00000000#32 : (⟨S_, .f32⟩ : BufTy).Contents (Elt F))
            reducesTo_S20x64_S64_d0 h_S_ : (⟨S64, .f32⟩ : BufTy).Contents (Elt F))
          ((broadcastInDim S64 ![] bcast_S_S64 : (⟨S_, .f32⟩ : BufTy).Contents (Elt F) → (⟨S64, .f32⟩ : BufTy).Contents (Elt F))
            (constant S_ .f32 0x47C35000#32 : (⟨S_, .f32⟩ : BufTy).Contents (Elt F))))
        shapeCasts_S64_S1x64 : (⟨S1x64, .f32⟩ : BufTy).Contents (Elt F)) := by
  show StableHlo.after Gen.hostOps6 _ _ = _
  after_results_simp
  all_goals rfl

/-- `main_v121` at boundary 13: the operations of host stretch 6 that produce it, composed, over the contents at boundary 12. -/
theorem host6_v121 (c : Dev nD) :
    Gen.W13 m ρ c (Proc.devRef .tc main_v121) =
      ((subf : (⟨S1x64, .f32⟩ : BufTy).Contents (Elt F) → (⟨S1x64, .f32⟩ : BufTy).Contents (Elt F) → (⟨S1x64, .f32⟩ : BufTy).Contents (Elt F))
        (shapeCast S1x64
          ((Host.divf : (⟨S64, .f32⟩ : BufTy).Contents (Elt F) → (⟨S64, .f32⟩ : BufTy).Contents (Elt F) → (⟨S64, .f32⟩ : BufTy).Contents (Elt F))
            (Host.reduceAdd
              (shapeCast S20x64
                (extractStridedSlice S20x1x64 ![0, 0, 0]
                  (Gen.W12 m ρ c (Proc.devRef .tc main_v107_2) : (⟨S20x8x64, .f32⟩ : BufTy).Contents (Elt F))
                  slices_S20x8x64_S20x1x64_0_0_0 : (⟨S20x1x64, .f32⟩ : BufTy).Contents (Elt F))
                shapeCasts_S20x1x64_S20x64 : (⟨S20x64, .f32⟩ : BufTy).Contents (Elt F))
              (constant S_ .f32 0x00000000#32 : (⟨S_, .f32⟩ : BufTy).Contents (Elt F))
              reducesTo_S20x64_S64_d0 h_S_ : (⟨S64, .f32⟩ : BufTy).Contents (Elt F))
            ((broadcastInDim S64 ![] bcast_S_S64 : (⟨S_, .f32⟩ : BufTy).Contents (Elt F) → (⟨S64, .f32⟩ : BufTy).Contents (Elt F))
              (constant S_ .f32 0x47C35000#32 : (⟨S_, .f32⟩ : BufTy).Contents (Elt F))))
          shapeCasts_S64_S1x64 : (⟨S1x64, .f32⟩ : BufTy).Contents (Elt F))
        ((mulf : (⟨S1x64, .f32⟩ : BufTy).Contents (Elt F) → (⟨S1x64, .f32⟩ : BufTy).Contents (Elt F) → (⟨S1x64, .f32⟩ : BufTy).Contents (Elt F))
          (shapeCast S1x64
            ((Host.divf : (⟨S64, .f32⟩ : BufTy).Contents (Elt F) → (⟨S64, .f32⟩ : BufTy).Contents (Elt F) → (⟨S64, .f32⟩ : BufTy).Contents (Elt F))
              (Host.reduceAdd
                (shapeCast S20x64
                  (extractStridedSlice S20x1x64 ![0, 0, 0]
                    (Gen.W12 m ρ c (Proc.devRef .tc main_v107_1) : (⟨S20x8x64, .f32⟩ : BufTy).Contents (Elt F))
                    slices_S20x8x64_S20x1x64_0_0_0 : (⟨S20x1x64, .f32⟩ : BufTy).Contents (Elt F))
                  shapeCasts_S20x1x64_S20x64 : (⟨S20x64, .f32⟩ : BufTy).Contents (Elt F))
                (constant S_ .f32 0x00000000#32 : (⟨S_, .f32⟩ : BufTy).Contents (Elt F))
                reducesTo_S20x64_S64_d0 h_S_ : (⟨S64, .f32⟩ : BufTy).Contents (Elt F))
              ((broadcastInDim S64 ![] bcast_S_S64 : (⟨S_, .f32⟩ : BufTy).Contents (Elt F) → (⟨S64, .f32⟩ : BufTy).Contents (Elt F))
                (constant S_ .f32 0x47C35000#32 : (⟨S_, .f32⟩ : BufTy).Contents (Elt F))))
            shapeCasts_S64_S1x64 : (⟨S1x64, .f32⟩ : BufTy).Contents (Elt F))
          (shapeCast S1x64
            ((Host.divf : (⟨S64, .f32⟩ : BufTy).Contents (Elt F) → (⟨S64, .f32⟩ : BufTy).Contents (Elt F) → (⟨S64, .f32⟩ : BufTy).Contents (Elt F))
              (Host.reduceAdd
                (shapeCast S20x64
                  (extractStridedSlice S20x1x64 ![0, 0, 0]
                    (Gen.W12 m ρ c (Proc.devRef .tc main_v107_1) : (⟨S20x8x64, .f32⟩ : BufTy).Contents (Elt F))
                    slices_S20x8x64_S20x1x64_0_0_0 : (⟨S20x1x64, .f32⟩ : BufTy).Contents (Elt F))
                  shapeCasts_S20x1x64_S20x64 : (⟨S20x64, .f32⟩ : BufTy).Contents (Elt F))
                (constant S_ .f32 0x00000000#32 : (⟨S_, .f32⟩ : BufTy).Contents (Elt F))
                reducesTo_S20x64_S64_d0 h_S_ : (⟨S64, .f32⟩ : BufTy).Contents (Elt F))
              ((broadcastInDim S64 ![] bcast_S_S64 : (⟨S_, .f32⟩ : BufTy).Contents (Elt F) → (⟨S64, .f32⟩ : BufTy).Contents (Elt F))
                (constant S_ .f32 0x47C35000#32 : (⟨S_, .f32⟩ : BufTy).Contents (Elt F))))
            shapeCasts_S64_S1x64 : (⟨S1x64, .f32⟩ : BufTy).Contents (Elt F)))) := by
  show StableHlo.after Gen.hostOps6 _ _ = _
  after_results_simp
  all_goals rfl

/-- `main_v122` at boundary 13: the operations of host stretch 6 that produce it, composed, over the contents at boundary 12. -/
theorem host6_v122 (c : Dev nD) :
    Gen.W13 m ρ c (Proc.devRef .tc main_v122) =
      (shapeCast S50000x128
        (Gen.W12 m ρ c (Proc.devRef .tc main_v107_0) : (⟨S100000x64, .f32⟩ : BufTy).Contents (Elt F))
        shapeCasts_S100000x64_S50000x128 : (⟨S50000x128, .f32⟩ : BufTy).Contents (Elt F)) := by
  show StableHlo.after Gen.hostOps6 _ _ = _
  after_results_simp
  all_goals rfl

/-- `main_v125` at boundary 13: the operations of host stretch 6 that produce it, composed, over the contents at boundary 12. -/
theorem host6_v125 (c : Dev nD) :
    Gen.W13 m ρ c (Proc.devRef .tc main_v125) =
      (shapeCast S1x128
        (concatenate S128 0
          [⟨S64,
            (shapeCast S64
              (shapeCast S1x64
                ((Host.divf : (⟨S64, .f32⟩ : BufTy).Contents (Elt F) → (⟨S64, .f32⟩ : BufTy).Contents (Elt F) → (⟨S64, .f32⟩ : BufTy).Contents (Elt F))
                  (Host.reduceAdd
                    (shapeCast S20x64
                      (extractStridedSlice S20x1x64 ![0, 0, 0]
                        (Gen.W12 m ρ c (Proc.devRef .tc main_v107_1) : (⟨S20x8x64, .f32⟩ : BufTy).Contents (Elt F))
                        slices_S20x8x64_S20x1x64_0_0_0 : (⟨S20x1x64, .f32⟩ : BufTy).Contents (Elt F))
                      shapeCasts_S20x1x64_S20x64 : (⟨S20x64, .f32⟩ : BufTy).Contents (Elt F))
                    (constant S_ .f32 0x00000000#32 : (⟨S_, .f32⟩ : BufTy).Contents (Elt F))
                    reducesTo_S20x64_S64_d0 h_S_ : (⟨S64, .f32⟩ : BufTy).Contents (Elt F))
                  ((broadcastInDim S64 ![] bcast_S_S64 : (⟨S_, .f32⟩ : BufTy).Contents (Elt F) → (⟨S64, .f32⟩ : BufTy).Contents (Elt F))
                    (constant S_ .f32 0x47C35000#32 : (⟨S_, .f32⟩ : BufTy).Contents (Elt F))))
                shapeCasts_S64_S1x64 : (⟨S1x64, .f32⟩ : BufTy).Contents (Elt F))
              shapeCasts_S1x64_S64 : (⟨S64, .f32⟩ : BufTy).Contents (Elt F))⟩,
           ⟨S64,
            (shapeCast S64
              (shapeCast S1x64
                ((Host.divf : (⟨S64, .f32⟩ : BufTy).Contents (Elt F) → (⟨S64, .f32⟩ : BufTy).Contents (Elt F) → (⟨S64, .f32⟩ : BufTy).Contents (Elt F))
                  (Host.reduceAdd
                    (shapeCast S20x64
                      (extractStridedSlice S20x1x64 ![0, 0, 0]
                        (Gen.W12 m ρ c (Proc.devRef .tc main_v107_1) : (⟨S20x8x64, .f32⟩ : BufTy).Contents (Elt F))
                        slices_S20x8x64_S20x1x64_0_0_0 : (⟨S20x1x64, .f32⟩ : BufTy).Contents (Elt F))
                      shapeCasts_S20x1x64_S20x64 : (⟨S20x64, .f32⟩ : BufTy).Contents (Elt F))
                    (constant S_ .f32 0x00000000#32 : (⟨S_, .f32⟩ : BufTy).Contents (Elt F))
                    reducesTo_S20x64_S64_d0 h_S_ : (⟨S64, .f32⟩ : BufTy).Contents (Elt F))
                  ((broadcastInDim S64 ![] bcast_S_S64 : (⟨S_, .f32⟩ : BufTy).Contents (Elt F) → (⟨S64, .f32⟩ : BufTy).Contents (Elt F))
                    (constant S_ .f32 0x47C35000#32 : (⟨S_, .f32⟩ : BufTy).Contents (Elt F))))
                shapeCasts_S64_S1x64 : (⟨S1x64, .f32⟩ : BufTy).Contents (Elt F))
              shapeCasts_S1x64_S64 : (⟨S64, .f32⟩ : BufTy).Contents (Elt F))⟩]
          concatenates_S64_S64_S128_d0 : (⟨S128, .f32⟩ : BufTy).Contents (Elt F))
        shapeCasts_S128_S1x128 : (⟨S1x128, .f32⟩ : BufTy).Contents (Elt F)) := by
  show StableHlo.after Gen.hostOps6 _ _ = _
  after_results_simp
  all_goals rfl

/-- `main_v128` at boundary 13: the operations of host stretch 6 that produce it, composed, over the contents at boundary 12. -/
theorem host6_v128 (c : Dev nD) :
    Gen.W13 m ρ c (Proc.devRef .tc main_v128) =
      (shapeCast S1x128
        (concatenate S128 0
          [⟨S64,
            (shapeCast S64
              ((subf : (⟨S1x64, .f32⟩ : BufTy).Contents (Elt F) → (⟨S1x64, .f32⟩ : BufTy).Contents (Elt F) → (⟨S1x64, .f32⟩ : BufTy).Contents (Elt F))
                (shapeCast S1x64
                  ((Host.divf : (⟨S64, .f32⟩ : BufTy).Contents (Elt F) → (⟨S64, .f32⟩ : BufTy).Contents (Elt F) → (⟨S64, .f32⟩ : BufTy).Contents (Elt F))
                    (Host.reduceAdd
                      (shapeCast S20x64
                        (extractStridedSlice S20x1x64 ![0, 0, 0]
                          (Gen.W12 m ρ c (Proc.devRef .tc main_v107_2) : (⟨S20x8x64, .f32⟩ : BufTy).Contents (Elt F))
                          slices_S20x8x64_S20x1x64_0_0_0 : (⟨S20x1x64, .f32⟩ : BufTy).Contents (Elt F))
                        shapeCasts_S20x1x64_S20x64 : (⟨S20x64, .f32⟩ : BufTy).Contents (Elt F))
                      (constant S_ .f32 0x00000000#32 : (⟨S_, .f32⟩ : BufTy).Contents (Elt F))
                      reducesTo_S20x64_S64_d0 h_S_ : (⟨S64, .f32⟩ : BufTy).Contents (Elt F))
                    ((broadcastInDim S64 ![] bcast_S_S64 : (⟨S_, .f32⟩ : BufTy).Contents (Elt F) → (⟨S64, .f32⟩ : BufTy).Contents (Elt F))
                      (constant S_ .f32 0x47C35000#32 : (⟨S_, .f32⟩ : BufTy).Contents (Elt F))))
                  shapeCasts_S64_S1x64 : (⟨S1x64, .f32⟩ : BufTy).Contents (Elt F))
                ((mulf : (⟨S1x64, .f32⟩ : BufTy).Contents (Elt F) → (⟨S1x64, .f32⟩ : BufTy).Contents (Elt F) → (⟨S1x64, .f32⟩ : BufTy).Contents (Elt F))
                  (shapeCast S1x64
                    ((Host.divf : (⟨S64, .f32⟩ : BufTy).Contents (Elt F) → (⟨S64, .f32⟩ : BufTy).Contents (Elt F) → (⟨S64, .f32⟩ : BufTy).Contents (Elt F))
                      (Host.reduceAdd
                        (shapeCast S20x64
                          (extractStridedSlice S20x1x64 ![0, 0, 0]
                            (Gen.W12 m ρ c (Proc.devRef .tc main_v107_1) : (⟨S20x8x64, .f32⟩ : BufTy).Contents (Elt F))
                            slices_S20x8x64_S20x1x64_0_0_0 : (⟨S20x1x64, .f32⟩ : BufTy).Contents (Elt F))
                          shapeCasts_S20x1x64_S20x64 : (⟨S20x64, .f32⟩ : BufTy).Contents (Elt F))
                        (constant S_ .f32 0x00000000#32 : (⟨S_, .f32⟩ : BufTy).Contents (Elt F))
                        reducesTo_S20x64_S64_d0 h_S_ : (⟨S64, .f32⟩ : BufTy).Contents (Elt F))
                      ((broadcastInDim S64 ![] bcast_S_S64 : (⟨S_, .f32⟩ : BufTy).Contents (Elt F) → (⟨S64, .f32⟩ : BufTy).Contents (Elt F))
                        (constant S_ .f32 0x47C35000#32 : (⟨S_, .f32⟩ : BufTy).Contents (Elt F))))
                    shapeCasts_S64_S1x64 : (⟨S1x64, .f32⟩ : BufTy).Contents (Elt F))
                  (shapeCast S1x64
                    ((Host.divf : (⟨S64, .f32⟩ : BufTy).Contents (Elt F) → (⟨S64, .f32⟩ : BufTy).Contents (Elt F) → (⟨S64, .f32⟩ : BufTy).Contents (Elt F))
                      (Host.reduceAdd
                        (shapeCast S20x64
                          (extractStridedSlice S20x1x64 ![0, 0, 0]
                            (Gen.W12 m ρ c (Proc.devRef .tc main_v107_1) : (⟨S20x8x64, .f32⟩ : BufTy).Contents (Elt F))
                            slices_S20x8x64_S20x1x64_0_0_0 : (⟨S20x1x64, .f32⟩ : BufTy).Contents (Elt F))
                          shapeCasts_S20x1x64_S20x64 : (⟨S20x64, .f32⟩ : BufTy).Contents (Elt F))
                        (constant S_ .f32 0x00000000#32 : (⟨S_, .f32⟩ : BufTy).Contents (Elt F))
                        reducesTo_S20x64_S64_d0 h_S_ : (⟨S64, .f32⟩ : BufTy).Contents (Elt F))
                      ((broadcastInDim S64 ![] bcast_S_S64 : (⟨S_, .f32⟩ : BufTy).Contents (Elt F) → (⟨S64, .f32⟩ : BufTy).Contents (Elt F))
                        (constant S_ .f32 0x47C35000#32 : (⟨S_, .f32⟩ : BufTy).Contents (Elt F))))
                    shapeCasts_S64_S1x64 : (⟨S1x64, .f32⟩ : BufTy).Contents (Elt F))))
              shapeCasts_S1x64_S64 : (⟨S64, .f32⟩ : BufTy).Contents (Elt F))⟩,
           ⟨S64,
            (shapeCast S64
              ((subf : (⟨S1x64, .f32⟩ : BufTy).Contents (Elt F) → (⟨S1x64, .f32⟩ : BufTy).Contents (Elt F) → (⟨S1x64, .f32⟩ : BufTy).Contents (Elt F))
                (shapeCast S1x64
                  ((Host.divf : (⟨S64, .f32⟩ : BufTy).Contents (Elt F) → (⟨S64, .f32⟩ : BufTy).Contents (Elt F) → (⟨S64, .f32⟩ : BufTy).Contents (Elt F))
                    (Host.reduceAdd
                      (shapeCast S20x64
                        (extractStridedSlice S20x1x64 ![0, 0, 0]
                          (Gen.W12 m ρ c (Proc.devRef .tc main_v107_2) : (⟨S20x8x64, .f32⟩ : BufTy).Contents (Elt F))
                          slices_S20x8x64_S20x1x64_0_0_0 : (⟨S20x1x64, .f32⟩ : BufTy).Contents (Elt F))
                        shapeCasts_S20x1x64_S20x64 : (⟨S20x64, .f32⟩ : BufTy).Contents (Elt F))
                      (constant S_ .f32 0x00000000#32 : (⟨S_, .f32⟩ : BufTy).Contents (Elt F))
                      reducesTo_S20x64_S64_d0 h_S_ : (⟨S64, .f32⟩ : BufTy).Contents (Elt F))
                    ((broadcastInDim S64 ![] bcast_S_S64 : (⟨S_, .f32⟩ : BufTy).Contents (Elt F) → (⟨S64, .f32⟩ : BufTy).Contents (Elt F))
                      (constant S_ .f32 0x47C35000#32 : (⟨S_, .f32⟩ : BufTy).Contents (Elt F))))
                  shapeCasts_S64_S1x64 : (⟨S1x64, .f32⟩ : BufTy).Contents (Elt F))
                ((mulf : (⟨S1x64, .f32⟩ : BufTy).Contents (Elt F) → (⟨S1x64, .f32⟩ : BufTy).Contents (Elt F) → (⟨S1x64, .f32⟩ : BufTy).Contents (Elt F))
                  (shapeCast S1x64
                    ((Host.divf : (⟨S64, .f32⟩ : BufTy).Contents (Elt F) → (⟨S64, .f32⟩ : BufTy).Contents (Elt F) → (⟨S64, .f32⟩ : BufTy).Contents (Elt F))
                      (Host.reduceAdd
                        (shapeCast S20x64
                          (extractStridedSlice S20x1x64 ![0, 0, 0]
                            (Gen.W12 m ρ c (Proc.devRef .tc main_v107_1) : (⟨S20x8x64, .f32⟩ : BufTy).Contents (Elt F))
                            slices_S20x8x64_S20x1x64_0_0_0 : (⟨S20x1x64, .f32⟩ : BufTy).Contents (Elt F))
                          shapeCasts_S20x1x64_S20x64 : (⟨S20x64, .f32⟩ : BufTy).Contents (Elt F))
                        (constant S_ .f32 0x00000000#32 : (⟨S_, .f32⟩ : BufTy).Contents (Elt F))
                        reducesTo_S20x64_S64_d0 h_S_ : (⟨S64, .f32⟩ : BufTy).Contents (Elt F))
                      ((broadcastInDim S64 ![] bcast_S_S64 : (⟨S_, .f32⟩ : BufTy).Contents (Elt F) → (⟨S64, .f32⟩ : BufTy).Contents (Elt F))
                        (constant S_ .f32 0x47C35000#32 : (⟨S_, .f32⟩ : BufTy).Contents (Elt F))))
                    shapeCasts_S64_S1x64 : (⟨S1x64, .f32⟩ : BufTy).Contents (Elt F))
                  (shapeCast S1x64
                    ((Host.divf : (⟨S64, .f32⟩ : BufTy).Contents (Elt F) → (⟨S64, .f32⟩ : BufTy).Contents (Elt F) → (⟨S64, .f32⟩ : BufTy).Contents (Elt F))
                      (Host.reduceAdd
                        (shapeCast S20x64
                          (extractStridedSlice S20x1x64 ![0, 0, 0]
                            (Gen.W12 m ρ c (Proc.devRef .tc main_v107_1) : (⟨S20x8x64, .f32⟩ : BufTy).Contents (Elt F))
                            slices_S20x8x64_S20x1x64_0_0_0 : (⟨S20x1x64, .f32⟩ : BufTy).Contents (Elt F))
                          shapeCasts_S20x1x64_S20x64 : (⟨S20x64, .f32⟩ : BufTy).Contents (Elt F))
                        (constant S_ .f32 0x00000000#32 : (⟨S_, .f32⟩ : BufTy).Contents (Elt F))
                        reducesTo_S20x64_S64_d0 h_S_ : (⟨S64, .f32⟩ : BufTy).Contents (Elt F))
                      ((broadcastInDim S64 ![] bcast_S_S64 : (⟨S_, .f32⟩ : BufTy).Contents (Elt F) → (⟨S64, .f32⟩ : BufTy).Contents (Elt F))
                        (constant S_ .f32 0x47C35000#32 : (⟨S_, .f32⟩ : BufTy).Contents (Elt F))))
                    shapeCasts_S64_S1x64 : (⟨S1x64, .f32⟩ : BufTy).Contents (Elt F))))
              shapeCasts_S1x64_S64 : (⟨S64, .f32⟩ : BufTy).Contents (Elt F))⟩]
          concatenates_S64_S64_S128_d0 : (⟨S128, .f32⟩ : BufTy).Contents (Elt F))
        shapeCasts_S128_S1x128 : (⟨S1x128, .f32⟩ : BufTy).Contents (Elt F)) := by
  show StableHlo.after Gen.hostOps6 _ _ = _
  after_results_simp
  all_goals rfl

/-- `main_v130` at boundary 13: the operations of host stretch 6 that produce it, composed, over the contents at boundary 12. -/
theorem host6_v130 (c : Dev nD) :
    Gen.W13 m ρ c (Proc.devRef .tc main_v130) =
      (shapeCast S1x128
        (concatenate S128 0
          [⟨S64,
            (Gen.W12 m ρ c (Proc.devRef .tc main_arg16) : (⟨S64, .f32⟩ : BufTy).Contents (Elt F))⟩,
           ⟨S64,
            (Gen.W12 m ρ c (Proc.devRef .tc main_arg16) : (⟨S64, .f32⟩ : BufTy).Contents (Elt F))⟩]
          concatenates_S64_S64_S128_d0 : (⟨S128, .f32⟩ : BufTy).Contents (Elt F))
        shapeCasts_S128_S1x128 : (⟨S1x128, .f32⟩ : BufTy).Contents (Elt F)) := by
  show StableHlo.after Gen.hostOps6 _ _ = _
  after_results_simp
  all_goals rfl

/-- `main_v132` at boundary 13: the operations of host stretch 6 that produce it, composed, over the contents at boundary 12. -/
theorem host6_v132 (c : Dev nD) :
    Gen.W13 m ρ c (Proc.devRef .tc main_v132) =
      (shapeCast S1x128
        (concatenate S128 0
          [⟨S64,
            (Gen.W12 m ρ c (Proc.devRef .tc main_arg17) : (⟨S64, .f32⟩ : BufTy).Contents (Elt F))⟩,
           ⟨S64,
            (Gen.W12 m ρ c (Proc.devRef .tc main_arg17) : (⟨S64, .f32⟩ : BufTy).Contents (Elt F))⟩]
          concatenates_S64_S64_S128_d0 : (⟨S128, .f32⟩ : BufTy).Contents (Elt F))
        shapeCasts_S128_S1x128 : (⟨S1x128, .f32⟩ : BufTy).Contents (Elt F)) := by
  show StableHlo.after Gen.hostOps6 _ _ = _
  after_results_simp
  all_goals rfl

end Cert.KernelIdeal.Trace

end
-- ==== Proof.KHost7.lean ====
/- Host stretch 7 of @main: what each buffer it writes that is read later holds at the stretch's end (boundary 15),
   as the stretch's operations applied to the contents at its start (boundary 14). -/
import proofs.«174735_j64811056496761_2_alg».proof.Proof.Gen.KernelIdeal.Frame

set_option maxRecDepth 16384

noncomputable section

namespace Cert.KernelIdeal.Trace

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- `main_v134` at boundary 15: the operations of host stretch 7 that produce it, composed, over the contents at boundary 14. -/
theorem host7_v134 (c : Dev nD) :
    Gen.W15 m ρ c (Proc.devRef .tc main_v134) =
      (shapeCast S100000x64
        (Gen.W14 m ρ c (Proc.devRef .tc main_v133) : (⟨S50000x128, .f32⟩ : BufTy).Contents (Elt F))
        shapeCasts_S50000x128_S100000x64 : (⟨S100000x64, .f32⟩ : BufTy).Contents (Elt F)) := by
  show StableHlo.after Gen.hostOps7 _ _ = _
  after_results_simp
  all_goals rfl

end Cert.KernelIdeal.Trace

end
-- ==== Proof.KNormStage3.lean ====
/-
  The third normalisation stage of the kernel program, from the layer's output to the next layer's input.

  When the layer before left the table h and, tile by tile, the column sums of h and of its squares, the host's
  preparation, the region on the folded layout and the view back leave the normalisation of h by its tiled column
  statistics, with the ramp, with the scale and shift the program was launched with.
-/
import proofs.«174735_j64811056496761_2_alg».proof.Proof.KNormStage
import proofs.«174735_j64811056496761_2_alg».proof.Proof.KNorm6
import proofs.«174735_j64811056496761_2_alg».proof.Proof.KHost6
import proofs.«174735_j64811056496761_2_alg».proof.Proof.KHost7
import proofs.«174735_j64811056496761_2_alg».proof.Proof.KKeep2
import proofs.«174735_j64811056496761_2_alg».proof.Proof.KKeep3

set_option maxRecDepth 16384

noncomputable section

namespace Cert.KernelIdeal.NormStage

open Cert.KernelIdeal Cert.KernelIdeal.Gen Cert.KernelIdeal.Trace Cert.KernelIdeal.RegionValue
open Idealize.ShloMosaic Idealize.ShloMosaic.TcCoe Idealize.ShloMosaic.ValueIdx Idealize.SL.Sem Cert.GNet
open scoped BigOperators

variable (m : (ℓ : Loc nD τ sig) → Buf (Elt Ideal) ℓ) (ρ : Dev nD → PrngReg)

/-- The layer's output table before the stage, at its literal type. -/
abbrev st3_h (c : Dev nD) : Tab NN 64 := Gen.W12 m ρ c (Proc.devRef .tc main_v107_0)
/-- The tiles' column sums before the stage. -/
abbrev st3_T1 (c : Dev nD) : FVec Ideal S20x8x64 .f32 := Gen.W12 m ρ c (Proc.devRef .tc main_v107_1)
/-- The tiles' column sums of squares before the stage. -/
abbrev st3_T2 (c : Dev nD) : FVec Ideal S20x8x64 .f32 := Gen.W12 m ρ c (Proc.devRef .tc main_v107_2)
/-- The next layer's input table after the stage. -/
abbrev st3_out (c : Dev nD) : Tab NN 64 := Gen.W15 m ρ c (Proc.devRef .tc main_v134)

/-- The stage: the next layer's input is the normalisation of the layer's output by its tiled column statistics, ramped. -/
theorem norm3 (c : Dev nD) (h : Tab NN 64) (hh : st3_h m ρ c = h)
    (hsum : ∀ (t : Fin 20) (r : Fin 8) (q : Fin 64), st3_T1 m ρ c (ix3 t r q) = 0 + ∑ k : Fin 5000, h (ix2 (tileRow t k) q))
    (hsq : ∀ (t : Fin 20) (r : Fin 8) (q : Fin 64),
      st3_T2 m ρ c (ix3 t r q) = 0 + ∑ k : Fin 5000, h (ix2 (tileRow t k) q) * h (ix2 (tileRow t k) q)) :
    st3_out m ρ c = relu (kNorm h (m ((c : Thread nD τ).loc main_arg16)) (m ((c : Thread nD τ).loc main_arg17))) := by
  show Gen.W15 m ρ c (Proc.devRef .tc main_v134) = _
  rw [host7_v134, out_v133]
  refine stage_norm_relu h _ _ (st3_T1 m ρ c) (st3_T2 m ρ c) hsum hsq
    (bn6_H (Gen.V13 m ρ) c) (bn6_M (Gen.V13 m ρ) c) (bn6_Vr (Gen.V13 m ρ) c) (bn6_G (Gen.V13 m ρ) c) (bn6_Bt (Gen.V13 m ρ) c)
    ?_ ?_ ?_ ?_ ?_ (bn6_out (Gen.V13 m ρ) c) (fun a l => region6_value (Gen.V13 m ρ) c a l)
  · subst hh; exact host6_v122 m ρ c
  · exact host6_v125 m ρ c
  · exact host6_v128 m ρ c
  · rw [← arg16_W12 m ρ c]; exact host6_v130 m ρ c
  · rw [← arg17_W12 m ρ c]; exact host6_v132 m ρ c

end Cert.KernelIdeal.NormStage

end
-- ==== Proof.KStage12.lean ====
/- The chain of the first three layers of the kernel's value: each normalisation stage turns a layer's output table and its
   per-tile column sums into the next layer's input, and each layer turns that input into its output; at the end the table
   the last layer reads (main_v134 at boundary 15) is the third normalisation's output after the ramp, as a function of the
   arguments. -/
import proofs.«174735_j64811056496761_2_alg».proof.Proof.KStage1
import proofs.«174735_j64811056496761_2_alg».proof.Proof.KStage7
import proofs.«174735_j64811056496761_2_alg».proof.Proof.KStage11
import proofs.«174735_j64811056496761_2_alg».proof.Proof.KNormStage1
import proofs.«174735_j64811056496761_2_alg».proof.Proof.KNormStage2
import proofs.«174735_j64811056496761_2_alg».proof.Proof.KNormStage3

set_option maxRecDepth 16384

noncomputable section

namespace Cert.KernelIdeal.Trace

open Idealize.ShloMosaic Idealize.ShloMosaic.TcCoe Idealize.ShloMosaic.ValueIdx
open Cert.KernelIdeal Cert.KernelIdeal.Gen Cert.GNet
open scoped BigOperators

variable (m : (ℓ : Loc nD τ sig) → Buf (Elt Ideal) ℓ) (ρ : Dev nD → PrngReg) (c : Dev nD)

/-- The first normalisation leaves in main_v50 the normalisation of layer 1's output. -/
theorem stage7_v50 : (Gen.W7 m ρ c (Proc.devRef .tc main_v50) : Tab NN 64) = kN1 m c :=
  NormStage.norm1 m ρ c (kH1 m c) (stage3_v23_0 m ρ c)
    (fun t r q => (stage3_v23_1 m ρ c t r q).trans (zero_add (M := EReal) _).symm)
    (fun t r q => (stage3_v23_2 m ρ c t r q).trans (zero_add (M := EReal) _).symm)

/-- Region 3 leaves layer 2's output in main_v65_0. -/
theorem layer2_out : (Gen.W8 m ρ c (Proc.devRef .tc main_v65_0) : Tab NN 64) = kH2 m c :=
  stage8_v65_0 m ρ c (stage7_v50 m ρ c)
/-- … and its per-tile column sums in main_v65_1. -/
theorem layer2_sum (t : Fin 20) (r : Fin 8) (q : Fin 64) :
    (Gen.W8 m ρ c (Proc.devRef .tc main_v65_1) : S20x8x64.Idx → EReal) (ix3 t r q)
      = ∑ k : Fin 5000, kH2 m c (ix2 (tileRow t k) q) :=
  stage8_v65_1 m ρ c (stage7_v50 m ρ c) t r q
/-- … and the per-tile column sums of its square in main_v65_2. -/
theorem layer2_sq (t : Fin 20) (r : Fin 8) (q : Fin 64) :
    (Gen.W8 m ρ c (Proc.devRef .tc main_v65_2) : S20x8x64.Idx → EReal) (ix3 t r q)
      = ∑ k : Fin 5000, kH2 m c (ix2 (tileRow t k) q) * kH2 m c (ix2 (tileRow t k) q) :=
  stage8_v65_2 m ρ c (stage7_v50 m ρ c) t r q

/-- The second normalisation leaves in main_v92 the ramped normalisation of layer 2's output. -/
theorem stage11_v92 : (Gen.W11 m ρ c (Proc.devRef .tc main_v92) : Tab NN 64) = kN2 m c :=
  NormStage.norm2 m ρ c (kH2 m c) (layer2_out m ρ c)
    (fun t r q => (layer2_sum m ρ c t r q).trans (zero_add (M := EReal) _).symm)
    (fun t r q => (layer2_sq m ρ c t r q).trans (zero_add (M := EReal) _).symm)

/-- Region 5 leaves layer 3's output in main_v107_0. -/
theorem layer3_out : (Gen.W12 m ρ c (Proc.devRef .tc main_v107_0) : Tab NN 64) = kH3 m c :=
  stage12_v107_0 m ρ c (stage11_v92 m ρ c)
/-- … and its per-tile column sums in main_v107_1. -/
theorem layer3_sum (t : Fin 20) (r : Fin 8) (q : Fin 64) :
    (Gen.W12 m ρ c (Proc.devRef .tc main_v107_1) : S20x8x64.Idx → EReal) (ix3 t r q)
      = ∑ k : Fin 5000, kH3 m c (ix2 (tileRow t k) q) :=
  stage12_v107_1 m ρ c (stage11_v92 m ρ c) t r q
/-- … and the per-tile column sums of its square in main_v107_2. -/
theorem layer3_sq (t : Fin 20) (r : Fin 8) (q : Fin 64) :
    (Gen.W12 m ρ c (Proc.devRef .tc main_v107_2) : S20x8x64.Idx → EReal) (ix3 t r q)
      = ∑ k : Fin 5000, kH3 m c (ix2 (tileRow t k) q) * kH3 m c (ix2 (tileRow t k) q) :=
  stage12_v107_2 m ρ c (stage11_v92 m ρ c) t r q

/-- The third normalisation leaves in main_v134 the ramped normalisation of layer 3's output: what the last layer reads. -/
theorem stage15_v134 : (Gen.W15 m ρ c (Proc.devRef .tc main_v134) : Tab NN 64) = kN3 m c :=
  NormStage.norm3 m ρ c (kH3 m c) (layer3_out m ρ c)
    (fun t r q => (layer3_sum m ρ c t r q).trans (zero_add (M := EReal) _).symm)
    (fun t r q => (layer3_sq m ρ c t r q).trans (zero_add (M := EReal) _).symm)

end Cert.KernelIdeal.Trace

end
-- ==== Proof.KHost8.lean ====
/- Host stretch 8 of @main: what each buffer it writes that is read later holds at the stretch's end (boundary 17),
   as the stretch's operations applied to the contents at its start (boundary 16). -/
import proofs.«174735_j64811056496761_2_alg».proof.Proof.Gen.KernelIdeal.Frame

set_option maxRecDepth 16384

noncomputable section

namespace Cert.KernelIdeal.Trace

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- `main_v148` at boundary 17: the operations of host stretch 8 that produce it, composed, over the contents at boundary 16. -/
theorem host8_v148 (c : Dev nD) :
    Gen.W17 m ρ c (Proc.devRef .tc main_v148) =
      ((mulf : (⟨S100000x16, .f32⟩ : BufTy).Contents (Elt F) → (⟨S100000x16, .f32⟩ : BufTy).Contents (Elt F) → (⟨S100000x16, .f32⟩ : BufTy).Contents (Elt F))
        (Host.scatterAdd scatter_S100000x16_S1600000x1_S1600000x16_1_0_0_1
          ((broadcastInDim S100000x16 ![] bcast_S_S100000x16 : (⟨S_, .f32⟩ : BufTy).Contents (Elt F) → (⟨S100000x16, .f32⟩ : BufTy).Contents (Elt F))
            (constant S_ .f32 0x00000000#32 : (⟨S_, .f32⟩ : BufTy).Contents (Elt F)))
          ((broadcastInDim S1600000x1 ![0] bcast_S1600000_S1600000x1_0 : (⟨S1600000, .i32⟩ : BufTy).Contents (Elt F) → (⟨S1600000x1, .i32⟩ : BufTy).Contents (Elt F))
            (Gen.W16 m ρ c (Proc.devRef .tc main_arg2) : (⟨S1600000, .i32⟩ : BufTy).Contents (Elt F)))
          (Host.gather gather_S100000x16_S1600000x1_S1600000x16_1_0_n_n_0_1_116
            (Gen.W16 m ρ c (Proc.devRef .tc main_v135) : (⟨S100000x16, .f32⟩ : BufTy).Contents (Elt F))
            ((broadcastInDim S1600000x1 ![0] bcast_S1600000_S1600000x1_0 : (⟨S1600000, .i32⟩ : BufTy).Contents (Elt F) → (⟨S1600000x1, .i32⟩ : BufTy).Contents (Elt F))
              ((select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F))
                ((cmpi .slt : (⟨S1600000, .i32⟩ : BufTy).Contents (Elt F) → (⟨S1600000, .i32⟩ : BufTy).Contents (Elt F) → (⟨S1600000, .i1⟩ : BufTy).Contents (Elt F))
                  (Gen.W16 m ρ c (Proc.devRef .tc main_arg1) : (⟨S1600000, .i32⟩ : BufTy).Contents (Elt F))
                  ((broadcastInDim S1600000 ![] bcast_S_S1600000 : (⟨S_, .i32⟩ : BufTy).Contents (Elt F) → (⟨S1600000, .i32⟩ : BufTy).Contents (Elt F))
                    (constantI S_ 32 0#32 : (⟨S_, .i32⟩ : BufTy).Contents (Elt F))))
                ((addi : (⟨S1600000, .i32⟩ : BufTy).Contents (Elt F) → (⟨S1600000, .i32⟩ : BufTy).Contents (Elt F) → (⟨S1600000, .i32⟩ : BufTy).Contents (Elt F))
                  (Gen.W16 m ρ c (Proc.devRef .tc main_arg1) : (⟨S1600000, .i32⟩ : BufTy).Contents (Elt F))
                  ((broadcastInDim S1600000 ![] bcast_S_S1600000 : (⟨S_, .i32⟩ : BufTy).Contents (Elt F) → (⟨S1600000, .i32⟩ : BufTy).Contents (Elt F))
                    (constantI S_ 32 100000#32 : (⟨S_, .i32⟩ : BufTy).Contents (Elt F))))
                (Gen.W16 m ρ c (Proc.devRef .tc main_arg1) : (⟨S1600000, .i32⟩ : BufTy).Contents (Elt F)))) : (⟨S1600000x16, .f32⟩ : BufTy).Contents (Elt F)) : (⟨S100000x16, .f32⟩ : BufTy).Contents (Elt F))
        ((broadcastInDim S100000x16 ![0, 1] bcast_S100000x1_S100000x16_0_1 : (⟨S100000x1, .f32⟩ : BufTy).Contents (Elt F) → (⟨S100000x16, .f32⟩ : BufTy).Contents (Elt F))
          ((broadcastInDim S100000x1 ![0] bcast_S100000_S100000x1_0 : (⟨S100000, .f32⟩ : BufTy).Contents (Elt F) → (⟨S100000x1, .f32⟩ : BufTy).Contents (Elt F))
            (Gen.W16 m ρ c (Proc.devRef .tc main_v7) : (⟨S100000, .f32⟩ : BufTy).Contents (Elt F))))) := by
  show StableHlo.after Gen.hostOps8 _ _ = _
  after_results_simp
  all_goals rfl

/-- `main_v149` at boundary 17: the operations of host stretch 8 that produce it, composed, over the contents at boundary 16. -/
theorem host8_v149 (c : Dev nD) :
    Gen.W17 m ρ c (Proc.devRef .tc main_v149) =
      (shapeCast S1x16
        (Gen.W16 m ρ c (Proc.devRef .tc main_arg20) : (⟨S16, .f32⟩ : BufTy).Contents (Elt F))
        shapeCasts_S16_S1x16 : (⟨S1x16, .f32⟩ : BufTy).Contents (Elt F)) := by
  show StableHlo.after Gen.hostOps8 _ _ = _
  after_results_simp
  all_goals rfl

end Cert.KernelIdeal.Trace

end
-- ==== Proof.KStage15.lean ====
/- Layer 4 of the kernel's value, given that the table the layer reads (main_v134, at boundary 15) is the third normalisation's
   output after the ramp: the neighbour projection region 7 leaves, its mean by a reciprocal host stretch 8 computes, the bias
   row, and the network's value region 8 leaves in main_v150 (the layer of the four arrays the region reads). -/
import proofs.«174735_j64811056496761_2_alg».proof.Proof.KHost8
import proofs.«174735_j64811056496761_2_alg».proof.Proof.KKeep1
import proofs.«174735_j64811056496761_2_alg».proof.Proof.KKeep2
import proofs.«174735_j64811056496761_2_alg».proof.Proof.KKeep3
import proofs.«174735_j64811056496761_2_alg».proof.Proof.KStage0
import proofs.«174735_j64811056496761_2_alg».proof.Proof.KArgs
import proofs.«174735_j64811056496761_2_alg».proof.Proof.KAgg
import proofs.«174735_j64811056496761_2_alg».proof.Proof.KProj
import proofs.«174735_j64811056496761_2_alg».proof.Proof.KSageProj
import proofs.«174735_j64811056496761_2_alg».proof.Proof.LawLayer
import Idealize.ShloMosaic.Lib.IdealHost

set_option maxRecDepth 16384

noncomputable section

namespace Cert.KernelIdeal.Trace

open Idealize.ShloMosaic Idealize.ShloMosaic.TcCoe Idealize.ShloMosaic.ValueIdx
open Cert.KernelIdeal Cert.KernelIdeal.Gen Cert.GNet
open scoped BigOperators

variable (m : (ℓ : Loc nD τ sig) → Buf (Elt Ideal) ℓ) (ρ : Dev nD → PrngReg) (c : Dev nD)

/-- Region 7 leaves in main_v135 the layer's input times layer 4's neighbour matrix. -/
theorem stage16_v135
    (hN : (Gen.W15 m ρ c (Proc.devRef .tc main_v134) : Tab NN 64) = kN3 m c) :
    (Gen.W16 m ρ c (Proc.devRef .tc main_v135) : Tab NN 16) = rowsMul (kN3 m c) (aWn4 m c) := by
  refine (out_v135 m ρ c).trans ((RegionValue.region7_arr (Gen.V15 m ρ) c).trans ?_)
  show Cert.LibDenseProduct.mm (Gen.W15 m ρ c (Proc.devRef .tc main_v134) : FVec Ideal S100000x64 .f32)
      (Gen.W15 m ρ c (Proc.devRef .tc main_arg19) : FVec Ideal S64x16 .f32) = _
  rw [hN, arg19_W15 m ρ c]
  rfl

/-- Host stretch 8 leaves in main_v148 the projected rows carried along the edges, summed at their end nodes and scaled by
    the reciprocal of the guarded count. -/
theorem stage17_v148
    (hN : (Gen.W15 m ρ c (Proc.devRef .tc main_v134) : Tab NN 64) = kN3 m c) :
    (Gen.W17 m ρ c (Proc.devRef .tc main_v148) : Tab NN 16)
      = meanRecip (rowsMul (kN3 m c) (aWn4 m c)) (aSrc m c) (aDst m c) := by
  refine (host8_v148 m ρ c).trans ?_
  rw [arg1_W16 m ρ c, arg2_W16 m ρ c, stage16_v135 m ρ c hN]
  exact Agg.aggStage gather_S100000x16_S1600000x1_S1600000x16_1_0_n_n_0_1_116
    gather_S100000x16_S1600000x1_S1600000x16_1_0_n_n_0_1_116_wf rfl
    scatter_S100000x16_S1600000x1_S1600000x16_1_0_0_1 scatter_S100000x16_S1600000x1_S1600000x16_1_0_0_1_wf rfl
    bcast_S100000_S100000x1_0 bcast_S100000x1_S100000x16_0_1 _ (fun i => HostRead.bcast_zero_apply _ i)
    (rowsMul (kN3 m c) (aWn4 m c)) (aSrc m c) (aDst m c) (Gen.W16 m ρ c (Proc.devRef .tc main_v7))
    (fun p => (congrFun (v7_W16 m ρ c) (ix1 p)).trans (stage0_v7 m ρ c p))

/-- Layer 4's bias as region 8 reads it: the one-row table host stretch 8 makes of it, at lane `q`. -/
theorem stage17_v149 (q : Fin 16) :
    (Gen.W17 m ρ c (Proc.devRef .tc main_v149) : Tab 1 16) (ix2 (0 : Fin 1) q) = aB4 m c (ix1 q) := by
  refine (congrFun (host8_v149 m ρ c) (ix2 (0 : Fin 1) q)).trans ?_
  rw [arg20_W16 m ρ c]
  exact Agg.biasRow_apply _ _ q

/-- The table region 8 multiplies, as it is at the region's entry: the third normalisation's output after the ramp. -/
theorem r8_X (hN : (Gen.W15 m ρ c (Proc.devRef .tc main_v134) : Tab NN 64) = kN3 m c) :
    RegionValue.X8 (Gen.V17 m ρ) c = kN3 m c :=
  (v134_W17 m ρ c).trans hN

/-- The matrix region 8 multiplies by: layer 4's own-row matrix. -/
theorem r8_Ws : RegionValue.Ws8 (Gen.V17 m ρ) c = aWs4 m c :=
  arg18_W17 m ρ c

/-- The table region 8 adds: the projected rows' mean by a reciprocal. -/
theorem r8_A (hN : (Gen.W15 m ρ c (Proc.devRef .tc main_v134) : Tab NN 64) = kN3 m c) :
    RegionValue.A8 (Gen.V17 m ρ) c = meanRecip (rowsMul (kN3 m c) (aWn4 m c)) (aSrc m c) (aDst m c) :=
  stage17_v148 m ρ c hN

/-- The bias row region 8 adds, at lane `q`. -/
theorem r8_B (q : Fin 16) : RegionValue.B8 (Gen.V17 m ρ) c (ix2 (0 : Fin 1) q) = aB4 m c (ix1 q) :=
  stage17_v149 m ρ c q

/-- Region 8 leaves the network's value in main_v150. -/
theorem stage18_v150
    (hN : (Gen.W15 m ρ c (Proc.devRef .tc main_v134) : Tab NN 64) = kN3 m c) :
    (Gen.W18 m ρ c (Proc.devRef .tc main_v150) : Tab NN 16) = kOut m c := by
  refine (out_v150 m ρ c).trans ((RegionValue.region8_arr4 (Gen.V17 m ρ) c).trans ?_)
  funext i
  obtain ⟨p, q, rfl⟩ : ∃ (p : Fin NN) (q : Fin 16), i = ix2 p q := ⟨i 0, i 1, eq_ix2 i⟩
  refine (RegionValue.hproj_apply _ _ _ _ p q).trans ?_
  rw [r8_X m ρ c hN, r8_Ws m ρ c, r8_A m ρ c hN, r8_B m ρ c q]
  exact (sageProj_apply (kN3 m c) (aWs4 m c) (aWn4 m c) (aB4 m c) (aSrc m c) (aDst m c) p q).symm

/-- The kernel's result is the whole network of the arguments, given the third normalisation's output. -/
theorem kernel_value_of
    (hN : (Gen.W15 m ρ c (Proc.devRef .tc main_v134) : Tab NN 64) = kN3 m c) :
    (Gen.W18 m ρ c (Proc.devRef .tc main_v150) : Tab NN 16)
      = kNet (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) :=
  (stage18_v150 m ρ c hN).trans (kOut_eq m c)

end Cert.KernelIdeal.Trace

end
-- ==== Proof.KValue.lean ====
/- The kernel program's result is the network, in the kernel's arrangement, of the arguments: the table the last layer reads is
   the third normalisation's output after the ramp, and the last layer's three steps — the neighbour projection, its mean by
   a reciprocal along the edges, and the own-row product with the bias — leave the network's value in the result buffer. -/
import proofs.«174735_j64811056496761_2_alg».proof.Proof.KStage12
import proofs.«174735_j64811056496761_2_alg».proof.Proof.KStage15

noncomputable section

namespace Cert.KernelIdeal.Trace

open Idealize.ShloMosaic Idealize.ShloMosaic.TcCoe Idealize.ShloMosaic.ValueIdx
open Cert.KernelIdeal Cert.KernelIdeal.Gen Cert.GNet

variable (m : (ℓ : Loc nD τ sig) → Buf (Elt Ideal) ℓ) (ρ : Dev nD → PrngReg) (c : Dev nD)

/-- At the end of the run the result buffer holds the whole network of the arguments. -/
theorem kernel_value :
    (Gen.W18 m ρ c (Proc.devRef .tc main_v150) : Tab NN 16)
      = kNet (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) :=
  kernel_value_of m ρ c (stage15_v134 m ρ c)

end Cert.KernelIdeal.Trace

end
-- ==== Proof.LibBatchVariance.lean ====
/-
  The variance in two arrangements. For N real numbers o_i (N ≠ 0 their count) with mean μ = (Σ o_i) / N:
      (Σ (o_i − μ)²) / N = (Σ o_i²) / N − μ².
  Stated over the reals, and over the extended reals with the quotient that is x · y⁻¹ off a zero divisor.
-/
import Idealize.ShloMosaic.PureOps.Ideal

noncomputable section

open scoped BigOperators

namespace Cert.LibBatchVariance

open Idealize.ShloMosaic

/-- The mean of the squared deviations is the mean of the squares minus the square of the mean. -/
theorem variance_eq {ι : Type*} [Fintype ι] (o : ι → ℝ) (N : ℝ) (hN : N ≠ 0) (hcard : (Fintype.card ι : ℝ) = N) :
    (∑ i, (o i - (∑ j, o j) / N) * (o i - (∑ j, o j) / N)) / N
      = (∑ i, o i * o i) / N - ((∑ j, o j) / N) * ((∑ j, o j) / N) := by
  set S := ∑ j, o j with hS
  have h1 : ∑ i, (o i - S / N) * (o i - S / N)
      = (∑ i, o i * o i) - 2 * (S / N) * S + N * ((S / N) * (S / N)) := by
    have : ∀ i, (o i - S / N) * (o i - S / N) = o i * o i - 2 * (S / N) * o i + (S / N) * (S / N) := fun i => by ring
    simp only [this, Finset.sum_add_distrib, Finset.sum_sub_distrib, ← Finset.mul_sum, Finset.sum_const,
      Finset.card_univ, nsmul_eq_mul, hcard, ← hS]
    ring
  rw [h1]
  field_simp
  ring

/-- A finite sum of reals, taken in the extended reals, is the real sum. -/
theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The quotient of two reals, the divisor nonzero, is the real quotient. -/
theorem div_coe_coe (a : ℝ) {b : ℝ} (hb : b ≠ 0) : Ideal.div (a : EReal) (b : EReal) = ((a / b : ℝ) : EReal) := by
  rw [Ideal.div_coe hb, ← EReal.coe_mul]; congr 1; field_simp

/-- The same identity on the extended reals, for real data. -/
theorem variance_ereal {ι : Type*} [Fintype ι] (o : ι → ℝ) (N : ℝ) (hN : N ≠ 0) (hcard : (Fintype.card ι : ℝ) = N) :
    Ideal.div (∑ i, (((o i : ℝ) : EReal) - Ideal.div (∑ j, ((o j : ℝ) : EReal)) (N : EReal))
        * (((o i : ℝ) : EReal) - Ideal.div (∑ j, ((o j : ℝ) : EReal)) (N : EReal))) (N : EReal)
      = Ideal.div (∑ i, ((o i : ℝ) : EReal) * ((o i : ℝ) : EReal)) (N : EReal)
        - Ideal.div (∑ j, ((o j : ℝ) : EReal)) (N : EReal) * Ideal.div (∑ j, ((o j : ℝ) : EReal)) (N : EReal) := by
  rw [coe_sum, div_coe_coe _ hN]
  simp only [← EReal.coe_sub, ← EReal.coe_mul]
  rw [coe_sum, coe_sum, div_coe_coe _ hN, div_coe_coe _ hN, ← EReal.coe_sub, variance_eq o N hN hcard]

end Cert.LibBatchVariance

end
-- ==== Proof.LibBlockSum.lean ====
/-
  Sums over a range cut into equal blocks.

  A sum over `n * b` consecutive indices is the sum, over the `n` blocks, of the sum over the `b` indices of each
  block: index `q` of block `j` is the index `q + b * j` of the whole range, and every index of the whole range
  is of this form exactly once.  The same at the sizes 16 blocks of 512, written with a range of block numbers;
  and a sum over the first `n + 1` block numbers is the sum over the first `n` plus the last term.
-/
import Mathlib.Algebra.BigOperators.Fin
import Mathlib.Algebra.BigOperators.Group.Finset.Basic
import Mathlib.Data.Fintype.BigOperators
import Mathlib.Logic.Equiv.Fin.Basic

open scoped BigOperators

namespace Cert.LibBlockSum

/-- Index `q` of block `j`, among `n` blocks of `b` indices each, is the index `q + b * j` of the whole range. -/
theorem finProd_val {n b : ℕ} (j : Fin n) (q : Fin b) : (finProdFinEquiv (j, q)).val = q.val + b * j.val := rfl

/-- The sum over the blocks of the sums over each block is the sum over the whole range of `n * b` indices. -/
theorem sum_blocks {M : Type*} [AddCommMonoid M] {n b : ℕ} (f : Fin (n * b) → M) :
    ∑ j : Fin n, ∑ q : Fin b, f (finProdFinEquiv (j, q)) = ∑ i, f i :=
  (Fintype.sum_prod_type' fun (j : Fin n) (q : Fin b) => f (finProdFinEquiv (j, q))).symm.trans
    (Equiv.sum_comp finProdFinEquiv f)

/-- The same for 8192 indices cut into 16 blocks of 512, the block number running over a range of naturals:
    index `q` of block `j` is `512 * j + q`, which is below 8192 for every block number below 16. -/
theorem sum_blocks_8192 {M : Type*} [AddCommMonoid M] (f : Fin 8192 → M) :
    ∑ j ∈ Finset.range 16, ∑ q : Fin 512, (if h : 512 * j + q.val < 8192 then f ⟨512 * j + q.val, h⟩ else 0)
      = ∑ i, f i := by
  refine Eq.trans ?_ (sum_blocks (n := 16) (b := 512) f)
  rw [Finset.sum_range fun j => ∑ q : Fin 512, (if h : 512 * j + q.val < 8192 then f ⟨512 * j + q.val, h⟩ else 0)]
  refine Finset.sum_congr rfl fun j _ => Finset.sum_congr rfl fun q _ => ?_
  have hlt : 512 * j.val + q.val < 8192 := by have := j.isLt; have := q.isLt; omega
  rw [dif_pos hlt]
  exact congrArg f (Fin.ext (by show 512 * j.val + q.val = q.val + 512 * j.val; omega))

/-- A sum over the first `n + 1` naturals is the sum over the first `n` plus the term at `n`. -/
theorem sum_range_step {M : Type*} [AddCommMonoid M] (g : ℕ → M) (n : ℕ) :
    ∑ j ∈ Finset.range (n + 1), g j = (∑ j ∈ Finset.range n, g j) + g n :=
  Finset.sum_range_succ g n

end Cert.LibBlockSum
-- ==== Proof.LawStats.lean ====
/-
  The column statistics taken tile by tile are the column statistics, for real entries.

  A sum over 100000 rows taken as 20 sums of 5000 is the sum over the rows; the mean of the squares minus the square of the
  mean is the mean of the squared deviations from the mean.
-/
import proofs.«174735_j64811056496761_2_alg».proof.Proof.KSpec
import proofs.«174735_j64811056496761_2_alg».proof.Proof.Consts
import proofs.«174735_j64811056496761_2_alg».proof.Proof.LibBatchVariance
import proofs.«174735_j64811056496761_2_alg».proof.Proof.LibBlockSum

noncomputable section

namespace Cert.GNet

open Idealize.ShloMosaic Idealize.ShloMosaic.ValueIdx Cert.LibRealValued
open scoped BigOperators

variable {D : ℕ}

/-- A sum over the rows, taken tile by tile. -/
theorem sum_tiles {M : Type*} [AddCommMonoid M] (f : Fin NN → M) :
    ∑ t : Fin 20, ∑ k : Fin 5000, f (tileRow t k) = ∑ p : Fin NN, f p := by
  have h := Cert.LibBlockSum.sum_blocks (n := 20) (b := 5000) (fun i : Fin (20 * 5000) => f ⟨i.val, i.isLt⟩)
  rw [show (∑ i : Fin (20 * 5000), f ⟨i.val, i.isLt⟩) = ∑ p : Fin NN, f p from rfl] at h
  rw [← h]
  refine Finset.sum_congr rfl fun t _ => Finset.sum_congr rfl fun k _ => ?_
  congr 1
  apply Fin.ext
  show 5000 * t.val + k.val = (finProdFinEquiv (t, k)).val
  rw [Cert.LibBlockSum.finProd_val]; omega

/-- The tiled column sum is the column sum. -/
theorem tileSum_eq (h : Tab NN D) (q : Fin D) : tileSum h q = ∑ p : Fin NN, h (ix2 p q) := by
  unfold tileSum
  simp only [zero_add]
  exact sum_tiles fun p => h (ix2 p q)

/-- The tiled mean is the mean. -/
theorem kMean_eq (h : Tab NN D) (q : Fin D) : kMean h q = colMean h q := by
  unfold kMean colMean; rw [tileSum_eq]

/-- Mean of squares minus squared mean is the mean squared deviation, for a real column. -/
theorem kVar_eq (h : Tab NN D) (hh : ∀ i, IsReal (h i)) (q : Fin D) : kVar h q = colVar h q := by
  choose hr hhr using hh
  unfold kVar colVar
  rw [kMean_eq, tileSum_eq]
  unfold colMean
  rw [cN_eq]
  simp only [hhr]
  exact (Cert.LibBatchVariance.variance_ereal (fun p : Fin NN => hr (ix2 p q)) 100000 (by norm_num)
    (by simp)).symm

/-- The normalisation with tiled statistics is the normalisation, for a real table. -/
theorem kNorm_eq (h : Tab NN D) (g be : Row D) (hh : ∀ i, IsReal (h i)) : kNorm h g be = bnorm h g be := by
  funext i
  obtain ⟨p, q, rfl⟩ : ∃ (p : Fin NN) (q : Fin D), i = ix2 p q := ⟨i 0, i 1, eq_ix2 i⟩
  show ((h (ix2 p q) - kMean h q) * Ideal.rsqrt (kVar h q + cEps)) * g (ix1 q) + be (ix1 q)
    = ((h (ix2 p q) - colMean h q) * Ideal.rsqrt (colVar h q + cEps)) * g (ix1 q) + be (ix1 q)
  rw [kMean_eq, kVar_eq h hh]

end Cert.GNet

end
-- ==== Proof.LawReal.lean ====
/-
  Real tables stay real through the network: a layer, a normalisation and a ramp of tables of real numbers, with real
  parameters, are tables of real numbers. For the normalisation this uses that a column's mean squared deviation is a
  non-negative real and the added constant a positive one, so the inverse root is taken of a positive real.
-/
import proofs.«174735_j64811056496761_2_alg».proof.Proof.KSpec
import proofs.«174735_j64811056496761_2_alg».proof.Proof.Consts

noncomputable section

namespace Cert.GNet

open Idealize.ShloMosaic Idealize.ShloMosaic.ValueIdx Cert.LibRealValued
open scoped BigOperators

variable {C D : ℕ}

theorem agg_real (h : Tab NN C) (src dst : Edges) (hh : ∀ i, IsReal (h i)) (i) : IsReal (agg h src dst i) :=
  IsReal.sum _ _ fun _ _ => hh _

theorem sage_real (h : Tab NN C) (Ws Wn : Tab C D) (b : Row D) (src dst : Edges)
    (hh : ∀ i, IsReal (h i)) (hWs : ∀ i, IsReal (Ws i)) (hWn : ∀ i, IsReal (Wn i)) (hb : ∀ i, IsReal (b i)) (i) :
    IsReal (sage h Ws Wn b src dst i) := by
  obtain ⟨d, hd1, hd⟩ := deg_real dst (i 0)
  have hd0 : d ≠ 0 := ne_of_gt (lt_of_lt_of_le one_pos hd1)
  unfold sage
  refine IsReal.add (IsReal.add (IsReal.sum _ _ fun c _ => IsReal.mul (hh _) (hWs _))
    (IsReal.sum _ _ fun c _ => IsReal.mul ?_ (hWn _))) (hb _)
  rw [hd]
  exact IsReal.div (agg_real h src dst hh _) hd0

theorem colMean_real (h : Tab NN D) (hh : ∀ i, IsReal (h i)) (q : Fin D) : IsReal (colMean h q) := by
  unfold colMean; rw [cN_eq]
  exact IsReal.div (IsReal.sum _ _ fun _ _ => hh _) (by norm_num)

/-- A column's mean squared deviation is a non-negative real. -/
theorem colVar_nonneg (h : Tab NN D) (hh : ∀ i, IsReal (h i)) (q : Fin D) :
    ∃ v : ℝ, 0 ≤ v ∧ colVar h q = (v : EReal) := by
  obtain ⟨μ, hμ⟩ := colMean_real h hh q
  choose hr hhr using hh
  unfold colVar
  rw [hμ, cN_eq]
  simp only [hhr]
  refine ⟨(∑ p : Fin NN, (hr (ix2 p q) - μ) * (hr (ix2 p q) - μ)) / 100000,
    div_nonneg (Finset.sum_nonneg fun p _ => mul_self_nonneg _) (by norm_num), ?_⟩
  simp only [← EReal.coe_sub, ← EReal.coe_mul, ← Cert.LibERealSum.coe_sum]
  exact Cert.LibERealSum.div_coe_coe _ (by norm_num)

theorem bnorm_real (h : Tab NN D) (g be : Row D) (hh : ∀ i, IsReal (h i)) (hg : ∀ i, IsReal (g i))
    (hbe : ∀ i, IsReal (be i)) (i) : IsReal (bnorm h g be i) := by
  obtain ⟨v, hv0, hv⟩ := colVar_nonneg h hh (i 1)
  obtain ⟨ε, hε0, hε⟩ := cEps_pos
  unfold bnorm
  rw [hv, hε, ← EReal.coe_add, Cert.LibERealSum.rsqrt_coe_pos (by positivity)]
  exact IsReal.add (IsReal.mul (IsReal.mul (IsReal.sub (hh _) (colMean_real h hh _)) (IsReal.coe _)) (hg _)) (hbe _)

theorem relu_real (h : Tab NN D) (hh : ∀ i, IsReal (h i)) (i) : IsReal (relu h i) :=
  IsReal.max (hh _) IsReal.zero

end Cert.GNet

end
-- ==== Proof.NetEq.lean ====
/-
  The network in the kernel's arrangement is the network, for real arguments: layer by layer the two arrangements agree
  (LawLayer, LawStats), and every intermediate table is real (LawReal), which is what the agreement of the next stage asks.
-/
import proofs.«174735_j64811056496761_2_alg».proof.Proof.LawLayer
import proofs.«174735_j64811056496761_2_alg».proof.Proof.LawStats
import proofs.«174735_j64811056496761_2_alg».proof.Proof.LawReal

noncomputable section

namespace Cert.GNet

open Idealize.ShloMosaic Idealize.ShloMosaic.ValueIdx Cert.LibRealValued

theorem kNet_eq (x : Tab NN 128) (src dst : Edges)
    (Ws1 Wn1 : Tab 128 64) (b1 g1 be1 : Row 64) (Ws2 Wn2 : Tab 64 64) (b2 g2 be2 : Row 64)
    (Ws3 Wn3 : Tab 64 64) (b3 g3 be3 : Row 64) (Ws4 Wn4 : Tab 64 16) (b4 : Row 16)
    (hx : ∀ i, IsReal (x i))
    (hWs1 : ∀ i, IsReal (Ws1 i)) (hWn1 : ∀ i, IsReal (Wn1 i)) (hb1 : ∀ i, IsReal (b1 i)) (hg1 : ∀ i, IsReal (g1 i)) (hbe1 : ∀ i, IsReal (be1 i))
    (hWs2 : ∀ i, IsReal (Ws2 i)) (hWn2 : ∀ i, IsReal (Wn2 i)) (hb2 : ∀ i, IsReal (b2 i)) (hg2 : ∀ i, IsReal (g2 i)) (hbe2 : ∀ i, IsReal (be2 i))
    (hWs3 : ∀ i, IsReal (Ws3 i)) (hWn3 : ∀ i, IsReal (Wn3 i)) (hb3 : ∀ i, IsReal (b3 i)) (hg3 : ∀ i, IsReal (g3 i)) (hbe3 : ∀ i, IsReal (be3 i))
    (hWn4 : ∀ i, IsReal (Wn4 i)) :
    kNet x src dst Ws1 Wn1 b1 g1 be1 Ws2 Wn2 b2 g2 be2 Ws3 Wn3 b3 g3 be3 Ws4 Wn4 b4
      = net x src dst Ws1 Wn1 b1 g1 be1 Ws2 Wn2 b2 g2 be2 Ws3 Wn3 b3 g3 be3 Ws4 Wn4 b4 := by
  unfold kNet net
  have e1 : sageProj x Ws1 Wn1 b1 src dst = sage x Ws1 Wn1 b1 src dst := sageProj_eq x Ws1 Wn1 b1 src dst hx hWn1
  have r1 : ∀ i, IsReal (sage x Ws1 Wn1 b1 src dst i) := sage_real x Ws1 Wn1 b1 src dst hx hWs1 hWn1 hb1
  simp only [sageFull_eq]
  rw [e1, kNorm_eq _ g1 be1 r1]
  have r1n := bnorm_real _ g1 be1 r1 hg1 hbe1
  have r2 := sage_real _ Ws2 Wn2 b2 src dst r1n hWs2 hWn2 hb2
  rw [kNorm_eq _ g2 be2 r2]
  have r2n := relu_real _ (bnorm_real _ g2 be2 r2 hg2 hbe2)
  have r3 := sage_real _ Ws3 Wn3 b3 src dst r2n hWs3 hWn3 hb3
  rw [kNorm_eq _ g3 be3 r3]
  have r3n := relu_real _ (bnorm_real _ g3 be3 r3 hg3 hbe3)
  rw [sageProj_eq _ Ws4 Wn4 b4 src dst r3n hWn4]

end Cert.GNet

end
-- ==== Proof.FiniteElem.lean ====
/-
  Reading back one conjunct of the precondition. `jnp.all(|x| < +inf)` of an array x of extended reals is the
  reduction by `and`, from 1, of the comparison word of max(x, -x) against the extended real the pattern
  0x7F800000 denotes, which is +infinity. When that reduction is 1 every comparison word is 1, so max(x i, -(x i)) is
  below +infinity at every index i: x i is neither +infinity nor -infinity, that is, it is a real number.
-/
import proofs.«174735_j64811056496761_2_alg».proof.Pre_finite_inputs
import proofs.«174735_j64811056496761_2_alg».proof.Proof.LibRealValued
import Idealize.ShloMosaic.PureOps.Ideal
import Idealize.ShloMosaic.Lib.ReduceAll

noncomputable section

namespace Cert.Proof.FiniteElem

open Idealize.ShloMosaic Cert.LibRealValued

/-- The rank-zero shape has one index. -/
instance subsingleton_S_ : Subsingleton Cert.Pre_finite_inputs.S_.Idx := ⟨fun a b => funext fun d => d.elim0⟩

/-- The pattern 0x7F800000 denotes +infinity. -/
theorem inf_eq_top : Ideal.ofBits .f32 0x7F800000#32 = (⊤ : EReal) := by simp [Ideal.ofBits, Ideal.ieee]

/-- An extended real whose absolute value max(x, -x) is below +infinity is a real number. -/
theorem isReal_of_abs_lt_top (x : EReal) (h : max x (-x) < (⊤ : EReal)) : IsReal x := by
  induction x using EReal.rec with
  | bot => exact absurd h (by simp)
  | coe r => exact ⟨r, rfl⟩
  | top => exact absurd h (by simp)

/-- The comparison word of |x| against +infinity is 1 only at a real x. -/
theorem isReal_of_cmp (x : EReal)
    (h : FloatOps.cmpf (F := Ideal) (φ := .f32) .olt (FloatOps.hostAbsf (F := Ideal) (φ := .f32) x) (FloatOps.ofBits (F := Ideal) .f32 0x7F800000#32) = 1#1) :
    IsReal x := by
  have h' : BitVec.ofBool (decide (max x (-x) < Ideal.ofBits .f32 0x7F800000#32)) = 1#1 := h
  rw [inf_eq_top] at h'
  by_cases hlt : max x (-x) < (⊤ : EReal)
  · exact isReal_of_abs_lt_top x hlt
  · rw [decide_eq_false hlt] at h'; exact absurd h' (by decide)

/-- `jnp.all(|x| < +inf)` equal to 1 makes every element of x real: any shape S, any axes reduced to rank zero. -/
theorem allReal {S : Shape} {axes : List (Fin S.rank)} (x : FVec Ideal S .f32)
    (hb : Cert.Pre_finite_inputs.S_.BroadcastsInDim S (![] : Fin 0 → Fin S.rank))
    (hr : S.ReducesTo axes Cert.Pre_finite_inputs.S_) (h0 : 0 < Cert.Pre_finite_inputs.S_.numel)
    (j : Cert.Pre_finite_inputs.S_.Idx)
    (e : Host.reduce IntOp.andi
          (cmpf .olt (Host.absf x) (broadcastInDim S ![] hb (constant Cert.Pre_finite_inputs.S_ .f32 0x7F800000#32)))
          (constantI Cert.Pre_finite_inputs.S_ 1 1#1) hr h0 j = 1#1) :
    ∀ i, IsReal (x i) := by
  intro i
  have hi := Host.reduce_andi_all _ _ hr h0 j e i
  exact isReal_of_cmp (x i) hi

end Cert.Proof.FiniteElem

end
-- ==== Proof.FiniteParts.lean ====
/-
  The precondition's chain of conjunctions, read back part by part. The printed predicate ands together nineteen words,
  one per array of extended reals, each the reduction by `and` of the comparison words of |x| against +infinity. Each
  lemma here takes one printed part of the chain: when the part's result is 1, the flags that entered it are 1 and
  every array it tests holds only real numbers (FiniteElem.allReal, once per array).
-/
import proofs.«174735_j64811056496761_2_alg».proof.Pre_finite_inputs
import proofs.«174735_j64811056496761_2_alg».proof.Proof.FiniteElem

noncomputable section

namespace Cert.Proof.FiniteParts

open Idealize.ShloMosaic Cert.LibRealValued Cert.Pre_finite_inputs Cert.Proof.FiniteElem

variable [hPre_finite_inputs : Cert.Pre_finite_inputs.Facts]
open Cert.Pre_finite_inputs.Facts

/-- An `and` of two rank-zero words is 1 exactly when both are. -/
theorem andi_one {x y : IVec S_ 1} {j : S_.Idx} : andi x y j = 1#1 ↔ x j = 1#1 ∧ y j = 1#1 := IntOp.andi_eq_one

/-- Part 5: the incoming flag, the pending test of the [64, 16] array whose absolute value came in, and the [16] array. -/
theorem part5 (arg20 : FVec Ideal S16 .f32) (v83 : IVec S_ 1) (v84 : FVec Ideal S64x16 .f32) (cst : FVec Ideal S_ .f32)
    (j : S_.Idx) (e : fn_part5 (F := Ideal) arg20 v83 v84 cst j = 1#1) :
    v83 j = 1#1
      ∧ Host.reduce IntOp.andi (cmpf .olt v84 (broadcastInDim S64x16 ![] bcast_S_S64x16 cst)) (constantI S_ 1 1#1)
          reducesTo_S64x16_S_d0_1 h_S_ j = 1#1
      ∧ ∀ i, IsReal (arg20 i) := by
  unfold fn_part5 at e
  simp only [andi_one] at e
  obtain ⟨⟨h1, h2⟩, h3⟩ := e
  exact ⟨h1, h2, allReal arg20 _ _ _ j h3⟩

/-- Part 4: two incoming flags and the arrays 16 to 20. -/
theorem part4 (arg16 arg17 : FVec Ideal S64 .f32) (arg18 arg19 : FVec Ideal S64x16 .f32) (arg20 : FVec Ideal S16 .f32)
    (v63 v67 : IVec S_ 1) (j : S_.Idx)
    (e : fn_part4 (F := Ideal) arg16 arg17 arg18 arg19 arg20 v63 v67 j = 1#1) :
    v63 j = 1#1 ∧ v67 j = 1#1 ∧ (∀ i, IsReal (arg16 i)) ∧ (∀ i, IsReal (arg17 i)) ∧ (∀ i, IsReal (arg18 i))
      ∧ (∀ i, IsReal (arg19 i)) ∧ (∀ i, IsReal (arg20 i)) := by
  unfold fn_part4 at e
  dsimp only at e
  obtain ⟨h83, h19, h20⟩ := part5 _ _ _ _ j e
  simp only [andi_one] at h83
  obtain ⟨⟨⟨⟨h63, h67⟩, h16⟩, h17⟩, h18⟩ := h83
  exact ⟨h63, h67, allReal arg16 _ _ _ j h16, allReal arg17 _ _ _ j h17, allReal arg18 _ _ _ j h18,
    allReal arg19 _ _ _ j h19, h20⟩

/-- Part 3: the incoming flag, the pending comparison of two [64] arrays, and the arrays 13 to 20. -/
theorem part3 (arg13 arg14 : FVec Ideal S64x64 .f32) (arg15 arg16 arg17 : FVec Ideal S64 .f32)
    (arg18 arg19 : FVec Ideal S64x16 .f32) (arg20 : FVec Ideal S16 .f32) (v48 : IVec S_ 1) (v49 v50 : FVec Ideal S64 .f32)
    (j : S_.Idx)
    (e : fn_part3 (F := Ideal) arg13 arg14 arg15 arg16 arg17 arg18 arg19 arg20 v48 v49 v50 j = 1#1) :
    v48 j = 1#1
      ∧ Host.reduce IntOp.andi (cmpf .olt v49 v50) (constantI S_ 1 1#1) reducesTo_S64_S_d0 h_S_ j = 1#1
      ∧ (∀ i, IsReal (arg13 i)) ∧ (∀ i, IsReal (arg14 i)) ∧ (∀ i, IsReal (arg15 i))
      ∧ (∀ i, IsReal (arg16 i)) ∧ (∀ i, IsReal (arg17 i)) ∧ (∀ i, IsReal (arg18 i))
      ∧ (∀ i, IsReal (arg19 i)) ∧ (∀ i, IsReal (arg20 i)) := by
  unfold fn_part3 at e
  dsimp only at e
  obtain ⟨h63, h67, r16, r17, r18, r19, r20⟩ := part4 _ _ _ _ _ _ _ j e
  simp only [andi_one] at h63
  obtain ⟨⟨⟨h48, h12⟩, h13⟩, h14⟩ := h63
  exact ⟨h48, h12, allReal arg13 _ _ _ j h13, allReal arg14 _ _ _ j h14, allReal arg15 _ _ _ j h67,
    r16, r17, r18, r19, r20⟩

/-- Part 2: the incoming flag and the arrays 9 to 20. -/
theorem part2 (arg9 : FVec Ideal S64x64 .f32) (arg10 arg11 arg12 : FVec Ideal S64 .f32)
    (arg13 arg14 : FVec Ideal S64x64 .f32) (arg15 arg16 arg17 : FVec Ideal S64 .f32)
    (arg18 arg19 : FVec Ideal S64x16 .f32) (arg20 : FVec Ideal S16 .f32) (v33 : IVec S_ 1) (j : S_.Idx)
    (e : fn_part2 (F := Ideal) arg9 arg10 arg11 arg12 arg13 arg14 arg15 arg16 arg17 arg18 arg19 arg20 v33 j = 1#1) :
    v33 j = 1#1
      ∧ (∀ i, IsReal (arg9 i)) ∧ (∀ i, IsReal (arg10 i)) ∧ (∀ i, IsReal (arg11 i)) ∧ (∀ i, IsReal (arg12 i))
      ∧ (∀ i, IsReal (arg13 i)) ∧ (∀ i, IsReal (arg14 i)) ∧ (∀ i, IsReal (arg15 i))
      ∧ (∀ i, IsReal (arg16 i)) ∧ (∀ i, IsReal (arg17 i)) ∧ (∀ i, IsReal (arg18 i))
      ∧ (∀ i, IsReal (arg19 i)) ∧ (∀ i, IsReal (arg20 i)) := by
  unfold fn_part2 at e
  dsimp only at e
  obtain ⟨h48, h12, r13, r14, r15, r16, r17, r18, r19, r20⟩ := part3 _ _ _ _ _ _ _ _ _ _ _ j e
  simp only [andi_one] at h48
  obtain ⟨⟨⟨h33, h9⟩, h10⟩, h11⟩ := h48
  exact ⟨h33, allReal arg9 _ _ _ j h9, allReal arg10 _ _ _ j h10, allReal arg11 _ _ _ j h11,
    allReal arg12 _ _ _ j h12, r13, r14, r15, r16, r17, r18, r19, r20⟩

/-- Part 1: the incoming flag, the pending reduction of the comparison words of a [64] array, and the arrays 6 to 20. -/
theorem part1 (arg6 arg7 : FVec Ideal S64 .f32) (arg8 arg9 : FVec Ideal S64x64 .f32) (arg10 arg11 arg12 : FVec Ideal S64 .f32)
    (arg13 arg14 : FVec Ideal S64x64 .f32) (arg15 arg16 arg17 : FVec Ideal S64 .f32)
    (arg18 arg19 : FVec Ideal S64x16 .f32) (arg20 : FVec Ideal S16 .f32) (v13 : IVec S_ 1) (v16 : IVec S64 1) (j : S_.Idx)
    (e : fn_part1 (F := Ideal) arg6 arg7 arg8 arg9 arg10 arg11 arg12 arg13 arg14 arg15 arg16 arg17 arg18 arg19 arg20 v13 v16 j
          = 1#1) :
    v13 j = 1#1
      ∧ Host.reduce IntOp.andi v16 (constantI S_ 1 1#1) reducesTo_S64_S_d0 h_S_ j = 1#1
      ∧ (∀ i, IsReal (arg6 i)) ∧ (∀ i, IsReal (arg7 i)) ∧ (∀ i, IsReal (arg8 i))
      ∧ (∀ i, IsReal (arg9 i)) ∧ (∀ i, IsReal (arg10 i)) ∧ (∀ i, IsReal (arg11 i)) ∧ (∀ i, IsReal (arg12 i))
      ∧ (∀ i, IsReal (arg13 i)) ∧ (∀ i, IsReal (arg14 i)) ∧ (∀ i, IsReal (arg15 i))
      ∧ (∀ i, IsReal (arg16 i)) ∧ (∀ i, IsReal (arg17 i)) ∧ (∀ i, IsReal (arg18 i))
      ∧ (∀ i, IsReal (arg19 i)) ∧ (∀ i, IsReal (arg20 i)) := by
  unfold fn_part1 at e
  dsimp only at e
  obtain ⟨h33, r9, r10, r11, r12, r13, r14, r15, r16, r17, r18, r19, r20⟩ :=
    part2 _ _ _ _ _ _ _ _ _ _ _ _ _ j e
  simp only [andi_one] at h33
  obtain ⟨⟨⟨⟨h13, h5⟩, h6⟩, h7⟩, h8⟩ := h33
  exact ⟨h13, h5, allReal arg6 _ _ _ j h6, allReal arg7 _ _ _ j h7, allReal arg8 _ _ _ j h8,
    r9, r10, r11, r12, r13, r14, r15, r16, r17, r18, r19, r20⟩

end Cert.Proof.FiniteParts

end
-- ==== Proof.Finite.lean ====
/-
  The precondition says every argument array of extended reals holds only real numbers. The printed predicate is 1 at
  its one index; its head tests the arrays 0, 3, 4 and 5 and hands the rest to its parts (FiniteParts), and each test
  that came out 1 makes its array real (FiniteElem.allReal). The two arrays of edge numbers are integers and are not
  tested.
-/
import proofs.«174735_j64811056496761_2_alg».proof.Defs
import proofs.«174735_j64811056496761_2_alg».proof.Proof.FiniteParts

noncomputable section

namespace Cert.Proof.Finite

open Idealize.ShloMosaic Idealize.SL.Sem Cert.LibRealValued Cert.Pre_finite_inputs Cert.Proof.FiniteElem Cert.Proof.FiniteParts

variable [hPre_finite_inputs : Cert.Pre_finite_inputs.Facts]
open Cert.Pre_finite_inputs.Facts

/-- The whole predicate: 1 at its index makes all nineteen arrays of extended reals real. -/
theorem fn_real (arg0 : FVec Ideal S100000x128 .f32) (arg1 arg2 : IVec S1600000 32) (arg3 arg4 : FVec Ideal S128x64 .f32)
    (arg5 arg6 arg7 : FVec Ideal S64 .f32) (arg8 arg9 : FVec Ideal S64x64 .f32) (arg10 arg11 arg12 : FVec Ideal S64 .f32)
    (arg13 arg14 : FVec Ideal S64x64 .f32) (arg15 arg16 arg17 : FVec Ideal S64 .f32)
    (arg18 arg19 : FVec Ideal S64x16 .f32) (arg20 : FVec Ideal S16 .f32) (j : S_.Idx)
    (e : fn (F := Ideal) arg0 arg1 arg2 arg3 arg4 arg5 arg6 arg7 arg8 arg9 arg10 arg11 arg12 arg13 arg14 arg15 arg16 arg17
          arg18 arg19 arg20 j = 1#1) :
    (∀ i, IsReal (arg0 i)) ∧ (∀ i, IsReal (arg3 i)) ∧ (∀ i, IsReal (arg4 i)) ∧ (∀ i, IsReal (arg5 i))
      ∧ (∀ i, IsReal (arg6 i)) ∧ (∀ i, IsReal (arg7 i)) ∧ (∀ i, IsReal (arg8 i))
      ∧ (∀ i, IsReal (arg9 i)) ∧ (∀ i, IsReal (arg10 i)) ∧ (∀ i, IsReal (arg11 i)) ∧ (∀ i, IsReal (arg12 i))
      ∧ (∀ i, IsReal (arg13 i)) ∧ (∀ i, IsReal (arg14 i)) ∧ (∀ i, IsReal (arg15 i))
      ∧ (∀ i, IsReal (arg16 i)) ∧ (∀ i, IsReal (arg17 i)) ∧ (∀ i, IsReal (arg18 i))
      ∧ (∀ i, IsReal (arg19 i)) ∧ (∀ i, IsReal (arg20 i)) := by
  unfold fn at e
  dsimp only at e
  obtain ⟨h13, h5, r6, r7, r8, r9, r10, r11, r12, r13, r14, r15, r16, r17, r18, r19, r20⟩ :=
    part1 _ _ _ _ _ _ _ _ _ _ _ _ _ _ _ _ _ j e
  simp only [andi_one] at h13
  obtain ⟨⟨h0, h3⟩, h4⟩ := h13
  exact ⟨allReal arg0 _ _ _ j h0, allReal arg3 _ _ _ j h3, allReal arg4 _ _ _ j h4, allReal arg5 _ _ _ j h5,
    r6, r7, r8, r9, r10, r11, r12, r13, r14, r15, r16, r17, r18, r19, r20⟩

/-- Under the kernel's precondition, on every device, each argument array of extended reals holds only real numbers
    (arguments 0 and 3 to 20, in order). -/
theorem real_of_pre (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, IsReal ((m ((c.tc : Thread Cert.KernelIdeal.nD Cert.KernelIdeal.τ).loc Cert.KernelIdeal.main_arg0)) i))
      ∧ (∀ i, IsReal ((m ((c.tc : Thread Cert.KernelIdeal.nD Cert.KernelIdeal.τ).loc Cert.KernelIdeal.main_arg3)) i))
      ∧ (∀ i, IsReal ((m ((c.tc : Thread Cert.KernelIdeal.nD Cert.KernelIdeal.τ).loc Cert.KernelIdeal.main_arg4)) i))
      ∧ (∀ i, IsReal ((m ((c.tc : Thread Cert.KernelIdeal.nD Cert.KernelIdeal.τ).loc Cert.KernelIdeal.main_arg5)) i))
      ∧ (∀ i, IsReal ((m ((c.tc : Thread Cert.KernelIdeal.nD Cert.KernelIdeal.τ).loc Cert.KernelIdeal.main_arg6)) i))
      ∧ (∀ i, IsReal ((m ((c.tc : Thread Cert.KernelIdeal.nD Cert.KernelIdeal.τ).loc Cert.KernelIdeal.main_arg7)) i))
      ∧ (∀ i, IsReal ((m ((c.tc : Thread Cert.KernelIdeal.nD Cert.KernelIdeal.τ).loc Cert.KernelIdeal.main_arg8)) i))
      ∧ (∀ i, IsReal ((m ((c.tc : Thread Cert.KernelIdeal.nD Cert.KernelIdeal.τ).loc Cert.KernelIdeal.main_arg9)) i))
      ∧ (∀ i, IsReal ((m ((c.tc : Thread Cert.KernelIdeal.nD Cert.KernelIdeal.τ).loc Cert.KernelIdeal.main_arg10)) i))
      ∧ (∀ i, IsReal ((m ((c.tc : Thread Cert.KernelIdeal.nD Cert.KernelIdeal.τ).loc Cert.KernelIdeal.main_arg11)) i))
      ∧ (∀ i, IsReal ((m ((c.tc : Thread Cert.KernelIdeal.nD Cert.KernelIdeal.τ).loc Cert.KernelIdeal.main_arg12)) i))
      ∧ (∀ i, IsReal ((m ((c.tc : Thread Cert.KernelIdeal.nD Cert.KernelIdeal.τ).loc Cert.KernelIdeal.main_arg13)) i))
      ∧ (∀ i, IsReal ((m ((c.tc : Thread Cert.KernelIdeal.nD Cert.KernelIdeal.τ).loc Cert.KernelIdeal.main_arg14)) i))
      ∧ (∀ i, IsReal ((m ((c.tc : Thread Cert.KernelIdeal.nD Cert.KernelIdeal.τ).loc Cert.KernelIdeal.main_arg15)) i))
      ∧ (∀ i, IsReal ((m ((c.tc : Thread Cert.KernelIdeal.nD Cert.KernelIdeal.τ).loc Cert.KernelIdeal.main_arg16)) i))
      ∧ (∀ i, IsReal ((m ((c.tc : Thread Cert.KernelIdeal.nD Cert.KernelIdeal.τ).loc Cert.KernelIdeal.main_arg17)) i))
      ∧ (∀ i, IsReal ((m ((c.tc : Thread Cert.KernelIdeal.nD Cert.KernelIdeal.τ).loc Cert.KernelIdeal.main_arg18)) i))
      ∧ (∀ i, IsReal ((m ((c.tc : Thread Cert.KernelIdeal.nD Cert.KernelIdeal.τ).loc Cert.KernelIdeal.main_arg19)) i))
      ∧ (∀ i, IsReal ((m ((c.tc : Thread Cert.KernelIdeal.nD Cert.KernelIdeal.τ).loc Cert.KernelIdeal.main_arg20)) i)) :=
  fn_real
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15))
      (m ((c.tc : Thread Cert.KernelIdeal.nD Cert.KernelIdeal.τ).loc Cert.KernelIdeal.main_arg16))
      (m ((c.tc : Thread Cert.KernelIdeal.nD Cert.KernelIdeal.τ).loc Cert.KernelIdeal.main_arg17))
      (m ((c.tc : Thread Cert.KernelIdeal.nD Cert.KernelIdeal.τ).loc Cert.KernelIdeal.main_arg18))
      (m ((c.tc : Thread Cert.KernelIdeal.nD Cert.KernelIdeal.τ).loc Cert.KernelIdeal.main_arg19))
      (m ((c.tc : Thread Cert.KernelIdeal.nD Cert.KernelIdeal.τ).loc Cert.KernelIdeal.main_arg20))
      (fun d => d.elim0) (congrFun (h c) (fun d => d.elim0))

end Cert.Proof.Finite

end
-- ==== Proof.lean ====
/-
  A four-layer mean-aggregating graph network with batch normalisation after the first three layers (100000 nodes,
  1600000 edges), computed by nine tiled kernels among host operations, against the same network written with whole-array
  operations.

  At the exact (extended-real) reading both programs compute ONE function of their arguments. The kernel program
  computes it in another arrangement: where a layer narrows the rows it applies the neighbour matrix before carrying rows
  along the edges; it multiplies the summed rows by the reciprocal of the guarded edge count instead of dividing by it;
  and it takes the column mean and variance from sums made tile by tile, the variance as mean of squares minus squared mean.
  For REAL arguments — which is what the precondition says — the two arrangements agree: the matrix product is additive
  in the row, the guarded count is a nonzero real, and the two variance formulas are one on the reals (`Cert.GNet.kNet_eq`).

  The kernel program's run with its result named is read off the generated frame's segments (`Trace.value_run`), its result
  array followed back through the eighteen segments to the arguments (`Trace.kernel_value`); the reference's run is the fold
  of its 220 host operations, read window by window (`RefValue.ref_eq`). The frames of the two kernel programs are the
  generated ones; the reference's frame is its run with the result dropped. No rewrite was applied by the idealisation, so
  there is nothing to preserve.
-/
import proofs.«174735_j64811056496761_2_alg».proof.Defs
import proofs.«174735_j64811056496761_2_alg».proof.Proof.Gen.Kernel
import proofs.«174735_j64811056496761_2_alg».proof.Proof.Gen.Kernel.Frame
import proofs.«174735_j64811056496761_2_alg».proof.Proof.Gen.KernelIdeal
import proofs.«174735_j64811056496761_2_alg».proof.Proof.Gen.KernelIdeal.Frame
import proofs.«174735_j64811056496761_2_alg».proof.Proof.Gen.ReferenceIdeal
import proofs.«174735_j64811056496761_2_alg».proof.Proof.Gen.Pre_finite_inputs
import proofs.«174735_j64811056496761_2_alg».proof.Proof.RefRun
import proofs.«174735_j64811056496761_2_alg».proof.Proof.RefValue
import proofs.«174735_j64811056496761_2_alg».proof.Proof.KRun
import proofs.«174735_j64811056496761_2_alg».proof.Proof.KValue
import proofs.«174735_j64811056496761_2_alg».proof.Proof.NetEq
import proofs.«174735_j64811056496761_2_alg».proof.Proof.Finite

noncomputable section

namespace Cert.Proof

open Idealize.ShloMosaic Idealize.SL.Sem

section Claims

variable [hKernel : Cert.Kernel.Facts] [hKernelIdeal : Cert.KernelIdeal.Facts] [hReferenceIdeal : Cert.ReferenceIdeal.Facts]
  [hPre : Cert.Pre_finite_inputs.Facts]

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.RunP.run (F := Ideal) m ρ)

/-- From memories that agree on the arguments, the kernel program's result array and the reference's are the same table:
    each is the network of the arguments, in its own arrangement, and the arguments are real. -/
theorem algebraic : Cert.algebraic_KernelIdeal_ReferenceIdeal := by
  intro m ρ m' ρ' hpre hagree
  refine ⟨fun c => Cert.KernelIdeal.Gen.W18 m ρ c (Proc.devRef .tc Cert.KernelIdeal.main_v150),
    Cert.KernelIdeal.Trace.value_run (F := Ideal) m ρ, ?_⟩
  refine (θ_run Cert.ReferenceIdeal.defs _ _).mono (fun _ h c => ⟨(h c).1.trans ?_, (h c).2⟩)
    (Cert.ReferenceIdeal.RunP.run (F := Ideal) m' ρ')
  obtain ⟨a0, a1, a2, a3, a4, a5, a6, a7, a8, a9, a10, a11, a12, a13, a14, a15, a16, a17, a18, a19, a20⟩ := hagree c
  obtain ⟨r0, r3, r4, r5, r6, r7, r8, r9, r10, r11, r12, r13, r14, r15, r16, r17, r18, r19, r20⟩ :=
    Cert.Proof.Finite.real_of_pre m hpre c
  beta_reduce
  rw [Cert.ReferenceIdeal.RefValue.ref_eq m' c, Cert.KernelIdeal.Trace.kernel_value m ρ c,
    a0, a1, a2, a3, a4, a5, a6, a7, a8, a9, a10, a11, a12, a13, a14, a15, a16, a17, a18, a19, a20]
  exact (Cert.GNet.kNet_eq _ _ _ _ _ _ _ _ _ _ _ _ _ _ _ _ _ _ _ _ _
    r0 r3 r4 r5 r6 r7 r8 r9 r10 r11 r12 r13 r14 r15 r16 r17 r19).symm

end Claims

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
